-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.named_const.Statement Cert.KernelIdeal.κ "neg_big" .f32 0xFF333332#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x1024 : Shape := ⟨3, ![8, 2048, 1024]⟩
abbrev S1024x256 : Shape := ⟨2, ![1024, 256]⟩
abbrev S_ : Shape := ⟨0, ![]⟩

class Facts : Prop where
  bcast_S_S8x2048x1024 : S_.BroadcastsInDim S8x2048x1024 (![] : Fin 0 → Fin S8x2048x1024.rank)
  reducesTo_S8x2048x1024_S_d0_1_2 : S8x2048x1024.ReducesTo [0, 1, 2] S_
  h_S_ : 0 < S_.numel
  bcast_S_S1024x256 : S_.BroadcastsInDim S1024x256 (![] : Fin 0 → Fin S1024x256.rank)
  reducesTo_S1024x256_S_d0_1 : S1024x256.ReducesTo [0, 1] S_

variable [Facts]

def fn_part1 {F : FTy → Type} [FloatOps F] (main_v13 : IVec S_ 1) (main_v16 : IVec S1024x256 1) : IVec S_ 1 :=
  let main_c_5 : IVec S_ 1 := constantI S_ 1 1#1
  let main_v17 : IVec S_ 1 := (fun x v => Host.reduce IntOp.andi x v reducesTo_S1024x256_S_d0_1 h_S_) main_v16 main_c_5
  let main_v18 : IVec S_ 1 := andi main_v13 main_v17
  main_v18

def fn {F : FTy → Type} [FloatOps F] (main_arg0 : FVec F S8x2048x1024 .f32) (main_arg1 : FVec F S1024x256 .f32) (main_arg2 : FVec F S1024x256 .f32) (main_arg3 : FVec F S1024x256 .f32) : IVec S_ 1 :=
  let main_v0 : FVec F S8x2048x1024 .f32 := Host.absf main_arg0
  let main_cst : FVec F S_ .f32 := constant S_ .f32 0x7F800000#32
  let main_v1 : FVec F S8x2048x1024 .f32 := broadcastInDim S8x2048x1024 ![] bcast_S_S8x2048x1024 main_cst
  let main_v2 : IVec S8x2048x1024 1 := cmpf .olt main_v0 main_v1
  let main_c : IVec S_ 1 := constantI S_ 1 1#1
  let main_v3 : IVec S_ 1 := (fun x v => Host.reduce IntOp.andi x v reducesTo_S8x2048x1024_S_d0_1_2 h_S_) main_v2 main_c
  let main_v4 : FVec F S1024x256 .f32 := Host.absf main_arg1
  let main_cst_0 : FVec F S_ .f32 := constant S_ .f32 0x7F800000#32
  let main_v5 : FVec F S1024x256 .f32 := broadcastInDim S1024x256 ![] bcast_S_S1024x256 main_cst_0
  let main_v6 : IVec S1024x256 1 := cmpf .olt main_v4 main_v5
  let main_c_1 : IVec S_ 1 := constantI S_ 1 1#1
  let main_v7 : IVec S_ 1 := (fun x v => Host.reduce IntOp.andi x v reducesTo_S1024x256_S_d0_1 h_S_) main_v6 main_c_1
  let main_v8 : IVec S_ 1 := andi main_v3 main_v7
  let main_v9 : FVec F S1024x256 .f32 := Host.absf main_arg2
  let main_cst_2 : FVec F S_ .f32 := constant S_ .f32 0x7F800000#32
  let main_v10 : FVec F S1024x256 .f32 := broadcastInDim S1024x256 ![] bcast_S_S1024x256 main_cst_2
  let main_v11 : IVec S1024x256 1 := cmpf .olt main_v9 main_v10
  let main_c_3 : IVec S_ 1 := constantI S_ 1 1#1
  let main_v12 : IVec S_ 1 := (fun x v => Host.reduce IntOp.andi x v reducesTo_S1024x256_S_d0_1 h_S_) main_v11 main_c_3
  let main_v13 : IVec S_ 1 := andi main_v8 main_v12
  let main_v14 : FVec F S1024x256 .f32 := Host.absf main_arg3
  let main_cst_4 : FVec F S_ .f32 := constant S_ .f32 0x7F800000#32
  let main_v15 : FVec F S1024x256 .f32 := broadcastInDim S1024x256 ![] bcast_S_S1024x256 main_cst_4
  let main_v16 : IVec S1024x256 1 := cmpf .olt main_v14 main_v15
  fn_part1 (F := F) main_v13 main_v16
-- ==== Kernel.lean ====
abbrev S8x2048x1024 : Shape := ⟨3, ![8, 2048, 1024]⟩
abbrev S1024x256 : Shape := ⟨2, ![1024, 256]⟩
abbrev S8x2048x256 : Shape := ⟨3, ![8, 2048, 256]⟩
abbrev S1x2048x1024 : Shape := ⟨3, ![1, 2048, 1024]⟩
abbrev S1x512x256 : Shape := ⟨3, ![1, 512, 256]⟩
abbrev S2048x256 : Shape := ⟨2, ![2048, 256]⟩
abbrev S512x256 : Shape := ⟨2, ![512, 256]⟩
abbrev S512x1 : Shape := ⟨2, ![512, 1]⟩
abbrev S1x512x1024 : Shape := ⟨3, ![1, 512, 1024]⟩
abbrev S512x1024 : Shape := ⟨2, ![512, 1024]⟩
abbrev S256x512 : Shape := ⟨2, ![256, 512]⟩
abbrev S512x512 : Shape := ⟨2, ![512, 512]⟩
abbrev S512 : Shape := ⟨1, ![512]⟩

abbrev nBuf : Space → Nat
  | .hbm => 5
  | .vmem => 13
  | .smem => 0
  | _ => 0

abbrev bufTy : (tb : Table) → Fin (tcTables nBuf tb) → BufTy
  | .hbm, ⟨0, _⟩ => ⟨S8x2048x1024, .f32⟩
  | .hbm, ⟨1, _⟩ => ⟨S1024x256, .f32⟩
  | .hbm, ⟨2, _⟩ => ⟨S1024x256, .f32⟩
  | .hbm, ⟨3, _⟩ => ⟨S1024x256, .f32⟩
  | .hbm, ⟨4, _⟩ => ⟨S8x2048x256, .f32⟩
  | .local _ .vmem, ⟨0, _⟩ => ⟨S1x2048x1024, .f32⟩
  | .local _ .vmem, ⟨1, _⟩ => ⟨S1x2048x1024, .f32⟩
  | .local _ .vmem, ⟨2, _⟩ => ⟨S1024x256, .f32⟩
  | .local _ .vmem, ⟨3, _⟩ => ⟨S1024x256, .f32⟩
  | .local _ .vmem, ⟨4, _⟩ => ⟨S1024x256, .f32⟩
  | .local _ .vmem, ⟨5, _⟩ => ⟨S1x512x256, .f32⟩
  | .local _ .vmem, ⟨6, _⟩ => ⟨S1x512x256, .f32⟩
  | .local _ .vmem, ⟨7, _⟩ => ⟨S2048x256, .bf16⟩
  | .local _ .vmem, ⟨8, _⟩ => ⟨S2048x256, .bf16⟩
  | .local _ .vmem, ⟨9, _⟩ => ⟨S512x256, .bf16⟩
  | .local _ .vmem, ⟨10, _⟩ => ⟨S512x1, .f32⟩
  | .local _ .vmem, ⟨11, _⟩ => ⟨S512x1, .f32⟩
  | .local _ .vmem, ⟨12, _⟩ => ⟨S512x256, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_scratch3 : Ref sig .tc := ⟨.vmem, 10, rfl⟩
abbrev cc0_scratch4 : Ref sig .tc := ⟨.vmem, 11, rfl⟩
abbrev cc0_scratch5 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨3, ![8, 4, 4], ![false, false, false]⟩

def k0_mult1 (i : grid0.Coords) : BitVec 32 :=
  let arg2 : BitVec 32 := BitVec.ofNat 32 (i 2).val
  let c512_i32 : BitVec 32 := 512#32
  let v6 : BitVec 32 := Scalar.muli arg2 c512_i32
  v6
def k0_mult2 (i : grid0.Coords) : BitVec 32 :=
  let arg1 : BitVec 32 := BitVec.ofNat 32 (i 1).val
  let c512_i32_5 : BitVec 32 := 512#32
  let v8 : BitVec 32 := Scalar.muli arg1 c512_i32_5
  v8
def k0_cond1 (i : grid0.Coords) : BitVec 1 :=
  let arg1 : BitVec 32 := BitVec.ofNat 32 (i 1).val
  let c0_i32 : BitVec 32 := 0#32
  let v10 : BitVec 1 := Scalar.cmpi .eq arg1 c0_i32
  let v11 : BitVec 32 := Scalar.extui v10
  let c0_i32_6 : BitVec 32 := 0#32
  let v12 : BitVec 1 := Scalar.cmpi .ne v11 c0_i32_6
  v12

def k0_off1 (i : grid0.Coords) : Fin 3 → Nat :=
  let c0_11 : Index := 0#32
  let arg2 : BitVec 32 := BitVec.ofNat 32 (i 2).val
  let c512_i32 : BitVec 32 := 512#32
  let v6 : BitVec 32 := Scalar.muli arg2 c512_i32
  let v7 : BitVec 32 := v6
  let v22 : Index := Scalar.indexCast v7
  let c0_12 : Index := 0#32
  ![0, v22.toNat, 0]
def k0_off2 (i : grid0.Coords) : Fin 2 → Nat :=
  let arg2 : BitVec 32 := BitVec.ofNat 32 (i 2).val
  let c512_i32 : BitVec 32 := 512#32
  let v6 : BitVec 32 := Scalar.muli arg2 c512_i32
  let v7 : BitVec 32 := v6
  let v28 : Index := Scalar.indexCast v7
  let c0_13 : Index := 0#32
  ![v28.toNat, 0]
def k0_cond2 (i : grid0.Coords) : BitVec 1 :=
  let arg2 : BitVec 32 := BitVec.ofNat 32 (i 2).val
  let c0_i32_7 : BitVec 32 := 0#32
  let v13 : BitVec 1 := Scalar.cmpi .eq arg2 c0_i32_7
  let v14 : BitVec 32 := Scalar.extui v13
  let c0_i32_8 : BitVec 32 := 0#32
  let v15 : BitVec 1 := Scalar.cmpi .ne v14 c0_i32_8
  v15

def k0_off3 (i : grid0.Coords) : Fin 3 → Nat :=
  let c0_11 : Index := 0#32
  let arg1 : BitVec 32 := BitVec.ofNat 32 (i 1).val
  let c512_i32_5 : BitVec 32 := 512#32
  let v8 : BitVec 32 := Scalar.muli arg1 c512_i32_5
  let v9 : BitVec 32 := v8
  let v22 : Index := Scalar.indexCast v9
  let c0_12 : Index := 0#32
  ![0, v22.toNat, 0]
def k0_cond3 (i : grid0.Coords) : BitVec 1 :=
  let arg2 : BitVec 32 := BitVec.ofNat 32 (i 2).val
  let arg1 : BitVec 32 := BitVec.ofNat 32 (i 1).val
  let v16 : BitVec 1 := Scalar.cmpi .sle arg2 arg1
  let v17 : BitVec 32 := Scalar.extui v16
  let c0_i32_9 : BitVec 32 := 0#32
  let v18 : BitVec 1 := Scalar.cmpi .ne v17 c0_i32_9
  v18

def k0_off4 (i : grid0.Coords) : Fin 2 → Nat :=
  let arg2 : BitVec 32 := BitVec.ofNat 32 (i 2).val
  let c512_i32 : BitVec 32 := 512#32
  let v6 : BitVec 32 := Scalar.muli arg2 c512_i32
  let v7 : BitVec 32 := v6
  let v23 : Index := Scalar.indexCast v7
  let c0_13 : Index := 0#32
  ![v23.toNat, 0]
def k0_cond4 (i : grid0.Coords) : BitVec 1 :=
  let arg2 : BitVec 32 := BitVec.ofNat 32 (i 2).val
  let c3_i32 : BitVec 32 := 3#32
  let v19 : BitVec 1 := Scalar.cmpi .eq arg2 c3_i32
  let v20 : BitVec 32 := Scalar.extui v19
  let c0_i32_10 : BitVec 32 := 0#32
  let v21 : BitVec 1 := Scalar.cmpi .ne v20 c0_i32_10
  v21

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S1024x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 1 → Memref sig .tc .vmem S1024x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 1 → Memref sig .tc .vmem S1024x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1x512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

class Facts₀ : Prop where
  inb_S1024x256_S1024x256_0_0 : ∀ a, (![0, 0] : Fin 2 → Nat) a + S1024x256.size a ≤ S1024x256.size a
  h_S1024x256 : 0 < S1024x256.numel
  bitsLt_bf16_f32 : FTy.bits .bf16 < FTy.bits .f32
  h_S1x512x1024 : 0 < S1x512x1024.numel
  shapeCasts_S1x512x1024_S512x1024 : S1x512x1024.ShapeCasts S512x1024
  h_S512x256 : 0 < S512x256.numel
  shapeCasts_S512x256_S512x256 : S512x256.ShapeCasts S512x256
  inb_S512x256_S512x256_0_0 : ∀ a, (![0, 0] : Fin 2 → Nat) a + S512x256.size a ≤ S512x256.size a
  packedbf16_S512x256_S512x256_0_0 : (Rect.unit (s := S512x256) ![0, 0] S512x256.size inb_S512x256_S512x256_0_0).PackedRows (EltTy.packing .bf16)
  inb_S512x1_S512x1_0_0 : ∀ a, (![0, 0] : Fin 2 → Nat) a + S512x1.size a ≤ S512x1.size a
  h_S512x1 : 0 < S512x1.numel
  shapeCasts_S512x1_S512x1 : S512x1.ShapeCasts S512x1
  transposes_S512x256_p1_0_S256x512 : S512x256.Transposes [1, 0] S256x512
  iota_S512x512_d0_w32 : S512x512.Iotas .tc 32 [0]
  iota_S512x512_d1_w32 : S512x512.Iotas .tc 32 [1]
  reduces_S512x512_S512 : S512x512.Reduces [1] S512
  shapeCasts_S512_S512x1 : S512.ShapeCasts S512x1
  broadcasts_S512x1_S512x512 : S512x1.Broadcasts S512x512
  broadcasts_S512x1_S512x256 : S512x1.Broadcasts S512x256
  inb_S1x512x256_S1x512x256_0_0_0 : ∀ a, (![0, 0, 0] : Fin 3 → Nat) a + S1x512x256.size a ≤ S1x512x256.size a
  h_S1x512x256 : 0 < S1x512x256.numel
  shapeCasts_S1x512x256_S512x256 : S1x512x256.ShapeCasts S512x256
  shapeCasts_S512x256_S1x512x256 : S512x256.ShapeCasts S1x512x256
  dot_S512x1024_S1024x256_S512x256_1_0_0_1_n_n_wf : DotDims.WF S512x1024 S1024x256 S512x256 [1] [0] [0] [1] [] []
  dot_S512x256_S256x512_S512x512_1_0_0_1_n_n_wf : DotDims.WF S512x256 S256x512 S512x512 [1] [0] [0] [1] [] []
  dot_S512x512_S512x256_S512x256_1_0_0_1_n_n_wf : DotDims.WF S512x512 S512x256 S512x256 [1] [0] [0] [1] [] []
  hrank0 : 0 < grid0.rank
  k0_mult1_dvd : ∀ i : grid0.Coords, 512 ∣ (k0_mult1 i).toNat
  k0_mult2_dvd : ∀ i : grid0.Coords, 512 ∣ (k0_mult2 i).toNat
  k0_off1_inb : ∀ i : grid0.Coords, ∀ (k0_h1 : k0_cond1 i = 1#1), ∀ a, (k0_off1 i) a + S1x512x1024.size a ≤ S1x2048x1024.size a
  k0_off2_inb : ∀ i : grid0.Coords, ∀ (k0_h1 : k0_cond1 i = 1#1), ∀ a, (k0_off2 i) a + S512x256.size a ≤ S2048x256.size a
  k0_off2_packedbf16 : ∀ i : grid0.Coords, ∀ (k0_h1 : k0_cond1 i = 1#1), (Rect.unit (s := S2048x256) (k0_off2 i) S512x256.size (k0_off2_inb i k0_h1)).PackedRows (EltTy.packing .bf16)
  k0_off3_inb : ∀ i : grid0.Coords, ∀ (k0_h2 : k0_cond2 i = 1#1), ∀ a, (k0_off3 i) a + S1x512x1024.size a ≤ S1x2048x1024.size a
  k0_off4_inb : ∀ i : grid0.Coords, ∀ (k0_h3 : k0_cond3 i = 1#1), ∀ a, (k0_off4 i) a + S512x256.size a ≤ S2048x256.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x1024.size a ≤ S8x2048x1024.size a
  hwx0_0 : ∀ i : grid0.Coords, EltTy.bits .f32 = 32 ∨ (Rect.block (s := S8x2048x1024) S1x2048x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S1024x256.size a
  hwx0_1 : ∀ i : grid0.Coords, EltTy.bits .f32 = 32 ∨ (Rect.block (s := S1024x256) S1024x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x256.size a ≤ S1024x256.size a
  hwx0_2 : ∀ i : grid0.Coords, EltTy.bits .f32 = 32 ∨ (Rect.block (s := S1024x256) S1024x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x256.size a ≤ S1024x256.size a
  hwx0_3 : ∀ i : grid0.Coords, EltTy.bits .f32 = 32 ∨ (Rect.block (s := S1024x256) S1024x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x256.size a ≤ S8x2048x256.size a
  hwx0_4 : ∀ i : grid0.Coords, EltTy.bits .f32 = 32 ∨ (Rect.block (s := S8x2048x256) S1x512x256.size (cc0_transform_4 i) (hinb0_4 i)).WholeWords (EltTy.packing .f32)

variable [Facts₀]

def dot_S512x1024_S1024x256_S512x256_1_0_0_1_n_n : DotDims S512x1024 S1024x256 S512x256 where
  lhsContracting := [1]
  rhsContracting := [0]
  lhsNonContracting := [0]
  rhsNonContracting := [1]
  lhsBatch := []
  rhsBatch := []
  wf := dot_S512x1024_S1024x256_S512x256_1_0_0_1_n_n_wf
def dot_S512x256_S256x512_S512x512_1_0_0_1_n_n : DotDims S512x256 S256x512 S512x512 where
  lhsContracting := [1]
  rhsContracting := [0]
  lhsNonContracting := [0]
  rhsNonContracting := [1]
  lhsBatch := []
  rhsBatch := []
  wf := dot_S512x256_S256x512_S512x512_1_0_0_1_n_n_wf
def dot_S512x512_S512x256_S512x256_1_0_0_1_n_n : DotDims S512x512 S512x256 S512x256 where
  lhsContracting := [1]
  rhsContracting := [0]
  lhsNonContracting := [0]
  rhsNonContracting := [1]
  lhsBatch := []
  rhsBatch := []
  wf := dot_S512x512_S512x256_S512x256_1_0_0_1_n_n_wf

abbrev win0_0 : Pipeline.Window sig grid0 :=
  Pipeline.Window.ofSpec (Memref.whole main_arg0) S1x2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1024x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x512x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond4 i == 1#1) | ⟨_ + 5, h⟩ => absurd h (Nat.not_lt.2 (Nat.le_add_left _ _))

class Facts : Prop extends Facts₀ where

variable [Facts]
-- ==== ReferenceIdeal.lean ====
abbrev S8x2048x1024 : Shape := ⟨3, ![8, 2048, 1024]⟩
abbrev S1024x256 : Shape := ⟨2, ![1024, 256]⟩
abbrev S8x2048x256 : Shape := ⟨3, ![8, 2048, 256]⟩
abbrev S8x2048x2048 : Shape := ⟨3, ![8, 2048, 2048]⟩
abbrev S_ : Shape := ⟨0, ![]⟩
abbrev S2048x2048 : Shape := ⟨2, ![2048, 2048]⟩
abbrev S8x2048 : Shape := ⟨2, ![8, 2048]⟩
abbrev S8x2048x1 : Shape := ⟨3, ![8, 2048, 1]⟩

abbrev nBuf : Space → Nat
  | .hbm => 42
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1024x256, .f32⟩
  | .hbm, ⟨2, _⟩ => ⟨S1024x256, .f32⟩
  | .hbm, ⟨3, _⟩ => ⟨S1024x256, .f32⟩
  | .hbm, ⟨4, _⟩ => ⟨S8x2048x256, .f32⟩
  | .hbm, ⟨5, _⟩ => ⟨S8x2048x256, .f32⟩
  | .hbm, ⟨6, _⟩ => ⟨S8x2048x256, .f32⟩
  | .hbm, ⟨7, _⟩ => ⟨S8x2048x2048, .f32⟩
  | .hbm, ⟨8, _⟩ => ⟨S_, .f32⟩
  | .hbm, ⟨9, _⟩ => ⟨S8x2048x2048, .f32⟩
  | .hbm, ⟨10, _⟩ => ⟨S8x2048x2048, .f32⟩
  | .hbm, ⟨11, _⟩ => ⟨S_, .i1⟩
  | .hbm, ⟨12, _⟩ => ⟨S2048x2048, .i1⟩
  | .hbm, ⟨13, _⟩ => ⟨S2048x2048, .i32⟩
  | .hbm, ⟨14, _⟩ => ⟨S_, .i32⟩
  | .hbm, ⟨15, _⟩ => ⟨S2048x2048, .i32⟩
  | .hbm, ⟨16, _⟩ => ⟨S2048x2048, .i32⟩
  | .hbm, ⟨17, _⟩ => ⟨S2048x2048, .i32⟩
  | .hbm, ⟨18, _⟩ => ⟨S2048x2048, .i1⟩
  | .hbm, ⟨19, _⟩ => ⟨S_, .i1⟩
  | .hbm, ⟨20, _⟩ => ⟨S2048x2048, .i1⟩
  | .hbm, ⟨21, _⟩ => ⟨S2048x2048, .i1⟩
  | .hbm, ⟨22, _⟩ => ⟨S_, .f32⟩
  | .hbm, ⟨23, _⟩ => ⟨S_, .f32⟩
  | .hbm, ⟨24, _⟩ => ⟨S8x2048x2048, .i1⟩
  | .hbm, ⟨25, _⟩ => ⟨S8x2048x2048, .f32⟩
  | .hbm, ⟨26, _⟩ => ⟨S8x2048x2048, .f32⟩
  | .hbm, ⟨27, _⟩ => ⟨S_, .f32⟩
  | .hbm, ⟨28, _⟩ => ⟨S8x2048, .f32⟩
  | .hbm, ⟨29, _⟩ => ⟨S_, .f32⟩
  | .hbm, ⟨30, _⟩ => ⟨S8x2048, .f32⟩
  | .hbm, ⟨31, _⟩ => ⟨S8x2048, .f32⟩
  | .hbm, ⟨32, _⟩ => ⟨S8x2048x1, .f32⟩
  | .hbm, ⟨33, _⟩ => ⟨S8x2048x2048, .f32⟩
  | .hbm, ⟨34, _⟩ => ⟨S8x2048x2048, .f32⟩
  | .hbm, ⟨35, _⟩ => ⟨S8x2048x2048, .f32⟩
  | .hbm, ⟨36, _⟩ => ⟨S_, .f32⟩
  | .hbm, ⟨37, _⟩ => ⟨S8x2048, .f32⟩
  | .hbm, ⟨38, _⟩ => ⟨S8x2048x1, .f32⟩
  | .hbm, ⟨39, _⟩ => ⟨S8x2048x2048, .f32⟩
  | .hbm, ⟨40, _⟩ => ⟨S8x2048x2048, .f32⟩
  | .hbm, ⟨41, _⟩ => ⟨S8x2048x256, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_v6 : Ref sig .tc := ⟨.hbm, 12, rfl⟩
abbrev main_call0_v0 : Ref sig .tc := ⟨.hbm, 13, rfl⟩
abbrev main_call0_c : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_c_0 : Ref sig .tc := ⟨.hbm, 19, rfl⟩
abbrev main_call0_v5 : Ref sig .tc := ⟨.hbm, 20, rfl⟩
abbrev main_v7 : Ref sig .tc := ⟨.hbm, 21, rfl⟩
abbrev main_cst_0 : Ref sig .tc := ⟨.hbm, 22, rfl⟩
abbrev main_call1_v0 : Ref sig .tc := ⟨.hbm, 23, rfl⟩
abbrev main_call1_v1 : Ref sig .tc := ⟨.hbm, 24, rfl⟩
abbrev main_call1_v2 : Ref sig .tc := ⟨.hbm, 25, rfl⟩
abbrev main_v8 : Ref sig .tc := ⟨.hbm, 26, rfl⟩
abbrev main_cst_1 : Ref sig .tc := ⟨.hbm, 27, rfl⟩
abbrev main_v9 : Ref sig .tc := ⟨.hbm, 28, rfl⟩
abbrev main_cst_2 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_cst_3 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩

abbrev nD : Nat := 1
abbrev τ : Topo := Topo.v7x

variable {F : FTy → Type} [FloatOps F]

class Facts₀ : Prop where
  bcast_S_S8x2048x2048 : S_.BroadcastsInDim S8x2048x2048 (![] : Fin 0 → Fin S8x2048x2048.rank)
  bcast_S_S2048x2048 : S_.BroadcastsInDim S2048x2048 (![] : Fin 0 → Fin S2048x2048.rank)
  bcast_S2048x2048_S8x2048x2048_1_2 : S2048x2048.BroadcastsInDim S8x2048x2048 (![1, 2] : Fin 2 → Fin S8x2048x2048.rank)
  reducesTo_S8x2048x2048_S8x2048_d2 : S8x2048x2048.ReducesTo [2] S8x2048
  h_S_ : 0 < S_.numel
  bcast_S_S8x2048 : S_.BroadcastsInDim S8x2048 (![] : Fin 0 → Fin S8x2048.rank)
  bcast_S8x2048_S8x2048x1_0_1 : S8x2048.BroadcastsInDim S8x2048x1 (![0, 1] : Fin 2 → Fin S8x2048x1.rank)
  bcast_S8x2048x1_S8x2048x2048_0_1_2 : S8x2048x1.BroadcastsInDim S8x2048x2048 (![0, 1, 2] : Fin 3 → Fin S8x2048x2048.rank)
  dot_S8x2048x1024_S1024x256_S8x2048x256_2_0_01_1_n_n_wf : DotDims.WF S8x2048x1024 S1024x256 S8x2048x256 [2] [0] [0, 1] [1] [] []
  dot_S8x2048x256_S8x2048x256_S8x2048x2048_2_2_1_1_0_0_wf : DotDims.WF S8x2048x256 S8x2048x256 S8x2048x2048 [2] [2] [1] [1] [0] [0]
  dot_S8x2048x2048_S8x2048x256_S8x2048x256_2_1_1_2_0_0_wf : DotDims.WF S8x2048x2048 S8x2048x256 S8x2048x256 [2] [1] [1] [2] [0] [0]

variable [Facts₀]

def dot_S8x2048x1024_S1024x256_S8x2048x256_2_0_01_1_n_n : DotDims S8x2048x1024 S1024x256 S8x2048x256 where
  lhsContracting := [2]
  rhsContracting := [0]
  lhsNonContracting := [0, 1]
  rhsNonContracting := [1]
  lhsBatch := []
  rhsBatch := []
  wf := dot_S8x2048x1024_S1024x256_S8x2048x256_2_0_01_1_n_n_wf
def dot_S8x2048x256_S8x2048x256_S8x2048x2048_2_2_1_1_0_0 : DotDims S8x2048x256 S8x2048x256 S8x2048x2048 where
  lhsContracting := [2]
  rhsContracting := [2]
  lhsNonContracting := [1]
  rhsNonContracting := [1]
  lhsBatch := [0]
  rhsBatch := [0]
  wf := dot_S8x2048x256_S8x2048x256_S8x2048x2048_2_2_1_1_0_0_wf
def dot_S8x2048x2048_S8x2048x256_S8x2048x256_2_1_1_2_0_0 : DotDims S8x2048x2048 S8x2048x256 S8x2048x256 where
  lhsContracting := [2]
  rhsContracting := [1]
  lhsNonContracting := [1]
  rhsNonContracting := [2]
  lhsBatch := [0]
  rhsBatch := [0]
  wf := dot_S8x2048x2048_S8x2048x256_S8x2048x256_2_1_1_2_0_0_wf

class Facts : Prop extends Facts₀ where

variable [Facts]
-- ==== Proof.K.Common.lean ====
/- What the per-point proofs of the attention kernel share: how its four branch conditions relate over the grid, where the output block is idle or written back, the staging and scratch memrefs the body is called with, and the launch invariant spelled buffer by buffer. -/
import proofs.«166778_j29291676958807_2_alg».proof.Proof.Gen.Kernel.Frame
import proofs.«166778_j29291676958807_2_alg».proof.Proof.Gen.Kernel.Points
import proofs.«166778_j29291676958807_2_alg».proof.Proof.Gen.Kernel.Launch

set_option maxRecDepth 16384

noncomputable section

namespace Cert.Kernel.Attn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The four branch conditions over the grid (batch, query tile, key tile) -/

/-- The key tile is the first only if it is not in the query tile's future. -/
theorem c2_c3 : ∀ t : Fin cfg0.N, k0_cond2 (grid0.coords t) = 1#1 → k0_cond3 (grid0.coords t) = 1#1 :=
  (by decide +kernel : ∀ t : Fin grid0.N, k0_cond2 (grid0.coords t) = 1#1 → k0_cond3 (grid0.coords t) = 1#1)
/-- The first key tile is not the last. -/
theorem c2_not_c4 : ∀ t : Fin cfg0.N, k0_cond2 (grid0.coords t) = 1#1 → ¬k0_cond4 (grid0.coords t) = 1#1 :=
  (by decide +kernel : ∀ t : Fin grid0.N, k0_cond2 (grid0.coords t) = 1#1 → ¬k0_cond4 (grid0.coords t) = 1#1)
/-- In the first query tile only the first key tile is not in the future. -/
theorem c1_c3_c2 : ∀ t : Fin cfg0.N, k0_cond1 (grid0.coords t) = 1#1 → k0_cond3 (grid0.coords t) = 1#1 → k0_cond2 (grid0.coords t) = 1#1 :=
  (by decide +kernel : ∀ t : Fin grid0.N, k0_cond1 (grid0.coords t) = 1#1 → k0_cond3 (grid0.coords t) = 1#1 → k0_cond2 (grid0.coords t) = 1#1)
/-- The last key tile is the points ≡ 3 (mod 4). -/
theorem c4_iff : ∀ t : Fin cfg0.N, k0_cond4 (grid0.coords t) = 1#1 ↔ t.val % 4 = 3 :=
  (by decide +kernel : ∀ t : Fin grid0.N, k0_cond4 (grid0.coords t) = 1#1 ↔ t.val % 4 = 3)

/-! ## Where the windows are idle and where the output block is written back -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
/-- Away from the last key tile the output block is idle: nothing is stored into it, -/
theorem idle4 : ∀ t : Fin cfg0.N, ¬k0_cond4 (grid0.coords t) = 1#1 → cfg0.idle 4 (grid0.coords t) = true :=
  (by decide +kernel : ∀ t : Fin grid0.N, ¬k0_cond4 (grid0.coords t) = 1#1 → cfg0.idle 4 (grid0.coords t) = true)
/-- and it is not written back. -/
theorem noFlush4 : ∀ t : Fin cfg0.N, ¬k0_cond4 (grid0.coords t) = 1#1 → (cfg0.win 4).flush t = false :=
  (by decide +kernel : ∀ t : Fin grid0.N, ¬k0_cond4 (grid0.coords t) = 1#1 → win0_4.flush t = false)
/-- At the last key tile it is live. -/
theorem live4 : ∀ t : Fin cfg0.N, k0_cond4 (grid0.coords t) = 1#1 → cfg0.idle 4 (grid0.coords t) = false :=
  (by decide +kernel : ∀ t : Fin grid0.N, k0_cond4 (grid0.coords t) = 1#1 → cfg0.idle 4 (grid0.coords t) = false)

/-! ## The memrefs the body is called with -/

abbrev ms0 (t : Fin cfg0.N) : Memref sig .tc .vmem S1x2048x1024 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x256 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024x256 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1024x256 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x512x256 .f32 := win0_4.stage (cfg0.slots t 4)
abbrev hs4 (t : Fin cfg0.N) : (ms4 t).IsWhole := hstage0_4 ((cfg0.slots t 4).cast nbuf0_4)
/-- The scratch buffers: the K and V caches of the whole sequence, the current Q tile, the running row maximum,
    the running denominator, the running numerator. -/
abbrev sc0 : Memref sig .tc .vmem S2048x256 .bf16 := Memref.whole cc0_scratch0
abbrev sc1 : Memref sig .tc .vmem S2048x256 .bf16 := Memref.whole cc0_scratch1
abbrev sc2 : Memref sig .tc .vmem S512x256 .bf16 := Memref.whole cc0_scratch2
abbrev sc3 : Memref sig .tc .vmem S512x1 .f32 := Memref.whole cc0_scratch3
abbrev sc4 : Memref sig .tc .vmem S512x1 .f32 := Memref.whole cc0_scratch4
abbrev sc5 : Memref sig .tc .vmem S512x256 .f32 := Memref.whole cc0_scratch5

/-- What the launch hands the region: each scratch buffer owned at some contents, and the generator register. -/
theorem PhiA_eq (c : Dev nD) :
    (Pipeline.ΦA spec0 c : sProp 𝕄)
      = iprop(iprop((∃ d, owns (c : Thread nD τ) sc0 fullShare d) ∗ (∃ d, owns (c : Thread nD τ) sc1 fullShare d)
          ∗ (∃ d, owns (c : Thread nD τ) sc2 fullShare d) ∗ (∃ d, owns (c : Thread nD τ) sc3 fullShare d)
          ∗ (∃ d, owns (c : Thread nD τ) sc4 fullShare d) ∗ (∃ d, owns (c : Thread nD τ) sc5 fullShare d)) ∗ (∃ r, prngReg c r)) := by
  unfold Pipeline.ΦA; rw [scopedRest0_eq]; simp only [sc0, sc1, sc2, sc3, sc4, sc5, owns_whole]; try rfl

end Cert.Kernel.Attn

end
-- ==== Proof.K.RunA.lean ====
/- One grid point of the attention kernel, in one of the eight combinations of its four branches that the grid meets (K/V projection of a key tile when the query tile is the first; Q projection and reset of the running maximum, denominator and numerator at the first key tile; the online-softmax update when the key tile is not in the future; the final quotient at the last key tile): what the body leaves in the output block and in each scratch buffer, as the stores written over the previous contents. -/
import proofs.«166778_j29291676958807_2_alg».proof.Proof.Gen.Kernel.Frame
import proofs.«166778_j29291676958807_2_alg».proof.Proof.Gen.Kernel.Skeleton

set_option maxRecDepth 16384

noncomputable section

namespace Cert.Kernel.Attn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large)
set_option maxHeartbeats 4000000 in
/-- The body's run when the four branch conditions are 1, 2, 3, not 4 taken: on whole memrefs, the four input blocks at their
    contents, the output block and the six scratch buffers at given contents, the body runs to the continuation holding the inputs as they
    were and each of the other seven buffers at its previous contents with the stores of this case written over them (the piece lists are
    what the run finds; a buffer this case does not store into gets the empty list). -/
noncomputable def kernelRun_A (c : Dev nD) (i : grid0.Coords) (arg3 : Memref sig .tc .vmem S1x2048x1024 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1x512x256 .f32) (harg7 : arg7.IsWhole) (arg8 : Memref sig .tc .vmem S2048x256 .bf16) (harg8 : arg8.IsWhole) (arg9 : Memref sig .tc .vmem S2048x256 .bf16) (harg9 : arg9.IsWhole) (arg10 : Memref sig .tc .vmem S512x256 .bf16) (harg10 : arg10.IsWhole) (arg11 : Memref sig .tc .vmem S512x1 .f32) (harg11 : arg11.IsWhole) (arg12 : Memref sig .tc .vmem S512x1 .f32) (harg12 : arg12.IsWhole) (arg13 : Memref sig .tc .vmem S512x256 .f32) (harg13 : arg13.IsWhole) (hc1 : k0_cond1 i = 1#1) (hc2 : k0_cond2 i = 1#1) (hc3 : k0_cond3 i = 1#1) (hc4 : ¬k0_cond4 i = 1#1)
    (x0 : Vec F S1x2048x1024 .f32) (x1 x2 x3 : Vec F S1024x256 .f32) (xs0 xs1 : Vec F S2048x256 .bf16) (xs2 : Vec F S512x256 .bf16) (xs3 xs4 : Vec F S512x1 .f32) (xs5 : Vec F S512x256 .f32) :
    Σ' (L4 : List (View.Piece (Elt F) S1x512x256 .f32)) (LS0 : List (View.Piece (Elt F) S2048x256 .bf16)) (LS1 : List (View.Piece (Elt F) S2048x256 .bf16)) (LS2 : List (View.Piece (Elt F) S512x256 .bf16)) (LS3 : List (View.Piece (Elt F) S512x1 .f32)) (LS4 : List (View.Piece (Elt F) S512x1 .f32)), { LS5 : List (View.Piece (Elt F) S512x256 .f32) //
      ∀ (xi4 : Vec F S1x512x256 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4
            ∗ owns (c : Thread nD τ) arg8 fullShare xs0 ∗ owns (c : Thread nD τ) arg9 fullShare xs1 ∗ owns (c : Thread nD τ) arg10 fullShare xs2
            ∗ owns (c : Thread nD τ) arg11 fullShare xs3 ∗ owns (c : Thread nD τ) arg12 fullShare xs4 ∗ owns (c : Thread nD τ) arg13 fullShare xs5
            ∗ (iprop(owns (c : Thread nD τ) arg3 fullShare x0 ∗ owns (c : Thread nD τ) arg4 fullShare x1 ∗ owns (c : Thread nD τ) arg5 fullShare x2 ∗ owns (c : Thread nD τ) arg6 fullShare x3
              ∗ (arg7.view.loc (c : Thread nD τ) ↦[arg7.view.set]{fullShare} arg7.view.writes (Elt F) (harg7.unread xi4) L4)
              ∗ (arg8.view.loc (c : Thread nD τ) ↦[arg8.view.set]{fullShare} arg8.view.writes (Elt F) (harg8.unread xs0) LS0)
              ∗ (arg9.view.loc (c : Thread nD τ) ↦[arg9.view.set]{fullShare} arg9.view.writes (Elt F) (harg9.unread xs1) LS1)
              ∗ (arg10.view.loc (c : Thread nD τ) ↦[arg10.view.set]{fullShare} arg10.view.writes (Elt F) (harg10.unread xs2) LS2)
              ∗ (arg11.view.loc (c : Thread nD τ) ↦[arg11.view.set]{fullShare} arg11.view.writes (Elt F) (harg11.unread xs3) LS3)
              ∗ (arg12.view.loc (c : Thread nD τ) ↦[arg12.view.set]{fullShare} arg12.view.writes (Elt F) (harg12.unread xs4) LS4)
              ∗ (arg13.view.loc (c : Thread nD τ) ↦[arg13.view.set]{fullShare} arg13.view.writes (Elt F) (harg13.unread xs5) LS5)) -∗ K ⟨⟩))
          ⊢ wp frame (wpE (defs₀ (F := F)) Variants.none c none) E (cc0__fused_attn_kernel i arg3 harg3 arg4 harg4 arg5 harg5 arg6 harg6 arg7 harg7 arg8 harg8 arg9 harg9 arg10 harg10 arg11 harg11 arg12 harg12 arg13 harg13) K } := by
  refine ⟨[], ?_, ?_, ?_, ?_, ?_, ?_, fun xi4 E K => ?run⟩
  case run =>
    simp only [View.writes_nil]
    simp only [cc0__fused_attn_kernel_eq_skeleton]; unfold cc0__fused_attn_kernel_skel
    unfold owns
    iintro ⟨⟨%f0, %hf0, H0⟩, ⟨%f1, %hf1, H1⟩, ⟨%f2, %hf2, H2⟩, ⟨%f3, %hf3, H3⟩, ⟨%f4, %hf4, H4⟩, ⟨%g0, %hg0, S0⟩, ⟨%g1, %hg1, S1⟩, ⟨%g2, %hg2, S2⟩, ⟨%g3, %hg3, S3⟩, ⟨%g4, %hg4, S4⟩, ⟨%g5, %hg5, S5⟩, Hk⟩
    obtain rfl := harg3.eq_unread hf0; obtain rfl := harg4.eq_unread hf1; obtain rfl := harg5.eq_unread hf2; obtain rfl := harg6.eq_unread hf3
    obtain rfl := harg7.eq_unread hf4
    obtain rfl := harg8.eq_unread hg0; obtain rfl := harg9.eq_unread hg1; obtain rfl := harg10.eq_unread hg2
    obtain rfl := harg11.eq_unread hg3; obtain rfl := harg12.eq_unread hg4; obtain rfl := harg13.eq_unread hg5
    sl_exec (disch := first | exact hc1 | exact hc2 | exact hc3 | exact hc4)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexact H4
    isplitl [S0]; · iexact S0
    isplitl [S1]; · iexact S1
    isplitl [S2]; · iexact S2
    isplitl [S3]; · iexact S3
    isplitl [S4]; · iexact S4
    iexact S5

end Cert.Kernel.Attn

end
-- ==== Proof.K.RunB.lean ====
/- One grid point of the attention kernel, in one of the eight combinations of its four branches that the grid meets (K/V projection of a key tile when the query tile is the first; Q projection and reset of the running maximum, denominator and numerator at the first key tile; the online-softmax update when the key tile is not in the future; the final quotient at the last key tile): what the body leaves in the output block and in each scratch buffer, as the stores written over the previous contents. -/
import proofs.«166778_j29291676958807_2_alg».proof.Proof.K.RunA

set_option maxRecDepth 16384

noncomputable section

namespace Cert.Kernel.Attn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large)
set_option maxHeartbeats 4000000 in
/-- The body's run when the four branch conditions are 1, not 2, not 3, not 4 taken: on whole memrefs, the four input blocks at their
    contents, the output block and the six scratch buffers at given contents, the body runs to the continuation holding the inputs as they
    were and each of the other seven buffers at its previous contents with the stores of this case written over them (the piece lists are
    what the run finds; a buffer this case does not store into gets the empty list). -/
noncomputable def kernelRun_B (c : Dev nD) (i : grid0.Coords) (arg3 : Memref sig .tc .vmem S1x2048x1024 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1x512x256 .f32) (harg7 : arg7.IsWhole) (arg8 : Memref sig .tc .vmem S2048x256 .bf16) (harg8 : arg8.IsWhole) (arg9 : Memref sig .tc .vmem S2048x256 .bf16) (harg9 : arg9.IsWhole) (arg10 : Memref sig .tc .vmem S512x256 .bf16) (harg10 : arg10.IsWhole) (arg11 : Memref sig .tc .vmem S512x1 .f32) (harg11 : arg11.IsWhole) (arg12 : Memref sig .tc .vmem S512x1 .f32) (harg12 : arg12.IsWhole) (arg13 : Memref sig .tc .vmem S512x256 .f32) (harg13 : arg13.IsWhole) (hc1 : k0_cond1 i = 1#1) (hc2 : ¬k0_cond2 i = 1#1) (hc3 : ¬k0_cond3 i = 1#1) (hc4 : ¬k0_cond4 i = 1#1)
    (x0 : Vec F S1x2048x1024 .f32) (x1 x2 x3 : Vec F S1024x256 .f32) (xs0 xs1 : Vec F S2048x256 .bf16) (xs2 : Vec F S512x256 .bf16) (xs3 xs4 : Vec F S512x1 .f32) (xs5 : Vec F S512x256 .f32) :
    Σ' (L4 : List (View.Piece (Elt F) S1x512x256 .f32)) (LS0 : List (View.Piece (Elt F) S2048x256 .bf16)) (LS1 : List (View.Piece (Elt F) S2048x256 .bf16)) (LS2 : List (View.Piece (Elt F) S512x256 .bf16)) (LS3 : List (View.Piece (Elt F) S512x1 .f32)) (LS4 : List (View.Piece (Elt F) S512x1 .f32)), { LS5 : List (View.Piece (Elt F) S512x256 .f32) //
      ∀ (xi4 : Vec F S1x512x256 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4
            ∗ owns (c : Thread nD τ) arg8 fullShare xs0 ∗ owns (c : Thread nD τ) arg9 fullShare xs1 ∗ owns (c : Thread nD τ) arg10 fullShare xs2
            ∗ owns (c : Thread nD τ) arg11 fullShare xs3 ∗ owns (c : Thread nD τ) arg12 fullShare xs4 ∗ owns (c : Thread nD τ) arg13 fullShare xs5
            ∗ (iprop(owns (c : Thread nD τ) arg3 fullShare x0 ∗ owns (c : Thread nD τ) arg4 fullShare x1 ∗ owns (c : Thread nD τ) arg5 fullShare x2 ∗ owns (c : Thread nD τ) arg6 fullShare x3
              ∗ (arg7.view.loc (c : Thread nD τ) ↦[arg7.view.set]{fullShare} arg7.view.writes (Elt F) (harg7.unread xi4) L4)
              ∗ (arg8.view.loc (c : Thread nD τ) ↦[arg8.view.set]{fullShare} arg8.view.writes (Elt F) (harg8.unread xs0) LS0)
              ∗ (arg9.view.loc (c : Thread nD τ) ↦[arg9.view.set]{fullShare} arg9.view.writes (Elt F) (harg9.unread xs1) LS1)
              ∗ (arg10.view.loc (c : Thread nD τ) ↦[arg10.view.set]{fullShare} arg10.view.writes (Elt F) (harg10.unread xs2) LS2)
              ∗ (arg11.view.loc (c : Thread nD τ) ↦[arg11.view.set]{fullShare} arg11.view.writes (Elt F) (harg11.unread xs3) LS3)
              ∗ (arg12.view.loc (c : Thread nD τ) ↦[arg12.view.set]{fullShare} arg12.view.writes (Elt F) (harg12.unread xs4) LS4)
              ∗ (arg13.view.loc (c : Thread nD τ) ↦[arg13.view.set]{fullShare} arg13.view.writes (Elt F) (harg13.unread xs5) LS5)) -∗ K ⟨⟩))
          ⊢ wp frame (wpE (defs₀ (F := F)) Variants.none c none) E (cc0__fused_attn_kernel i arg3 harg3 arg4 harg4 arg5 harg5 arg6 harg6 arg7 harg7 arg8 harg8 arg9 harg9 arg10 harg10 arg11 harg11 arg12 harg12 arg13 harg13) K } := by
  refine ⟨[], ?_, ?_, [], [], [], [], fun xi4 E K => ?run⟩
  case run =>
    simp only [View.writes_nil]
    simp only [cc0__fused_attn_kernel_eq_skeleton]; unfold cc0__fused_attn_kernel_skel
    unfold owns
    iintro ⟨⟨%f0, %hf0, H0⟩, ⟨%f1, %hf1, H1⟩, ⟨%f2, %hf2, H2⟩, ⟨%f3, %hf3, H3⟩, ⟨%f4, %hf4, H4⟩, ⟨%g0, %hg0, S0⟩, ⟨%g1, %hg1, S1⟩, ⟨%g2, %hg2, S2⟩, ⟨%g3, %hg3, S3⟩, ⟨%g4, %hg4, S4⟩, ⟨%g5, %hg5, S5⟩, Hk⟩
    obtain rfl := harg3.eq_unread hf0; obtain rfl := harg4.eq_unread hf1; obtain rfl := harg5.eq_unread hf2; obtain rfl := harg6.eq_unread hf3
    obtain rfl := harg7.eq_unread hf4
    obtain rfl := harg8.eq_unread hg0; obtain rfl := harg9.eq_unread hg1; obtain rfl := harg10.eq_unread hg2
    obtain rfl := harg11.eq_unread hg3; obtain rfl := harg12.eq_unread hg4; obtain rfl := harg13.eq_unread hg5
    sl_exec (disch := first | exact hc1 | exact hc2 | exact hc3 | exact hc4)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexact H4
    isplitl [S0]; · iexact S0
    isplitl [S1]; · iexact S1
    isplitl [S2]; · iexact S2
    isplitl [S3]; · iexact S3
    isplitl [S4]; · iexact S4
    iexact S5

end Cert.Kernel.Attn

end
-- ==== Proof.K.RunC.lean ====
/- One grid point of the attention kernel, in one of the eight combinations of its four branches that the grid meets (K/V projection of a key tile when the query tile is the first; Q projection and reset of the running maximum, denominator and numerator at the first key tile; the online-softmax update when the key tile is not in the future; the final quotient at the last key tile): what the body leaves in the output block and in each scratch buffer, as the stores written over the previous contents. -/
import proofs.«166778_j29291676958807_2_alg».proof.Proof.K.RunB

set_option maxRecDepth 16384

noncomputable section

namespace Cert.Kernel.Attn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large)
set_option maxHeartbeats 4000000 in
/-- The body's run when the four branch conditions are 1, not 2, not 3, 4 taken: on whole memrefs, the four input blocks at their
    contents, the output block and the six scratch buffers at given contents, the body runs to the continuation holding the inputs as they
    were and each of the other seven buffers at its previous contents with the stores of this case written over them (the piece lists are
    what the run finds; a buffer this case does not store into gets the empty list). -/
noncomputable def kernelRun_C (c : Dev nD) (i : grid0.Coords) (arg3 : Memref sig .tc .vmem S1x2048x1024 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1x512x256 .f32) (harg7 : arg7.IsWhole) (arg8 : Memref sig .tc .vmem S2048x256 .bf16) (harg8 : arg8.IsWhole) (arg9 : Memref sig .tc .vmem S2048x256 .bf16) (harg9 : arg9.IsWhole) (arg10 : Memref sig .tc .vmem S512x256 .bf16) (harg10 : arg10.IsWhole) (arg11 : Memref sig .tc .vmem S512x1 .f32) (harg11 : arg11.IsWhole) (arg12 : Memref sig .tc .vmem S512x1 .f32) (harg12 : arg12.IsWhole) (arg13 : Memref sig .tc .vmem S512x256 .f32) (harg13 : arg13.IsWhole) (hc1 : k0_cond1 i = 1#1) (hc2 : ¬k0_cond2 i = 1#1) (hc3 : ¬k0_cond3 i = 1#1) (hc4 : k0_cond4 i = 1#1)
    (x0 : Vec F S1x2048x1024 .f32) (x1 x2 x3 : Vec F S1024x256 .f32) (xs0 xs1 : Vec F S2048x256 .bf16) (xs2 : Vec F S512x256 .bf16) (xs3 xs4 : Vec F S512x1 .f32) (xs5 : Vec F S512x256 .f32) :
    Σ' (L4 : List (View.Piece (Elt F) S1x512x256 .f32)) (LS0 : List (View.Piece (Elt F) S2048x256 .bf16)) (LS1 : List (View.Piece (Elt F) S2048x256 .bf16)) (LS2 : List (View.Piece (Elt F) S512x256 .bf16)) (LS3 : List (View.Piece (Elt F) S512x1 .f32)) (LS4 : List (View.Piece (Elt F) S512x1 .f32)), { LS5 : List (View.Piece (Elt F) S512x256 .f32) //
      ∀ (xi4 : Vec F S1x512x256 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4
            ∗ owns (c : Thread nD τ) arg8 fullShare xs0 ∗ owns (c : Thread nD τ) arg9 fullShare xs1 ∗ owns (c : Thread nD τ) arg10 fullShare xs2
            ∗ owns (c : Thread nD τ) arg11 fullShare xs3 ∗ owns (c : Thread nD τ) arg12 fullShare xs4 ∗ owns (c : Thread nD τ) arg13 fullShare xs5
            ∗ (iprop(owns (c : Thread nD τ) arg3 fullShare x0 ∗ owns (c : Thread nD τ) arg4 fullShare x1 ∗ owns (c : Thread nD τ) arg5 fullShare x2 ∗ owns (c : Thread nD τ) arg6 fullShare x3
              ∗ (arg7.view.loc (c : Thread nD τ) ↦[arg7.view.set]{fullShare} arg7.view.writes (Elt F) (harg7.unread xi4) L4)
              ∗ (arg8.view.loc (c : Thread nD τ) ↦[arg8.view.set]{fullShare} arg8.view.writes (Elt F) (harg8.unread xs0) LS0)
              ∗ (arg9.view.loc (c : Thread nD τ) ↦[arg9.view.set]{fullShare} arg9.view.writes (Elt F) (harg9.unread xs1) LS1)
              ∗ (arg10.view.loc (c : Thread nD τ) ↦[arg10.view.set]{fullShare} arg10.view.writes (Elt F) (harg10.unread xs2) LS2)
              ∗ (arg11.view.loc (c : Thread nD τ) ↦[arg11.view.set]{fullShare} arg11.view.writes (Elt F) (harg11.unread xs3) LS3)
              ∗ (arg12.view.loc (c : Thread nD τ) ↦[arg12.view.set]{fullShare} arg12.view.writes (Elt F) (harg12.unread xs4) LS4)
              ∗ (arg13.view.loc (c : Thread nD τ) ↦[arg13.view.set]{fullShare} arg13.view.writes (Elt F) (harg13.unread xs5) LS5)) -∗ K ⟨⟩))
          ⊢ wp frame (wpE (defs₀ (F := F)) Variants.none c none) E (cc0__fused_attn_kernel i arg3 harg3 arg4 harg4 arg5 harg5 arg6 harg6 arg7 harg7 arg8 harg8 arg9 harg9 arg10 harg10 arg11 harg11 arg12 harg12 arg13 harg13) K } := by
  refine ⟨?_, ?_, ?_, [], [], [], [], fun xi4 E K => ?run⟩
  case run =>
    simp only [View.writes_nil]
    simp only [cc0__fused_attn_kernel_eq_skeleton]; unfold cc0__fused_attn_kernel_skel
    unfold owns
    iintro ⟨⟨%f0, %hf0, H0⟩, ⟨%f1, %hf1, H1⟩, ⟨%f2, %hf2, H2⟩, ⟨%f3, %hf3, H3⟩, ⟨%f4, %hf4, H4⟩, ⟨%g0, %hg0, S0⟩, ⟨%g1, %hg1, S1⟩, ⟨%g2, %hg2, S2⟩, ⟨%g3, %hg3, S3⟩, ⟨%g4, %hg4, S4⟩, ⟨%g5, %hg5, S5⟩, Hk⟩
    obtain rfl := harg3.eq_unread hf0; obtain rfl := harg4.eq_unread hf1; obtain rfl := harg5.eq_unread hf2; obtain rfl := harg6.eq_unread hf3
    obtain rfl := harg7.eq_unread hf4
    obtain rfl := harg8.eq_unread hg0; obtain rfl := harg9.eq_unread hg1; obtain rfl := harg10.eq_unread hg2
    obtain rfl := harg11.eq_unread hg3; obtain rfl := harg12.eq_unread hg4; obtain rfl := harg13.eq_unread hg5
    sl_exec (disch := first | exact hc1 | exact hc2 | exact hc3 | exact hc4)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexact H4
    isplitl [S0]; · iexact S0
    isplitl [S1]; · iexact S1
    isplitl [S2]; · iexact S2
    isplitl [S3]; · iexact S3
    isplitl [S4]; · iexact S4
    iexact S5

end Cert.Kernel.Attn

end
-- ==== Proof.K.RunD.lean ====
/- One grid point of the attention kernel, in one of the eight combinations of its four branches that the grid meets (K/V projection of a key tile when the query tile is the first; Q projection and reset of the running maximum, denominator and numerator at the first key tile; the online-softmax update when the key tile is not in the future; the final quotient at the last key tile): what the body leaves in the output block and in each scratch buffer, as the stores written over the previous contents. -/
import proofs.«166778_j29291676958807_2_alg».proof.Proof.K.RunC

set_option maxRecDepth 16384

noncomputable section

namespace Cert.Kernel.Attn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large)
set_option maxHeartbeats 4000000 in
/-- The body's run when the four branch conditions are not 1, 2, 3, not 4 taken: on whole memrefs, the four input blocks at their
    contents, the output block and the six scratch buffers at given contents, the body runs to the continuation holding the inputs as they
    were and each of the other seven buffers at its previous contents with the stores of this case written over them (the piece lists are
    what the run finds; a buffer this case does not store into gets the empty list). -/
noncomputable def kernelRun_D (c : Dev nD) (i : grid0.Coords) (arg3 : Memref sig .tc .vmem S1x2048x1024 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1x512x256 .f32) (harg7 : arg7.IsWhole) (arg8 : Memref sig .tc .vmem S2048x256 .bf16) (harg8 : arg8.IsWhole) (arg9 : Memref sig .tc .vmem S2048x256 .bf16) (harg9 : arg9.IsWhole) (arg10 : Memref sig .tc .vmem S512x256 .bf16) (harg10 : arg10.IsWhole) (arg11 : Memref sig .tc .vmem S512x1 .f32) (harg11 : arg11.IsWhole) (arg12 : Memref sig .tc .vmem S512x1 .f32) (harg12 : arg12.IsWhole) (arg13 : Memref sig .tc .vmem S512x256 .f32) (harg13 : arg13.IsWhole) (hc1 : ¬k0_cond1 i = 1#1) (hc2 : k0_cond2 i = 1#1) (hc3 : k0_cond3 i = 1#1) (hc4 : ¬k0_cond4 i = 1#1)
    (x0 : Vec F S1x2048x1024 .f32) (x1 x2 x3 : Vec F S1024x256 .f32) (xs0 xs1 : Vec F S2048x256 .bf16) (xs2 : Vec F S512x256 .bf16) (xs3 xs4 : Vec F S512x1 .f32) (xs5 : Vec F S512x256 .f32) :
    Σ' (L4 : List (View.Piece (Elt F) S1x512x256 .f32)) (LS0 : List (View.Piece (Elt F) S2048x256 .bf16)) (LS1 : List (View.Piece (Elt F) S2048x256 .bf16)) (LS2 : List (View.Piece (Elt F) S512x256 .bf16)) (LS3 : List (View.Piece (Elt F) S512x1 .f32)) (LS4 : List (View.Piece (Elt F) S512x1 .f32)), { LS5 : List (View.Piece (Elt F) S512x256 .f32) //
      ∀ (xi4 : Vec F S1x512x256 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4
            ∗ owns (c : Thread nD τ) arg8 fullShare xs0 ∗ owns (c : Thread nD τ) arg9 fullShare xs1 ∗ owns (c : Thread nD τ) arg10 fullShare xs2
            ∗ owns (c : Thread nD τ) arg11 fullShare xs3 ∗ owns (c : Thread nD τ) arg12 fullShare xs4 ∗ owns (c : Thread nD τ) arg13 fullShare xs5
            ∗ (iprop(owns (c : Thread nD τ) arg3 fullShare x0 ∗ owns (c : Thread nD τ) arg4 fullShare x1 ∗ owns (c : Thread nD τ) arg5 fullShare x2 ∗ owns (c : Thread nD τ) arg6 fullShare x3
              ∗ (arg7.view.loc (c : Thread nD τ) ↦[arg7.view.set]{fullShare} arg7.view.writes (Elt F) (harg7.unread xi4) L4)
              ∗ (arg8.view.loc (c : Thread nD τ) ↦[arg8.view.set]{fullShare} arg8.view.writes (Elt F) (harg8.unread xs0) LS0)
              ∗ (arg9.view.loc (c : Thread nD τ) ↦[arg9.view.set]{fullShare} arg9.view.writes (Elt F) (harg9.unread xs1) LS1)
              ∗ (arg10.view.loc (c : Thread nD τ) ↦[arg10.view.set]{fullShare} arg10.view.writes (Elt F) (harg10.unread xs2) LS2)
              ∗ (arg11.view.loc (c : Thread nD τ) ↦[arg11.view.set]{fullShare} arg11.view.writes (Elt F) (harg11.unread xs3) LS3)
              ∗ (arg12.view.loc (c : Thread nD τ) ↦[arg12.view.set]{fullShare} arg12.view.writes (Elt F) (harg12.unread xs4) LS4)
              ∗ (arg13.view.loc (c : Thread nD τ) ↦[arg13.view.set]{fullShare} arg13.view.writes (Elt F) (harg13.unread xs5) LS5)) -∗ K ⟨⟩))
          ⊢ wp frame (wpE (defs₀ (F := F)) Variants.none c none) E (cc0__fused_attn_kernel i arg3 harg3 arg4 harg4 arg5 harg5 arg6 harg6 arg7 harg7 arg8 harg8 arg9 harg9 arg10 harg10 arg11 harg11 arg12 harg12 arg13 harg13) K } := by
  refine ⟨[], [], [], ?_, ?_, ?_, ?_, fun xi4 E K => ?run⟩
  case run =>
    simp only [View.writes_nil]
    simp only [cc0__fused_attn_kernel_eq_skeleton]; unfold cc0__fused_attn_kernel_skel
    unfold owns
    iintro ⟨⟨%f0, %hf0, H0⟩, ⟨%f1, %hf1, H1⟩, ⟨%f2, %hf2, H2⟩, ⟨%f3, %hf3, H3⟩, ⟨%f4, %hf4, H4⟩, ⟨%g0, %hg0, S0⟩, ⟨%g1, %hg1, S1⟩, ⟨%g2, %hg2, S2⟩, ⟨%g3, %hg3, S3⟩, ⟨%g4, %hg4, S4⟩, ⟨%g5, %hg5, S5⟩, Hk⟩
    obtain rfl := harg3.eq_unread hf0; obtain rfl := harg4.eq_unread hf1; obtain rfl := harg5.eq_unread hf2; obtain rfl := harg6.eq_unread hf3
    obtain rfl := harg7.eq_unread hf4
    obtain rfl := harg8.eq_unread hg0; obtain rfl := harg9.eq_unread hg1; obtain rfl := harg10.eq_unread hg2
    obtain rfl := harg11.eq_unread hg3; obtain rfl := harg12.eq_unread hg4; obtain rfl := harg13.eq_unread hg5
    sl_exec (disch := first | exact hc1 | exact hc2 | exact hc3 | exact hc4)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexact H4
    isplitl [S0]; · iexact S0
    isplitl [S1]; · iexact S1
    isplitl [S2]; · iexact S2
    isplitl [S3]; · iexact S3
    isplitl [S4]; · iexact S4
    iexact S5

end Cert.Kernel.Attn

end
-- ==== Proof.K.RunE.lean ====
/- One grid point of the attention kernel, in one of the eight combinations of its four branches that the grid meets (K/V projection of a key tile when the query tile is the first; Q projection and reset of the running maximum, denominator and numerator at the first key tile; the online-softmax update when the key tile is not in the future; the final quotient at the last key tile): what the body leaves in the output block and in each scratch buffer, as the stores written over the previous contents. -/
import proofs.«166778_j29291676958807_2_alg».proof.Proof.K.RunD

set_option maxRecDepth 16384

noncomputable section

namespace Cert.Kernel.Attn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large)
set_option maxHeartbeats 4000000 in
/-- The body's run when the four branch conditions are not 1, not 2, 3, not 4 taken: on whole memrefs, the four input blocks at their
    contents, the output block and the six scratch buffers at given contents, the body runs to the continuation holding the inputs as they
    were and each of the other seven buffers at its previous contents with the stores of this case written over them (the piece lists are
    what the run finds; a buffer this case does not store into gets the empty list). -/
noncomputable def kernelRun_E (c : Dev nD) (i : grid0.Coords) (arg3 : Memref sig .tc .vmem S1x2048x1024 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1x512x256 .f32) (harg7 : arg7.IsWhole) (arg8 : Memref sig .tc .vmem S2048x256 .bf16) (harg8 : arg8.IsWhole) (arg9 : Memref sig .tc .vmem S2048x256 .bf16) (harg9 : arg9.IsWhole) (arg10 : Memref sig .tc .vmem S512x256 .bf16) (harg10 : arg10.IsWhole) (arg11 : Memref sig .tc .vmem S512x1 .f32) (harg11 : arg11.IsWhole) (arg12 : Memref sig .tc .vmem S512x1 .f32) (harg12 : arg12.IsWhole) (arg13 : Memref sig .tc .vmem S512x256 .f32) (harg13 : arg13.IsWhole) (hc1 : ¬k0_cond1 i = 1#1) (hc2 : ¬k0_cond2 i = 1#1) (hc3 : k0_cond3 i = 1#1) (hc4 : ¬k0_cond4 i = 1#1)
    (x0 : Vec F S1x2048x1024 .f32) (x1 x2 x3 : Vec F S1024x256 .f32) (xs0 xs1 : Vec F S2048x256 .bf16) (xs2 : Vec F S512x256 .bf16) (xs3 xs4 : Vec F S512x1 .f32) (xs5 : Vec F S512x256 .f32) :
    Σ' (L4 : List (View.Piece (Elt F) S1x512x256 .f32)) (LS0 : List (View.Piece (Elt F) S2048x256 .bf16)) (LS1 : List (View.Piece (Elt F) S2048x256 .bf16)) (LS2 : List (View.Piece (Elt F) S512x256 .bf16)) (LS3 : List (View.Piece (Elt F) S512x1 .f32)) (LS4 : List (View.Piece (Elt F) S512x1 .f32)), { LS5 : List (View.Piece (Elt F) S512x256 .f32) //
      ∀ (xi4 : Vec F S1x512x256 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4
            ∗ owns (c : Thread nD τ) arg8 fullShare xs0 ∗ owns (c : Thread nD τ) arg9 fullShare xs1 ∗ owns (c : Thread nD τ) arg10 fullShare xs2
            ∗ owns (c : Thread nD τ) arg11 fullShare xs3 ∗ owns (c : Thread nD τ) arg12 fullShare xs4 ∗ owns (c : Thread nD τ) arg13 fullShare xs5
            ∗ (iprop(owns (c : Thread nD τ) arg3 fullShare x0 ∗ owns (c : Thread nD τ) arg4 fullShare x1 ∗ owns (c : Thread nD τ) arg5 fullShare x2 ∗ owns (c : Thread nD τ) arg6 fullShare x3
              ∗ (arg7.view.loc (c : Thread nD τ) ↦[arg7.view.set]{fullShare} arg7.view.writes (Elt F) (harg7.unread xi4) L4)
              ∗ (arg8.view.loc (c : Thread nD τ) ↦[arg8.view.set]{fullShare} arg8.view.writes (Elt F) (harg8.unread xs0) LS0)
              ∗ (arg9.view.loc (c : Thread nD τ) ↦[arg9.view.set]{fullShare} arg9.view.writes (Elt F) (harg9.unread xs1) LS1)
              ∗ (arg10.view.loc (c : Thread nD τ) ↦[arg10.view.set]{fullShare} arg10.view.writes (Elt F) (harg10.unread xs2) LS2)
              ∗ (arg11.view.loc (c : Thread nD τ) ↦[arg11.view.set]{fullShare} arg11.view.writes (Elt F) (harg11.unread xs3) LS3)
              ∗ (arg12.view.loc (c : Thread nD τ) ↦[arg12.view.set]{fullShare} arg12.view.writes (Elt F) (harg12.unread xs4) LS4)
              ∗ (arg13.view.loc (c : Thread nD τ) ↦[arg13.view.set]{fullShare} arg13.view.writes (Elt F) (harg13.unread xs5) LS5)) -∗ K ⟨⟩))
          ⊢ wp frame (wpE (defs₀ (F := F)) Variants.none c none) E (cc0__fused_attn_kernel i arg3 harg3 arg4 harg4 arg5 harg5 arg6 harg6 arg7 harg7 arg8 harg8 arg9 harg9 arg10 harg10 arg11 harg11 arg12 harg12 arg13 harg13) K } := by
  refine ⟨[], [], [], [], ?_, ?_, ?_, fun xi4 E K => ?run⟩
  case run =>
    simp only [View.writes_nil]
    simp only [cc0__fused_attn_kernel_eq_skeleton]; unfold cc0__fused_attn_kernel_skel
    unfold owns
    iintro ⟨⟨%f0, %hf0, H0⟩, ⟨%f1, %hf1, H1⟩, ⟨%f2, %hf2, H2⟩, ⟨%f3, %hf3, H3⟩, ⟨%f4, %hf4, H4⟩, ⟨%g0, %hg0, S0⟩, ⟨%g1, %hg1, S1⟩, ⟨%g2, %hg2, S2⟩, ⟨%g3, %hg3, S3⟩, ⟨%g4, %hg4, S4⟩, ⟨%g5, %hg5, S5⟩, Hk⟩
    obtain rfl := harg3.eq_unread hf0; obtain rfl := harg4.eq_unread hf1; obtain rfl := harg5.eq_unread hf2; obtain rfl := harg6.eq_unread hf3
    obtain rfl := harg7.eq_unread hf4
    obtain rfl := harg8.eq_unread hg0; obtain rfl := harg9.eq_unread hg1; obtain rfl := harg10.eq_unread hg2
    obtain rfl := harg11.eq_unread hg3; obtain rfl := harg12.eq_unread hg4; obtain rfl := harg13.eq_unread hg5
    sl_exec (disch := first | exact hc1 | exact hc2 | exact hc3 | exact hc4)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexact H4
    isplitl [S0]; · iexact S0
    isplitl [S1]; · iexact S1
    isplitl [S2]; · iexact S2
    isplitl [S3]; · iexact S3
    isplitl [S4]; · iexact S4
    iexact S5

end Cert.Kernel.Attn

end
-- ==== Proof.K.RunF.lean ====
/- One grid point of the attention kernel, in one of the eight combinations of its four branches that the grid meets (K/V projection of a key tile when the query tile is the first; Q projection and reset of the running maximum, denominator and numerator at the first key tile; the online-softmax update when the key tile is not in the future; the final quotient at the last key tile): what the body leaves in the output block and in each scratch buffer, as the stores written over the previous contents. -/
import proofs.«166778_j29291676958807_2_alg».proof.Proof.K.RunE

set_option maxRecDepth 16384

noncomputable section

namespace Cert.Kernel.Attn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large)
set_option maxHeartbeats 4000000 in
/-- The body's run when the four branch conditions are not 1, not 2, not 3, not 4 taken: on whole memrefs, the four input blocks at their
    contents, the output block and the six scratch buffers at given contents, the body runs to the continuation holding the inputs as they
    were and each of the other seven buffers at its previous contents with the stores of this case written over them (the piece lists are
    what the run finds; a buffer this case does not store into gets the empty list). -/
noncomputable def kernelRun_F (c : Dev nD) (i : grid0.Coords) (arg3 : Memref sig .tc .vmem S1x2048x1024 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1x512x256 .f32) (harg7 : arg7.IsWhole) (arg8 : Memref sig .tc .vmem S2048x256 .bf16) (harg8 : arg8.IsWhole) (arg9 : Memref sig .tc .vmem S2048x256 .bf16) (harg9 : arg9.IsWhole) (arg10 : Memref sig .tc .vmem S512x256 .bf16) (harg10 : arg10.IsWhole) (arg11 : Memref sig .tc .vmem S512x1 .f32) (harg11 : arg11.IsWhole) (arg12 : Memref sig .tc .vmem S512x1 .f32) (harg12 : arg12.IsWhole) (arg13 : Memref sig .tc .vmem S512x256 .f32) (harg13 : arg13.IsWhole) (hc1 : ¬k0_cond1 i = 1#1) (hc2 : ¬k0_cond2 i = 1#1) (hc3 : ¬k0_cond3 i = 1#1) (hc4 : ¬k0_cond4 i = 1#1)
    (x0 : Vec F S1x2048x1024 .f32) (x1 x2 x3 : Vec F S1024x256 .f32) (xs0 xs1 : Vec F S2048x256 .bf16) (xs2 : Vec F S512x256 .bf16) (xs3 xs4 : Vec F S512x1 .f32) (xs5 : Vec F S512x256 .f32) :
    Σ' (L4 : List (View.Piece (Elt F) S1x512x256 .f32)) (LS0 : List (View.Piece (Elt F) S2048x256 .bf16)) (LS1 : List (View.Piece (Elt F) S2048x256 .bf16)) (LS2 : List (View.Piece (Elt F) S512x256 .bf16)) (LS3 : List (View.Piece (Elt F) S512x1 .f32)) (LS4 : List (View.Piece (Elt F) S512x1 .f32)), { LS5 : List (View.Piece (Elt F) S512x256 .f32) //
      ∀ (xi4 : Vec F S1x512x256 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4
            ∗ owns (c : Thread nD τ) arg8 fullShare xs0 ∗ owns (c : Thread nD τ) arg9 fullShare xs1 ∗ owns (c : Thread nD τ) arg10 fullShare xs2
            ∗ owns (c : Thread nD τ) arg11 fullShare xs3 ∗ owns (c : Thread nD τ) arg12 fullShare xs4 ∗ owns (c : Thread nD τ) arg13 fullShare xs5
            ∗ (iprop(owns (c : Thread nD τ) arg3 fullShare x0 ∗ owns (c : Thread nD τ) arg4 fullShare x1 ∗ owns (c : Thread nD τ) arg5 fullShare x2 ∗ owns (c : Thread nD τ) arg6 fullShare x3
              ∗ (arg7.view.loc (c : Thread nD τ) ↦[arg7.view.set]{fullShare} arg7.view.writes (Elt F) (harg7.unread xi4) L4)
              ∗ (arg8.view.loc (c : Thread nD τ) ↦[arg8.view.set]{fullShare} arg8.view.writes (Elt F) (harg8.unread xs0) LS0)
              ∗ (arg9.view.loc (c : Thread nD τ) ↦[arg9.view.set]{fullShare} arg9.view.writes (Elt F) (harg9.unread xs1) LS1)
              ∗ (arg10.view.loc (c : Thread nD τ) ↦[arg10.view.set]{fullShare} arg10.view.writes (Elt F) (harg10.unread xs2) LS2)
              ∗ (arg11.view.loc (c : Thread nD τ) ↦[arg11.view.set]{fullShare} arg11.view.writes (Elt F) (harg11.unread xs3) LS3)
              ∗ (arg12.view.loc (c : Thread nD τ) ↦[arg12.view.set]{fullShare} arg12.view.writes (Elt F) (harg12.unread xs4) LS4)
              ∗ (arg13.view.loc (c : Thread nD τ) ↦[arg13.view.set]{fullShare} arg13.view.writes (Elt F) (harg13.unread xs5) LS5)) -∗ K ⟨⟩))
          ⊢ wp frame (wpE (defs₀ (F := F)) Variants.none c none) E (cc0__fused_attn_kernel i arg3 harg3 arg4 harg4 arg5 harg5 arg6 harg6 arg7 harg7 arg8 harg8 arg9 harg9 arg10 harg10 arg11 harg11 arg12 harg12 arg13 harg13) K } := by
  refine ⟨[], [], [], [], [], [], [], fun xi4 E K => ?run⟩
  case run =>
    simp only [View.writes_nil]
    simp only [cc0__fused_attn_kernel_eq_skeleton]; unfold cc0__fused_attn_kernel_skel
    unfold owns
    iintro ⟨⟨%f0, %hf0, H0⟩, ⟨%f1, %hf1, H1⟩, ⟨%f2, %hf2, H2⟩, ⟨%f3, %hf3, H3⟩, ⟨%f4, %hf4, H4⟩, ⟨%g0, %hg0, S0⟩, ⟨%g1, %hg1, S1⟩, ⟨%g2, %hg2, S2⟩, ⟨%g3, %hg3, S3⟩, ⟨%g4, %hg4, S4⟩, ⟨%g5, %hg5, S5⟩, Hk⟩
    obtain rfl := harg3.eq_unread hf0; obtain rfl := harg4.eq_unread hf1; obtain rfl := harg5.eq_unread hf2; obtain rfl := harg6.eq_unread hf3
    obtain rfl := harg7.eq_unread hf4
    obtain rfl := harg8.eq_unread hg0; obtain rfl := harg9.eq_unread hg1; obtain rfl := harg10.eq_unread hg2
    obtain rfl := harg11.eq_unread hg3; obtain rfl := harg12.eq_unread hg4; obtain rfl := harg13.eq_unread hg5
    sl_exec (disch := first | exact hc1 | exact hc2 | exact hc3 | exact hc4)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexact H4
    isplitl [S0]; · iexact S0
    isplitl [S1]; · iexact S1
    isplitl [S2]; · iexact S2
    isplitl [S3]; · iexact S3
    isplitl [S4]; · iexact S4
    iexact S5

end Cert.Kernel.Attn

end
-- ==== Proof.K.RunG.lean ====
/- One grid point of the attention kernel, in one of the eight combinations of its four branches that the grid meets (K/V projection of a key tile when the query tile is the first; Q projection and reset of the running maximum, denominator and numerator at the first key tile; the online-softmax update when the key tile is not in the future; the final quotient at the last key tile): what the body leaves in the output block and in each scratch buffer, as the stores written over the previous contents. -/
import proofs.«166778_j29291676958807_2_alg».proof.Proof.K.RunF

set_option maxRecDepth 16384

noncomputable section

namespace Cert.Kernel.Attn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large)
set_option maxHeartbeats 4000000 in
/-- The body's run when the four branch conditions are not 1, not 2, 3, 4 taken: on whole memrefs, the four input blocks at their
    contents, the output block and the six scratch buffers at given contents, the body runs to the continuation holding the inputs as they
    were and each of the other seven buffers at its previous contents with the stores of this case written over them (the piece lists are
    what the run finds; a buffer this case does not store into gets the empty list). -/
noncomputable def kernelRun_G (c : Dev nD) (i : grid0.Coords) (arg3 : Memref sig .tc .vmem S1x2048x1024 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1x512x256 .f32) (harg7 : arg7.IsWhole) (arg8 : Memref sig .tc .vmem S2048x256 .bf16) (harg8 : arg8.IsWhole) (arg9 : Memref sig .tc .vmem S2048x256 .bf16) (harg9 : arg9.IsWhole) (arg10 : Memref sig .tc .vmem S512x256 .bf16) (harg10 : arg10.IsWhole) (arg11 : Memref sig .tc .vmem S512x1 .f32) (harg11 : arg11.IsWhole) (arg12 : Memref sig .tc .vmem S512x1 .f32) (harg12 : arg12.IsWhole) (arg13 : Memref sig .tc .vmem S512x256 .f32) (harg13 : arg13.IsWhole) (hc1 : ¬k0_cond1 i = 1#1) (hc2 : ¬k0_cond2 i = 1#1) (hc3 : k0_cond3 i = 1#1) (hc4 : k0_cond4 i = 1#1)
    (x0 : Vec F S1x2048x1024 .f32) (x1 x2 x3 : Vec F S1024x256 .f32) (xs0 xs1 : Vec F S2048x256 .bf16) (xs2 : Vec F S512x256 .bf16) (xs3 xs4 : Vec F S512x1 .f32) (xs5 : Vec F S512x256 .f32) :
    Σ' (L4 : List (View.Piece (Elt F) S1x512x256 .f32)) (LS0 : List (View.Piece (Elt F) S2048x256 .bf16)) (LS1 : List (View.Piece (Elt F) S2048x256 .bf16)) (LS2 : List (View.Piece (Elt F) S512x256 .bf16)) (LS3 : List (View.Piece (Elt F) S512x1 .f32)) (LS4 : List (View.Piece (Elt F) S512x1 .f32)), { LS5 : List (View.Piece (Elt F) S512x256 .f32) //
      ∀ (xi4 : Vec F S1x512x256 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4
            ∗ owns (c : Thread nD τ) arg8 fullShare xs0 ∗ owns (c : Thread nD τ) arg9 fullShare xs1 ∗ owns (c : Thread nD τ) arg10 fullShare xs2
            ∗ owns (c : Thread nD τ) arg11 fullShare xs3 ∗ owns (c : Thread nD τ) arg12 fullShare xs4 ∗ owns (c : Thread nD τ) arg13 fullShare xs5
            ∗ (iprop(owns (c : Thread nD τ) arg3 fullShare x0 ∗ owns (c : Thread nD τ) arg4 fullShare x1 ∗ owns (c : Thread nD τ) arg5 fullShare x2 ∗ owns (c : Thread nD τ) arg6 fullShare x3
              ∗ (arg7.view.loc (c : Thread nD τ) ↦[arg7.view.set]{fullShare} arg7.view.writes (Elt F) (harg7.unread xi4) L4)
              ∗ (arg8.view.loc (c : Thread nD τ) ↦[arg8.view.set]{fullShare} arg8.view.writes (Elt F) (harg8.unread xs0) LS0)
              ∗ (arg9.view.loc (c : Thread nD τ) ↦[arg9.view.set]{fullShare} arg9.view.writes (Elt F) (harg9.unread xs1) LS1)
              ∗ (arg10.view.loc (c : Thread nD τ) ↦[arg10.view.set]{fullShare} arg10.view.writes (Elt F) (harg10.unread xs2) LS2)
              ∗ (arg11.view.loc (c : Thread nD τ) ↦[arg11.view.set]{fullShare} arg11.view.writes (Elt F) (harg11.unread xs3) LS3)
              ∗ (arg12.view.loc (c : Thread nD τ) ↦[arg12.view.set]{fullShare} arg12.view.writes (Elt F) (harg12.unread xs4) LS4)
              ∗ (arg13.view.loc (c : Thread nD τ) ↦[arg13.view.set]{fullShare} arg13.view.writes (Elt F) (harg13.unread xs5) LS5)) -∗ K ⟨⟩))
          ⊢ wp frame (wpE (defs₀ (F := F)) Variants.none c none) E (cc0__fused_attn_kernel i arg3 harg3 arg4 harg4 arg5 harg5 arg6 harg6 arg7 harg7 arg8 harg8 arg9 harg9 arg10 harg10 arg11 harg11 arg12 harg12 arg13 harg13) K } := by
  refine ⟨?_, [], [], [], ?_, ?_, ?_, fun xi4 E K => ?run⟩
  case run =>
    simp only [View.writes_nil]
    simp only [cc0__fused_attn_kernel_eq_skeleton]; unfold cc0__fused_attn_kernel_skel
    unfold owns
    iintro ⟨⟨%f0, %hf0, H0⟩, ⟨%f1, %hf1, H1⟩, ⟨%f2, %hf2, H2⟩, ⟨%f3, %hf3, H3⟩, ⟨%f4, %hf4, H4⟩, ⟨%g0, %hg0, S0⟩, ⟨%g1, %hg1, S1⟩, ⟨%g2, %hg2, S2⟩, ⟨%g3, %hg3, S3⟩, ⟨%g4, %hg4, S4⟩, ⟨%g5, %hg5, S5⟩, Hk⟩
    obtain rfl := harg3.eq_unread hf0; obtain rfl := harg4.eq_unread hf1; obtain rfl := harg5.eq_unread hf2; obtain rfl := harg6.eq_unread hf3
    obtain rfl := harg7.eq_unread hf4
    obtain rfl := harg8.eq_unread hg0; obtain rfl := harg9.eq_unread hg1; obtain rfl := harg10.eq_unread hg2
    obtain rfl := harg11.eq_unread hg3; obtain rfl := harg12.eq_unread hg4; obtain rfl := harg13.eq_unread hg5
    sl_exec (disch := first | exact hc1 | exact hc2 | exact hc3 | exact hc4)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexact H4
    isplitl [S0]; · iexact S0
    isplitl [S1]; · iexact S1
    isplitl [S2]; · iexact S2
    isplitl [S3]; · iexact S3
    isplitl [S4]; · iexact S4
    iexact S5

end Cert.Kernel.Attn

end
-- ==== Proof.K.RunH.lean ====
/- One grid point of the attention kernel, in one of the eight combinations of its four branches that the grid meets (K/V projection of a key tile when the query tile is the first; Q projection and reset of the running maximum, denominator and numerator at the first key tile; the online-softmax update when the key tile is not in the future; the final quotient at the last key tile): what the body leaves in the output block and in each scratch buffer, as the stores written over the previous contents. -/
import proofs.«166778_j29291676958807_2_alg».proof.Proof.K.RunG

set_option maxRecDepth 16384

noncomputable section

namespace Cert.Kernel.Attn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large)
set_option maxHeartbeats 4000000 in
/-- The body's run when the four branch conditions are not 1, not 2, not 3, 4 taken: on whole memrefs, the four input blocks at their
    contents, the output block and the six scratch buffers at given contents, the body runs to the continuation holding the inputs as they
    were and each of the other seven buffers at its previous contents with the stores of this case written over them (the piece lists are
    what the run finds; a buffer this case does not store into gets the empty list). -/
noncomputable def kernelRun_H (c : Dev nD) (i : grid0.Coords) (arg3 : Memref sig .tc .vmem S1x2048x1024 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1x512x256 .f32) (harg7 : arg7.IsWhole) (arg8 : Memref sig .tc .vmem S2048x256 .bf16) (harg8 : arg8.IsWhole) (arg9 : Memref sig .tc .vmem S2048x256 .bf16) (harg9 : arg9.IsWhole) (arg10 : Memref sig .tc .vmem S512x256 .bf16) (harg10 : arg10.IsWhole) (arg11 : Memref sig .tc .vmem S512x1 .f32) (harg11 : arg11.IsWhole) (arg12 : Memref sig .tc .vmem S512x1 .f32) (harg12 : arg12.IsWhole) (arg13 : Memref sig .tc .vmem S512x256 .f32) (harg13 : arg13.IsWhole) (hc1 : ¬k0_cond1 i = 1#1) (hc2 : ¬k0_cond2 i = 1#1) (hc3 : ¬k0_cond3 i = 1#1) (hc4 : k0_cond4 i = 1#1)
    (x0 : Vec F S1x2048x1024 .f32) (x1 x2 x3 : Vec F S1024x256 .f32) (xs0 xs1 : Vec F S2048x256 .bf16) (xs2 : Vec F S512x256 .bf16) (xs3 xs4 : Vec F S512x1 .f32) (xs5 : Vec F S512x256 .f32) :
    Σ' (L4 : List (View.Piece (Elt F) S1x512x256 .f32)) (LS0 : List (View.Piece (Elt F) S2048x256 .bf16)) (LS1 : List (View.Piece (Elt F) S2048x256 .bf16)) (LS2 : List (View.Piece (Elt F) S512x256 .bf16)) (LS3 : List (View.Piece (Elt F) S512x1 .f32)) (LS4 : List (View.Piece (Elt F) S512x1 .f32)), { LS5 : List (View.Piece (Elt F) S512x256 .f32) //
      ∀ (xi4 : Vec F S1x512x256 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4
            ∗ owns (c : Thread nD τ) arg8 fullShare xs0 ∗ owns (c : Thread nD τ) arg9 fullShare xs1 ∗ owns (c : Thread nD τ) arg10 fullShare xs2
            ∗ owns (c : Thread nD τ) arg11 fullShare xs3 ∗ owns (c : Thread nD τ) arg12 fullShare xs4 ∗ owns (c : Thread nD τ) arg13 fullShare xs5
            ∗ (iprop(owns (c : Thread nD τ) arg3 fullShare x0 ∗ owns (c : Thread nD τ) arg4 fullShare x1 ∗ owns (c : Thread nD τ) arg5 fullShare x2 ∗ owns (c : Thread nD τ) arg6 fullShare x3
              ∗ (arg7.view.loc (c : Thread nD τ) ↦[arg7.view.set]{fullShare} arg7.view.writes (Elt F) (harg7.unread xi4) L4)
              ∗ (arg8.view.loc (c : Thread nD τ) ↦[arg8.view.set]{fullShare} arg8.view.writes (Elt F) (harg8.unread xs0) LS0)
              ∗ (arg9.view.loc (c : Thread nD τ) ↦[arg9.view.set]{fullShare} arg9.view.writes (Elt F) (harg9.unread xs1) LS1)
              ∗ (arg10.view.loc (c : Thread nD τ) ↦[arg10.view.set]{fullShare} arg10.view.writes (Elt F) (harg10.unread xs2) LS2)
              ∗ (arg11.view.loc (c : Thread nD τ) ↦[arg11.view.set]{fullShare} arg11.view.writes (Elt F) (harg11.unread xs3) LS3)
              ∗ (arg12.view.loc (c : Thread nD τ) ↦[arg12.view.set]{fullShare} arg12.view.writes (Elt F) (harg12.unread xs4) LS4)
              ∗ (arg13.view.loc (c : Thread nD τ) ↦[arg13.view.set]{fullShare} arg13.view.writes (Elt F) (harg13.unread xs5) LS5)) -∗ K ⟨⟩))
          ⊢ wp frame (wpE (defs₀ (F := F)) Variants.none c none) E (cc0__fused_attn_kernel i arg3 harg3 arg4 harg4 arg5 harg5 arg6 harg6 arg7 harg7 arg8 harg8 arg9 harg9 arg10 harg10 arg11 harg11 arg12 harg12 arg13 harg13) K } := by
  refine ⟨?_, [], [], [], [], [], [], fun xi4 E K => ?run⟩
  case run =>
    simp only [View.writes_nil]
    simp only [cc0__fused_attn_kernel_eq_skeleton]; unfold cc0__fused_attn_kernel_skel
    unfold owns
    iintro ⟨⟨%f0, %hf0, H0⟩, ⟨%f1, %hf1, H1⟩, ⟨%f2, %hf2, H2⟩, ⟨%f3, %hf3, H3⟩, ⟨%f4, %hf4, H4⟩, ⟨%g0, %hg0, S0⟩, ⟨%g1, %hg1, S1⟩, ⟨%g2, %hg2, S2⟩, ⟨%g3, %hg3, S3⟩, ⟨%g4, %hg4, S4⟩, ⟨%g5, %hg5, S5⟩, Hk⟩
    obtain rfl := harg3.eq_unread hf0; obtain rfl := harg4.eq_unread hf1; obtain rfl := harg5.eq_unread hf2; obtain rfl := harg6.eq_unread hf3
    obtain rfl := harg7.eq_unread hf4
    obtain rfl := harg8.eq_unread hg0; obtain rfl := harg9.eq_unread hg1; obtain rfl := harg10.eq_unread hg2
    obtain rfl := harg11.eq_unread hg3; obtain rfl := harg12.eq_unread hg4; obtain rfl := harg13.eq_unread hg5
    sl_exec (disch := first | exact hc1 | exact hc2 | exact hc3 | exact hc4)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexact H4
    isplitl [S0]; · iexact S0
    isplitl [S1]; · iexact S1
    isplitl [S2]; · iexact S2
    isplitl [S3]; · iexact S3
    isplitl [S4]; · iexact S4
    iexact S5

end Cert.Kernel.Attn

end
-- ==== Proof.K.FrameDefs.lean ====
/- The proof data of the attention kernel's frame: the arrays as the region finds them, the inputs' staging buffers at their blocks, the output block's contents not named, the scratch buffers at whatever they hold. -/
import proofs.«166778_j29291676958807_2_alg».proof.Proof.K.Common
import proofs.«166778_j29291676958807_2_alg».proof.Proof.K.RunH
import Idealize.ShloMosaic.Lib.Pipeline.FrameBody

set_option maxRecDepth 16384

noncomputable section

namespace Cert.Kernel.Attn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The frame with the output block's contents not named -/

/-- The frame claim reads nothing of the output block: that window is forgotten (handed to the body at any contents, taken back at any). -/
def forgets : Fin 5 → Bool := fun w => w.val == 4

/-- The proof data: the arrays as the region finds them; each input's staging buffer at its block after the body;
    the output's not named; the invariant the launch's own (every scratch buffer at some contents); nothing owed. -/
def datsF (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, h⟩ => Pipeline.Dat.unnamed (cfg := cfg0) ⟨4, h⟩ t
  Φ _ := Pipeline.ΦA spec0 c
  q _ := fullShare
  owed _ := 0

theorem A_eqF (c : Dev nD) (w : Fin cfg0.W) : (datsF m 0 c).A w = V m c (Pipeline.arrRef spec0 w) := by
  dsimp only [datsF]
theorem afterF_0 (c : Dev nD) (t : Fin cfg0.N) : (datsF m 0 c).after 0 t = iblk m c 0 t := by dsimp only [datsF]
theorem afterF_1 (c : Dev nD) (t : Fin cfg0.N) : (datsF m 0 c).after 1 t = iblk m c 1 t := by dsimp only [datsF]
theorem afterF_2 (c : Dev nD) (t : Fin cfg0.N) : (datsF m 0 c).after 2 t = iblk m c 2 t := by dsimp only [datsF]
theorem afterF_3 (c : Dev nD) (t : Fin cfg0.N) : (datsF m 0 c).after 3 t = iblk m c 3 t := by dsimp only [datsF]
/-- Each input's current staging buffer holds its block at every point, fetched there or not. -/
theorem beforeF_0 (c : Dev nD) (t : Fin cfg0.N) (d) : (datsF m 0 c).before 0 t d = iblk m c 0 t :=
  before0_0_of m (datsF m 0 c) (A_eqF m c 0) (afterF_0 m c) t d
theorem beforeF_1 (c : Dev nD) (t : Fin cfg0.N) (d) : (datsF m 0 c).before 1 t d = iblk m c 1 t :=
  before0_1_of m (datsF m 0 c) (A_eqF m c 1) (afterF_1 m c) t d
theorem beforeF_2 (c : Dev nD) (t : Fin cfg0.N) (d) : (datsF m 0 c).before 2 t d = iblk m c 2 t :=
  before0_2_of m (datsF m 0 c) (A_eqF m c 2) (afterF_2 m c) t d
theorem beforeF_3 (c : Dev nD) (t : Fin cfg0.N) (d) : (datsF m 0 c).before 3 t d = iblk m c 3 t :=
  before0_3_of m (datsF m 0 c) (A_eqF m c 3) (afterF_3 m c) t d

/-- What the body is called with at point `t`, the windows one by one, -/
def bodyPreF (c : Dev nD) (t : Fin cfg0.N) : sProp 𝕄 :=
  iprop((datsF m 0 c).Φ t.castSucc ∗ (datsF m 0 c).owesAt () t.castSucc
    ∗ (∃ d, owns (c : Thread nD τ) (ms0 t) fullShare ((datsF m 0 c).before 0 t d))
    ∗ (∃ d, owns (c : Thread nD τ) (ms1 t) fullShare ((datsF m 0 c).before 1 t d))
    ∗ (∃ d, owns (c : Thread nD τ) (ms2 t) fullShare ((datsF m 0 c).before 2 t d))
    ∗ (∃ d, owns (c : Thread nD τ) (ms3 t) fullShare ((datsF m 0 c).before 3 t d))
    ∗ (∃ d, owns (c : Thread nD τ) (ms4 t) fullShare d))

/-- and what it returns. -/
def bodyPostF (c : Dev nD) (t : Fin cfg0.N) : sProp 𝕄 :=
  iprop((datsF m 0 c).Φ t.succ ∗ (datsF m 0 c).owesAt () t.succ
    ∗ (datsF m 0 c).leavesExact 0 t
    ∗ (datsF m 0 c).leavesExact 1 t
    ∗ (datsF m 0 c).leavesExact 2 t
    ∗ (datsF m 0 c).leavesExact 3 t
    ∗ (∃ d, owns (c : Thread nD τ) (ms4 t) fullShare d))

end Cert.Kernel.Attn

end
-- ==== Proof.K.FrameA.lean ====
/- The attention kernel's body obligation at the points of one of its eight cases, for the frame. -/
import proofs.«166778_j29291676958807_2_alg».proof.Proof.K.FrameDefs

set_option maxRecDepth 16384

noncomputable section

namespace Cert.Kernel.Attn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 8000000 in
/-- The body at a point of case A: the case's run applies, from the scratch buffers at whatever they hold to the scratch buffers at whatever it leaves. -/
theorem soundF_A (c : Dev nD) (t : Fin cfg0.N) (h1 : k0_cond1 (grid0.coords t) = 1#1) (h2 : k0_cond2 (grid0.coords t) = 1#1) (h3 : k0_cond3 (grid0.coords t) = 1#1) (h4 : ¬k0_cond4 (grid0.coords t) = 1#1) :
    bodyPreF m c t ⊢ wp frame (wpE (defs₀ (F := F)) Variants.none c none) Set.univ (bodyAt0 t) (fun _ => bodyPostF m c t) := by
  unfold bodyPreF bodyPostF bodyAt0
  simp only [beforeF_0, beforeF_1, beforeF_2, beforeF_3]
  rw [show (datsF m 0 c).owesAt () t.succ = (datsF m 0 c).owesAt () t.castSucc from rfl]
  rw [show (datsF m 0 c).Φ t.succ = Pipeline.ΦA spec0 c from rfl, show (datsF m 0 c).Φ t.castSucc = Pipeline.ΦA spec0 c from rfl, PhiA_eq]
  rw [show (datsF m 0 c).leavesExact 0 t = owns (c : Thread nD τ) (ms0 t) fullShare ((datsF m 0 c).after 0 t) from by
    unfold Dat.leavesExact; rw [live0 t], afterF_0]
  rw [show (datsF m 0 c).leavesExact 1 t = owns (c : Thread nD τ) (ms1 t) fullShare ((datsF m 0 c).after 1 t) from by
    unfold Dat.leavesExact; rw [live1 t], afterF_1]
  rw [show (datsF m 0 c).leavesExact 2 t = owns (c : Thread nD τ) (ms2 t) fullShare ((datsF m 0 c).after 2 t) from by
    unfold Dat.leavesExact; rw [live2 t], afterF_2]
  rw [show (datsF m 0 c).leavesExact 3 t = owns (c : Thread nD τ) (ms3 t) fullShare ((datsF m 0 c).after 3 t) from by
    unfold Dat.leavesExact; rw [live3 t], afterF_3]
  iintro ⟨⟨⟨⟨%d0, S0⟩, ⟨%d1, S1⟩, ⟨%d2, S2⟩, ⟨%d3, S3⟩, ⟨%d4, S4⟩, ⟨%d5, S5⟩⟩, Hg⟩, Ho, ⟨%e0, H0⟩, ⟨%e1, H1⟩, ⟨%e2, H2⟩, ⟨%e3, H3⟩, ⟨%e4, H4⟩⟩
  iapply ((kernelRun_A c (grid0.coords t) _ _ _ _ _ _ _ _ _ _ _ _ _ _ _ _ _ _ _ _ _ _ h1 h2 h3 h4 (iblk m c 0 t) (iblk m c 1 t) (iblk m c 2 t) (iblk m c 3 t) d0 d1 d2 d3 d4 d5).2.2.2.2.2.2.2 e4 Set.univ _)
  isplitl [H0]; · iexact H0
  isplitl [H1]; · iexact H1
  isplitl [H2]; · iexact H2
  isplitl [H3]; · iexact H3
  isplitl [H4]; · iexact H4
  isplitl [S0]; · iexact S0
  isplitl [S1]; · iexact S1
  isplitl [S2]; · iexact S2
  isplitl [S3]; · iexact S3
  isplitl [S4]; · iexact S4
  isplitl [S5]; · iexact S5
  iintro ⟨H0, H1, H2, H3, H4, S0, S1, S2, S3, S4, S5⟩
  isplitl [S0 S1 S2 S3 S4 S5 Hg]
  · isplitl [S0 S1 S2 S3 S4 S5]
    · isplitl [S0]
      · iexists _; unfold owns; iexists _; isplitr; swap
        · iexact S0
        · ipureintro; rfl
      isplitl [S1]
      · iexists _; unfold owns; iexists _; isplitr; swap
        · iexact S1
        · ipureintro; rfl
      isplitl [S2]
      · iexists _; unfold owns; iexists _; isplitr; swap
        · iexact S2
        · ipureintro; rfl
      isplitl [S3]
      · iexists _; unfold owns; iexists _; isplitr; swap
        · iexact S3
        · ipureintro; rfl
      isplitl [S4]
      · iexists _; unfold owns; iexists _; isplitr; swap
        · iexact S4
        · ipureintro; rfl
      iexists _; unfold owns; iexists _; isplitr; swap
      · iexact S5
      · ipureintro; rfl
    · iexact Hg
  isplitl [Ho]; · iexact Ho
  isplitl [H0]; · iexact H0
  isplitl [H1]; · iexact H1
  isplitl [H2]; · iexact H2
  isplitl [H3]; · iexact H3
  iexists _; unfold owns; iexists _; isplitr; swap
  · iexact H4
  · ipureintro; rfl

end Cert.Kernel.Attn

end
-- ==== Proof.K.FrameB.lean ====
/- The attention kernel's body obligation at the points of one of its eight cases, for the frame. -/
import proofs.«166778_j29291676958807_2_alg».proof.Proof.K.FrameDefs

set_option maxRecDepth 16384

noncomputable section

namespace Cert.Kernel.Attn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 8000000 in
/-- The body at a point of case B: the case's run applies, from the scratch buffers at whatever they hold to the scratch buffers at whatever it leaves. -/
theorem soundF_B (c : Dev nD) (t : Fin cfg0.N) (h1 : k0_cond1 (grid0.coords t) = 1#1) (h2 : ¬k0_cond2 (grid0.coords t) = 1#1) (h3 : ¬k0_cond3 (grid0.coords t) = 1#1) (h4 : ¬k0_cond4 (grid0.coords t) = 1#1) :
    bodyPreF m c t ⊢ wp frame (wpE (defs₀ (F := F)) Variants.none c none) Set.univ (bodyAt0 t) (fun _ => bodyPostF m c t) := by
  unfold bodyPreF bodyPostF bodyAt0
  simp only [beforeF_0, beforeF_1, beforeF_2, beforeF_3]
  rw [show (datsF m 0 c).owesAt () t.succ = (datsF m 0 c).owesAt () t.castSucc from rfl]
  rw [show (datsF m 0 c).Φ t.succ = Pipeline.ΦA spec0 c from rfl, show (datsF m 0 c).Φ t.castSucc = Pipeline.ΦA spec0 c from rfl, PhiA_eq]
  rw [show (datsF m 0 c).leavesExact 0 t = owns (c : Thread nD τ) (ms0 t) fullShare ((datsF m 0 c).after 0 t) from by
    unfold Dat.leavesExact; rw [live0 t], afterF_0]
  rw [show (datsF m 0 c).leavesExact 1 t = owns (c : Thread nD τ) (ms1 t) fullShare ((datsF m 0 c).after 1 t) from by
    unfold Dat.leavesExact; rw [live1 t], afterF_1]
  rw [show (datsF m 0 c).leavesExact 2 t = owns (c : Thread nD τ) (ms2 t) fullShare ((datsF m 0 c).after 2 t) from by
    unfold Dat.leavesExact; rw [live2 t], afterF_2]
  rw [show (datsF m 0 c).leavesExact 3 t = owns (c : Thread nD τ) (ms3 t) fullShare ((datsF m 0 c).after 3 t) from by
    unfold Dat.leavesExact; rw [live3 t], afterF_3]
  iintro ⟨⟨⟨⟨%d0, S0⟩, ⟨%d1, S1⟩, ⟨%d2, S2⟩, ⟨%d3, S3⟩, ⟨%d4, S4⟩, ⟨%d5, S5⟩⟩, Hg⟩, Ho, ⟨%e0, H0⟩, ⟨%e1, H1⟩, ⟨%e2, H2⟩, ⟨%e3, H3⟩, ⟨%e4, H4⟩⟩
  iapply ((kernelRun_B c (grid0.coords t) _ _ _ _ _ _ _ _ _ _ _ _ _ _ _ _ _ _ _ _ _ _ h1 h2 h3 h4 (iblk m c 0 t) (iblk m c 1 t) (iblk m c 2 t) (iblk m c 3 t) d0 d1 d2 d3 d4 d5).2.2.2.2.2.2.2 e4 Set.univ _)
  isplitl [H0]; · iexact H0
  isplitl [H1]; · iexact H1
  isplitl [H2]; · iexact H2
  isplitl [H3]; · iexact H3
  isplitl [H4]; · iexact H4
  isplitl [S0]; · iexact S0
  isplitl [S1]; · iexact S1
  isplitl [S2]; · iexact S2
  isplitl [S3]; · iexact S3
  isplitl [S4]; · iexact S4
  isplitl [S5]; · iexact S5
  iintro ⟨H0, H1, H2, H3, H4, S0, S1, S2, S3, S4, S5⟩
  isplitl [S0 S1 S2 S3 S4 S5 Hg]
  · isplitl [S0 S1 S2 S3 S4 S5]
    · isplitl [S0]
      · iexists _; unfold owns; iexists _; isplitr; swap
        · iexact S0
        · ipureintro; rfl
      isplitl [S1]
      · iexists _; unfold owns; iexists _; isplitr; swap
        · iexact S1
        · ipureintro; rfl
      isplitl [S2]
      · iexists _; unfold owns; iexists _; isplitr; swap
        · iexact S2
        · ipureintro; rfl
      isplitl [S3]
      · iexists _; unfold owns; iexists _; isplitr; swap
        · iexact S3
        · ipureintro; rfl
      isplitl [S4]
      · iexists _; unfold owns; iexists _; isplitr; swap
        · iexact S4
        · ipureintro; rfl
      iexists _; unfold owns; iexists _; isplitr; swap
      · iexact S5
      · ipureintro; rfl
    · iexact Hg
  isplitl [Ho]; · iexact Ho
  isplitl [H0]; · iexact H0
  isplitl [H1]; · iexact H1
  isplitl [H2]; · iexact H2
  isplitl [H3]; · iexact H3
  iexists _; unfold owns; iexists _; isplitr; swap
  · iexact H4
  · ipureintro; rfl

end Cert.Kernel.Attn

end
-- ==== Proof.K.FrameC.lean ====
/- The attention kernel's body obligation at the points of one of its eight cases, for the frame. -/
import proofs.«166778_j29291676958807_2_alg».proof.Proof.K.FrameDefs

set_option maxRecDepth 16384

noncomputable section

namespace Cert.Kernel.Attn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 8000000 in
/-- The body at a point of case C: the case's run applies, from the scratch buffers at whatever they hold to the scratch buffers at whatever it leaves. -/
theorem soundF_C (c : Dev nD) (t : Fin cfg0.N) (h1 : k0_cond1 (grid0.coords t) = 1#1) (h2 : ¬k0_cond2 (grid0.coords t) = 1#1) (h3 : ¬k0_cond3 (grid0.coords t) = 1#1) (h4 : k0_cond4 (grid0.coords t) = 1#1) :
    bodyPreF m c t ⊢ wp frame (wpE (defs₀ (F := F)) Variants.none c none) Set.univ (bodyAt0 t) (fun _ => bodyPostF m c t) := by
  unfold bodyPreF bodyPostF bodyAt0
  simp only [beforeF_0, beforeF_1, beforeF_2, beforeF_3]
  rw [show (datsF m 0 c).owesAt () t.succ = (datsF m 0 c).owesAt () t.castSucc from rfl]
  rw [show (datsF m 0 c).Φ t.succ = Pipeline.ΦA spec0 c from rfl, show (datsF m 0 c).Φ t.castSucc = Pipeline.ΦA spec0 c from rfl, PhiA_eq]
  rw [show (datsF m 0 c).leavesExact 0 t = owns (c : Thread nD τ) (ms0 t) fullShare ((datsF m 0 c).after 0 t) from by
    unfold Dat.leavesExact; rw [live0 t], afterF_0]
  rw [show (datsF m 0 c).leavesExact 1 t = owns (c : Thread nD τ) (ms1 t) fullShare ((datsF m 0 c).after 1 t) from by
    unfold Dat.leavesExact; rw [live1 t], afterF_1]
  rw [show (datsF m 0 c).leavesExact 2 t = owns (c : Thread nD τ) (ms2 t) fullShare ((datsF m 0 c).after 2 t) from by
    unfold Dat.leavesExact; rw [live2 t], afterF_2]
  rw [show (datsF m 0 c).leavesExact 3 t = owns (c : Thread nD τ) (ms3 t) fullShare ((datsF m 0 c).after 3 t) from by
    unfold Dat.leavesExact; rw [live3 t], afterF_3]
  iintro ⟨⟨⟨⟨%d0, S0⟩, ⟨%d1, S1⟩, ⟨%d2, S2⟩, ⟨%d3, S3⟩, ⟨%d4, S4⟩, ⟨%d5, S5⟩⟩, Hg⟩, Ho, ⟨%e0, H0⟩, ⟨%e1, H1⟩, ⟨%e2, H2⟩, ⟨%e3, H3⟩, ⟨%e4, H4⟩⟩
  iapply ((kernelRun_C c (grid0.coords t) _ _ _ _ _ _ _ _ _ _ _ _ _ _ _ _ _ _ _ _ _ _ h1 h2 h3 h4 (iblk m c 0 t) (iblk m c 1 t) (iblk m c 2 t) (iblk m c 3 t) d0 d1 d2 d3 d4 d5).2.2.2.2.2.2.2 e4 Set.univ _)
  isplitl [H0]; · iexact H0
  isplitl [H1]; · iexact H1
  isplitl [H2]; · iexact H2
  isplitl [H3]; · iexact H3
  isplitl [H4]; · iexact H4
  isplitl [S0]; · iexact S0
  isplitl [S1]; · iexact S1
  isplitl [S2]; · iexact S2
  isplitl [S3]; · iexact S3
  isplitl [S4]; · iexact S4
  isplitl [S5]; · iexact S5
  iintro ⟨H0, H1, H2, H3, H4, S0, S1, S2, S3, S4, S5⟩
  isplitl [S0 S1 S2 S3 S4 S5 Hg]
  · isplitl [S0 S1 S2 S3 S4 S5]
    · isplitl [S0]
      · iexists _; unfold owns; iexists _; isplitr; swap
        · iexact S0
        · ipureintro; rfl
      isplitl [S1]
      · iexists _; unfold owns; iexists _; isplitr; swap
        · iexact S1
        · ipureintro; rfl
      isplitl [S2]
      · iexists _; unfold owns; iexists _; isplitr; swap
        · iexact S2
        · ipureintro; rfl
      isplitl [S3]
      · iexists _; unfold owns; iexists _; isplitr; swap
        · iexact S3
        · ipureintro; rfl
      isplitl [S4]
      · iexists _; unfold owns; iexists _; isplitr; swap
        · iexact S4
        · ipureintro; rfl
      iexists _; unfold owns; iexists _; isplitr; swap
      · iexact S5
      · ipureintro; rfl
    · iexact Hg
  isplitl [Ho]; · iexact Ho
  isplitl [H0]; · iexact H0
  isplitl [H1]; · iexact H1
  isplitl [H2]; · iexact H2
  isplitl [H3]; · iexact H3
  iexists _; unfold owns; iexists _; isplitr; swap
  · iexact H4
  · ipureintro; rfl

end Cert.Kernel.Attn

end
-- ==== Proof.K.FrameD.lean ====
/- The attention kernel's body obligation at the points of one of its eight cases, for the frame. -/
import proofs.«166778_j29291676958807_2_alg».proof.Proof.K.FrameDefs

set_option maxRecDepth 16384

noncomputable section

namespace Cert.Kernel.Attn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 8000000 in
/-- The body at a point of case D: the case's run applies, from the scratch buffers at whatever they hold to the scratch buffers at whatever it leaves. -/
theorem soundF_D (c : Dev nD) (t : Fin cfg0.N) (h1 : ¬k0_cond1 (grid0.coords t) = 1#1) (h2 : k0_cond2 (grid0.coords t) = 1#1) (h3 : k0_cond3 (grid0.coords t) = 1#1) (h4 : ¬k0_cond4 (grid0.coords t) = 1#1) :
    bodyPreF m c t ⊢ wp frame (wpE (defs₀ (F := F)) Variants.none c none) Set.univ (bodyAt0 t) (fun _ => bodyPostF m c t) := by
  unfold bodyPreF bodyPostF bodyAt0
  simp only [beforeF_0, beforeF_1, beforeF_2, beforeF_3]
  rw [show (datsF m 0 c).owesAt () t.succ = (datsF m 0 c).owesAt () t.castSucc from rfl]
  rw [show (datsF m 0 c).Φ t.succ = Pipeline.ΦA spec0 c from rfl, show (datsF m 0 c).Φ t.castSucc = Pipeline.ΦA spec0 c from rfl, PhiA_eq]
  rw [show (datsF m 0 c).leavesExact 0 t = owns (c : Thread nD τ) (ms0 t) fullShare ((datsF m 0 c).after 0 t) from by
    unfold Dat.leavesExact; rw [live0 t], afterF_0]
  rw [show (datsF m 0 c).leavesExact 1 t = owns (c : Thread nD τ) (ms1 t) fullShare ((datsF m 0 c).after 1 t) from by
    unfold Dat.leavesExact; rw [live1 t], afterF_1]
  rw [show (datsF m 0 c).leavesExact 2 t = owns (c : Thread nD τ) (ms2 t) fullShare ((datsF m 0 c).after 2 t) from by
    unfold Dat.leavesExact; rw [live2 t], afterF_2]
  rw [show (datsF m 0 c).leavesExact 3 t = owns (c : Thread nD τ) (ms3 t) fullShare ((datsF m 0 c).after 3 t) from by
    unfold Dat.leavesExact; rw [live3 t], afterF_3]
  iintro ⟨⟨⟨⟨%d0, S0⟩, ⟨%d1, S1⟩, ⟨%d2, S2⟩, ⟨%d3, S3⟩, ⟨%d4, S4⟩, ⟨%d5, S5⟩⟩, Hg⟩, Ho, ⟨%e0, H0⟩, ⟨%e1, H1⟩, ⟨%e2, H2⟩, ⟨%e3, H3⟩, ⟨%e4, H4⟩⟩
  iapply ((kernelRun_D c (grid0.coords t) _ _ _ _ _ _ _ _ _ _ _ _ _ _ _ _ _ _ _ _ _ _ h1 h2 h3 h4 (iblk m c 0 t) (iblk m c 1 t) (iblk m c 2 t) (iblk m c 3 t) d0 d1 d2 d3 d4 d5).2.2.2.2.2.2.2 e4 Set.univ _)
  isplitl [H0]; · iexact H0
  isplitl [H1]; · iexact H1
  isplitl [H2]; · iexact H2
  isplitl [H3]; · iexact H3
  isplitl [H4]; · iexact H4
  isplitl [S0]; · iexact S0
  isplitl [S1]; · iexact S1
  isplitl [S2]; · iexact S2
  isplitl [S3]; · iexact S3
  isplitl [S4]; · iexact S4
  isplitl [S5]; · iexact S5
  iintro ⟨H0, H1, H2, H3, H4, S0, S1, S2, S3, S4, S5⟩
  isplitl [S0 S1 S2 S3 S4 S5 Hg]
  · isplitl [S0 S1 S2 S3 S4 S5]
    · isplitl [S0]
      · iexists _; unfold owns; iexists _; isplitr; swap
        · iexact S0
        · ipureintro; rfl
      isplitl [S1]
      · iexists _; unfold owns; iexists _; isplitr; swap
        · iexact S1
        · ipureintro; rfl
      isplitl [S2]
      · iexists _; unfold owns; iexists _; isplitr; swap
        · iexact S2
        · ipureintro; rfl
      isplitl [S3]
      · iexists _; unfold owns; iexists _; isplitr; swap
        · iexact S3
        · ipureintro; rfl
      isplitl [S4]
      · iexists _; unfold owns; iexists _; isplitr; swap
        · iexact S4
        · ipureintro; rfl
      iexists _; unfold owns; iexists _; isplitr; swap
      · iexact S5
      · ipureintro; rfl
    · iexact Hg
  isplitl [Ho]; · iexact Ho
  isplitl [H0]; · iexact H0
  isplitl [H1]; · iexact H1
  isplitl [H2]; · iexact H2
  isplitl [H3]; · iexact H3
  iexists _; unfold owns; iexists _; isplitr; swap
  · iexact H4
  · ipureintro; rfl

end Cert.Kernel.Attn

end
-- ==== Proof.K.FrameE.lean ====
/- The attention kernel's body obligation at the points of one of its eight cases, for the frame. -/
import proofs.«166778_j29291676958807_2_alg».proof.Proof.K.FrameDefs

set_option maxRecDepth 16384

noncomputable section

namespace Cert.Kernel.Attn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 8000000 in
/-- The body at a point of case E: the case's run applies, from the scratch buffers at whatever they hold to the scratch buffers at whatever it leaves. -/
theorem soundF_E (c : Dev nD) (t : Fin cfg0.N) (h1 : ¬k0_cond1 (grid0.coords t) = 1#1) (h2 : ¬k0_cond2 (grid0.coords t) = 1#1) (h3 : k0_cond3 (grid0.coords t) = 1#1) (h4 : ¬k0_cond4 (grid0.coords t) = 1#1) :
    bodyPreF m c t ⊢ wp frame (wpE (defs₀ (F := F)) Variants.none c none) Set.univ (bodyAt0 t) (fun _ => bodyPostF m c t) := by
  unfold bodyPreF bodyPostF bodyAt0
  simp only [beforeF_0, beforeF_1, beforeF_2, beforeF_3]
  rw [show (datsF m 0 c).owesAt () t.succ = (datsF m 0 c).owesAt () t.castSucc from rfl]
  rw [show (datsF m 0 c).Φ t.succ = Pipeline.ΦA spec0 c from rfl, show (datsF m 0 c).Φ t.castSucc = Pipeline.ΦA spec0 c from rfl, PhiA_eq]
  rw [show (datsF m 0 c).leavesExact 0 t = owns (c : Thread nD τ) (ms0 t) fullShare ((datsF m 0 c).after 0 t) from by
    unfold Dat.leavesExact; rw [live0 t], afterF_0]
  rw [show (datsF m 0 c).leavesExact 1 t = owns (c : Thread nD τ) (ms1 t) fullShare ((datsF m 0 c).after 1 t) from by
    unfold Dat.leavesExact; rw [live1 t], afterF_1]
  rw [show (datsF m 0 c).leavesExact 2 t = owns (c : Thread nD τ) (ms2 t) fullShare ((datsF m 0 c).after 2 t) from by
    unfold Dat.leavesExact; rw [live2 t], afterF_2]
  rw [show (datsF m 0 c).leavesExact 3 t = owns (c : Thread nD τ) (ms3 t) fullShare ((datsF m 0 c).after 3 t) from by
    unfold Dat.leavesExact; rw [live3 t], afterF_3]
  iintro ⟨⟨⟨⟨%d0, S0⟩, ⟨%d1, S1⟩, ⟨%d2, S2⟩, ⟨%d3, S3⟩, ⟨%d4, S4⟩, ⟨%d5, S5⟩⟩, Hg⟩, Ho, ⟨%e0, H0⟩, ⟨%e1, H1⟩, ⟨%e2, H2⟩, ⟨%e3, H3⟩, ⟨%e4, H4⟩⟩
  iapply ((kernelRun_E c (grid0.coords t) _ _ _ _ _ _ _ _ _ _ _ _ _ _ _ _ _ _ _ _ _ _ h1 h2 h3 h4 (iblk m c 0 t) (iblk m c 1 t) (iblk m c 2 t) (iblk m c 3 t) d0 d1 d2 d3 d4 d5).2.2.2.2.2.2.2 e4 Set.univ _)
  isplitl [H0]; · iexact H0
  isplitl [H1]; · iexact H1
  isplitl [H2]; · iexact H2
  isplitl [H3]; · iexact H3
  isplitl [H4]; · iexact H4
  isplitl [S0]; · iexact S0
  isplitl [S1]; · iexact S1
  isplitl [S2]; · iexact S2
  isplitl [S3]; · iexact S3
  isplitl [S4]; · iexact S4
  isplitl [S5]; · iexact S5
  iintro ⟨H0, H1, H2, H3, H4, S0, S1, S2, S3, S4, S5⟩
  isplitl [S0 S1 S2 S3 S4 S5 Hg]
  · isplitl [S0 S1 S2 S3 S4 S5]
    · isplitl [S0]
      · iexists _; unfold owns; iexists _; isplitr; swap
        · iexact S0
        · ipureintro; rfl
      isplitl [S1]
      · iexists _; unfold owns; iexists _; isplitr; swap
        · iexact S1
        · ipureintro; rfl
      isplitl [S2]
      · iexists _; unfold owns; iexists _; isplitr; swap
        · iexact S2
        · ipureintro; rfl
      isplitl [S3]
      · iexists _; unfold owns; iexists _; isplitr; swap
        · iexact S3
        · ipureintro; rfl
      isplitl [S4]
      · iexists _; unfold owns; iexists _; isplitr; swap
        · iexact S4
        · ipureintro; rfl
      iexists _; unfold owns; iexists _; isplitr; swap
      · iexact S5
      · ipureintro; rfl
    · iexact Hg
  isplitl [Ho]; · iexact Ho
  isplitl [H0]; · iexact H0
  isplitl [H1]; · iexact H1
  isplitl [H2]; · iexact H2
  isplitl [H3]; · iexact H3
  iexists _; unfold owns; iexists _; isplitr; swap
  · iexact H4
  · ipureintro; rfl

end Cert.Kernel.Attn

end
-- ==== Proof.K.FrameF.lean ====
/- The attention kernel's body obligation at the points of one of its eight cases, for the frame. -/
import proofs.«166778_j29291676958807_2_alg».proof.Proof.K.FrameDefs

set_option maxRecDepth 16384

noncomputable section

namespace Cert.Kernel.Attn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 8000000 in
/-- The body at a point of case F: the case's run applies, from the scratch buffers at whatever they hold to the scratch buffers at whatever it leaves. -/
theorem soundF_F (c : Dev nD) (t : Fin cfg0.N) (h1 : ¬k0_cond1 (grid0.coords t) = 1#1) (h2 : ¬k0_cond2 (grid0.coords t) = 1#1) (h3 : ¬k0_cond3 (grid0.coords t) = 1#1) (h4 : ¬k0_cond4 (grid0.coords t) = 1#1) :
    bodyPreF m c t ⊢ wp frame (wpE (defs₀ (F := F)) Variants.none c none) Set.univ (bodyAt0 t) (fun _ => bodyPostF m c t) := by
  unfold bodyPreF bodyPostF bodyAt0
  simp only [beforeF_0, beforeF_1, beforeF_2, beforeF_3]
  rw [show (datsF m 0 c).owesAt () t.succ = (datsF m 0 c).owesAt () t.castSucc from rfl]
  rw [show (datsF m 0 c).Φ t.succ = Pipeline.ΦA spec0 c from rfl, show (datsF m 0 c).Φ t.castSucc = Pipeline.ΦA spec0 c from rfl, PhiA_eq]
  rw [show (datsF m 0 c).leavesExact 0 t = owns (c : Thread nD τ) (ms0 t) fullShare ((datsF m 0 c).after 0 t) from by
    unfold Dat.leavesExact; rw [live0 t], afterF_0]
  rw [show (datsF m 0 c).leavesExact 1 t = owns (c : Thread nD τ) (ms1 t) fullShare ((datsF m 0 c).after 1 t) from by
    unfold Dat.leavesExact; rw [live1 t], afterF_1]
  rw [show (datsF m 0 c).leavesExact 2 t = owns (c : Thread nD τ) (ms2 t) fullShare ((datsF m 0 c).after 2 t) from by
    unfold Dat.leavesExact; rw [live2 t], afterF_2]
  rw [show (datsF m 0 c).leavesExact 3 t = owns (c : Thread nD τ) (ms3 t) fullShare ((datsF m 0 c).after 3 t) from by
    unfold Dat.leavesExact; rw [live3 t], afterF_3]
  iintro ⟨⟨⟨⟨%d0, S0⟩, ⟨%d1, S1⟩, ⟨%d2, S2⟩, ⟨%d3, S3⟩, ⟨%d4, S4⟩, ⟨%d5, S5⟩⟩, Hg⟩, Ho, ⟨%e0, H0⟩, ⟨%e1, H1⟩, ⟨%e2, H2⟩, ⟨%e3, H3⟩, ⟨%e4, H4⟩⟩
  iapply ((kernelRun_F c (grid0.coords t) _ _ _ _ _ _ _ _ _ _ _ _ _ _ _ _ _ _ _ _ _ _ h1 h2 h3 h4 (iblk m c 0 t) (iblk m c 1 t) (iblk m c 2 t) (iblk m c 3 t) d0 d1 d2 d3 d4 d5).2.2.2.2.2.2.2 e4 Set.univ _)
  isplitl [H0]; · iexact H0
  isplitl [H1]; · iexact H1
  isplitl [H2]; · iexact H2
  isplitl [H3]; · iexact H3
  isplitl [H4]; · iexact H4
  isplitl [S0]; · iexact S0
  isplitl [S1]; · iexact S1
  isplitl [S2]; · iexact S2
  isplitl [S3]; · iexact S3
  isplitl [S4]; · iexact S4
  isplitl [S5]; · iexact S5
  iintro ⟨H0, H1, H2, H3, H4, S0, S1, S2, S3, S4, S5⟩
  isplitl [S0 S1 S2 S3 S4 S5 Hg]
  · isplitl [S0 S1 S2 S3 S4 S5]
    · isplitl [S0]
      · iexists _; unfold owns; iexists _; isplitr; swap
        · iexact S0
        · ipureintro; rfl
      isplitl [S1]
      · iexists _; unfold owns; iexists _; isplitr; swap
        · iexact S1
        · ipureintro; rfl
      isplitl [S2]
      · iexists _; unfold owns; iexists _; isplitr; swap
        · iexact S2
        · ipureintro; rfl
      isplitl [S3]
      · iexists _; unfold owns; iexists _; isplitr; swap
        · iexact S3
        · ipureintro; rfl
      isplitl [S4]
      · iexists _; unfold owns; iexists _; isplitr; swap
        · iexact S4
        · ipureintro; rfl
      iexists _; unfold owns; iexists _; isplitr; swap
      · iexact S5
      · ipureintro; rfl
    · iexact Hg
  isplitl [Ho]; · iexact Ho
  isplitl [H0]; · iexact H0
  isplitl [H1]; · iexact H1
  isplitl [H2]; · iexact H2
  isplitl [H3]; · iexact H3
  iexists _; unfold owns; iexists _; isplitr; swap
  · iexact H4
  · ipureintro; rfl

end Cert.Kernel.Attn

end
-- ==== Proof.K.FrameG.lean ====
/- The attention kernel's body obligation at the points of one of its eight cases, for the frame. -/
import proofs.«166778_j29291676958807_2_alg».proof.Proof.K.FrameDefs

set_option maxRecDepth 16384

noncomputable section

namespace Cert.Kernel.Attn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 8000000 in
/-- The body at a point of case G: the case's run applies, from the scratch buffers at whatever they hold to the scratch buffers at whatever it leaves. -/
theorem soundF_G (c : Dev nD) (t : Fin cfg0.N) (h1 : ¬k0_cond1 (grid0.coords t) = 1#1) (h2 : ¬k0_cond2 (grid0.coords t) = 1#1) (h3 : k0_cond3 (grid0.coords t) = 1#1) (h4 : k0_cond4 (grid0.coords t) = 1#1) :
    bodyPreF m c t ⊢ wp frame (wpE (defs₀ (F := F)) Variants.none c none) Set.univ (bodyAt0 t) (fun _ => bodyPostF m c t) := by
  unfold bodyPreF bodyPostF bodyAt0
  simp only [beforeF_0, beforeF_1, beforeF_2, beforeF_3]
  rw [show (datsF m 0 c).owesAt () t.succ = (datsF m 0 c).owesAt () t.castSucc from rfl]
  rw [show (datsF m 0 c).Φ t.succ = Pipeline.ΦA spec0 c from rfl, show (datsF m 0 c).Φ t.castSucc = Pipeline.ΦA spec0 c from rfl, PhiA_eq]
  rw [show (datsF m 0 c).leavesExact 0 t = owns (c : Thread nD τ) (ms0 t) fullShare ((datsF m 0 c).after 0 t) from by
    unfold Dat.leavesExact; rw [live0 t], afterF_0]
  rw [show (datsF m 0 c).leavesExact 1 t = owns (c : Thread nD τ) (ms1 t) fullShare ((datsF m 0 c).after 1 t) from by
    unfold Dat.leavesExact; rw [live1 t], afterF_1]
  rw [show (datsF m 0 c).leavesExact 2 t = owns (c : Thread nD τ) (ms2 t) fullShare ((datsF m 0 c).after 2 t) from by
    unfold Dat.leavesExact; rw [live2 t], afterF_2]
  rw [show (datsF m 0 c).leavesExact 3 t = owns (c : Thread nD τ) (ms3 t) fullShare ((datsF m 0 c).after 3 t) from by
    unfold Dat.leavesExact; rw [live3 t], afterF_3]
  iintro ⟨⟨⟨⟨%d0, S0⟩, ⟨%d1, S1⟩, ⟨%d2, S2⟩, ⟨%d3, S3⟩, ⟨%d4, S4⟩, ⟨%d5, S5⟩⟩, Hg⟩, Ho, ⟨%e0, H0⟩, ⟨%e1, H1⟩, ⟨%e2, H2⟩, ⟨%e3, H3⟩, ⟨%e4, H4⟩⟩
  iapply ((kernelRun_G c (grid0.coords t) _ _ _ _ _ _ _ _ _ _ _ _ _ _ _ _ _ _ _ _ _ _ h1 h2 h3 h4 (iblk m c 0 t) (iblk m c 1 t) (iblk m c 2 t) (iblk m c 3 t) d0 d1 d2 d3 d4 d5).2.2.2.2.2.2.2 e4 Set.univ _)
  isplitl [H0]; · iexact H0
  isplitl [H1]; · iexact H1
  isplitl [H2]; · iexact H2
  isplitl [H3]; · iexact H3
  isplitl [H4]; · iexact H4
  isplitl [S0]; · iexact S0
  isplitl [S1]; · iexact S1
  isplitl [S2]; · iexact S2
  isplitl [S3]; · iexact S3
  isplitl [S4]; · iexact S4
  isplitl [S5]; · iexact S5
  iintro ⟨H0, H1, H2, H3, H4, S0, S1, S2, S3, S4, S5⟩
  isplitl [S0 S1 S2 S3 S4 S5 Hg]
  · isplitl [S0 S1 S2 S3 S4 S5]
    · isplitl [S0]
      · iexists _; unfold owns; iexists _; isplitr; swap
        · iexact S0
        · ipureintro; rfl
      isplitl [S1]
      · iexists _; unfold owns; iexists _; isplitr; swap
        · iexact S1
        · ipureintro; rfl
      isplitl [S2]
      · iexists _; unfold owns; iexists _; isplitr; swap
        · iexact S2
        · ipureintro; rfl
      isplitl [S3]
      · iexists _; unfold owns; iexists _; isplitr; swap
        · iexact S3
        · ipureintro; rfl
      isplitl [S4]
      · iexists _; unfold owns; iexists _; isplitr; swap
        · iexact S4
        · ipureintro; rfl
      iexists _; unfold owns; iexists _; isplitr; swap
      · iexact S5
      · ipureintro; rfl
    · iexact Hg
  isplitl [Ho]; · iexact Ho
  isplitl [H0]; · iexact H0
  isplitl [H1]; · iexact H1
  isplitl [H2]; · iexact H2
  isplitl [H3]; · iexact H3
  iexists _; unfold owns; iexists _; isplitr; swap
  · iexact H4
  · ipureintro; rfl

end Cert.Kernel.Attn

end
-- ==== Proof.K.FrameH.lean ====
/- The attention kernel's body obligation at the points of one of its eight cases, for the frame. -/
import proofs.«166778_j29291676958807_2_alg».proof.Proof.K.FrameDefs

set_option maxRecDepth 16384

noncomputable section

namespace Cert.Kernel.Attn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 8000000 in
/-- The body at a point of case H: the case's run applies, from the scratch buffers at whatever they hold to the scratch buffers at whatever it leaves. -/
theorem soundF_H (c : Dev nD) (t : Fin cfg0.N) (h1 : ¬k0_cond1 (grid0.coords t) = 1#1) (h2 : ¬k0_cond2 (grid0.coords t) = 1#1) (h3 : ¬k0_cond3 (grid0.coords t) = 1#1) (h4 : k0_cond4 (grid0.coords t) = 1#1) :
    bodyPreF m c t ⊢ wp frame (wpE (defs₀ (F := F)) Variants.none c none) Set.univ (bodyAt0 t) (fun _ => bodyPostF m c t) := by
  unfold bodyPreF bodyPostF bodyAt0
  simp only [beforeF_0, beforeF_1, beforeF_2, beforeF_3]
  rw [show (datsF m 0 c).owesAt () t.succ = (datsF m 0 c).owesAt () t.castSucc from rfl]
  rw [show (datsF m 0 c).Φ t.succ = Pipeline.ΦA spec0 c from rfl, show (datsF m 0 c).Φ t.castSucc = Pipeline.ΦA spec0 c from rfl, PhiA_eq]
  rw [show (datsF m 0 c).leavesExact 0 t = owns (c : Thread nD τ) (ms0 t) fullShare ((datsF m 0 c).after 0 t) from by
    unfold Dat.leavesExact; rw [live0 t], afterF_0]
  rw [show (datsF m 0 c).leavesExact 1 t = owns (c : Thread nD τ) (ms1 t) fullShare ((datsF m 0 c).after 1 t) from by
    unfold Dat.leavesExact; rw [live1 t], afterF_1]
  rw [show (datsF m 0 c).leavesExact 2 t = owns (c : Thread nD τ) (ms2 t) fullShare ((datsF m 0 c).after 2 t) from by
    unfold Dat.leavesExact; rw [live2 t], afterF_2]
  rw [show (datsF m 0 c).leavesExact 3 t = owns (c : Thread nD τ) (ms3 t) fullShare ((datsF m 0 c).after 3 t) from by
    unfold Dat.leavesExact; rw [live3 t], afterF_3]
  iintro ⟨⟨⟨⟨%d0, S0⟩, ⟨%d1, S1⟩, ⟨%d2, S2⟩, ⟨%d3, S3⟩, ⟨%d4, S4⟩, ⟨%d5, S5⟩⟩, Hg⟩, Ho, ⟨%e0, H0⟩, ⟨%e1, H1⟩, ⟨%e2, H2⟩, ⟨%e3, H3⟩, ⟨%e4, H4⟩⟩
  iapply ((kernelRun_H c (grid0.coords t) _ _ _ _ _ _ _ _ _ _ _ _ _ _ _ _ _ _ _ _ _ _ h1 h2 h3 h4 (iblk m c 0 t) (iblk m c 1 t) (iblk m c 2 t) (iblk m c 3 t) d0 d1 d2 d3 d4 d5).2.2.2.2.2.2.2 e4 Set.univ _)
  isplitl [H0]; · iexact H0
  isplitl [H1]; · iexact H1
  isplitl [H2]; · iexact H2
  isplitl [H3]; · iexact H3
  isplitl [H4]; · iexact H4
  isplitl [S0]; · iexact S0
  isplitl [S1]; · iexact S1
  isplitl [S2]; · iexact S2
  isplitl [S3]; · iexact S3
  isplitl [S4]; · iexact S4
  isplitl [S5]; · iexact S5
  iintro ⟨H0, H1, H2, H3, H4, S0, S1, S2, S3, S4, S5⟩
  isplitl [S0 S1 S2 S3 S4 S5 Hg]
  · isplitl [S0 S1 S2 S3 S4 S5]
    · isplitl [S0]
      · iexists _; unfold owns; iexists _; isplitr; swap
        · iexact S0
        · ipureintro; rfl
      isplitl [S1]
      · iexists _; unfold owns; iexists _; isplitr; swap
        · iexact S1
        · ipureintro; rfl
      isplitl [S2]
      · iexists _; unfold owns; iexists _; isplitr; swap
        · iexact S2
        · ipureintro; rfl
      isplitl [S3]
      · iexists _; unfold owns; iexists _; isplitr; swap
        · iexact S3
        · ipureintro; rfl
      isplitl [S4]
      · iexists _; unfold owns; iexists _; isplitr; swap
        · iexact S4
        · ipureintro; rfl
      iexists _; unfold owns; iexists _; isplitr; swap
      · iexact S5
      · ipureintro; rfl
    · iexact Hg
  isplitl [Ho]; · iexact Ho
  isplitl [H0]; · iexact H0
  isplitl [H1]; · iexact H1
  isplitl [H2]; · iexact H2
  isplitl [H3]; · iexact H3
  iexists _; unfold owns; iexists _; isplitr; swap
  · iexact H4
  · ipureintro; rfl

end Cert.Kernel.Attn

end
-- ==== Proof.K.Frame.lean ====
/- The frame of the attention kernel's program: it runs to the end, faults nowhere, and leaves its four argument arrays unchanged. -/
import proofs.«166778_j29291676958807_2_alg».proof.Proof.K.FrameA
import proofs.«166778_j29291676958807_2_alg».proof.Proof.K.FrameB
import proofs.«166778_j29291676958807_2_alg».proof.Proof.K.FrameC
import proofs.«166778_j29291676958807_2_alg».proof.Proof.K.FrameD
import proofs.«166778_j29291676958807_2_alg».proof.Proof.K.FrameE
import proofs.«166778_j29291676958807_2_alg».proof.Proof.K.FrameF
import proofs.«166778_j29291676958807_2_alg».proof.Proof.K.FrameG
import proofs.«166778_j29291676958807_2_alg».proof.Proof.K.FrameH

set_option maxRecDepth 16384

noncomputable section

namespace Cert.Kernel.Attn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body at any point: the four conditions say which of the eight cases the point is in (the other eight combinations meet no point). -/
theorem sound_bodyF (c : Dev nD) (t : Fin cfg0.N) :
    bodyPreF m c t ⊢ wp frame (wpE (defs₀ (F := F)) Variants.none c none) Set.univ (bodyAt0 t) (fun _ => bodyPostF m c t) := by
  by_cases h1 : k0_cond1 (grid0.coords t) = 1#1
  · by_cases h2 : k0_cond2 (grid0.coords t) = 1#1
    · by_cases h3 : k0_cond3 (grid0.coords t) = 1#1
      · by_cases h4 : k0_cond4 (grid0.coords t) = 1#1
        · exfalso; exact absurd h4 (c2_not_c4 t h2)
        · exact soundF_A m c t h1 h2 h3 h4
      · by_cases h4 : k0_cond4 (grid0.coords t) = 1#1
        · exfalso; exact absurd (c2_c3 t h2) h3
        · exfalso; exact absurd (c2_c3 t h2) h3
    · by_cases h3 : k0_cond3 (grid0.coords t) = 1#1
      · by_cases h4 : k0_cond4 (grid0.coords t) = 1#1
        · exfalso; exact absurd (c1_c3_c2 t h1 h3) h2
        · exfalso; exact absurd (c1_c3_c2 t h1 h3) h2
      · by_cases h4 : k0_cond4 (grid0.coords t) = 1#1
        · exact soundF_C m c t h1 h2 h3 h4
        · exact soundF_B m c t h1 h2 h3 h4
  · by_cases h2 : k0_cond2 (grid0.coords t) = 1#1
    · by_cases h3 : k0_cond3 (grid0.coords t) = 1#1
      · by_cases h4 : k0_cond4 (grid0.coords t) = 1#1
        · exfalso; exact absurd h4 (c2_not_c4 t h2)
        · exact soundF_D m c t h1 h2 h3 h4
      · by_cases h4 : k0_cond4 (grid0.coords t) = 1#1
        · exfalso; exact absurd (c2_c3 t h2) h3
        · exfalso; exact absurd (c2_c3 t h2) h3
    · by_cases h3 : k0_cond3 (grid0.coords t) = 1#1
      · by_cases h4 : k0_cond4 (grid0.coords t) = 1#1
        · exact soundF_G m c t h1 h2 h3 h4
        · exact soundF_E m c t h1 h2 h3 h4
      · by_cases h4 : k0_cond4 (grid0.coords t) = 1#1
        · exact soundF_H m c t h1 h2 h3 h4
        · exact soundF_F m c t h1 h2 h3 h4

/-- The library's body obligation, at every point. -/
theorem body_obligationF (c : Dev nD) : BodyObligation (datsF (F := F) m 0 c) (defs₀ (F := F)) Variants.none () Set.univ forgets := fun t => by
  rw [bigSep_W0, bigSep_W0]
  exact sound_bodyF m c t

set_option backward.isDefEq.respectTransparency.types false in
/-- Every weakly fair execution of @main terminates, every input array of the pipeline unchanged at the end. -/
theorem run_mainF : θ_run defs (onTc (τ := τ) (main (F := F))) (s₀ m ρ) (Pipeline.RDat.FramePost (cfgs 0) (fun c => (datsF m 0 c).toRForget forgets) (V m)) :=
  Pipeline.RDat.θ_run_frame cfgs (0 : Fin 1) launch0 defs₀ Variants.none (fun c => (datsF m 0 c).toRForget forgets) m ρ main
    (hbody := fun c => (body_obligationF m c).toRForget) (hshare := fun c => ((datsF m 0 c).toRForget forgets).share_full fun _ => rfl)
    (howed := fun _ _ => rfl) (V := V m) (hmain := hmain m Variants.none) (hA := A_eqF m) (hΦ := fun _ _ => rfl)

/-- The frame: the four argument arrays, each a staged input, end at their launch contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(Eq.mp (congrFun (((datsF m 0 c).toRForget forgets).ArrAt_in 0 rfl _) _) ((h c).1 0)).trans ((A_eqF m c 0).trans (V_main_arg0 m c)),
     (Eq.mp (congrFun (((datsF m 0 c).toRForget forgets).ArrAt_in 1 rfl _) _) ((h c).1 1)).trans ((A_eqF m c 1).trans (V_main_arg1 m c)),
     (Eq.mp (congrFun (((datsF m 0 c).toRForget forgets).ArrAt_in 2 rfl _) _) ((h c).1 2)).trans ((A_eqF m c 2).trans (V_main_arg2 m c)),
     (Eq.mp (congrFun (((datsF m 0 c).toRForget forgets).ArrAt_in 3 rfl _) _) ((h c).1 3)).trans ((A_eqF m c 3).trans (V_main_arg3 m c))⟩)
    (run_mainF m ρ)

end Cert.Kernel.Attn

end
-- ==== Proof.KI.Common.lean ====
/- What the per-point proofs of the attention kernel share: how its four branch conditions relate over the grid, where the output block is idle or written back, the staging and scratch memrefs the body is called with, and the launch invariant spelled buffer by buffer. -/
import proofs.«166778_j29291676958807_2_alg».proof.Proof.Gen.KernelIdeal.Frame
import proofs.«166778_j29291676958807_2_alg».proof.Proof.Gen.KernelIdeal.Points
import proofs.«166778_j29291676958807_2_alg».proof.Proof.Gen.KernelIdeal.Launch

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The four branch conditions over the grid (batch, query tile, key tile) -/

/-- The key tile is the first only if it is not in the query tile's future. -/
theorem c2_c3 : ∀ t : Fin cfg0.N, k0_cond2 (grid0.coords t) = 1#1 → k0_cond3 (grid0.coords t) = 1#1 :=
  (by decide +kernel : ∀ t : Fin grid0.N, k0_cond2 (grid0.coords t) = 1#1 → k0_cond3 (grid0.coords t) = 1#1)
/-- The first key tile is not the last. -/
theorem c2_not_c4 : ∀ t : Fin cfg0.N, k0_cond2 (grid0.coords t) = 1#1 → ¬k0_cond4 (grid0.coords t) = 1#1 :=
  (by decide +kernel : ∀ t : Fin grid0.N, k0_cond2 (grid0.coords t) = 1#1 → ¬k0_cond4 (grid0.coords t) = 1#1)
/-- In the first query tile only the first key tile is not in the future. -/
theorem c1_c3_c2 : ∀ t : Fin cfg0.N, k0_cond1 (grid0.coords t) = 1#1 → k0_cond3 (grid0.coords t) = 1#1 → k0_cond2 (grid0.coords t) = 1#1 :=
  (by decide +kernel : ∀ t : Fin grid0.N, k0_cond1 (grid0.coords t) = 1#1 → k0_cond3 (grid0.coords t) = 1#1 → k0_cond2 (grid0.coords t) = 1#1)
/-- The last key tile is the points ≡ 3 (mod 4). -/
theorem c4_iff : ∀ t : Fin cfg0.N, k0_cond4 (grid0.coords t) = 1#1 ↔ t.val % 4 = 3 :=
  (by decide +kernel : ∀ t : Fin grid0.N, k0_cond4 (grid0.coords t) = 1#1 ↔ t.val % 4 = 3)

/-! ## Where the windows are idle and where the output block is written back -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
/-- Away from the last key tile the output block is idle: nothing is stored into it, -/
theorem idle4 : ∀ t : Fin cfg0.N, ¬k0_cond4 (grid0.coords t) = 1#1 → cfg0.idle 4 (grid0.coords t) = true :=
  (by decide +kernel : ∀ t : Fin grid0.N, ¬k0_cond4 (grid0.coords t) = 1#1 → cfg0.idle 4 (grid0.coords t) = true)
/-- and it is not written back. -/
theorem noFlush4 : ∀ t : Fin cfg0.N, ¬k0_cond4 (grid0.coords t) = 1#1 → (cfg0.win 4).flush t = false :=
  (by decide +kernel : ∀ t : Fin grid0.N, ¬k0_cond4 (grid0.coords t) = 1#1 → win0_4.flush t = false)
/-- At the last key tile it is live. -/
theorem live4 : ∀ t : Fin cfg0.N, k0_cond4 (grid0.coords t) = 1#1 → cfg0.idle 4 (grid0.coords t) = false :=
  (by decide +kernel : ∀ t : Fin grid0.N, k0_cond4 (grid0.coords t) = 1#1 → cfg0.idle 4 (grid0.coords t) = false)

/-! ## The memrefs the body is called with -/

abbrev ms0 (t : Fin cfg0.N) : Memref sig .tc .vmem S1x2048x1024 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x256 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024x256 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1024x256 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x512x256 .f32 := win0_4.stage (cfg0.slots t 4)
abbrev hs4 (t : Fin cfg0.N) : (ms4 t).IsWhole := hstage0_4 ((cfg0.slots t 4).cast nbuf0_4)
/-- The scratch buffers: the K and V caches of the whole sequence, the current Q tile, the running row maximum,
    the running denominator, the running numerator. -/
abbrev sc0 : Memref sig .tc .vmem S2048x256 .bf16 := Memref.whole cc0_scratch0
abbrev sc1 : Memref sig .tc .vmem S2048x256 .bf16 := Memref.whole cc0_scratch1
abbrev sc2 : Memref sig .tc .vmem S512x256 .bf16 := Memref.whole cc0_scratch2
abbrev sc3 : Memref sig .tc .vmem S512x1 .f32 := Memref.whole cc0_scratch3
abbrev sc4 : Memref sig .tc .vmem S512x1 .f32 := Memref.whole cc0_scratch4
abbrev sc5 : Memref sig .tc .vmem S512x256 .f32 := Memref.whole cc0_scratch5

/-- What the launch hands the region: each scratch buffer owned at some contents, and the generator register. -/
theorem PhiA_eq (c : Dev nD) :
    (Pipeline.ΦA spec0 c : sProp 𝕄)
      = iprop(iprop((∃ d, owns (c : Thread nD τ) sc0 fullShare d) ∗ (∃ d, owns (c : Thread nD τ) sc1 fullShare d)
          ∗ (∃ d, owns (c : Thread nD τ) sc2 fullShare d) ∗ (∃ d, owns (c : Thread nD τ) sc3 fullShare d)
          ∗ (∃ d, owns (c : Thread nD τ) sc4 fullShare d) ∗ (∃ d, owns (c : Thread nD τ) sc5 fullShare d)) ∗ (∃ r, prngReg c r)) := by
  unfold Pipeline.ΦA; rw [scopedRest0_eq]; simp only [sc0, sc1, sc2, sc3, sc4, sc5, owns_whole]; try rfl

end Cert.KernelIdeal.Attn

end
-- ==== Proof.KI.RunA.lean ====
/- One grid point of the attention kernel, in one of the eight combinations of its four branches that the grid meets (K/V projection of a key tile when the query tile is the first; Q projection and reset of the running maximum, denominator and numerator at the first key tile; the online-softmax update when the key tile is not in the future; the final quotient at the last key tile): what the body leaves in the output block and in each scratch buffer, as the stores written over the previous contents. -/
import proofs.«166778_j29291676958807_2_alg».proof.Proof.Gen.KernelIdeal.Frame
import proofs.«166778_j29291676958807_2_alg».proof.Proof.Gen.KernelIdeal.Skeleton

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- (the run's proof term is large)
set_option maxHeartbeats 4000000 in
/-- The body's run when the four branch conditions are 1, 2, 3, not 4 taken: on whole memrefs, the four input blocks at their
    contents, the output block and the six scratch buffers at given contents, the body runs to the continuation holding the inputs as they
    were and each of the other seven buffers at its previous contents with the stores of this case written over them (the piece lists are
    what the run finds; a buffer this case does not store into gets the empty list). -/
noncomputable def kernelRun_A (c : Dev nD) (i : grid0.Coords) (arg3 : Memref sig .tc .vmem S1x2048x1024 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1x512x256 .f32) (harg7 : arg7.IsWhole) (arg8 : Memref sig .tc .vmem S2048x256 .bf16) (harg8 : arg8.IsWhole) (arg9 : Memref sig .tc .vmem S2048x256 .bf16) (harg9 : arg9.IsWhole) (arg10 : Memref sig .tc .vmem S512x256 .bf16) (harg10 : arg10.IsWhole) (arg11 : Memref sig .tc .vmem S512x1 .f32) (harg11 : arg11.IsWhole) (arg12 : Memref sig .tc .vmem S512x1 .f32) (harg12 : arg12.IsWhole) (arg13 : Memref sig .tc .vmem S512x256 .f32) (harg13 : arg13.IsWhole) (hc1 : k0_cond1 i = 1#1) (hc2 : k0_cond2 i = 1#1) (hc3 : k0_cond3 i = 1#1) (hc4 : ¬k0_cond4 i = 1#1)
    (x0 : Vec F S1x2048x1024 .f32) (x1 x2 x3 : Vec F S1024x256 .f32) (xs0 xs1 : Vec F S2048x256 .bf16) (xs2 : Vec F S512x256 .bf16) (xs3 xs4 : Vec F S512x1 .f32) (xs5 : Vec F S512x256 .f32) :
    Σ' (L4 : List (View.Piece (Elt F) S1x512x256 .f32)) (LS0 : List (View.Piece (Elt F) S2048x256 .bf16)) (LS1 : List (View.Piece (Elt F) S2048x256 .bf16)) (LS2 : List (View.Piece (Elt F) S512x256 .bf16)) (LS3 : List (View.Piece (Elt F) S512x1 .f32)) (LS4 : List (View.Piece (Elt F) S512x1 .f32)), { LS5 : List (View.Piece (Elt F) S512x256 .f32) //
      ∀ (xi4 : Vec F S1x512x256 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4
            ∗ owns (c : Thread nD τ) arg8 fullShare xs0 ∗ owns (c : Thread nD τ) arg9 fullShare xs1 ∗ owns (c : Thread nD τ) arg10 fullShare xs2
            ∗ owns (c : Thread nD τ) arg11 fullShare xs3 ∗ owns (c : Thread nD τ) arg12 fullShare xs4 ∗ owns (c : Thread nD τ) arg13 fullShare xs5
            ∗ (iprop(owns (c : Thread nD τ) arg3 fullShare x0 ∗ owns (c : Thread nD τ) arg4 fullShare x1 ∗ owns (c : Thread nD τ) arg5 fullShare x2 ∗ owns (c : Thread nD τ) arg6 fullShare x3
              ∗ (arg7.view.loc (c : Thread nD τ) ↦[arg7.view.set]{fullShare} arg7.view.writes (Elt F) (harg7.unread xi4) L4)
              ∗ (arg8.view.loc (c : Thread nD τ) ↦[arg8.view.set]{fullShare} arg8.view.writes (Elt F) (harg8.unread xs0) LS0)
              ∗ (arg9.view.loc (c : Thread nD τ) ↦[arg9.view.set]{fullShare} arg9.view.writes (Elt F) (harg9.unread xs1) LS1)
              ∗ (arg10.view.loc (c : Thread nD τ) ↦[arg10.view.set]{fullShare} arg10.view.writes (Elt F) (harg10.unread xs2) LS2)
              ∗ (arg11.view.loc (c : Thread nD τ) ↦[arg11.view.set]{fullShare} arg11.view.writes (Elt F) (harg11.unread xs3) LS3)
              ∗ (arg12.view.loc (c : Thread nD τ) ↦[arg12.view.set]{fullShare} arg12.view.writes (Elt F) (harg12.unread xs4) LS4)
              ∗ (arg13.view.loc (c : Thread nD τ) ↦[arg13.view.set]{fullShare} arg13.view.writes (Elt F) (harg13.unread xs5) LS5)) -∗ K ⟨⟩))
          ⊢ wp frame (wpE (defs₀ (F := F)) Variants.none c none) E (cc0__fused_attn_kernel i arg3 harg3 arg4 harg4 arg5 harg5 arg6 harg6 arg7 harg7 arg8 harg8 arg9 harg9 arg10 harg10 arg11 harg11 arg12 harg12 arg13 harg13) K } := by
  refine ⟨[], ?_, ?_, ?_, ?_, ?_, ?_, fun xi4 E K => ?run⟩
  case run =>
    simp only [View.writes_nil]
    simp only [cc0__fused_attn_kernel_eq_skeleton]; unfold cc0__fused_attn_kernel_skel
    unfold owns
    iintro ⟨⟨%f0, %hf0, H0⟩, ⟨%f1, %hf1, H1⟩, ⟨%f2, %hf2, H2⟩, ⟨%f3, %hf3, H3⟩, ⟨%f4, %hf4, H4⟩, ⟨%g0, %hg0, S0⟩, ⟨%g1, %hg1, S1⟩, ⟨%g2, %hg2, S2⟩, ⟨%g3, %hg3, S3⟩, ⟨%g4, %hg4, S4⟩, ⟨%g5, %hg5, S5⟩, Hk⟩
    obtain rfl := harg3.eq_unread hf0; obtain rfl := harg4.eq_unread hf1; obtain rfl := harg5.eq_unread hf2; obtain rfl := harg6.eq_unread hf3
    obtain rfl := harg7.eq_unread hf4
    obtain rfl := harg8.eq_unread hg0; obtain rfl := harg9.eq_unread hg1; obtain rfl := harg10.eq_unread hg2
    obtain rfl := harg11.eq_unread hg3; obtain rfl := harg12.eq_unread hg4; obtain rfl := harg13.eq_unread hg5
    sl_exec (disch := first | exact hc1 | exact hc2 | exact hc3 | exact hc4)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexact H4
    isplitl [S0]; · iexact S0
    isplitl [S1]; · iexact S1
    isplitl [S2]; · iexact S2
    isplitl [S3]; · iexact S3
    isplitl [S4]; · iexact S4
    iexact S5

end Cert.KernelIdeal.Attn

end
-- ==== Proof.KI.RunB.lean ====
/- One grid point of the attention kernel, in one of the eight combinations of its four branches that the grid meets (K/V projection of a key tile when the query tile is the first; Q projection and reset of the running maximum, denominator and numerator at the first key tile; the online-softmax update when the key tile is not in the future; the final quotient at the last key tile): what the body leaves in the output block and in each scratch buffer, as the stores written over the previous contents. -/
import proofs.«166778_j29291676958807_2_alg».proof.Proof.KI.RunA

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- (the run's proof term is large)
set_option maxHeartbeats 4000000 in
/-- The body's run when the four branch conditions are 1, not 2, not 3, not 4 taken: on whole memrefs, the four input blocks at their
    contents, the output block and the six scratch buffers at given contents, the body runs to the continuation holding the inputs as they
    were and each of the other seven buffers at its previous contents with the stores of this case written over them (the piece lists are
    what the run finds; a buffer this case does not store into gets the empty list). -/
noncomputable def kernelRun_B (c : Dev nD) (i : grid0.Coords) (arg3 : Memref sig .tc .vmem S1x2048x1024 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1x512x256 .f32) (harg7 : arg7.IsWhole) (arg8 : Memref sig .tc .vmem S2048x256 .bf16) (harg8 : arg8.IsWhole) (arg9 : Memref sig .tc .vmem S2048x256 .bf16) (harg9 : arg9.IsWhole) (arg10 : Memref sig .tc .vmem S512x256 .bf16) (harg10 : arg10.IsWhole) (arg11 : Memref sig .tc .vmem S512x1 .f32) (harg11 : arg11.IsWhole) (arg12 : Memref sig .tc .vmem S512x1 .f32) (harg12 : arg12.IsWhole) (arg13 : Memref sig .tc .vmem S512x256 .f32) (harg13 : arg13.IsWhole) (hc1 : k0_cond1 i = 1#1) (hc2 : ¬k0_cond2 i = 1#1) (hc3 : ¬k0_cond3 i = 1#1) (hc4 : ¬k0_cond4 i = 1#1)
    (x0 : Vec F S1x2048x1024 .f32) (x1 x2 x3 : Vec F S1024x256 .f32) (xs0 xs1 : Vec F S2048x256 .bf16) (xs2 : Vec F S512x256 .bf16) (xs3 xs4 : Vec F S512x1 .f32) (xs5 : Vec F S512x256 .f32) :
    Σ' (L4 : List (View.Piece (Elt F) S1x512x256 .f32)) (LS0 : List (View.Piece (Elt F) S2048x256 .bf16)) (LS1 : List (View.Piece (Elt F) S2048x256 .bf16)) (LS2 : List (View.Piece (Elt F) S512x256 .bf16)) (LS3 : List (View.Piece (Elt F) S512x1 .f32)) (LS4 : List (View.Piece (Elt F) S512x1 .f32)), { LS5 : List (View.Piece (Elt F) S512x256 .f32) //
      ∀ (xi4 : Vec F S1x512x256 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4
            ∗ owns (c : Thread nD τ) arg8 fullShare xs0 ∗ owns (c : Thread nD τ) arg9 fullShare xs1 ∗ owns (c : Thread nD τ) arg10 fullShare xs2
            ∗ owns (c : Thread nD τ) arg11 fullShare xs3 ∗ owns (c : Thread nD τ) arg12 fullShare xs4 ∗ owns (c : Thread nD τ) arg13 fullShare xs5
            ∗ (iprop(owns (c : Thread nD τ) arg3 fullShare x0 ∗ owns (c : Thread nD τ) arg4 fullShare x1 ∗ owns (c : Thread nD τ) arg5 fullShare x2 ∗ owns (c : Thread nD τ) arg6 fullShare x3
              ∗ (arg7.view.loc (c : Thread nD τ) ↦[arg7.view.set]{fullShare} arg7.view.writes (Elt F) (harg7.unread xi4) L4)
              ∗ (arg8.view.loc (c : Thread nD τ) ↦[arg8.view.set]{fullShare} arg8.view.writes (Elt F) (harg8.unread xs0) LS0)
              ∗ (arg9.view.loc (c : Thread nD τ) ↦[arg9.view.set]{fullShare} arg9.view.writes (Elt F) (harg9.unread xs1) LS1)
              ∗ (arg10.view.loc (c : Thread nD τ) ↦[arg10.view.set]{fullShare} arg10.view.writes (Elt F) (harg10.unread xs2) LS2)
              ∗ (arg11.view.loc (c : Thread nD τ) ↦[arg11.view.set]{fullShare} arg11.view.writes (Elt F) (harg11.unread xs3) LS3)
              ∗ (arg12.view.loc (c : Thread nD τ) ↦[arg12.view.set]{fullShare} arg12.view.writes (Elt F) (harg12.unread xs4) LS4)
              ∗ (arg13.view.loc (c : Thread nD τ) ↦[arg13.view.set]{fullShare} arg13.view.writes (Elt F) (harg13.unread xs5) LS5)) -∗ K ⟨⟩))
          ⊢ wp frame (wpE (defs₀ (F := F)) Variants.none c none) E (cc0__fused_attn_kernel i arg3 harg3 arg4 harg4 arg5 harg5 arg6 harg6 arg7 harg7 arg8 harg8 arg9 harg9 arg10 harg10 arg11 harg11 arg12 harg12 arg13 harg13) K } := by
  refine ⟨[], ?_, ?_, [], [], [], [], fun xi4 E K => ?run⟩
  case run =>
    simp only [View.writes_nil]
    simp only [cc0__fused_attn_kernel_eq_skeleton]; unfold cc0__fused_attn_kernel_skel
    unfold owns
    iintro ⟨⟨%f0, %hf0, H0⟩, ⟨%f1, %hf1, H1⟩, ⟨%f2, %hf2, H2⟩, ⟨%f3, %hf3, H3⟩, ⟨%f4, %hf4, H4⟩, ⟨%g0, %hg0, S0⟩, ⟨%g1, %hg1, S1⟩, ⟨%g2, %hg2, S2⟩, ⟨%g3, %hg3, S3⟩, ⟨%g4, %hg4, S4⟩, ⟨%g5, %hg5, S5⟩, Hk⟩
    obtain rfl := harg3.eq_unread hf0; obtain rfl := harg4.eq_unread hf1; obtain rfl := harg5.eq_unread hf2; obtain rfl := harg6.eq_unread hf3
    obtain rfl := harg7.eq_unread hf4
    obtain rfl := harg8.eq_unread hg0; obtain rfl := harg9.eq_unread hg1; obtain rfl := harg10.eq_unread hg2
    obtain rfl := harg11.eq_unread hg3; obtain rfl := harg12.eq_unread hg4; obtain rfl := harg13.eq_unread hg5
    sl_exec (disch := first | exact hc1 | exact hc2 | exact hc3 | exact hc4)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexact H4
    isplitl [S0]; · iexact S0
    isplitl [S1]; · iexact S1
    isplitl [S2]; · iexact S2
    isplitl [S3]; · iexact S3
    isplitl [S4]; · iexact S4
    iexact S5

end Cert.KernelIdeal.Attn

end
-- ==== Proof.KI.RunC.lean ====
/- One grid point of the attention kernel, in one of the eight combinations of its four branches that the grid meets (K/V projection of a key tile when the query tile is the first; Q projection and reset of the running maximum, denominator and numerator at the first key tile; the online-softmax update when the key tile is not in the future; the final quotient at the last key tile): what the body leaves in the output block and in each scratch buffer, as the stores written over the previous contents. -/
import proofs.«166778_j29291676958807_2_alg».proof.Proof.KI.RunB

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- (the run's proof term is large)
set_option maxHeartbeats 4000000 in
/-- The body's run when the four branch conditions are 1, not 2, not 3, 4 taken: on whole memrefs, the four input blocks at their
    contents, the output block and the six scratch buffers at given contents, the body runs to the continuation holding the inputs as they
    were and each of the other seven buffers at its previous contents with the stores of this case written over them (the piece lists are
    what the run finds; a buffer this case does not store into gets the empty list). -/
noncomputable def kernelRun_C (c : Dev nD) (i : grid0.Coords) (arg3 : Memref sig .tc .vmem S1x2048x1024 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1x512x256 .f32) (harg7 : arg7.IsWhole) (arg8 : Memref sig .tc .vmem S2048x256 .bf16) (harg8 : arg8.IsWhole) (arg9 : Memref sig .tc .vmem S2048x256 .bf16) (harg9 : arg9.IsWhole) (arg10 : Memref sig .tc .vmem S512x256 .bf16) (harg10 : arg10.IsWhole) (arg11 : Memref sig .tc .vmem S512x1 .f32) (harg11 : arg11.IsWhole) (arg12 : Memref sig .tc .vmem S512x1 .f32) (harg12 : arg12.IsWhole) (arg13 : Memref sig .tc .vmem S512x256 .f32) (harg13 : arg13.IsWhole) (hc1 : k0_cond1 i = 1#1) (hc2 : ¬k0_cond2 i = 1#1) (hc3 : ¬k0_cond3 i = 1#1) (hc4 : k0_cond4 i = 1#1)
    (x0 : Vec F S1x2048x1024 .f32) (x1 x2 x3 : Vec F S1024x256 .f32) (xs0 xs1 : Vec F S2048x256 .bf16) (xs2 : Vec F S512x256 .bf16) (xs3 xs4 : Vec F S512x1 .f32) (xs5 : Vec F S512x256 .f32) :
    Σ' (L4 : List (View.Piece (Elt F) S1x512x256 .f32)) (LS0 : List (View.Piece (Elt F) S2048x256 .bf16)) (LS1 : List (View.Piece (Elt F) S2048x256 .bf16)) (LS2 : List (View.Piece (Elt F) S512x256 .bf16)) (LS3 : List (View.Piece (Elt F) S512x1 .f32)) (LS4 : List (View.Piece (Elt F) S512x1 .f32)), { LS5 : List (View.Piece (Elt F) S512x256 .f32) //
      ∀ (xi4 : Vec F S1x512x256 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4
            ∗ owns (c : Thread nD τ) arg8 fullShare xs0 ∗ owns (c : Thread nD τ) arg9 fullShare xs1 ∗ owns (c : Thread nD τ) arg10 fullShare xs2
            ∗ owns (c : Thread nD τ) arg11 fullShare xs3 ∗ owns (c : Thread nD τ) arg12 fullShare xs4 ∗ owns (c : Thread nD τ) arg13 fullShare xs5
            ∗ (iprop(owns (c : Thread nD τ) arg3 fullShare x0 ∗ owns (c : Thread nD τ) arg4 fullShare x1 ∗ owns (c : Thread nD τ) arg5 fullShare x2 ∗ owns (c : Thread nD τ) arg6 fullShare x3
              ∗ (arg7.view.loc (c : Thread nD τ) ↦[arg7.view.set]{fullShare} arg7.view.writes (Elt F) (harg7.unread xi4) L4)
              ∗ (arg8.view.loc (c : Thread nD τ) ↦[arg8.view.set]{fullShare} arg8.view.writes (Elt F) (harg8.unread xs0) LS0)
              ∗ (arg9.view.loc (c : Thread nD τ) ↦[arg9.view.set]{fullShare} arg9.view.writes (Elt F) (harg9.unread xs1) LS1)
              ∗ (arg10.view.loc (c : Thread nD τ) ↦[arg10.view.set]{fullShare} arg10.view.writes (Elt F) (harg10.unread xs2) LS2)
              ∗ (arg11.view.loc (c : Thread nD τ) ↦[arg11.view.set]{fullShare} arg11.view.writes (Elt F) (harg11.unread xs3) LS3)
              ∗ (arg12.view.loc (c : Thread nD τ) ↦[arg12.view.set]{fullShare} arg12.view.writes (Elt F) (harg12.unread xs4) LS4)
              ∗ (arg13.view.loc (c : Thread nD τ) ↦[arg13.view.set]{fullShare} arg13.view.writes (Elt F) (harg13.unread xs5) LS5)) -∗ K ⟨⟩))
          ⊢ wp frame (wpE (defs₀ (F := F)) Variants.none c none) E (cc0__fused_attn_kernel i arg3 harg3 arg4 harg4 arg5 harg5 arg6 harg6 arg7 harg7 arg8 harg8 arg9 harg9 arg10 harg10 arg11 harg11 arg12 harg12 arg13 harg13) K } := by
  refine ⟨?_, ?_, ?_, [], [], [], [], fun xi4 E K => ?run⟩
  case run =>
    simp only [View.writes_nil]
    simp only [cc0__fused_attn_kernel_eq_skeleton]; unfold cc0__fused_attn_kernel_skel
    unfold owns
    iintro ⟨⟨%f0, %hf0, H0⟩, ⟨%f1, %hf1, H1⟩, ⟨%f2, %hf2, H2⟩, ⟨%f3, %hf3, H3⟩, ⟨%f4, %hf4, H4⟩, ⟨%g0, %hg0, S0⟩, ⟨%g1, %hg1, S1⟩, ⟨%g2, %hg2, S2⟩, ⟨%g3, %hg3, S3⟩, ⟨%g4, %hg4, S4⟩, ⟨%g5, %hg5, S5⟩, Hk⟩
    obtain rfl := harg3.eq_unread hf0; obtain rfl := harg4.eq_unread hf1; obtain rfl := harg5.eq_unread hf2; obtain rfl := harg6.eq_unread hf3
    obtain rfl := harg7.eq_unread hf4
    obtain rfl := harg8.eq_unread hg0; obtain rfl := harg9.eq_unread hg1; obtain rfl := harg10.eq_unread hg2
    obtain rfl := harg11.eq_unread hg3; obtain rfl := harg12.eq_unread hg4; obtain rfl := harg13.eq_unread hg5
    sl_exec (disch := first | exact hc1 | exact hc2 | exact hc3 | exact hc4)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexact H4
    isplitl [S0]; · iexact S0
    isplitl [S1]; · iexact S1
    isplitl [S2]; · iexact S2
    isplitl [S3]; · iexact S3
    isplitl [S4]; · iexact S4
    iexact S5

end Cert.KernelIdeal.Attn

end
-- ==== Proof.KI.RunD.lean ====
/- One grid point of the attention kernel, in one of the eight combinations of its four branches that the grid meets (K/V projection of a key tile when the query tile is the first; Q projection and reset of the running maximum, denominator and numerator at the first key tile; the online-softmax update when the key tile is not in the future; the final quotient at the last key tile): what the body leaves in the output block and in each scratch buffer, as the stores written over the previous contents. -/
import proofs.«166778_j29291676958807_2_alg».proof.Proof.KI.RunC

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- (the run's proof term is large)
set_option maxHeartbeats 4000000 in
/-- The body's run when the four branch conditions are not 1, 2, 3, not 4 taken: on whole memrefs, the four input blocks at their
    contents, the output block and the six scratch buffers at given contents, the body runs to the continuation holding the inputs as they
    were and each of the other seven buffers at its previous contents with the stores of this case written over them (the piece lists are
    what the run finds; a buffer this case does not store into gets the empty list). -/
noncomputable def kernelRun_D (c : Dev nD) (i : grid0.Coords) (arg3 : Memref sig .tc .vmem S1x2048x1024 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1x512x256 .f32) (harg7 : arg7.IsWhole) (arg8 : Memref sig .tc .vmem S2048x256 .bf16) (harg8 : arg8.IsWhole) (arg9 : Memref sig .tc .vmem S2048x256 .bf16) (harg9 : arg9.IsWhole) (arg10 : Memref sig .tc .vmem S512x256 .bf16) (harg10 : arg10.IsWhole) (arg11 : Memref sig .tc .vmem S512x1 .f32) (harg11 : arg11.IsWhole) (arg12 : Memref sig .tc .vmem S512x1 .f32) (harg12 : arg12.IsWhole) (arg13 : Memref sig .tc .vmem S512x256 .f32) (harg13 : arg13.IsWhole) (hc1 : ¬k0_cond1 i = 1#1) (hc2 : k0_cond2 i = 1#1) (hc3 : k0_cond3 i = 1#1) (hc4 : ¬k0_cond4 i = 1#1)
    (x0 : Vec F S1x2048x1024 .f32) (x1 x2 x3 : Vec F S1024x256 .f32) (xs0 xs1 : Vec F S2048x256 .bf16) (xs2 : Vec F S512x256 .bf16) (xs3 xs4 : Vec F S512x1 .f32) (xs5 : Vec F S512x256 .f32) :
    Σ' (L4 : List (View.Piece (Elt F) S1x512x256 .f32)) (LS0 : List (View.Piece (Elt F) S2048x256 .bf16)) (LS1 : List (View.Piece (Elt F) S2048x256 .bf16)) (LS2 : List (View.Piece (Elt F) S512x256 .bf16)) (LS3 : List (View.Piece (Elt F) S512x1 .f32)) (LS4 : List (View.Piece (Elt F) S512x1 .f32)), { LS5 : List (View.Piece (Elt F) S512x256 .f32) //
      ∀ (xi4 : Vec F S1x512x256 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4
            ∗ owns (c : Thread nD τ) arg8 fullShare xs0 ∗ owns (c : Thread nD τ) arg9 fullShare xs1 ∗ owns (c : Thread nD τ) arg10 fullShare xs2
            ∗ owns (c : Thread nD τ) arg11 fullShare xs3 ∗ owns (c : Thread nD τ) arg12 fullShare xs4 ∗ owns (c : Thread nD τ) arg13 fullShare xs5
            ∗ (iprop(owns (c : Thread nD τ) arg3 fullShare x0 ∗ owns (c : Thread nD τ) arg4 fullShare x1 ∗ owns (c : Thread nD τ) arg5 fullShare x2 ∗ owns (c : Thread nD τ) arg6 fullShare x3
              ∗ (arg7.view.loc (c : Thread nD τ) ↦[arg7.view.set]{fullShare} arg7.view.writes (Elt F) (harg7.unread xi4) L4)
              ∗ (arg8.view.loc (c : Thread nD τ) ↦[arg8.view.set]{fullShare} arg8.view.writes (Elt F) (harg8.unread xs0) LS0)
              ∗ (arg9.view.loc (c : Thread nD τ) ↦[arg9.view.set]{fullShare} arg9.view.writes (Elt F) (harg9.unread xs1) LS1)
              ∗ (arg10.view.loc (c : Thread nD τ) ↦[arg10.view.set]{fullShare} arg10.view.writes (Elt F) (harg10.unread xs2) LS2)
              ∗ (arg11.view.loc (c : Thread nD τ) ↦[arg11.view.set]{fullShare} arg11.view.writes (Elt F) (harg11.unread xs3) LS3)
              ∗ (arg12.view.loc (c : Thread nD τ) ↦[arg12.view.set]{fullShare} arg12.view.writes (Elt F) (harg12.unread xs4) LS4)
              ∗ (arg13.view.loc (c : Thread nD τ) ↦[arg13.view.set]{fullShare} arg13.view.writes (Elt F) (harg13.unread xs5) LS5)) -∗ K ⟨⟩))
          ⊢ wp frame (wpE (defs₀ (F := F)) Variants.none c none) E (cc0__fused_attn_kernel i arg3 harg3 arg4 harg4 arg5 harg5 arg6 harg6 arg7 harg7 arg8 harg8 arg9 harg9 arg10 harg10 arg11 harg11 arg12 harg12 arg13 harg13) K } := by
  refine ⟨[], [], [], ?_, ?_, ?_, ?_, fun xi4 E K => ?run⟩
  case run =>
    simp only [View.writes_nil]
    simp only [cc0__fused_attn_kernel_eq_skeleton]; unfold cc0__fused_attn_kernel_skel
    unfold owns
    iintro ⟨⟨%f0, %hf0, H0⟩, ⟨%f1, %hf1, H1⟩, ⟨%f2, %hf2, H2⟩, ⟨%f3, %hf3, H3⟩, ⟨%f4, %hf4, H4⟩, ⟨%g0, %hg0, S0⟩, ⟨%g1, %hg1, S1⟩, ⟨%g2, %hg2, S2⟩, ⟨%g3, %hg3, S3⟩, ⟨%g4, %hg4, S4⟩, ⟨%g5, %hg5, S5⟩, Hk⟩
    obtain rfl := harg3.eq_unread hf0; obtain rfl := harg4.eq_unread hf1; obtain rfl := harg5.eq_unread hf2; obtain rfl := harg6.eq_unread hf3
    obtain rfl := harg7.eq_unread hf4
    obtain rfl := harg8.eq_unread hg0; obtain rfl := harg9.eq_unread hg1; obtain rfl := harg10.eq_unread hg2
    obtain rfl := harg11.eq_unread hg3; obtain rfl := harg12.eq_unread hg4; obtain rfl := harg13.eq_unread hg5
    sl_exec (disch := first | exact hc1 | exact hc2 | exact hc3 | exact hc4)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexact H4
    isplitl [S0]; · iexact S0
    isplitl [S1]; · iexact S1
    isplitl [S2]; · iexact S2
    isplitl [S3]; · iexact S3
    isplitl [S4]; · iexact S4
    iexact S5

end Cert.KernelIdeal.Attn

end
-- ==== Proof.KI.RunE.lean ====
/- One grid point of the attention kernel, in one of the eight combinations of its four branches that the grid meets (K/V projection of a key tile when the query tile is the first; Q projection and reset of the running maximum, denominator and numerator at the first key tile; the online-softmax update when the key tile is not in the future; the final quotient at the last key tile): what the body leaves in the output block and in each scratch buffer, as the stores written over the previous contents. -/
import proofs.«166778_j29291676958807_2_alg».proof.Proof.KI.RunD

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- (the run's proof term is large)
set_option maxHeartbeats 4000000 in
/-- The body's run when the four branch conditions are not 1, not 2, 3, not 4 taken: on whole memrefs, the four input blocks at their
    contents, the output block and the six scratch buffers at given contents, the body runs to the continuation holding the inputs as they
    were and each of the other seven buffers at its previous contents with the stores of this case written over them (the piece lists are
    what the run finds; a buffer this case does not store into gets the empty list). -/
noncomputable def kernelRun_E (c : Dev nD) (i : grid0.Coords) (arg3 : Memref sig .tc .vmem S1x2048x1024 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1x512x256 .f32) (harg7 : arg7.IsWhole) (arg8 : Memref sig .tc .vmem S2048x256 .bf16) (harg8 : arg8.IsWhole) (arg9 : Memref sig .tc .vmem S2048x256 .bf16) (harg9 : arg9.IsWhole) (arg10 : Memref sig .tc .vmem S512x256 .bf16) (harg10 : arg10.IsWhole) (arg11 : Memref sig .tc .vmem S512x1 .f32) (harg11 : arg11.IsWhole) (arg12 : Memref sig .tc .vmem S512x1 .f32) (harg12 : arg12.IsWhole) (arg13 : Memref sig .tc .vmem S512x256 .f32) (harg13 : arg13.IsWhole) (hc1 : ¬k0_cond1 i = 1#1) (hc2 : ¬k0_cond2 i = 1#1) (hc3 : k0_cond3 i = 1#1) (hc4 : ¬k0_cond4 i = 1#1)
    (x0 : Vec F S1x2048x1024 .f32) (x1 x2 x3 : Vec F S1024x256 .f32) (xs0 xs1 : Vec F S2048x256 .bf16) (xs2 : Vec F S512x256 .bf16) (xs3 xs4 : Vec F S512x1 .f32) (xs5 : Vec F S512x256 .f32) :
    Σ' (L4 : List (View.Piece (Elt F) S1x512x256 .f32)) (LS0 : List (View.Piece (Elt F) S2048x256 .bf16)) (LS1 : List (View.Piece (Elt F) S2048x256 .bf16)) (LS2 : List (View.Piece (Elt F) S512x256 .bf16)) (LS3 : List (View.Piece (Elt F) S512x1 .f32)) (LS4 : List (View.Piece (Elt F) S512x1 .f32)), { LS5 : List (View.Piece (Elt F) S512x256 .f32) //
      ∀ (xi4 : Vec F S1x512x256 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4
            ∗ owns (c : Thread nD τ) arg8 fullShare xs0 ∗ owns (c : Thread nD τ) arg9 fullShare xs1 ∗ owns (c : Thread nD τ) arg10 fullShare xs2
            ∗ owns (c : Thread nD τ) arg11 fullShare xs3 ∗ owns (c : Thread nD τ) arg12 fullShare xs4 ∗ owns (c : Thread nD τ) arg13 fullShare xs5
            ∗ (iprop(owns (c : Thread nD τ) arg3 fullShare x0 ∗ owns (c : Thread nD τ) arg4 fullShare x1 ∗ owns (c : Thread nD τ) arg5 fullShare x2 ∗ owns (c : Thread nD τ) arg6 fullShare x3
              ∗ (arg7.view.loc (c : Thread nD τ) ↦[arg7.view.set]{fullShare} arg7.view.writes (Elt F) (harg7.unread xi4) L4)
              ∗ (arg8.view.loc (c : Thread nD τ) ↦[arg8.view.set]{fullShare} arg8.view.writes (Elt F) (harg8.unread xs0) LS0)
              ∗ (arg9.view.loc (c : Thread nD τ) ↦[arg9.view.set]{fullShare} arg9.view.writes (Elt F) (harg9.unread xs1) LS1)
              ∗ (arg10.view.loc (c : Thread nD τ) ↦[arg10.view.set]{fullShare} arg10.view.writes (Elt F) (harg10.unread xs2) LS2)
              ∗ (arg11.view.loc (c : Thread nD τ) ↦[arg11.view.set]{fullShare} arg11.view.writes (Elt F) (harg11.unread xs3) LS3)
              ∗ (arg12.view.loc (c : Thread nD τ) ↦[arg12.view.set]{fullShare} arg12.view.writes (Elt F) (harg12.unread xs4) LS4)
              ∗ (arg13.view.loc (c : Thread nD τ) ↦[arg13.view.set]{fullShare} arg13.view.writes (Elt F) (harg13.unread xs5) LS5)) -∗ K ⟨⟩))
          ⊢ wp frame (wpE (defs₀ (F := F)) Variants.none c none) E (cc0__fused_attn_kernel i arg3 harg3 arg4 harg4 arg5 harg5 arg6 harg6 arg7 harg7 arg8 harg8 arg9 harg9 arg10 harg10 arg11 harg11 arg12 harg12 arg13 harg13) K } := by
  refine ⟨[], [], [], [], ?_, ?_, ?_, fun xi4 E K => ?run⟩
  case run =>
    simp only [View.writes_nil]
    simp only [cc0__fused_attn_kernel_eq_skeleton]; unfold cc0__fused_attn_kernel_skel
    unfold owns
    iintro ⟨⟨%f0, %hf0, H0⟩, ⟨%f1, %hf1, H1⟩, ⟨%f2, %hf2, H2⟩, ⟨%f3, %hf3, H3⟩, ⟨%f4, %hf4, H4⟩, ⟨%g0, %hg0, S0⟩, ⟨%g1, %hg1, S1⟩, ⟨%g2, %hg2, S2⟩, ⟨%g3, %hg3, S3⟩, ⟨%g4, %hg4, S4⟩, ⟨%g5, %hg5, S5⟩, Hk⟩
    obtain rfl := harg3.eq_unread hf0; obtain rfl := harg4.eq_unread hf1; obtain rfl := harg5.eq_unread hf2; obtain rfl := harg6.eq_unread hf3
    obtain rfl := harg7.eq_unread hf4
    obtain rfl := harg8.eq_unread hg0; obtain rfl := harg9.eq_unread hg1; obtain rfl := harg10.eq_unread hg2
    obtain rfl := harg11.eq_unread hg3; obtain rfl := harg12.eq_unread hg4; obtain rfl := harg13.eq_unread hg5
    sl_exec (disch := first | exact hc1 | exact hc2 | exact hc3 | exact hc4)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexact H4
    isplitl [S0]; · iexact S0
    isplitl [S1]; · iexact S1
    isplitl [S2]; · iexact S2
    isplitl [S3]; · iexact S3
    isplitl [S4]; · iexact S4
    iexact S5

end Cert.KernelIdeal.Attn

end
-- ==== Proof.KI.RunF.lean ====
/- One grid point of the attention kernel, in one of the eight combinations of its four branches that the grid meets (K/V projection of a key tile when the query tile is the first; Q projection and reset of the running maximum, denominator and numerator at the first key tile; the online-softmax update when the key tile is not in the future; the final quotient at the last key tile): what the body leaves in the output block and in each scratch buffer, as the stores written over the previous contents. -/
import proofs.«166778_j29291676958807_2_alg».proof.Proof.KI.RunE

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- (the run's proof term is large)
set_option maxHeartbeats 4000000 in
/-- The body's run when the four branch conditions are not 1, not 2, not 3, not 4 taken: on whole memrefs, the four input blocks at their
    contents, the output block and the six scratch buffers at given contents, the body runs to the continuation holding the inputs as they
    were and each of the other seven buffers at its previous contents with the stores of this case written over them (the piece lists are
    what the run finds; a buffer this case does not store into gets the empty list). -/
noncomputable def kernelRun_F (c : Dev nD) (i : grid0.Coords) (arg3 : Memref sig .tc .vmem S1x2048x1024 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1x512x256 .f32) (harg7 : arg7.IsWhole) (arg8 : Memref sig .tc .vmem S2048x256 .bf16) (harg8 : arg8.IsWhole) (arg9 : Memref sig .tc .vmem S2048x256 .bf16) (harg9 : arg9.IsWhole) (arg10 : Memref sig .tc .vmem S512x256 .bf16) (harg10 : arg10.IsWhole) (arg11 : Memref sig .tc .vmem S512x1 .f32) (harg11 : arg11.IsWhole) (arg12 : Memref sig .tc .vmem S512x1 .f32) (harg12 : arg12.IsWhole) (arg13 : Memref sig .tc .vmem S512x256 .f32) (harg13 : arg13.IsWhole) (hc1 : ¬k0_cond1 i = 1#1) (hc2 : ¬k0_cond2 i = 1#1) (hc3 : ¬k0_cond3 i = 1#1) (hc4 : ¬k0_cond4 i = 1#1)
    (x0 : Vec F S1x2048x1024 .f32) (x1 x2 x3 : Vec F S1024x256 .f32) (xs0 xs1 : Vec F S2048x256 .bf16) (xs2 : Vec F S512x256 .bf16) (xs3 xs4 : Vec F S512x1 .f32) (xs5 : Vec F S512x256 .f32) :
    Σ' (L4 : List (View.Piece (Elt F) S1x512x256 .f32)) (LS0 : List (View.Piece (Elt F) S2048x256 .bf16)) (LS1 : List (View.Piece (Elt F) S2048x256 .bf16)) (LS2 : List (View.Piece (Elt F) S512x256 .bf16)) (LS3 : List (View.Piece (Elt F) S512x1 .f32)) (LS4 : List (View.Piece (Elt F) S512x1 .f32)), { LS5 : List (View.Piece (Elt F) S512x256 .f32) //
      ∀ (xi4 : Vec F S1x512x256 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4
            ∗ owns (c : Thread nD τ) arg8 fullShare xs0 ∗ owns (c : Thread nD τ) arg9 fullShare xs1 ∗ owns (c : Thread nD τ) arg10 fullShare xs2
            ∗ owns (c : Thread nD τ) arg11 fullShare xs3 ∗ owns (c : Thread nD τ) arg12 fullShare xs4 ∗ owns (c : Thread nD τ) arg13 fullShare xs5
            ∗ (iprop(owns (c : Thread nD τ) arg3 fullShare x0 ∗ owns (c : Thread nD τ) arg4 fullShare x1 ∗ owns (c : Thread nD τ) arg5 fullShare x2 ∗ owns (c : Thread nD τ) arg6 fullShare x3
              ∗ (arg7.view.loc (c : Thread nD τ) ↦[arg7.view.set]{fullShare} arg7.view.writes (Elt F) (harg7.unread xi4) L4)
              ∗ (arg8.view.loc (c : Thread nD τ) ↦[arg8.view.set]{fullShare} arg8.view.writes (Elt F) (harg8.unread xs0) LS0)
              ∗ (arg9.view.loc (c : Thread nD τ) ↦[arg9.view.set]{fullShare} arg9.view.writes (Elt F) (harg9.unread xs1) LS1)
              ∗ (arg10.view.loc (c : Thread nD τ) ↦[arg10.view.set]{fullShare} arg10.view.writes (Elt F) (harg10.unread xs2) LS2)
              ∗ (arg11.view.loc (c : Thread nD τ) ↦[arg11.view.set]{fullShare} arg11.view.writes (Elt F) (harg11.unread xs3) LS3)
              ∗ (arg12.view.loc (c : Thread nD τ) ↦[arg12.view.set]{fullShare} arg12.view.writes (Elt F) (harg12.unread xs4) LS4)
              ∗ (arg13.view.loc (c : Thread nD τ) ↦[arg13.view.set]{fullShare} arg13.view.writes (Elt F) (harg13.unread xs5) LS5)) -∗ K ⟨⟩))
          ⊢ wp frame (wpE (defs₀ (F := F)) Variants.none c none) E (cc0__fused_attn_kernel i arg3 harg3 arg4 harg4 arg5 harg5 arg6 harg6 arg7 harg7 arg8 harg8 arg9 harg9 arg10 harg10 arg11 harg11 arg12 harg12 arg13 harg13) K } := by
  refine ⟨[], [], [], [], [], [], [], fun xi4 E K => ?run⟩
  case run =>
    simp only [View.writes_nil]
    simp only [cc0__fused_attn_kernel_eq_skeleton]; unfold cc0__fused_attn_kernel_skel
    unfold owns
    iintro ⟨⟨%f0, %hf0, H0⟩, ⟨%f1, %hf1, H1⟩, ⟨%f2, %hf2, H2⟩, ⟨%f3, %hf3, H3⟩, ⟨%f4, %hf4, H4⟩, ⟨%g0, %hg0, S0⟩, ⟨%g1, %hg1, S1⟩, ⟨%g2, %hg2, S2⟩, ⟨%g3, %hg3, S3⟩, ⟨%g4, %hg4, S4⟩, ⟨%g5, %hg5, S5⟩, Hk⟩
    obtain rfl := harg3.eq_unread hf0; obtain rfl := harg4.eq_unread hf1; obtain rfl := harg5.eq_unread hf2; obtain rfl := harg6.eq_unread hf3
    obtain rfl := harg7.eq_unread hf4
    obtain rfl := harg8.eq_unread hg0; obtain rfl := harg9.eq_unread hg1; obtain rfl := harg10.eq_unread hg2
    obtain rfl := harg11.eq_unread hg3; obtain rfl := harg12.eq_unread hg4; obtain rfl := harg13.eq_unread hg5
    sl_exec (disch := first | exact hc1 | exact hc2 | exact hc3 | exact hc4)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexact H4
    isplitl [S0]; · iexact S0
    isplitl [S1]; · iexact S1
    isplitl [S2]; · iexact S2
    isplitl [S3]; · iexact S3
    isplitl [S4]; · iexact S4
    iexact S5

end Cert.KernelIdeal.Attn

end
-- ==== Proof.KI.RunG.lean ====
/- One grid point of the attention kernel, in one of the eight combinations of its four branches that the grid meets (K/V projection of a key tile when the query tile is the first; Q projection and reset of the running maximum, denominator and numerator at the first key tile; the online-softmax update when the key tile is not in the future; the final quotient at the last key tile): what the body leaves in the output block and in each scratch buffer, as the stores written over the previous contents. -/
import proofs.«166778_j29291676958807_2_alg».proof.Proof.KI.RunF

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- (the run's proof term is large)
set_option maxHeartbeats 4000000 in
/-- The body's run when the four branch conditions are not 1, not 2, 3, 4 taken: on whole memrefs, the four input blocks at their
    contents, the output block and the six scratch buffers at given contents, the body runs to the continuation holding the inputs as they
    were and each of the other seven buffers at its previous contents with the stores of this case written over them (the piece lists are
    what the run finds; a buffer this case does not store into gets the empty list). -/
noncomputable def kernelRun_G (c : Dev nD) (i : grid0.Coords) (arg3 : Memref sig .tc .vmem S1x2048x1024 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1x512x256 .f32) (harg7 : arg7.IsWhole) (arg8 : Memref sig .tc .vmem S2048x256 .bf16) (harg8 : arg8.IsWhole) (arg9 : Memref sig .tc .vmem S2048x256 .bf16) (harg9 : arg9.IsWhole) (arg10 : Memref sig .tc .vmem S512x256 .bf16) (harg10 : arg10.IsWhole) (arg11 : Memref sig .tc .vmem S512x1 .f32) (harg11 : arg11.IsWhole) (arg12 : Memref sig .tc .vmem S512x1 .f32) (harg12 : arg12.IsWhole) (arg13 : Memref sig .tc .vmem S512x256 .f32) (harg13 : arg13.IsWhole) (hc1 : ¬k0_cond1 i = 1#1) (hc2 : ¬k0_cond2 i = 1#1) (hc3 : k0_cond3 i = 1#1) (hc4 : k0_cond4 i = 1#1)
    (x0 : Vec F S1x2048x1024 .f32) (x1 x2 x3 : Vec F S1024x256 .f32) (xs0 xs1 : Vec F S2048x256 .bf16) (xs2 : Vec F S512x256 .bf16) (xs3 xs4 : Vec F S512x1 .f32) (xs5 : Vec F S512x256 .f32) :
    Σ' (L4 : List (View.Piece (Elt F) S1x512x256 .f32)) (LS0 : List (View.Piece (Elt F) S2048x256 .bf16)) (LS1 : List (View.Piece (Elt F) S2048x256 .bf16)) (LS2 : List (View.Piece (Elt F) S512x256 .bf16)) (LS3 : List (View.Piece (Elt F) S512x1 .f32)) (LS4 : List (View.Piece (Elt F) S512x1 .f32)), { LS5 : List (View.Piece (Elt F) S512x256 .f32) //
      ∀ (xi4 : Vec F S1x512x256 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4
            ∗ owns (c : Thread nD τ) arg8 fullShare xs0 ∗ owns (c : Thread nD τ) arg9 fullShare xs1 ∗ owns (c : Thread nD τ) arg10 fullShare xs2
            ∗ owns (c : Thread nD τ) arg11 fullShare xs3 ∗ owns (c : Thread nD τ) arg12 fullShare xs4 ∗ owns (c : Thread nD τ) arg13 fullShare xs5
            ∗ (iprop(owns (c : Thread nD τ) arg3 fullShare x0 ∗ owns (c : Thread nD τ) arg4 fullShare x1 ∗ owns (c : Thread nD τ) arg5 fullShare x2 ∗ owns (c : Thread nD τ) arg6 fullShare x3
              ∗ (arg7.view.loc (c : Thread nD τ) ↦[arg7.view.set]{fullShare} arg7.view.writes (Elt F) (harg7.unread xi4) L4)
              ∗ (arg8.view.loc (c : Thread nD τ) ↦[arg8.view.set]{fullShare} arg8.view.writes (Elt F) (harg8.unread xs0) LS0)
              ∗ (arg9.view.loc (c : Thread nD τ) ↦[arg9.view.set]{fullShare} arg9.view.writes (Elt F) (harg9.unread xs1) LS1)
              ∗ (arg10.view.loc (c : Thread nD τ) ↦[arg10.view.set]{fullShare} arg10.view.writes (Elt F) (harg10.unread xs2) LS2)
              ∗ (arg11.view.loc (c : Thread nD τ) ↦[arg11.view.set]{fullShare} arg11.view.writes (Elt F) (harg11.unread xs3) LS3)
              ∗ (arg12.view.loc (c : Thread nD τ) ↦[arg12.view.set]{fullShare} arg12.view.writes (Elt F) (harg12.unread xs4) LS4)
              ∗ (arg13.view.loc (c : Thread nD τ) ↦[arg13.view.set]{fullShare} arg13.view.writes (Elt F) (harg13.unread xs5) LS5)) -∗ K ⟨⟩))
          ⊢ wp frame (wpE (defs₀ (F := F)) Variants.none c none) E (cc0__fused_attn_kernel i arg3 harg3 arg4 harg4 arg5 harg5 arg6 harg6 arg7 harg7 arg8 harg8 arg9 harg9 arg10 harg10 arg11 harg11 arg12 harg12 arg13 harg13) K } := by
  refine ⟨?_, [], [], [], ?_, ?_, ?_, fun xi4 E K => ?run⟩
  case run =>
    simp only [View.writes_nil]
    simp only [cc0__fused_attn_kernel_eq_skeleton]; unfold cc0__fused_attn_kernel_skel
    unfold owns
    iintro ⟨⟨%f0, %hf0, H0⟩, ⟨%f1, %hf1, H1⟩, ⟨%f2, %hf2, H2⟩, ⟨%f3, %hf3, H3⟩, ⟨%f4, %hf4, H4⟩, ⟨%g0, %hg0, S0⟩, ⟨%g1, %hg1, S1⟩, ⟨%g2, %hg2, S2⟩, ⟨%g3, %hg3, S3⟩, ⟨%g4, %hg4, S4⟩, ⟨%g5, %hg5, S5⟩, Hk⟩
    obtain rfl := harg3.eq_unread hf0; obtain rfl := harg4.eq_unread hf1; obtain rfl := harg5.eq_unread hf2; obtain rfl := harg6.eq_unread hf3
    obtain rfl := harg7.eq_unread hf4
    obtain rfl := harg8.eq_unread hg0; obtain rfl := harg9.eq_unread hg1; obtain rfl := harg10.eq_unread hg2
    obtain rfl := harg11.eq_unread hg3; obtain rfl := harg12.eq_unread hg4; obtain rfl := harg13.eq_unread hg5
    sl_exec (disch := first | exact hc1 | exact hc2 | exact hc3 | exact hc4)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexact H4
    isplitl [S0]; · iexact S0
    isplitl [S1]; · iexact S1
    isplitl [S2]; · iexact S2
    isplitl [S3]; · iexact S3
    isplitl [S4]; · iexact S4
    iexact S5

end Cert.KernelIdeal.Attn

end
-- ==== Proof.KI.RunH.lean ====
/- One grid point of the attention kernel, in one of the eight combinations of its four branches that the grid meets (K/V projection of a key tile when the query tile is the first; Q projection and reset of the running maximum, denominator and numerator at the first key tile; the online-softmax update when the key tile is not in the future; the final quotient at the last key tile): what the body leaves in the output block and in each scratch buffer, as the stores written over the previous contents. -/
import proofs.«166778_j29291676958807_2_alg».proof.Proof.KI.RunG

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- (the run's proof term is large)
set_option maxHeartbeats 4000000 in
/-- The body's run when the four branch conditions are not 1, not 2, not 3, 4 taken: on whole memrefs, the four input blocks at their
    contents, the output block and the six scratch buffers at given contents, the body runs to the continuation holding the inputs as they
    were and each of the other seven buffers at its previous contents with the stores of this case written over them (the piece lists are
    what the run finds; a buffer this case does not store into gets the empty list). -/
noncomputable def kernelRun_H (c : Dev nD) (i : grid0.Coords) (arg3 : Memref sig .tc .vmem S1x2048x1024 .f32) (harg3 : arg3.IsWhole) (arg4 : Memref sig .tc .vmem S1024x256 .f32) (harg4 : arg4.IsWhole) (arg5 : Memref sig .tc .vmem S1024x256 .f32) (harg5 : arg5.IsWhole) (arg6 : Memref sig .tc .vmem S1024x256 .f32) (harg6 : arg6.IsWhole) (arg7 : Memref sig .tc .vmem S1x512x256 .f32) (harg7 : arg7.IsWhole) (arg8 : Memref sig .tc .vmem S2048x256 .bf16) (harg8 : arg8.IsWhole) (arg9 : Memref sig .tc .vmem S2048x256 .bf16) (harg9 : arg9.IsWhole) (arg10 : Memref sig .tc .vmem S512x256 .bf16) (harg10 : arg10.IsWhole) (arg11 : Memref sig .tc .vmem S512x1 .f32) (harg11 : arg11.IsWhole) (arg12 : Memref sig .tc .vmem S512x1 .f32) (harg12 : arg12.IsWhole) (arg13 : Memref sig .tc .vmem S512x256 .f32) (harg13 : arg13.IsWhole) (hc1 : ¬k0_cond1 i = 1#1) (hc2 : ¬k0_cond2 i = 1#1) (hc3 : ¬k0_cond3 i = 1#1) (hc4 : k0_cond4 i = 1#1)
    (x0 : Vec F S1x2048x1024 .f32) (x1 x2 x3 : Vec F S1024x256 .f32) (xs0 xs1 : Vec F S2048x256 .bf16) (xs2 : Vec F S512x256 .bf16) (xs3 xs4 : Vec F S512x1 .f32) (xs5 : Vec F S512x256 .f32) :
    Σ' (L4 : List (View.Piece (Elt F) S1x512x256 .f32)) (LS0 : List (View.Piece (Elt F) S2048x256 .bf16)) (LS1 : List (View.Piece (Elt F) S2048x256 .bf16)) (LS2 : List (View.Piece (Elt F) S512x256 .bf16)) (LS3 : List (View.Piece (Elt F) S512x1 .f32)) (LS4 : List (View.Piece (Elt F) S512x1 .f32)), { LS5 : List (View.Piece (Elt F) S512x256 .f32) //
      ∀ (xi4 : Vec F S1x512x256 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4
            ∗ owns (c : Thread nD τ) arg8 fullShare xs0 ∗ owns (c : Thread nD τ) arg9 fullShare xs1 ∗ owns (c : Thread nD τ) arg10 fullShare xs2
            ∗ owns (c : Thread nD τ) arg11 fullShare xs3 ∗ owns (c : Thread nD τ) arg12 fullShare xs4 ∗ owns (c : Thread nD τ) arg13 fullShare xs5
            ∗ (iprop(owns (c : Thread nD τ) arg3 fullShare x0 ∗ owns (c : Thread nD τ) arg4 fullShare x1 ∗ owns (c : Thread nD τ) arg5 fullShare x2 ∗ owns (c : Thread nD τ) arg6 fullShare x3
              ∗ (arg7.view.loc (c : Thread nD τ) ↦[arg7.view.set]{fullShare} arg7.view.writes (Elt F) (harg7.unread xi4) L4)
              ∗ (arg8.view.loc (c : Thread nD τ) ↦[arg8.view.set]{fullShare} arg8.view.writes (Elt F) (harg8.unread xs0) LS0)
              ∗ (arg9.view.loc (c : Thread nD τ) ↦[arg9.view.set]{fullShare} arg9.view.writes (Elt F) (harg9.unread xs1) LS1)
              ∗ (arg10.view.loc (c : Thread nD τ) ↦[arg10.view.set]{fullShare} arg10.view.writes (Elt F) (harg10.unread xs2) LS2)
              ∗ (arg11.view.loc (c : Thread nD τ) ↦[arg11.view.set]{fullShare} arg11.view.writes (Elt F) (harg11.unread xs3) LS3)
              ∗ (arg12.view.loc (c : Thread nD τ) ↦[arg12.view.set]{fullShare} arg12.view.writes (Elt F) (harg12.unread xs4) LS4)
              ∗ (arg13.view.loc (c : Thread nD τ) ↦[arg13.view.set]{fullShare} arg13.view.writes (Elt F) (harg13.unread xs5) LS5)) -∗ K ⟨⟩))
          ⊢ wp frame (wpE (defs₀ (F := F)) Variants.none c none) E (cc0__fused_attn_kernel i arg3 harg3 arg4 harg4 arg5 harg5 arg6 harg6 arg7 harg7 arg8 harg8 arg9 harg9 arg10 harg10 arg11 harg11 arg12 harg12 arg13 harg13) K } := by
  refine ⟨?_, [], [], [], [], [], [], fun xi4 E K => ?run⟩
  case run =>
    simp only [View.writes_nil]
    simp only [cc0__fused_attn_kernel_eq_skeleton]; unfold cc0__fused_attn_kernel_skel
    unfold owns
    iintro ⟨⟨%f0, %hf0, H0⟩, ⟨%f1, %hf1, H1⟩, ⟨%f2, %hf2, H2⟩, ⟨%f3, %hf3, H3⟩, ⟨%f4, %hf4, H4⟩, ⟨%g0, %hg0, S0⟩, ⟨%g1, %hg1, S1⟩, ⟨%g2, %hg2, S2⟩, ⟨%g3, %hg3, S3⟩, ⟨%g4, %hg4, S4⟩, ⟨%g5, %hg5, S5⟩, Hk⟩
    obtain rfl := harg3.eq_unread hf0; obtain rfl := harg4.eq_unread hf1; obtain rfl := harg5.eq_unread hf2; obtain rfl := harg6.eq_unread hf3
    obtain rfl := harg7.eq_unread hf4
    obtain rfl := harg8.eq_unread hg0; obtain rfl := harg9.eq_unread hg1; obtain rfl := harg10.eq_unread hg2
    obtain rfl := harg11.eq_unread hg3; obtain rfl := harg12.eq_unread hg4; obtain rfl := harg13.eq_unread hg5
    sl_exec (disch := first | exact hc1 | exact hc2 | exact hc3 | exact hc4)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexact H4
    isplitl [S0]; · iexact S0
    isplitl [S1]; · iexact S1
    isplitl [S2]; · iexact S2
    isplitl [S3]; · iexact S3
    isplitl [S4]; · iexact S4
    iexact S5

end Cert.KernelIdeal.Attn

end
-- ==== Proof.KI.TrackDefs.lean ====
/- The attention kernel's run with the scratch state tracked from point to point: what one point does to the K/V caches, the query tile and the three running quantities of the online softmax, as the case's stores written over the previous contents; the invariant carries a state satisfying a pure predicate, and the value proof is then three pure facts about states. -/
import proofs.«166778_j29291676958807_2_alg».proof.Proof.KI.Common
import proofs.«166778_j29291676958807_2_alg».proof.Proof.KI.RunH
import Idealize.ShloMosaic.Lib.Pipeline.FrameBody

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The scratch state and one point's effect on it -/

/-- What the six scratch buffers hold between points: the K and V caches (all key rows of the batch), the scaled query tile,
    and per query row the running maximum, the running denominator and the running numerator of the online softmax. -/
structure St (F : FTy → Type) [FloatOps F] where
  kc : Vec F S2048x256 .bf16
  vc : Vec F S2048x256 .bf16
  qb : Vec F S512x256 .bf16
  mm : Vec F S512x1 .f32
  ll : Vec F S512x1 .f32
  acc : Vec F S512x256 .f32

/-- The scratch state after a point of case A: each buffer at its previous contents with this case's stores written over them. -/
def next_A (c : Dev nD) (t : Fin cfg0.N) (h1 : k0_cond1 (grid0.coords t) = 1#1) (h2 : k0_cond2 (grid0.coords t) = 1#1) (h3 : k0_cond3 (grid0.coords t) = 1#1) (h4 : ¬k0_cond4 (grid0.coords t) = 1#1) (st : St F) : St F where
    kc := sc0.view.read (Elt F) (sc0.view.writes (Elt F) ((Memref.isWhole_whole _).unread st.kc) (kernelRun_A c (grid0.coords t) (ms0 t) (hs0 t) (ms1 t) (hs1 t) (ms2 t) (hs2 t) (ms3 t) (hs3 t) (ms4 t) (hs4 t) sc0 (Memref.isWhole_whole _) sc1 (Memref.isWhole_whole _) sc2 (Memref.isWhole_whole _) sc3 (Memref.isWhole_whole _) sc4 (Memref.isWhole_whole _) sc5 (Memref.isWhole_whole _) h1 h2 h3 h4 (iblk m c 0 t) (iblk m c 1 t) (iblk m c 2 t) (iblk m c 3 t) st.kc st.vc st.qb st.mm st.ll st.acc).2.1)
    vc := sc1.view.read (Elt F) (sc1.view.writes (Elt F) ((Memref.isWhole_whole _).unread st.vc) (kernelRun_A c (grid0.coords t) (ms0 t) (hs0 t) (ms1 t) (hs1 t) (ms2 t) (hs2 t) (ms3 t) (hs3 t) (ms4 t) (hs4 t) sc0 (Memref.isWhole_whole _) sc1 (Memref.isWhole_whole _) sc2 (Memref.isWhole_whole _) sc3 (Memref.isWhole_whole _) sc4 (Memref.isWhole_whole _) sc5 (Memref.isWhole_whole _) h1 h2 h3 h4 (iblk m c 0 t) (iblk m c 1 t) (iblk m c 2 t) (iblk m c 3 t) st.kc st.vc st.qb st.mm st.ll st.acc).2.2.1)
    qb := sc2.view.read (Elt F) (sc2.view.writes (Elt F) ((Memref.isWhole_whole _).unread st.qb) (kernelRun_A c (grid0.coords t) (ms0 t) (hs0 t) (ms1 t) (hs1 t) (ms2 t) (hs2 t) (ms3 t) (hs3 t) (ms4 t) (hs4 t) sc0 (Memref.isWhole_whole _) sc1 (Memref.isWhole_whole _) sc2 (Memref.isWhole_whole _) sc3 (Memref.isWhole_whole _) sc4 (Memref.isWhole_whole _) sc5 (Memref.isWhole_whole _) h1 h2 h3 h4 (iblk m c 0 t) (iblk m c 1 t) (iblk m c 2 t) (iblk m c 3 t) st.kc st.vc st.qb st.mm st.ll st.acc).2.2.2.1)
    mm := sc3.view.read (Elt F) (sc3.view.writes (Elt F) ((Memref.isWhole_whole _).unread st.mm) (kernelRun_A c (grid0.coords t) (ms0 t) (hs0 t) (ms1 t) (hs1 t) (ms2 t) (hs2 t) (ms3 t) (hs3 t) (ms4 t) (hs4 t) sc0 (Memref.isWhole_whole _) sc1 (Memref.isWhole_whole _) sc2 (Memref.isWhole_whole _) sc3 (Memref.isWhole_whole _) sc4 (Memref.isWhole_whole _) sc5 (Memref.isWhole_whole _) h1 h2 h3 h4 (iblk m c 0 t) (iblk m c 1 t) (iblk m c 2 t) (iblk m c 3 t) st.kc st.vc st.qb st.mm st.ll st.acc).2.2.2.2.1)
    ll := sc4.view.read (Elt F) (sc4.view.writes (Elt F) ((Memref.isWhole_whole _).unread st.ll) (kernelRun_A c (grid0.coords t) (ms0 t) (hs0 t) (ms1 t) (hs1 t) (ms2 t) (hs2 t) (ms3 t) (hs3 t) (ms4 t) (hs4 t) sc0 (Memref.isWhole_whole _) sc1 (Memref.isWhole_whole _) sc2 (Memref.isWhole_whole _) sc3 (Memref.isWhole_whole _) sc4 (Memref.isWhole_whole _) sc5 (Memref.isWhole_whole _) h1 h2 h3 h4 (iblk m c 0 t) (iblk m c 1 t) (iblk m c 2 t) (iblk m c 3 t) st.kc st.vc st.qb st.mm st.ll st.acc).2.2.2.2.2.1)
    acc := sc5.view.read (Elt F) (sc5.view.writes (Elt F) ((Memref.isWhole_whole _).unread st.acc) (kernelRun_A c (grid0.coords t) (ms0 t) (hs0 t) (ms1 t) (hs1 t) (ms2 t) (hs2 t) (ms3 t) (hs3 t) (ms4 t) (hs4 t) sc0 (Memref.isWhole_whole _) sc1 (Memref.isWhole_whole _) sc2 (Memref.isWhole_whole _) sc3 (Memref.isWhole_whole _) sc4 (Memref.isWhole_whole _) sc5 (Memref.isWhole_whole _) h1 h2 h3 h4 (iblk m c 0 t) (iblk m c 1 t) (iblk m c 2 t) (iblk m c 3 t) st.kc st.vc st.qb st.mm st.ll st.acc).2.2.2.2.2.2.1)

/-- The scratch state after a point of case B: each buffer at its previous contents with this case's stores written over them. -/
def next_B (c : Dev nD) (t : Fin cfg0.N) (h1 : k0_cond1 (grid0.coords t) = 1#1) (h2 : ¬k0_cond2 (grid0.coords t) = 1#1) (h3 : ¬k0_cond3 (grid0.coords t) = 1#1) (h4 : ¬k0_cond4 (grid0.coords t) = 1#1) (st : St F) : St F where
    kc := sc0.view.read (Elt F) (sc0.view.writes (Elt F) ((Memref.isWhole_whole _).unread st.kc) (kernelRun_B c (grid0.coords t) (ms0 t) (hs0 t) (ms1 t) (hs1 t) (ms2 t) (hs2 t) (ms3 t) (hs3 t) (ms4 t) (hs4 t) sc0 (Memref.isWhole_whole _) sc1 (Memref.isWhole_whole _) sc2 (Memref.isWhole_whole _) sc3 (Memref.isWhole_whole _) sc4 (Memref.isWhole_whole _) sc5 (Memref.isWhole_whole _) h1 h2 h3 h4 (iblk m c 0 t) (iblk m c 1 t) (iblk m c 2 t) (iblk m c 3 t) st.kc st.vc st.qb st.mm st.ll st.acc).2.1)
    vc := sc1.view.read (Elt F) (sc1.view.writes (Elt F) ((Memref.isWhole_whole _).unread st.vc) (kernelRun_B c (grid0.coords t) (ms0 t) (hs0 t) (ms1 t) (hs1 t) (ms2 t) (hs2 t) (ms3 t) (hs3 t) (ms4 t) (hs4 t) sc0 (Memref.isWhole_whole _) sc1 (Memref.isWhole_whole _) sc2 (Memref.isWhole_whole _) sc3 (Memref.isWhole_whole _) sc4 (Memref.isWhole_whole _) sc5 (Memref.isWhole_whole _) h1 h2 h3 h4 (iblk m c 0 t) (iblk m c 1 t) (iblk m c 2 t) (iblk m c 3 t) st.kc st.vc st.qb st.mm st.ll st.acc).2.2.1)
    qb := sc2.view.read (Elt F) (sc2.view.writes (Elt F) ((Memref.isWhole_whole _).unread st.qb) (kernelRun_B c (grid0.coords t) (ms0 t) (hs0 t) (ms1 t) (hs1 t) (ms2 t) (hs2 t) (ms3 t) (hs3 t) (ms4 t) (hs4 t) sc0 (Memref.isWhole_whole _) sc1 (Memref.isWhole_whole _) sc2 (Memref.isWhole_whole _) sc3 (Memref.isWhole_whole _) sc4 (Memref.isWhole_whole _) sc5 (Memref.isWhole_whole _) h1 h2 h3 h4 (iblk m c 0 t) (iblk m c 1 t) (iblk m c 2 t) (iblk m c 3 t) st.kc st.vc st.qb st.mm st.ll st.acc).2.2.2.1)
    mm := sc3.view.read (Elt F) (sc3.view.writes (Elt F) ((Memref.isWhole_whole _).unread st.mm) (kernelRun_B c (grid0.coords t) (ms0 t) (hs0 t) (ms1 t) (hs1 t) (ms2 t) (hs2 t) (ms3 t) (hs3 t) (ms4 t) (hs4 t) sc0 (Memref.isWhole_whole _) sc1 (Memref.isWhole_whole _) sc2 (Memref.isWhole_whole _) sc3 (Memref.isWhole_whole _) sc4 (Memref.isWhole_whole _) sc5 (Memref.isWhole_whole _) h1 h2 h3 h4 (iblk m c 0 t) (iblk m c 1 t) (iblk m c 2 t) (iblk m c 3 t) st.kc st.vc st.qb st.mm st.ll st.acc).2.2.2.2.1)
    ll := sc4.view.read (Elt F) (sc4.view.writes (Elt F) ((Memref.isWhole_whole _).unread st.ll) (kernelRun_B c (grid0.coords t) (ms0 t) (hs0 t) (ms1 t) (hs1 t) (ms2 t) (hs2 t) (ms3 t) (hs3 t) (ms4 t) (hs4 t) sc0 (Memref.isWhole_whole _) sc1 (Memref.isWhole_whole _) sc2 (Memref.isWhole_whole _) sc3 (Memref.isWhole_whole _) sc4 (Memref.isWhole_whole _) sc5 (Memref.isWhole_whole _) h1 h2 h3 h4 (iblk m c 0 t) (iblk m c 1 t) (iblk m c 2 t) (iblk m c 3 t) st.kc st.vc st.qb st.mm st.ll st.acc).2.2.2.2.2.1)
    acc := sc5.view.read (Elt F) (sc5.view.writes (Elt F) ((Memref.isWhole_whole _).unread st.acc) (kernelRun_B c (grid0.coords t) (ms0 t) (hs0 t) (ms1 t) (hs1 t) (ms2 t) (hs2 t) (ms3 t) (hs3 t) (ms4 t) (hs4 t) sc0 (Memref.isWhole_whole _) sc1 (Memref.isWhole_whole _) sc2 (Memref.isWhole_whole _) sc3 (Memref.isWhole_whole _) sc4 (Memref.isWhole_whole _) sc5 (Memref.isWhole_whole _) h1 h2 h3 h4 (iblk m c 0 t) (iblk m c 1 t) (iblk m c 2 t) (iblk m c 3 t) st.kc st.vc st.qb st.mm st.ll st.acc).2.2.2.2.2.2.1)

/-- The scratch state after a point of case C: each buffer at its previous contents with this case's stores written over them. -/
def next_C (c : Dev nD) (t : Fin cfg0.N) (h1 : k0_cond1 (grid0.coords t) = 1#1) (h2 : ¬k0_cond2 (grid0.coords t) = 1#1) (h3 : ¬k0_cond3 (grid0.coords t) = 1#1) (h4 : k0_cond4 (grid0.coords t) = 1#1) (st : St F) : St F where
    kc := sc0.view.read (Elt F) (sc0.view.writes (Elt F) ((Memref.isWhole_whole _).unread st.kc) (kernelRun_C c (grid0.coords t) (ms0 t) (hs0 t) (ms1 t) (hs1 t) (ms2 t) (hs2 t) (ms3 t) (hs3 t) (ms4 t) (hs4 t) sc0 (Memref.isWhole_whole _) sc1 (Memref.isWhole_whole _) sc2 (Memref.isWhole_whole _) sc3 (Memref.isWhole_whole _) sc4 (Memref.isWhole_whole _) sc5 (Memref.isWhole_whole _) h1 h2 h3 h4 (iblk m c 0 t) (iblk m c 1 t) (iblk m c 2 t) (iblk m c 3 t) st.kc st.vc st.qb st.mm st.ll st.acc).2.1)
    vc := sc1.view.read (Elt F) (sc1.view.writes (Elt F) ((Memref.isWhole_whole _).unread st.vc) (kernelRun_C c (grid0.coords t) (ms0 t) (hs0 t) (ms1 t) (hs1 t) (ms2 t) (hs2 t) (ms3 t) (hs3 t) (ms4 t) (hs4 t) sc0 (Memref.isWhole_whole _) sc1 (Memref.isWhole_whole _) sc2 (Memref.isWhole_whole _) sc3 (Memref.isWhole_whole _) sc4 (Memref.isWhole_whole _) sc5 (Memref.isWhole_whole _) h1 h2 h3 h4 (iblk m c 0 t) (iblk m c 1 t) (iblk m c 2 t) (iblk m c 3 t) st.kc st.vc st.qb st.mm st.ll st.acc).2.2.1)
    qb := sc2.view.read (Elt F) (sc2.view.writes (Elt F) ((Memref.isWhole_whole _).unread st.qb) (kernelRun_C c (grid0.coords t) (ms0 t) (hs0 t) (ms1 t) (hs1 t) (ms2 t) (hs2 t) (ms3 t) (hs3 t) (ms4 t) (hs4 t) sc0 (Memref.isWhole_whole _) sc1 (Memref.isWhole_whole _) sc2 (Memref.isWhole_whole _) sc3 (Memref.isWhole_whole _) sc4 (Memref.isWhole_whole _) sc5 (Memref.isWhole_whole _) h1 h2 h3 h4 (iblk m c 0 t) (iblk m c 1 t) (iblk m c 2 t) (iblk m c 3 t) st.kc st.vc st.qb st.mm st.ll st.acc).2.2.2.1)
    mm := sc3.view.read (Elt F) (sc3.view.writes (Elt F) ((Memref.isWhole_whole _).unread st.mm) (kernelRun_C c (grid0.coords t) (ms0 t) (hs0 t) (ms1 t) (hs1 t) (ms2 t) (hs2 t) (ms3 t) (hs3 t) (ms4 t) (hs4 t) sc0 (Memref.isWhole_whole _) sc1 (Memref.isWhole_whole _) sc2 (Memref.isWhole_whole _) sc3 (Memref.isWhole_whole _) sc4 (Memref.isWhole_whole _) sc5 (Memref.isWhole_whole _) h1 h2 h3 h4 (iblk m c 0 t) (iblk m c 1 t) (iblk m c 2 t) (iblk m c 3 t) st.kc st.vc st.qb st.mm st.ll st.acc).2.2.2.2.1)
    ll := sc4.view.read (Elt F) (sc4.view.writes (Elt F) ((Memref.isWhole_whole _).unread st.ll) (kernelRun_C c (grid0.coords t) (ms0 t) (hs0 t) (ms1 t) (hs1 t) (ms2 t) (hs2 t) (ms3 t) (hs3 t) (ms4 t) (hs4 t) sc0 (Memref.isWhole_whole _) sc1 (Memref.isWhole_whole _) sc2 (Memref.isWhole_whole _) sc3 (Memref.isWhole_whole _) sc4 (Memref.isWhole_whole _) sc5 (Memref.isWhole_whole _) h1 h2 h3 h4 (iblk m c 0 t) (iblk m c 1 t) (iblk m c 2 t) (iblk m c 3 t) st.kc st.vc st.qb st.mm st.ll st.acc).2.2.2.2.2.1)
    acc := sc5.view.read (Elt F) (sc5.view.writes (Elt F) ((Memref.isWhole_whole _).unread st.acc) (kernelRun_C c (grid0.coords t) (ms0 t) (hs0 t) (ms1 t) (hs1 t) (ms2 t) (hs2 t) (ms3 t) (hs3 t) (ms4 t) (hs4 t) sc0 (Memref.isWhole_whole _) sc1 (Memref.isWhole_whole _) sc2 (Memref.isWhole_whole _) sc3 (Memref.isWhole_whole _) sc4 (Memref.isWhole_whole _) sc5 (Memref.isWhole_whole _) h1 h2 h3 h4 (iblk m c 0 t) (iblk m c 1 t) (iblk m c 2 t) (iblk m c 3 t) st.kc st.vc st.qb st.mm st.ll st.acc).2.2.2.2.2.2.1)
/-- The output block after a point of case C. -/
def out_C (c : Dev nD) (t : Fin cfg0.N) (h1 : k0_cond1 (grid0.coords t) = 1#1) (h2 : ¬k0_cond2 (grid0.coords t) = 1#1) (h3 : ¬k0_cond3 (grid0.coords t) = 1#1) (h4 : k0_cond4 (grid0.coords t) = 1#1) (st : St F) (e4 : Vec F S1x512x256 .f32) : Vec F S1x512x256 .f32 :=
  (ms4 t).view.read (Elt F) ((ms4 t).view.writes (Elt F) ((hs4 t).unread e4) (kernelRun_C c (grid0.coords t) (ms0 t) (hs0 t) (ms1 t) (hs1 t) (ms2 t) (hs2 t) (ms3 t) (hs3 t) (ms4 t) (hs4 t) sc0 (Memref.isWhole_whole _) sc1 (Memref.isWhole_whole _) sc2 (Memref.isWhole_whole _) sc3 (Memref.isWhole_whole _) sc4 (Memref.isWhole_whole _) sc5 (Memref.isWhole_whole _) h1 h2 h3 h4 (iblk m c 0 t) (iblk m c 1 t) (iblk m c 2 t) (iblk m c 3 t) st.kc st.vc st.qb st.mm st.ll st.acc).1)

/-- The scratch state after a point of case D: each buffer at its previous contents with this case's stores written over them. -/
def next_D (c : Dev nD) (t : Fin cfg0.N) (h1 : ¬k0_cond1 (grid0.coords t) = 1#1) (h2 : k0_cond2 (grid0.coords t) = 1#1) (h3 : k0_cond3 (grid0.coords t) = 1#1) (h4 : ¬k0_cond4 (grid0.coords t) = 1#1) (st : St F) : St F where
    kc := sc0.view.read (Elt F) (sc0.view.writes (Elt F) ((Memref.isWhole_whole _).unread st.kc) (kernelRun_D c (grid0.coords t) (ms0 t) (hs0 t) (ms1 t) (hs1 t) (ms2 t) (hs2 t) (ms3 t) (hs3 t) (ms4 t) (hs4 t) sc0 (Memref.isWhole_whole _) sc1 (Memref.isWhole_whole _) sc2 (Memref.isWhole_whole _) sc3 (Memref.isWhole_whole _) sc4 (Memref.isWhole_whole _) sc5 (Memref.isWhole_whole _) h1 h2 h3 h4 (iblk m c 0 t) (iblk m c 1 t) (iblk m c 2 t) (iblk m c 3 t) st.kc st.vc st.qb st.mm st.ll st.acc).2.1)
    vc := sc1.view.read (Elt F) (sc1.view.writes (Elt F) ((Memref.isWhole_whole _).unread st.vc) (kernelRun_D c (grid0.coords t) (ms0 t) (hs0 t) (ms1 t) (hs1 t) (ms2 t) (hs2 t) (ms3 t) (hs3 t) (ms4 t) (hs4 t) sc0 (Memref.isWhole_whole _) sc1 (Memref.isWhole_whole _) sc2 (Memref.isWhole_whole _) sc3 (Memref.isWhole_whole _) sc4 (Memref.isWhole_whole _) sc5 (Memref.isWhole_whole _) h1 h2 h3 h4 (iblk m c 0 t) (iblk m c 1 t) (iblk m c 2 t) (iblk m c 3 t) st.kc st.vc st.qb st.mm st.ll st.acc).2.2.1)
    qb := sc2.view.read (Elt F) (sc2.view.writes (Elt F) ((Memref.isWhole_whole _).unread st.qb) (kernelRun_D c (grid0.coords t) (ms0 t) (hs0 t) (ms1 t) (hs1 t) (ms2 t) (hs2 t) (ms3 t) (hs3 t) (ms4 t) (hs4 t) sc0 (Memref.isWhole_whole _) sc1 (Memref.isWhole_whole _) sc2 (Memref.isWhole_whole _) sc3 (Memref.isWhole_whole _) sc4 (Memref.isWhole_whole _) sc5 (Memref.isWhole_whole _) h1 h2 h3 h4 (iblk m c 0 t) (iblk m c 1 t) (iblk m c 2 t) (iblk m c 3 t) st.kc st.vc st.qb st.mm st.ll st.acc).2.2.2.1)
    mm := sc3.view.read (Elt F) (sc3.view.writes (Elt F) ((Memref.isWhole_whole _).unread st.mm) (kernelRun_D c (grid0.coords t) (ms0 t) (hs0 t) (ms1 t) (hs1 t) (ms2 t) (hs2 t) (ms3 t) (hs3 t) (ms4 t) (hs4 t) sc0 (Memref.isWhole_whole _) sc1 (Memref.isWhole_whole _) sc2 (Memref.isWhole_whole _) sc3 (Memref.isWhole_whole _) sc4 (Memref.isWhole_whole _) sc5 (Memref.isWhole_whole _) h1 h2 h3 h4 (iblk m c 0 t) (iblk m c 1 t) (iblk m c 2 t) (iblk m c 3 t) st.kc st.vc st.qb st.mm st.ll st.acc).2.2.2.2.1)
    ll := sc4.view.read (Elt F) (sc4.view.writes (Elt F) ((Memref.isWhole_whole _).unread st.ll) (kernelRun_D c (grid0.coords t) (ms0 t) (hs0 t) (ms1 t) (hs1 t) (ms2 t) (hs2 t) (ms3 t) (hs3 t) (ms4 t) (hs4 t) sc0 (Memref.isWhole_whole _) sc1 (Memref.isWhole_whole _) sc2 (Memref.isWhole_whole _) sc3 (Memref.isWhole_whole _) sc4 (Memref.isWhole_whole _) sc5 (Memref.isWhole_whole _) h1 h2 h3 h4 (iblk m c 0 t) (iblk m c 1 t) (iblk m c 2 t) (iblk m c 3 t) st.kc st.vc st.qb st.mm st.ll st.acc).2.2.2.2.2.1)
    acc := sc5.view.read (Elt F) (sc5.view.writes (Elt F) ((Memref.isWhole_whole _).unread st.acc) (kernelRun_D c (grid0.coords t) (ms0 t) (hs0 t) (ms1 t) (hs1 t) (ms2 t) (hs2 t) (ms3 t) (hs3 t) (ms4 t) (hs4 t) sc0 (Memref.isWhole_whole _) sc1 (Memref.isWhole_whole _) sc2 (Memref.isWhole_whole _) sc3 (Memref.isWhole_whole _) sc4 (Memref.isWhole_whole _) sc5 (Memref.isWhole_whole _) h1 h2 h3 h4 (iblk m c 0 t) (iblk m c 1 t) (iblk m c 2 t) (iblk m c 3 t) st.kc st.vc st.qb st.mm st.ll st.acc).2.2.2.2.2.2.1)

/-- The scratch state after a point of case E: each buffer at its previous contents with this case's stores written over them. -/
def next_E (c : Dev nD) (t : Fin cfg0.N) (h1 : ¬k0_cond1 (grid0.coords t) = 1#1) (h2 : ¬k0_cond2 (grid0.coords t) = 1#1) (h3 : k0_cond3 (grid0.coords t) = 1#1) (h4 : ¬k0_cond4 (grid0.coords t) = 1#1) (st : St F) : St F where
    kc := sc0.view.read (Elt F) (sc0.view.writes (Elt F) ((Memref.isWhole_whole _).unread st.kc) (kernelRun_E c (grid0.coords t) (ms0 t) (hs0 t) (ms1 t) (hs1 t) (ms2 t) (hs2 t) (ms3 t) (hs3 t) (ms4 t) (hs4 t) sc0 (Memref.isWhole_whole _) sc1 (Memref.isWhole_whole _) sc2 (Memref.isWhole_whole _) sc3 (Memref.isWhole_whole _) sc4 (Memref.isWhole_whole _) sc5 (Memref.isWhole_whole _) h1 h2 h3 h4 (iblk m c 0 t) (iblk m c 1 t) (iblk m c 2 t) (iblk m c 3 t) st.kc st.vc st.qb st.mm st.ll st.acc).2.1)
    vc := sc1.view.read (Elt F) (sc1.view.writes (Elt F) ((Memref.isWhole_whole _).unread st.vc) (kernelRun_E c (grid0.coords t) (ms0 t) (hs0 t) (ms1 t) (hs1 t) (ms2 t) (hs2 t) (ms3 t) (hs3 t) (ms4 t) (hs4 t) sc0 (Memref.isWhole_whole _) sc1 (Memref.isWhole_whole _) sc2 (Memref.isWhole_whole _) sc3 (Memref.isWhole_whole _) sc4 (Memref.isWhole_whole _) sc5 (Memref.isWhole_whole _) h1 h2 h3 h4 (iblk m c 0 t) (iblk m c 1 t) (iblk m c 2 t) (iblk m c 3 t) st.kc st.vc st.qb st.mm st.ll st.acc).2.2.1)
    qb := sc2.view.read (Elt F) (sc2.view.writes (Elt F) ((Memref.isWhole_whole _).unread st.qb) (kernelRun_E c (grid0.coords t) (ms0 t) (hs0 t) (ms1 t) (hs1 t) (ms2 t) (hs2 t) (ms3 t) (hs3 t) (ms4 t) (hs4 t) sc0 (Memref.isWhole_whole _) sc1 (Memref.isWhole_whole _) sc2 (Memref.isWhole_whole _) sc3 (Memref.isWhole_whole _) sc4 (Memref.isWhole_whole _) sc5 (Memref.isWhole_whole _) h1 h2 h3 h4 (iblk m c 0 t) (iblk m c 1 t) (iblk m c 2 t) (iblk m c 3 t) st.kc st.vc st.qb st.mm st.ll st.acc).2.2.2.1)
    mm := sc3.view.read (Elt F) (sc3.view.writes (Elt F) ((Memref.isWhole_whole _).unread st.mm) (kernelRun_E c (grid0.coords t) (ms0 t) (hs0 t) (ms1 t) (hs1 t) (ms2 t) (hs2 t) (ms3 t) (hs3 t) (ms4 t) (hs4 t) sc0 (Memref.isWhole_whole _) sc1 (Memref.isWhole_whole _) sc2 (Memref.isWhole_whole _) sc3 (Memref.isWhole_whole _) sc4 (Memref.isWhole_whole _) sc5 (Memref.isWhole_whole _) h1 h2 h3 h4 (iblk m c 0 t) (iblk m c 1 t) (iblk m c 2 t) (iblk m c 3 t) st.kc st.vc st.qb st.mm st.ll st.acc).2.2.2.2.1)
    ll := sc4.view.read (Elt F) (sc4.view.writes (Elt F) ((Memref.isWhole_whole _).unread st.ll) (kernelRun_E c (grid0.coords t) (ms0 t) (hs0 t) (ms1 t) (hs1 t) (ms2 t) (hs2 t) (ms3 t) (hs3 t) (ms4 t) (hs4 t) sc0 (Memref.isWhole_whole _) sc1 (Memref.isWhole_whole _) sc2 (Memref.isWhole_whole _) sc3 (Memref.isWhole_whole _) sc4 (Memref.isWhole_whole _) sc5 (Memref.isWhole_whole _) h1 h2 h3 h4 (iblk m c 0 t) (iblk m c 1 t) (iblk m c 2 t) (iblk m c 3 t) st.kc st.vc st.qb st.mm st.ll st.acc).2.2.2.2.2.1)
    acc := sc5.view.read (Elt F) (sc5.view.writes (Elt F) ((Memref.isWhole_whole _).unread st.acc) (kernelRun_E c (grid0.coords t) (ms0 t) (hs0 t) (ms1 t) (hs1 t) (ms2 t) (hs2 t) (ms3 t) (hs3 t) (ms4 t) (hs4 t) sc0 (Memref.isWhole_whole _) sc1 (Memref.isWhole_whole _) sc2 (Memref.isWhole_whole _) sc3 (Memref.isWhole_whole _) sc4 (Memref.isWhole_whole _) sc5 (Memref.isWhole_whole _) h1 h2 h3 h4 (iblk m c 0 t) (iblk m c 1 t) (iblk m c 2 t) (iblk m c 3 t) st.kc st.vc st.qb st.mm st.ll st.acc).2.2.2.2.2.2.1)

/-- The scratch state after a point of case F: each buffer at its previous contents with this case's stores written over them. -/
def next_F (c : Dev nD) (t : Fin cfg0.N) (h1 : ¬k0_cond1 (grid0.coords t) = 1#1) (h2 : ¬k0_cond2 (grid0.coords t) = 1#1) (h3 : ¬k0_cond3 (grid0.coords t) = 1#1) (h4 : ¬k0_cond4 (grid0.coords t) = 1#1) (st : St F) : St F where
    kc := sc0.view.read (Elt F) (sc0.view.writes (Elt F) ((Memref.isWhole_whole _).unread st.kc) (kernelRun_F c (grid0.coords t) (ms0 t) (hs0 t) (ms1 t) (hs1 t) (ms2 t) (hs2 t) (ms3 t) (hs3 t) (ms4 t) (hs4 t) sc0 (Memref.isWhole_whole _) sc1 (Memref.isWhole_whole _) sc2 (Memref.isWhole_whole _) sc3 (Memref.isWhole_whole _) sc4 (Memref.isWhole_whole _) sc5 (Memref.isWhole_whole _) h1 h2 h3 h4 (iblk m c 0 t) (iblk m c 1 t) (iblk m c 2 t) (iblk m c 3 t) st.kc st.vc st.qb st.mm st.ll st.acc).2.1)
    vc := sc1.view.read (Elt F) (sc1.view.writes (Elt F) ((Memref.isWhole_whole _).unread st.vc) (kernelRun_F c (grid0.coords t) (ms0 t) (hs0 t) (ms1 t) (hs1 t) (ms2 t) (hs2 t) (ms3 t) (hs3 t) (ms4 t) (hs4 t) sc0 (Memref.isWhole_whole _) sc1 (Memref.isWhole_whole _) sc2 (Memref.isWhole_whole _) sc3 (Memref.isWhole_whole _) sc4 (Memref.isWhole_whole _) sc5 (Memref.isWhole_whole _) h1 h2 h3 h4 (iblk m c 0 t) (iblk m c 1 t) (iblk m c 2 t) (iblk m c 3 t) st.kc st.vc st.qb st.mm st.ll st.acc).2.2.1)
    qb := sc2.view.read (Elt F) (sc2.view.writes (Elt F) ((Memref.isWhole_whole _).unread st.qb) (kernelRun_F c (grid0.coords t) (ms0 t) (hs0 t) (ms1 t) (hs1 t) (ms2 t) (hs2 t) (ms3 t) (hs3 t) (ms4 t) (hs4 t) sc0 (Memref.isWhole_whole _) sc1 (Memref.isWhole_whole _) sc2 (Memref.isWhole_whole _) sc3 (Memref.isWhole_whole _) sc4 (Memref.isWhole_whole _) sc5 (Memref.isWhole_whole _) h1 h2 h3 h4 (iblk m c 0 t) (iblk m c 1 t) (iblk m c 2 t) (iblk m c 3 t) st.kc st.vc st.qb st.mm st.ll st.acc).2.2.2.1)
    mm := sc3.view.read (Elt F) (sc3.view.writes (Elt F) ((Memref.isWhole_whole _).unread st.mm) (kernelRun_F c (grid0.coords t) (ms0 t) (hs0 t) (ms1 t) (hs1 t) (ms2 t) (hs2 t) (ms3 t) (hs3 t) (ms4 t) (hs4 t) sc0 (Memref.isWhole_whole _) sc1 (Memref.isWhole_whole _) sc2 (Memref.isWhole_whole _) sc3 (Memref.isWhole_whole _) sc4 (Memref.isWhole_whole _) sc5 (Memref.isWhole_whole _) h1 h2 h3 h4 (iblk m c 0 t) (iblk m c 1 t) (iblk m c 2 t) (iblk m c 3 t) st.kc st.vc st.qb st.mm st.ll st.acc).2.2.2.2.1)
    ll := sc4.view.read (Elt F) (sc4.view.writes (Elt F) ((Memref.isWhole_whole _).unread st.ll) (kernelRun_F c (grid0.coords t) (ms0 t) (hs0 t) (ms1 t) (hs1 t) (ms2 t) (hs2 t) (ms3 t) (hs3 t) (ms4 t) (hs4 t) sc0 (Memref.isWhole_whole _) sc1 (Memref.isWhole_whole _) sc2 (Memref.isWhole_whole _) sc3 (Memref.isWhole_whole _) sc4 (Memref.isWhole_whole _) sc5 (Memref.isWhole_whole _) h1 h2 h3 h4 (iblk m c 0 t) (iblk m c 1 t) (iblk m c 2 t) (iblk m c 3 t) st.kc st.vc st.qb st.mm st.ll st.acc).2.2.2.2.2.1)
    acc := sc5.view.read (Elt F) (sc5.view.writes (Elt F) ((Memref.isWhole_whole _).unread st.acc) (kernelRun_F c (grid0.coords t) (ms0 t) (hs0 t) (ms1 t) (hs1 t) (ms2 t) (hs2 t) (ms3 t) (hs3 t) (ms4 t) (hs4 t) sc0 (Memref.isWhole_whole _) sc1 (Memref.isWhole_whole _) sc2 (Memref.isWhole_whole _) sc3 (Memref.isWhole_whole _) sc4 (Memref.isWhole_whole _) sc5 (Memref.isWhole_whole _) h1 h2 h3 h4 (iblk m c 0 t) (iblk m c 1 t) (iblk m c 2 t) (iblk m c 3 t) st.kc st.vc st.qb st.mm st.ll st.acc).2.2.2.2.2.2.1)

/-- The scratch state after a point of case G: each buffer at its previous contents with this case's stores written over them. -/
def next_G (c : Dev nD) (t : Fin cfg0.N) (h1 : ¬k0_cond1 (grid0.coords t) = 1#1) (h2 : ¬k0_cond2 (grid0.coords t) = 1#1) (h3 : k0_cond3 (grid0.coords t) = 1#1) (h4 : k0_cond4 (grid0.coords t) = 1#1) (st : St F) : St F where
    kc := sc0.view.read (Elt F) (sc0.view.writes (Elt F) ((Memref.isWhole_whole _).unread st.kc) (kernelRun_G c (grid0.coords t) (ms0 t) (hs0 t) (ms1 t) (hs1 t) (ms2 t) (hs2 t) (ms3 t) (hs3 t) (ms4 t) (hs4 t) sc0 (Memref.isWhole_whole _) sc1 (Memref.isWhole_whole _) sc2 (Memref.isWhole_whole _) sc3 (Memref.isWhole_whole _) sc4 (Memref.isWhole_whole _) sc5 (Memref.isWhole_whole _) h1 h2 h3 h4 (iblk m c 0 t) (iblk m c 1 t) (iblk m c 2 t) (iblk m c 3 t) st.kc st.vc st.qb st.mm st.ll st.acc).2.1)
    vc := sc1.view.read (Elt F) (sc1.view.writes (Elt F) ((Memref.isWhole_whole _).unread st.vc) (kernelRun_G c (grid0.coords t) (ms0 t) (hs0 t) (ms1 t) (hs1 t) (ms2 t) (hs2 t) (ms3 t) (hs3 t) (ms4 t) (hs4 t) sc0 (Memref.isWhole_whole _) sc1 (Memref.isWhole_whole _) sc2 (Memref.isWhole_whole _) sc3 (Memref.isWhole_whole _) sc4 (Memref.isWhole_whole _) sc5 (Memref.isWhole_whole _) h1 h2 h3 h4 (iblk m c 0 t) (iblk m c 1 t) (iblk m c 2 t) (iblk m c 3 t) st.kc st.vc st.qb st.mm st.ll st.acc).2.2.1)
    qb := sc2.view.read (Elt F) (sc2.view.writes (Elt F) ((Memref.isWhole_whole _).unread st.qb) (kernelRun_G c (grid0.coords t) (ms0 t) (hs0 t) (ms1 t) (hs1 t) (ms2 t) (hs2 t) (ms3 t) (hs3 t) (ms4 t) (hs4 t) sc0 (Memref.isWhole_whole _) sc1 (Memref.isWhole_whole _) sc2 (Memref.isWhole_whole _) sc3 (Memref.isWhole_whole _) sc4 (Memref.isWhole_whole _) sc5 (Memref.isWhole_whole _) h1 h2 h3 h4 (iblk m c 0 t) (iblk m c 1 t) (iblk m c 2 t) (iblk m c 3 t) st.kc st.vc st.qb st.mm st.ll st.acc).2.2.2.1)
    mm := sc3.view.read (Elt F) (sc3.view.writes (Elt F) ((Memref.isWhole_whole _).unread st.mm) (kernelRun_G c (grid0.coords t) (ms0 t) (hs0 t) (ms1 t) (hs1 t) (ms2 t) (hs2 t) (ms3 t) (hs3 t) (ms4 t) (hs4 t) sc0 (Memref.isWhole_whole _) sc1 (Memref.isWhole_whole _) sc2 (Memref.isWhole_whole _) sc3 (Memref.isWhole_whole _) sc4 (Memref.isWhole_whole _) sc5 (Memref.isWhole_whole _) h1 h2 h3 h4 (iblk m c 0 t) (iblk m c 1 t) (iblk m c 2 t) (iblk m c 3 t) st.kc st.vc st.qb st.mm st.ll st.acc).2.2.2.2.1)
    ll := sc4.view.read (Elt F) (sc4.view.writes (Elt F) ((Memref.isWhole_whole _).unread st.ll) (kernelRun_G c (grid0.coords t) (ms0 t) (hs0 t) (ms1 t) (hs1 t) (ms2 t) (hs2 t) (ms3 t) (hs3 t) (ms4 t) (hs4 t) sc0 (Memref.isWhole_whole _) sc1 (Memref.isWhole_whole _) sc2 (Memref.isWhole_whole _) sc3 (Memref.isWhole_whole _) sc4 (Memref.isWhole_whole _) sc5 (Memref.isWhole_whole _) h1 h2 h3 h4 (iblk m c 0 t) (iblk m c 1 t) (iblk m c 2 t) (iblk m c 3 t) st.kc st.vc st.qb st.mm st.ll st.acc).2.2.2.2.2.1)
    acc := sc5.view.read (Elt F) (sc5.view.writes (Elt F) ((Memref.isWhole_whole _).unread st.acc) (kernelRun_G c (grid0.coords t) (ms0 t) (hs0 t) (ms1 t) (hs1 t) (ms2 t) (hs2 t) (ms3 t) (hs3 t) (ms4 t) (hs4 t) sc0 (Memref.isWhole_whole _) sc1 (Memref.isWhole_whole _) sc2 (Memref.isWhole_whole _) sc3 (Memref.isWhole_whole _) sc4 (Memref.isWhole_whole _) sc5 (Memref.isWhole_whole _) h1 h2 h3 h4 (iblk m c 0 t) (iblk m c 1 t) (iblk m c 2 t) (iblk m c 3 t) st.kc st.vc st.qb st.mm st.ll st.acc).2.2.2.2.2.2.1)
/-- The output block after a point of case G. -/
def out_G (c : Dev nD) (t : Fin cfg0.N) (h1 : ¬k0_cond1 (grid0.coords t) = 1#1) (h2 : ¬k0_cond2 (grid0.coords t) = 1#1) (h3 : k0_cond3 (grid0.coords t) = 1#1) (h4 : k0_cond4 (grid0.coords t) = 1#1) (st : St F) (e4 : Vec F S1x512x256 .f32) : Vec F S1x512x256 .f32 :=
  (ms4 t).view.read (Elt F) ((ms4 t).view.writes (Elt F) ((hs4 t).unread e4) (kernelRun_G c (grid0.coords t) (ms0 t) (hs0 t) (ms1 t) (hs1 t) (ms2 t) (hs2 t) (ms3 t) (hs3 t) (ms4 t) (hs4 t) sc0 (Memref.isWhole_whole _) sc1 (Memref.isWhole_whole _) sc2 (Memref.isWhole_whole _) sc3 (Memref.isWhole_whole _) sc4 (Memref.isWhole_whole _) sc5 (Memref.isWhole_whole _) h1 h2 h3 h4 (iblk m c 0 t) (iblk m c 1 t) (iblk m c 2 t) (iblk m c 3 t) st.kc st.vc st.qb st.mm st.ll st.acc).1)

/-- The scratch state after a point of case H: each buffer at its previous contents with this case's stores written over them. -/
def next_H (c : Dev nD) (t : Fin cfg0.N) (h1 : ¬k0_cond1 (grid0.coords t) = 1#1) (h2 : ¬k0_cond2 (grid0.coords t) = 1#1) (h3 : ¬k0_cond3 (grid0.coords t) = 1#1) (h4 : k0_cond4 (grid0.coords t) = 1#1) (st : St F) : St F where
    kc := sc0.view.read (Elt F) (sc0.view.writes (Elt F) ((Memref.isWhole_whole _).unread st.kc) (kernelRun_H c (grid0.coords t) (ms0 t) (hs0 t) (ms1 t) (hs1 t) (ms2 t) (hs2 t) (ms3 t) (hs3 t) (ms4 t) (hs4 t) sc0 (Memref.isWhole_whole _) sc1 (Memref.isWhole_whole _) sc2 (Memref.isWhole_whole _) sc3 (Memref.isWhole_whole _) sc4 (Memref.isWhole_whole _) sc5 (Memref.isWhole_whole _) h1 h2 h3 h4 (iblk m c 0 t) (iblk m c 1 t) (iblk m c 2 t) (iblk m c 3 t) st.kc st.vc st.qb st.mm st.ll st.acc).2.1)
    vc := sc1.view.read (Elt F) (sc1.view.writes (Elt F) ((Memref.isWhole_whole _).unread st.vc) (kernelRun_H c (grid0.coords t) (ms0 t) (hs0 t) (ms1 t) (hs1 t) (ms2 t) (hs2 t) (ms3 t) (hs3 t) (ms4 t) (hs4 t) sc0 (Memref.isWhole_whole _) sc1 (Memref.isWhole_whole _) sc2 (Memref.isWhole_whole _) sc3 (Memref.isWhole_whole _) sc4 (Memref.isWhole_whole _) sc5 (Memref.isWhole_whole _) h1 h2 h3 h4 (iblk m c 0 t) (iblk m c 1 t) (iblk m c 2 t) (iblk m c 3 t) st.kc st.vc st.qb st.mm st.ll st.acc).2.2.1)
    qb := sc2.view.read (Elt F) (sc2.view.writes (Elt F) ((Memref.isWhole_whole _).unread st.qb) (kernelRun_H c (grid0.coords t) (ms0 t) (hs0 t) (ms1 t) (hs1 t) (ms2 t) (hs2 t) (ms3 t) (hs3 t) (ms4 t) (hs4 t) sc0 (Memref.isWhole_whole _) sc1 (Memref.isWhole_whole _) sc2 (Memref.isWhole_whole _) sc3 (Memref.isWhole_whole _) sc4 (Memref.isWhole_whole _) sc5 (Memref.isWhole_whole _) h1 h2 h3 h4 (iblk m c 0 t) (iblk m c 1 t) (iblk m c 2 t) (iblk m c 3 t) st.kc st.vc st.qb st.mm st.ll st.acc).2.2.2.1)
    mm := sc3.view.read (Elt F) (sc3.view.writes (Elt F) ((Memref.isWhole_whole _).unread st.mm) (kernelRun_H c (grid0.coords t) (ms0 t) (hs0 t) (ms1 t) (hs1 t) (ms2 t) (hs2 t) (ms3 t) (hs3 t) (ms4 t) (hs4 t) sc0 (Memref.isWhole_whole _) sc1 (Memref.isWhole_whole _) sc2 (Memref.isWhole_whole _) sc3 (Memref.isWhole_whole _) sc4 (Memref.isWhole_whole _) sc5 (Memref.isWhole_whole _) h1 h2 h3 h4 (iblk m c 0 t) (iblk m c 1 t) (iblk m c 2 t) (iblk m c 3 t) st.kc st.vc st.qb st.mm st.ll st.acc).2.2.2.2.1)
    ll := sc4.view.read (Elt F) (sc4.view.writes (Elt F) ((Memref.isWhole_whole _).unread st.ll) (kernelRun_H c (grid0.coords t) (ms0 t) (hs0 t) (ms1 t) (hs1 t) (ms2 t) (hs2 t) (ms3 t) (hs3 t) (ms4 t) (hs4 t) sc0 (Memref.isWhole_whole _) sc1 (Memref.isWhole_whole _) sc2 (Memref.isWhole_whole _) sc3 (Memref.isWhole_whole _) sc4 (Memref.isWhole_whole _) sc5 (Memref.isWhole_whole _) h1 h2 h3 h4 (iblk m c 0 t) (iblk m c 1 t) (iblk m c 2 t) (iblk m c 3 t) st.kc st.vc st.qb st.mm st.ll st.acc).2.2.2.2.2.1)
    acc := sc5.view.read (Elt F) (sc5.view.writes (Elt F) ((Memref.isWhole_whole _).unread st.acc) (kernelRun_H c (grid0.coords t) (ms0 t) (hs0 t) (ms1 t) (hs1 t) (ms2 t) (hs2 t) (ms3 t) (hs3 t) (ms4 t) (hs4 t) sc0 (Memref.isWhole_whole _) sc1 (Memref.isWhole_whole _) sc2 (Memref.isWhole_whole _) sc3 (Memref.isWhole_whole _) sc4 (Memref.isWhole_whole _) sc5 (Memref.isWhole_whole _) h1 h2 h3 h4 (iblk m c 0 t) (iblk m c 1 t) (iblk m c 2 t) (iblk m c 3 t) st.kc st.vc st.qb st.mm st.ll st.acc).2.2.2.2.2.2.1)
/-- The output block after a point of case H. -/
def out_H (c : Dev nD) (t : Fin cfg0.N) (h1 : ¬k0_cond1 (grid0.coords t) = 1#1) (h2 : ¬k0_cond2 (grid0.coords t) = 1#1) (h3 : ¬k0_cond3 (grid0.coords t) = 1#1) (h4 : k0_cond4 (grid0.coords t) = 1#1) (st : St F) (e4 : Vec F S1x512x256 .f32) : Vec F S1x512x256 .f32 :=
  (ms4 t).view.read (Elt F) ((ms4 t).view.writes (Elt F) ((hs4 t).unread e4) (kernelRun_H c (grid0.coords t) (ms0 t) (hs0 t) (ms1 t) (hs1 t) (ms2 t) (hs2 t) (ms3 t) (hs3 t) (ms4 t) (hs4 t) sc0 (Memref.isWhole_whole _) sc1 (Memref.isWhole_whole _) sc2 (Memref.isWhole_whole _) sc3 (Memref.isWhole_whole _) sc4 (Memref.isWhole_whole _) sc5 (Memref.isWhole_whole _) h1 h2 h3 h4 (iblk m c 0 t) (iblk m c 1 t) (iblk m c 2 t) (iblk m c 3 t) st.kc st.vc st.qb st.mm st.ll st.acc).1)

/-- One point's effect on the scratch state: the case the point's four conditions select (a combination no point meets leaves it). -/
def stepAt (c : Dev nD) (t : Fin cfg0.N) (st : St F) : St F :=
  if h1 : k0_cond1 (grid0.coords t) = 1#1 then
    if h2 : k0_cond2 (grid0.coords t) = 1#1 then
      if h3 : k0_cond3 (grid0.coords t) = 1#1 then
        if h4 : k0_cond4 (grid0.coords t) = 1#1 then
          st
        else
          next_A m c t h1 h2 h3 h4 st
      else
        if h4 : k0_cond4 (grid0.coords t) = 1#1 then
          st
        else
          st
    else
      if h3 : k0_cond3 (grid0.coords t) = 1#1 then
        if h4 : k0_cond4 (grid0.coords t) = 1#1 then
          st
        else
          st
      else
        if h4 : k0_cond4 (grid0.coords t) = 1#1 then
          next_C m c t h1 h2 h3 h4 st
        else
          next_B m c t h1 h2 h3 h4 st
  else
    if h2 : k0_cond2 (grid0.coords t) = 1#1 then
      if h3 : k0_cond3 (grid0.coords t) = 1#1 then
        if h4 : k0_cond4 (grid0.coords t) = 1#1 then
          st
        else
          next_D m c t h1 h2 h3 h4 st
      else
        if h4 : k0_cond4 (grid0.coords t) = 1#1 then
          st
        else
          st
    else
      if h3 : k0_cond3 (grid0.coords t) = 1#1 then
        if h4 : k0_cond4 (grid0.coords t) = 1#1 then
          next_G m c t h1 h2 h3 h4 st
        else
          next_E m c t h1 h2 h3 h4 st
      else
        if h4 : k0_cond4 (grid0.coords t) = 1#1 then
          next_H m c t h1 h2 h3 h4 st
        else
          next_F m c t h1 h2 h3 h4 st

/-- What a point leaves in the output block handed to it at `e4`: stored only at a last key tile. -/
def outAt (c : Dev nD) (t : Fin cfg0.N) (st : St F) (e4 : Vec F S1x512x256 .f32) : Vec F S1x512x256 .f32 :=
  if h1 : k0_cond1 (grid0.coords t) = 1#1 then
    if h2 : k0_cond2 (grid0.coords t) = 1#1 then
      if h3 : k0_cond3 (grid0.coords t) = 1#1 then
        if h4 : k0_cond4 (grid0.coords t) = 1#1 then
          e4
        else
          e4
      else
        if h4 : k0_cond4 (grid0.coords t) = 1#1 then
          e4
        else
          e4
    else
      if h3 : k0_cond3 (grid0.coords t) = 1#1 then
        if h4 : k0_cond4 (grid0.coords t) = 1#1 then
          e4
        else
          e4
      else
        if h4 : k0_cond4 (grid0.coords t) = 1#1 then
          out_C m c t h1 h2 h3 h4 st e4
        else
          e4
  else
    if h2 : k0_cond2 (grid0.coords t) = 1#1 then
      if h3 : k0_cond3 (grid0.coords t) = 1#1 then
        if h4 : k0_cond4 (grid0.coords t) = 1#1 then
          e4
        else
          e4
      else
        if h4 : k0_cond4 (grid0.coords t) = 1#1 then
          e4
        else
          e4
    else
      if h3 : k0_cond3 (grid0.coords t) = 1#1 then
        if h4 : k0_cond4 (grid0.coords t) = 1#1 then
          out_G m c t h1 h2 h3 h4 st e4
        else
          e4
      else
        if h4 : k0_cond4 (grid0.coords t) = 1#1 then
          out_H m c t h1 h2 h3 h4 st e4
        else
          e4

theorem stepAt_A (c : Dev nD) (t : Fin cfg0.N) (st : St F) (h1 : k0_cond1 (grid0.coords t) = 1#1) (h2 : k0_cond2 (grid0.coords t) = 1#1) (h3 : k0_cond3 (grid0.coords t) = 1#1) (h4 : ¬k0_cond4 (grid0.coords t) = 1#1) : stepAt m c t st = next_A m c t h1 h2 h3 h4 st := by
  unfold stepAt; rw [dif_pos h1, dif_pos h2, dif_pos h3, dif_neg h4]
theorem stepAt_B (c : Dev nD) (t : Fin cfg0.N) (st : St F) (h1 : k0_cond1 (grid0.coords t) = 1#1) (h2 : ¬k0_cond2 (grid0.coords t) = 1#1) (h3 : ¬k0_cond3 (grid0.coords t) = 1#1) (h4 : ¬k0_cond4 (grid0.coords t) = 1#1) : stepAt m c t st = next_B m c t h1 h2 h3 h4 st := by
  unfold stepAt; rw [dif_pos h1, dif_neg h2, dif_neg h3, dif_neg h4]
theorem stepAt_C (c : Dev nD) (t : Fin cfg0.N) (st : St F) (h1 : k0_cond1 (grid0.coords t) = 1#1) (h2 : ¬k0_cond2 (grid0.coords t) = 1#1) (h3 : ¬k0_cond3 (grid0.coords t) = 1#1) (h4 : k0_cond4 (grid0.coords t) = 1#1) : stepAt m c t st = next_C m c t h1 h2 h3 h4 st := by
  unfold stepAt; rw [dif_pos h1, dif_neg h2, dif_neg h3, dif_pos h4]
theorem outAt_C (c : Dev nD) (t : Fin cfg0.N) (st : St F) (e4 : Vec F S1x512x256 .f32) (h1 : k0_cond1 (grid0.coords t) = 1#1) (h2 : ¬k0_cond2 (grid0.coords t) = 1#1) (h3 : ¬k0_cond3 (grid0.coords t) = 1#1) (h4 : k0_cond4 (grid0.coords t) = 1#1) : outAt m c t st e4 = out_C m c t h1 h2 h3 h4 st e4 := by
  unfold outAt; rw [dif_pos h1, dif_neg h2, dif_neg h3, dif_pos h4]
theorem stepAt_D (c : Dev nD) (t : Fin cfg0.N) (st : St F) (h1 : ¬k0_cond1 (grid0.coords t) = 1#1) (h2 : k0_cond2 (grid0.coords t) = 1#1) (h3 : k0_cond3 (grid0.coords t) = 1#1) (h4 : ¬k0_cond4 (grid0.coords t) = 1#1) : stepAt m c t st = next_D m c t h1 h2 h3 h4 st := by
  unfold stepAt; rw [dif_neg h1, dif_pos h2, dif_pos h3, dif_neg h4]
theorem stepAt_E (c : Dev nD) (t : Fin cfg0.N) (st : St F) (h1 : ¬k0_cond1 (grid0.coords t) = 1#1) (h2 : ¬k0_cond2 (grid0.coords t) = 1#1) (h3 : k0_cond3 (grid0.coords t) = 1#1) (h4 : ¬k0_cond4 (grid0.coords t) = 1#1) : stepAt m c t st = next_E m c t h1 h2 h3 h4 st := by
  unfold stepAt; rw [dif_neg h1, dif_neg h2, dif_pos h3, dif_neg h4]
theorem stepAt_F (c : Dev nD) (t : Fin cfg0.N) (st : St F) (h1 : ¬k0_cond1 (grid0.coords t) = 1#1) (h2 : ¬k0_cond2 (grid0.coords t) = 1#1) (h3 : ¬k0_cond3 (grid0.coords t) = 1#1) (h4 : ¬k0_cond4 (grid0.coords t) = 1#1) : stepAt m c t st = next_F m c t h1 h2 h3 h4 st := by
  unfold stepAt; rw [dif_neg h1, dif_neg h2, dif_neg h3, dif_neg h4]
theorem stepAt_G (c : Dev nD) (t : Fin cfg0.N) (st : St F) (h1 : ¬k0_cond1 (grid0.coords t) = 1#1) (h2 : ¬k0_cond2 (grid0.coords t) = 1#1) (h3 : k0_cond3 (grid0.coords t) = 1#1) (h4 : k0_cond4 (grid0.coords t) = 1#1) : stepAt m c t st = next_G m c t h1 h2 h3 h4 st := by
  unfold stepAt; rw [dif_neg h1, dif_neg h2, dif_pos h3, dif_pos h4]
theorem outAt_G (c : Dev nD) (t : Fin cfg0.N) (st : St F) (e4 : Vec F S1x512x256 .f32) (h1 : ¬k0_cond1 (grid0.coords t) = 1#1) (h2 : ¬k0_cond2 (grid0.coords t) = 1#1) (h3 : k0_cond3 (grid0.coords t) = 1#1) (h4 : k0_cond4 (grid0.coords t) = 1#1) : outAt m c t st e4 = out_G m c t h1 h2 h3 h4 st e4 := by
  unfold outAt; rw [dif_neg h1, dif_neg h2, dif_pos h3, dif_pos h4]
theorem stepAt_H (c : Dev nD) (t : Fin cfg0.N) (st : St F) (h1 : ¬k0_cond1 (grid0.coords t) = 1#1) (h2 : ¬k0_cond2 (grid0.coords t) = 1#1) (h3 : ¬k0_cond3 (grid0.coords t) = 1#1) (h4 : k0_cond4 (grid0.coords t) = 1#1) : stepAt m c t st = next_H m c t h1 h2 h3 h4 st := by
  unfold stepAt; rw [dif_neg h1, dif_neg h2, dif_neg h3, dif_pos h4]
theorem outAt_H (c : Dev nD) (t : Fin cfg0.N) (st : St F) (e4 : Vec F S1x512x256 .f32) (h1 : ¬k0_cond1 (grid0.coords t) = 1#1) (h2 : ¬k0_cond2 (grid0.coords t) = 1#1) (h3 : ¬k0_cond3 (grid0.coords t) = 1#1) (h4 : k0_cond4 (grid0.coords t) = 1#1) : outAt m c t st e4 = out_H m c t h1 h2 h3 h4 st e4 := by
  unfold outAt; rw [dif_neg h1, dif_neg h2, dif_neg h3, dif_pos h4]

/-! ## The proof data with the scratch state tracked -/

variable (Inv : Dev nD → ℕ → St F → Prop) (outB : Dev nD → Fin cfg0.N → Vec F S1x512x256 .f32)

/-- The invariant before point `n`: the scratch buffers hold SOME state of which `Inv n` holds, and the generator register some state. -/
def PhiT (c : Dev nD) (n : ℕ) : sProp 𝕄 :=
  iprop(∃ st : St F, ⌜Inv c n st⌝ ∗ iprop(owns (c : Thread nD τ) sc0 fullShare st.kc ∗ owns (c : Thread nD τ) sc1 fullShare st.vc ∗ owns (c : Thread nD τ) sc2 fullShare st.qb ∗ owns (c : Thread nD τ) sc3 fullShare st.mm ∗ owns (c : Thread nD τ) sc4 fullShare st.ll ∗ owns (c : Thread nD τ) sc5 fullShare st.acc) ∗ (∃ r, prngReg c r))

/-- The proof data: the arrays as the region finds them; each input's staging buffer at its block after the body; the output's at
    `outB` (what a last key tile's point stores); the invariant `PhiT`; nothing owed. -/
def datsT (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outB c t
  Φ n := PhiT Inv c n.val
  q _ := fullShare
  owed _ := 0

theorem A_eqT (c : Dev nD) (w : Fin cfg0.W) : (datsT m Inv outB 0 c).A w = V m c (Pipeline.arrRef spec0 w) := by
  dsimp only [datsT]
theorem afterT_0 (c : Dev nD) (t : Fin cfg0.N) : (datsT m Inv outB 0 c).after 0 t = iblk m c 0 t := by dsimp only [datsT]
theorem afterT_1 (c : Dev nD) (t : Fin cfg0.N) : (datsT m Inv outB 0 c).after 1 t = iblk m c 1 t := by dsimp only [datsT]
theorem afterT_2 (c : Dev nD) (t : Fin cfg0.N) : (datsT m Inv outB 0 c).after 2 t = iblk m c 2 t := by dsimp only [datsT]
theorem afterT_3 (c : Dev nD) (t : Fin cfg0.N) : (datsT m Inv outB 0 c).after 3 t = iblk m c 3 t := by dsimp only [datsT]
theorem afterT_4 (c : Dev nD) (t : Fin cfg0.N) : (datsT m Inv outB 0 c).after 4 t = outB c t := by dsimp only [datsT]
theorem beforeT_0 (c : Dev nD) (t : Fin cfg0.N) (d) : (datsT m Inv outB 0 c).before 0 t d = iblk m c 0 t :=
  before0_0_of m (datsT m Inv outB 0 c) (A_eqT m Inv outB c 0) (afterT_0 m Inv outB c) t d
theorem beforeT_1 (c : Dev nD) (t : Fin cfg0.N) (d) : (datsT m Inv outB 0 c).before 1 t d = iblk m c 1 t :=
  before0_1_of m (datsT m Inv outB 0 c) (A_eqT m Inv outB c 1) (afterT_1 m Inv outB c) t d
theorem beforeT_2 (c : Dev nD) (t : Fin cfg0.N) (d) : (datsT m Inv outB 0 c).before 2 t d = iblk m c 2 t :=
  before0_2_of m (datsT m Inv outB 0 c) (A_eqT m Inv outB c 2) (afterT_2 m Inv outB c) t d
theorem beforeT_3 (c : Dev nD) (t : Fin cfg0.N) (d) : (datsT m Inv outB 0 c).before 3 t d = iblk m c 3 t :=
  before0_3_of m (datsT m Inv outB 0 c) (A_eqT m Inv outB c 3) (afterT_3 m Inv outB c) t d

theorem PhiT_castSucc (c : Dev nD) (t : Fin cfg0.N) : (datsT m Inv outB 0 c).Φ t.castSucc = PhiT Inv c t.val := by
  dsimp only [datsT]; simp only [Fin.coe_castSucc]

/-- What the value proof owes, as pure facts about states: the invariant holds of any state before the first point; one point's
    effect preserves it; and at a last key tile the stored block is the claimed one. -/
structure Pure : Prop where
  inv0 : ∀ c st, Inv c 0 st
  step : ∀ c (t : Fin cfg0.N) st, Inv c t.val st → Inv c (t.val + 1) (stepAt m c t st)
  out : ∀ c (t : Fin cfg0.N) st e4, k0_cond4 (grid0.coords t) = 1#1 → Inv c t.val st → outAt m c t st e4 = outB c t

def bodyPreT (c : Dev nD) (t : Fin cfg0.N) : sProp 𝕄 :=
  iprop((datsT m Inv outB 0 c).Φ t.castSucc ∗ (datsT m Inv outB 0 c).owesAt () t.castSucc
    ∗ (∃ d, owns (c : Thread nD τ) (ms0 t) fullShare ((datsT m Inv outB 0 c).before 0 t d))
    ∗ (∃ d, owns (c : Thread nD τ) (ms1 t) fullShare ((datsT m Inv outB 0 c).before 1 t d))
    ∗ (∃ d, owns (c : Thread nD τ) (ms2 t) fullShare ((datsT m Inv outB 0 c).before 2 t d))
    ∗ (∃ d, owns (c : Thread nD τ) (ms3 t) fullShare ((datsT m Inv outB 0 c).before 3 t d))
    ∗ (∃ d, owns (c : Thread nD τ) (ms4 t) fullShare ((datsT m Inv outB 0 c).before 4 t d)))

def bodyPostT (c : Dev nD) (t : Fin cfg0.N) : sProp 𝕄 :=
  iprop((datsT m Inv outB 0 c).Φ t.succ ∗ (datsT m Inv outB 0 c).owesAt () t.succ
    ∗ (datsT m Inv outB 0 c).leavesExact 0 t
    ∗ (datsT m Inv outB 0 c).leavesExact 1 t
    ∗ (datsT m Inv outB 0 c).leavesExact 2 t
    ∗ (datsT m Inv outB 0 c).leavesExact 3 t
    ∗ (datsT m Inv outB 0 c).leavesExact 4 t)

end Cert.KernelIdeal.Attn

end
-- ==== Proof.KI.TrackA.lean ====
/- The attention kernel's body obligation at the points of one of its eight cases, the scratch state tracked. -/
import proofs.«166778_j29291676958807_2_alg».proof.Proof.KI.TrackDefs

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
variable (Inv : Dev nD → ℕ → St F → Prop) (outB : Dev nD → Fin cfg0.N → Vec F S1x512x256 .f32)

set_option maxHeartbeats 8000000 in
/-- The body at a point of case A: the case's run takes the state the invariant holds to the next one, which the invariant then holds; the output block is handed back untouched. -/
theorem sound_A (hP : Pure m Inv outB) (c : Dev nD) (t : Fin cfg0.N) (h1 : k0_cond1 (grid0.coords t) = 1#1) (h2 : k0_cond2 (grid0.coords t) = 1#1) (h3 : k0_cond3 (grid0.coords t) = 1#1) (h4 : ¬k0_cond4 (grid0.coords t) = 1#1) :
    bodyPreT m Inv outB c t ⊢ wp frame (wpE (defs₀ (F := F)) Variants.none c none) Set.univ (bodyAt0 t) (fun _ => bodyPostT m Inv outB c t) := by
  unfold bodyPreT bodyPostT bodyAt0
  simp only [beforeT_0, beforeT_1, beforeT_2, beforeT_3]
  rw [show (datsT m Inv outB 0 c).owesAt () t.succ = (datsT m Inv outB 0 c).owesAt () t.castSucc from rfl]
  rw [show (datsT m Inv outB 0 c).Φ t.succ = PhiT Inv c (t.val + 1) from rfl, PhiT_castSucc]
  unfold PhiT
  rw [show (datsT m Inv outB 0 c).leavesExact 0 t = owns (c : Thread nD τ) (ms0 t) fullShare ((datsT m Inv outB 0 c).after 0 t) from by
    unfold Dat.leavesExact; rw [live0 t], afterT_0]
  rw [show (datsT m Inv outB 0 c).leavesExact 1 t = owns (c : Thread nD τ) (ms1 t) fullShare ((datsT m Inv outB 0 c).after 1 t) from by
    unfold Dat.leavesExact; rw [live1 t], afterT_1]
  rw [show (datsT m Inv outB 0 c).leavesExact 2 t = owns (c : Thread nD τ) (ms2 t) fullShare ((datsT m Inv outB 0 c).after 2 t) from by
    unfold Dat.leavesExact; rw [live2 t], afterT_2]
  rw [show (datsT m Inv outB 0 c).leavesExact 3 t = owns (c : Thread nD τ) (ms3 t) fullShare ((datsT m Inv outB 0 c).after 3 t) from by
    unfold Dat.leavesExact; rw [live3 t], afterT_3]
  rw [Dat.leavesExact_idle (datsT m Inv outB 0 c) 4 t (idle4 t h4) (noFlush4 t h4)]
  iintro ⟨⟨%st, %hInv, ⟨S0, S1, S2, S3, S4, S5⟩, Hg⟩, Ho, ⟨%e0, H0⟩, ⟨%e1, H1⟩, ⟨%e2, H2⟩, ⟨%e3, H3⟩, ⟨%d4, H4⟩⟩
  iapply ((kernelRun_A c (grid0.coords t) _ _ _ _ _ _ _ _ _ _ _ _ _ _ _ _ _ _ _ _ _ _ h1 h2 h3 h4 (iblk m c 0 t) (iblk m c 1 t) (iblk m c 2 t) (iblk m c 3 t) st.kc st.vc st.qb st.mm st.ll st.acc).2.2.2.2.2.2.2 ((datsT m Inv outB 0 c).before 4 t d4) Set.univ _)
  isplitl [H0]; · iexact H0
  isplitl [H1]; · iexact H1
  isplitl [H2]; · iexact H2
  isplitl [H3]; · iexact H3
  isplitl [H4]; · iexact H4
  isplitl [S0]; · iexact S0
  isplitl [S1]; · iexact S1
  isplitl [S2]; · iexact S2
  isplitl [S3]; · iexact S3
  isplitl [S4]; · iexact S4
  isplitl [S5]; · iexact S5
  iintro ⟨H0, H1, H2, H3, H4, S0, S1, S2, S3, S4, S5⟩
  isplitl [S0 S1 S2 S3 S4 S5 Hg]
  · iexists (stepAt m c t st)
    isplitr
    · ipureintro; exact hP.step c t st hInv
    isplitl [S0 S1 S2 S3 S4 S5]
    · rw [stepAt_A m c t st h1 h2 h3 h4]
      isplitl [S0]
      · unfold owns; iexists _; isplitr; swap
        · iexact S0
        · ipureintro; rfl
      isplitl [S1]
      · unfold owns; iexists _; isplitr; swap
        · iexact S1
        · ipureintro; rfl
      isplitl [S2]
      · unfold owns; iexists _; isplitr; swap
        · iexact S2
        · ipureintro; rfl
      isplitl [S3]
      · unfold owns; iexists _; isplitr; swap
        · iexact S3
        · ipureintro; rfl
      isplitl [S4]
      · unfold owns; iexists _; isplitr; swap
        · iexact S4
        · ipureintro; rfl
      unfold owns; iexists _; isplitr; swap
      · iexact S5
      · ipureintro; rfl
    · iexact Hg
  isplitl [Ho]; · iexact Ho
  isplitl [H0]; · iexact H0
  isplitl [H1]; · iexact H1
  isplitl [H2]; · iexact H2
  isplitl [H3]; · iexact H3
  iexists d4
  unfold owns; iexists _; isplitr; swap
  · iexact H4
  · ipureintro; exact (hs4 t).read_unread _

end Cert.KernelIdeal.Attn

end
-- ==== Proof.KI.TrackB.lean ====
/- The attention kernel's body obligation at the points of one of its eight cases, the scratch state tracked. -/
import proofs.«166778_j29291676958807_2_alg».proof.Proof.KI.TrackDefs

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
variable (Inv : Dev nD → ℕ → St F → Prop) (outB : Dev nD → Fin cfg0.N → Vec F S1x512x256 .f32)

set_option maxHeartbeats 8000000 in
/-- The body at a point of case B: the case's run takes the state the invariant holds to the next one, which the invariant then holds; the output block is handed back untouched. -/
theorem sound_B (hP : Pure m Inv outB) (c : Dev nD) (t : Fin cfg0.N) (h1 : k0_cond1 (grid0.coords t) = 1#1) (h2 : ¬k0_cond2 (grid0.coords t) = 1#1) (h3 : ¬k0_cond3 (grid0.coords t) = 1#1) (h4 : ¬k0_cond4 (grid0.coords t) = 1#1) :
    bodyPreT m Inv outB c t ⊢ wp frame (wpE (defs₀ (F := F)) Variants.none c none) Set.univ (bodyAt0 t) (fun _ => bodyPostT m Inv outB c t) := by
  unfold bodyPreT bodyPostT bodyAt0
  simp only [beforeT_0, beforeT_1, beforeT_2, beforeT_3]
  rw [show (datsT m Inv outB 0 c).owesAt () t.succ = (datsT m Inv outB 0 c).owesAt () t.castSucc from rfl]
  rw [show (datsT m Inv outB 0 c).Φ t.succ = PhiT Inv c (t.val + 1) from rfl, PhiT_castSucc]
  unfold PhiT
  rw [show (datsT m Inv outB 0 c).leavesExact 0 t = owns (c : Thread nD τ) (ms0 t) fullShare ((datsT m Inv outB 0 c).after 0 t) from by
    unfold Dat.leavesExact; rw [live0 t], afterT_0]
  rw [show (datsT m Inv outB 0 c).leavesExact 1 t = owns (c : Thread nD τ) (ms1 t) fullShare ((datsT m Inv outB 0 c).after 1 t) from by
    unfold Dat.leavesExact; rw [live1 t], afterT_1]
  rw [show (datsT m Inv outB 0 c).leavesExact 2 t = owns (c : Thread nD τ) (ms2 t) fullShare ((datsT m Inv outB 0 c).after 2 t) from by
    unfold Dat.leavesExact; rw [live2 t], afterT_2]
  rw [show (datsT m Inv outB 0 c).leavesExact 3 t = owns (c : Thread nD τ) (ms3 t) fullShare ((datsT m Inv outB 0 c).after 3 t) from by
    unfold Dat.leavesExact; rw [live3 t], afterT_3]
  rw [Dat.leavesExact_idle (datsT m Inv outB 0 c) 4 t (idle4 t h4) (noFlush4 t h4)]
  iintro ⟨⟨%st, %hInv, ⟨S0, S1, S2, S3, S4, S5⟩, Hg⟩, Ho, ⟨%e0, H0⟩, ⟨%e1, H1⟩, ⟨%e2, H2⟩, ⟨%e3, H3⟩, ⟨%d4, H4⟩⟩
  iapply ((kernelRun_B c (grid0.coords t) _ _ _ _ _ _ _ _ _ _ _ _ _ _ _ _ _ _ _ _ _ _ h1 h2 h3 h4 (iblk m c 0 t) (iblk m c 1 t) (iblk m c 2 t) (iblk m c 3 t) st.kc st.vc st.qb st.mm st.ll st.acc).2.2.2.2.2.2.2 ((datsT m Inv outB 0 c).before 4 t d4) Set.univ _)
  isplitl [H0]; · iexact H0
  isplitl [H1]; · iexact H1
  isplitl [H2]; · iexact H2
  isplitl [H3]; · iexact H3
  isplitl [H4]; · iexact H4
  isplitl [S0]; · iexact S0
  isplitl [S1]; · iexact S1
  isplitl [S2]; · iexact S2
  isplitl [S3]; · iexact S3
  isplitl [S4]; · iexact S4
  isplitl [S5]; · iexact S5
  iintro ⟨H0, H1, H2, H3, H4, S0, S1, S2, S3, S4, S5⟩
  isplitl [S0 S1 S2 S3 S4 S5 Hg]
  · iexists (stepAt m c t st)
    isplitr
    · ipureintro; exact hP.step c t st hInv
    isplitl [S0 S1 S2 S3 S4 S5]
    · rw [stepAt_B m c t st h1 h2 h3 h4]
      isplitl [S0]
      · unfold owns; iexists _; isplitr; swap
        · iexact S0
        · ipureintro; rfl
      isplitl [S1]
      · unfold owns; iexists _; isplitr; swap
        · iexact S1
        · ipureintro; rfl
      isplitl [S2]
      · unfold owns; iexists _; isplitr; swap
        · iexact S2
        · ipureintro; rfl
      isplitl [S3]
      · unfold owns; iexists _; isplitr; swap
        · iexact S3
        · ipureintro; rfl
      isplitl [S4]
      · unfold owns; iexists _; isplitr; swap
        · iexact S4
        · ipureintro; rfl
      unfold owns; iexists _; isplitr; swap
      · iexact S5
      · ipureintro; rfl
    · iexact Hg
  isplitl [Ho]; · iexact Ho
  isplitl [H0]; · iexact H0
  isplitl [H1]; · iexact H1
  isplitl [H2]; · iexact H2
  isplitl [H3]; · iexact H3
  iexists d4
  unfold owns; iexists _; isplitr; swap
  · iexact H4
  · ipureintro; exact (hs4 t).read_unread _

end Cert.KernelIdeal.Attn

end
-- ==== Proof.KI.TrackC.lean ====
/- The attention kernel's body obligation at the points of one of its eight cases, the scratch state tracked. -/
import proofs.«166778_j29291676958807_2_alg».proof.Proof.KI.TrackDefs

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
variable (Inv : Dev nD → ℕ → St F → Prop) (outB : Dev nD → Fin cfg0.N → Vec F S1x512x256 .f32)

set_option maxHeartbeats 8000000 in
/-- The body at a point of case C: the case's run takes the state the invariant holds to the next one, which the invariant then holds; the output block is left at the claimed contents. -/
theorem sound_C (hP : Pure m Inv outB) (c : Dev nD) (t : Fin cfg0.N) (h1 : k0_cond1 (grid0.coords t) = 1#1) (h2 : ¬k0_cond2 (grid0.coords t) = 1#1) (h3 : ¬k0_cond3 (grid0.coords t) = 1#1) (h4 : k0_cond4 (grid0.coords t) = 1#1) :
    bodyPreT m Inv outB c t ⊢ wp frame (wpE (defs₀ (F := F)) Variants.none c none) Set.univ (bodyAt0 t) (fun _ => bodyPostT m Inv outB c t) := by
  unfold bodyPreT bodyPostT bodyAt0
  simp only [beforeT_0, beforeT_1, beforeT_2, beforeT_3]
  rw [show (datsT m Inv outB 0 c).owesAt () t.succ = (datsT m Inv outB 0 c).owesAt () t.castSucc from rfl]
  rw [show (datsT m Inv outB 0 c).Φ t.succ = PhiT Inv c (t.val + 1) from rfl, PhiT_castSucc]
  unfold PhiT
  rw [show (datsT m Inv outB 0 c).leavesExact 0 t = owns (c : Thread nD τ) (ms0 t) fullShare ((datsT m Inv outB 0 c).after 0 t) from by
    unfold Dat.leavesExact; rw [live0 t], afterT_0]
  rw [show (datsT m Inv outB 0 c).leavesExact 1 t = owns (c : Thread nD τ) (ms1 t) fullShare ((datsT m Inv outB 0 c).after 1 t) from by
    unfold Dat.leavesExact; rw [live1 t], afterT_1]
  rw [show (datsT m Inv outB 0 c).leavesExact 2 t = owns (c : Thread nD τ) (ms2 t) fullShare ((datsT m Inv outB 0 c).after 2 t) from by
    unfold Dat.leavesExact; rw [live2 t], afterT_2]
  rw [show (datsT m Inv outB 0 c).leavesExact 3 t = owns (c : Thread nD τ) (ms3 t) fullShare ((datsT m Inv outB 0 c).after 3 t) from by
    unfold Dat.leavesExact; rw [live3 t], afterT_3]
  rw [show (datsT m Inv outB 0 c).leavesExact 4 t = owns (c : Thread nD τ) (ms4 t) fullShare ((datsT m Inv outB 0 c).after 4 t) from by
    unfold Dat.leavesExact; rw [live4 t h4], afterT_4]
  iintro ⟨⟨%st, %hInv, ⟨S0, S1, S2, S3, S4, S5⟩, Hg⟩, Ho, ⟨%e0, H0⟩, ⟨%e1, H1⟩, ⟨%e2, H2⟩, ⟨%e3, H3⟩, ⟨%d4, H4⟩⟩
  iapply ((kernelRun_C c (grid0.coords t) _ _ _ _ _ _ _ _ _ _ _ _ _ _ _ _ _ _ _ _ _ _ h1 h2 h3 h4 (iblk m c 0 t) (iblk m c 1 t) (iblk m c 2 t) (iblk m c 3 t) st.kc st.vc st.qb st.mm st.ll st.acc).2.2.2.2.2.2.2 ((datsT m Inv outB 0 c).before 4 t d4) Set.univ _)
  isplitl [H0]; · iexact H0
  isplitl [H1]; · iexact H1
  isplitl [H2]; · iexact H2
  isplitl [H3]; · iexact H3
  isplitl [H4]; · iexact H4
  isplitl [S0]; · iexact S0
  isplitl [S1]; · iexact S1
  isplitl [S2]; · iexact S2
  isplitl [S3]; · iexact S3
  isplitl [S4]; · iexact S4
  isplitl [S5]; · iexact S5
  iintro ⟨H0, H1, H2, H3, H4, S0, S1, S2, S3, S4, S5⟩
  isplitl [S0 S1 S2 S3 S4 S5 Hg]
  · iexists (stepAt m c t st)
    isplitr
    · ipureintro; exact hP.step c t st hInv
    isplitl [S0 S1 S2 S3 S4 S5]
    · rw [stepAt_C m c t st h1 h2 h3 h4]
      isplitl [S0]
      · unfold owns; iexists _; isplitr; swap
        · iexact S0
        · ipureintro; rfl
      isplitl [S1]
      · unfold owns; iexists _; isplitr; swap
        · iexact S1
        · ipureintro; rfl
      isplitl [S2]
      · unfold owns; iexists _; isplitr; swap
        · iexact S2
        · ipureintro; rfl
      isplitl [S3]
      · unfold owns; iexists _; isplitr; swap
        · iexact S3
        · ipureintro; rfl
      isplitl [S4]
      · unfold owns; iexists _; isplitr; swap
        · iexact S4
        · ipureintro; rfl
      unfold owns; iexists _; isplitr; swap
      · iexact S5
      · ipureintro; rfl
    · iexact Hg
  isplitl [Ho]; · iexact Ho
  isplitl [H0]; · iexact H0
  isplitl [H1]; · iexact H1
  isplitl [H2]; · iexact H2
  isplitl [H3]; · iexact H3
  unfold owns; iexists _; isplitr; swap
  · iexact H4
  · ipureintro; exact (outAt_C m c t st ((datsT m Inv outB 0 c).before 4 t d4) h1 h2 h3 h4).symm.trans (hP.out c t st _ h4 hInv)

end Cert.KernelIdeal.Attn

end
-- ==== Proof.KI.TrackD.lean ====
/- The attention kernel's body obligation at the points of one of its eight cases, the scratch state tracked. -/
import proofs.«166778_j29291676958807_2_alg».proof.Proof.KI.TrackDefs

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
variable (Inv : Dev nD → ℕ → St F → Prop) (outB : Dev nD → Fin cfg0.N → Vec F S1x512x256 .f32)

set_option maxHeartbeats 8000000 in
/-- The body at a point of case D: the case's run takes the state the invariant holds to the next one, which the invariant then holds; the output block is handed back untouched. -/
theorem sound_D (hP : Pure m Inv outB) (c : Dev nD) (t : Fin cfg0.N) (h1 : ¬k0_cond1 (grid0.coords t) = 1#1) (h2 : k0_cond2 (grid0.coords t) = 1#1) (h3 : k0_cond3 (grid0.coords t) = 1#1) (h4 : ¬k0_cond4 (grid0.coords t) = 1#1) :
    bodyPreT m Inv outB c t ⊢ wp frame (wpE (defs₀ (F := F)) Variants.none c none) Set.univ (bodyAt0 t) (fun _ => bodyPostT m Inv outB c t) := by
  unfold bodyPreT bodyPostT bodyAt0
  simp only [beforeT_0, beforeT_1, beforeT_2, beforeT_3]
  rw [show (datsT m Inv outB 0 c).owesAt () t.succ = (datsT m Inv outB 0 c).owesAt () t.castSucc from rfl]
  rw [show (datsT m Inv outB 0 c).Φ t.succ = PhiT Inv c (t.val + 1) from rfl, PhiT_castSucc]
  unfold PhiT
  rw [show (datsT m Inv outB 0 c).leavesExact 0 t = owns (c : Thread nD τ) (ms0 t) fullShare ((datsT m Inv outB 0 c).after 0 t) from by
    unfold Dat.leavesExact; rw [live0 t], afterT_0]
  rw [show (datsT m Inv outB 0 c).leavesExact 1 t = owns (c : Thread nD τ) (ms1 t) fullShare ((datsT m Inv outB 0 c).after 1 t) from by
    unfold Dat.leavesExact; rw [live1 t], afterT_1]
  rw [show (datsT m Inv outB 0 c).leavesExact 2 t = owns (c : Thread nD τ) (ms2 t) fullShare ((datsT m Inv outB 0 c).after 2 t) from by
    unfold Dat.leavesExact; rw [live2 t], afterT_2]
  rw [show (datsT m Inv outB 0 c).leavesExact 3 t = owns (c : Thread nD τ) (ms3 t) fullShare ((datsT m Inv outB 0 c).after 3 t) from by
    unfold Dat.leavesExact; rw [live3 t], afterT_3]
  rw [Dat.leavesExact_idle (datsT m Inv outB 0 c) 4 t (idle4 t h4) (noFlush4 t h4)]
  iintro ⟨⟨%st, %hInv, ⟨S0, S1, S2, S3, S4, S5⟩, Hg⟩, Ho, ⟨%e0, H0⟩, ⟨%e1, H1⟩, ⟨%e2, H2⟩, ⟨%e3, H3⟩, ⟨%d4, H4⟩⟩
  iapply ((kernelRun_D c (grid0.coords t) _ _ _ _ _ _ _ _ _ _ _ _ _ _ _ _ _ _ _ _ _ _ h1 h2 h3 h4 (iblk m c 0 t) (iblk m c 1 t) (iblk m c 2 t) (iblk m c 3 t) st.kc st.vc st.qb st.mm st.ll st.acc).2.2.2.2.2.2.2 ((datsT m Inv outB 0 c).before 4 t d4) Set.univ _)
  isplitl [H0]; · iexact H0
  isplitl [H1]; · iexact H1
  isplitl [H2]; · iexact H2
  isplitl [H3]; · iexact H3
  isplitl [H4]; · iexact H4
  isplitl [S0]; · iexact S0
  isplitl [S1]; · iexact S1
  isplitl [S2]; · iexact S2
  isplitl [S3]; · iexact S3
  isplitl [S4]; · iexact S4
  isplitl [S5]; · iexact S5
  iintro ⟨H0, H1, H2, H3, H4, S0, S1, S2, S3, S4, S5⟩
  isplitl [S0 S1 S2 S3 S4 S5 Hg]
  · iexists (stepAt m c t st)
    isplitr
    · ipureintro; exact hP.step c t st hInv
    isplitl [S0 S1 S2 S3 S4 S5]
    · rw [stepAt_D m c t st h1 h2 h3 h4]
      isplitl [S0]
      · unfold owns; iexists _; isplitr; swap
        · iexact S0
        · ipureintro; rfl
      isplitl [S1]
      · unfold owns; iexists _; isplitr; swap
        · iexact S1
        · ipureintro; rfl
      isplitl [S2]
      · unfold owns; iexists _; isplitr; swap
        · iexact S2
        · ipureintro; rfl
      isplitl [S3]
      · unfold owns; iexists _; isplitr; swap
        · iexact S3
        · ipureintro; rfl
      isplitl [S4]
      · unfold owns; iexists _; isplitr; swap
        · iexact S4
        · ipureintro; rfl
      unfold owns; iexists _; isplitr; swap
      · iexact S5
      · ipureintro; rfl
    · iexact Hg
  isplitl [Ho]; · iexact Ho
  isplitl [H0]; · iexact H0
  isplitl [H1]; · iexact H1
  isplitl [H2]; · iexact H2
  isplitl [H3]; · iexact H3
  iexists d4
  unfold owns; iexists _; isplitr; swap
  · iexact H4
  · ipureintro; exact (hs4 t).read_unread _

end Cert.KernelIdeal.Attn

end
-- ==== Proof.KI.TrackE.lean ====
/- The attention kernel's body obligation at the points of one of its eight cases, the scratch state tracked. -/
import proofs.«166778_j29291676958807_2_alg».proof.Proof.KI.TrackDefs

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
variable (Inv : Dev nD → ℕ → St F → Prop) (outB : Dev nD → Fin cfg0.N → Vec F S1x512x256 .f32)

set_option maxHeartbeats 8000000 in
/-- The body at a point of case E: the case's run takes the state the invariant holds to the next one, which the invariant then holds; the output block is handed back untouched. -/
theorem sound_E (hP : Pure m Inv outB) (c : Dev nD) (t : Fin cfg0.N) (h1 : ¬k0_cond1 (grid0.coords t) = 1#1) (h2 : ¬k0_cond2 (grid0.coords t) = 1#1) (h3 : k0_cond3 (grid0.coords t) = 1#1) (h4 : ¬k0_cond4 (grid0.coords t) = 1#1) :
    bodyPreT m Inv outB c t ⊢ wp frame (wpE (defs₀ (F := F)) Variants.none c none) Set.univ (bodyAt0 t) (fun _ => bodyPostT m Inv outB c t) := by
  unfold bodyPreT bodyPostT bodyAt0
  simp only [beforeT_0, beforeT_1, beforeT_2, beforeT_3]
  rw [show (datsT m Inv outB 0 c).owesAt () t.succ = (datsT m Inv outB 0 c).owesAt () t.castSucc from rfl]
  rw [show (datsT m Inv outB 0 c).Φ t.succ = PhiT Inv c (t.val + 1) from rfl, PhiT_castSucc]
  unfold PhiT
  rw [show (datsT m Inv outB 0 c).leavesExact 0 t = owns (c : Thread nD τ) (ms0 t) fullShare ((datsT m Inv outB 0 c).after 0 t) from by
    unfold Dat.leavesExact; rw [live0 t], afterT_0]
  rw [show (datsT m Inv outB 0 c).leavesExact 1 t = owns (c : Thread nD τ) (ms1 t) fullShare ((datsT m Inv outB 0 c).after 1 t) from by
    unfold Dat.leavesExact; rw [live1 t], afterT_1]
  rw [show (datsT m Inv outB 0 c).leavesExact 2 t = owns (c : Thread nD τ) (ms2 t) fullShare ((datsT m Inv outB 0 c).after 2 t) from by
    unfold Dat.leavesExact; rw [live2 t], afterT_2]
  rw [show (datsT m Inv outB 0 c).leavesExact 3 t = owns (c : Thread nD τ) (ms3 t) fullShare ((datsT m Inv outB 0 c).after 3 t) from by
    unfold Dat.leavesExact; rw [live3 t], afterT_3]
  rw [Dat.leavesExact_idle (datsT m Inv outB 0 c) 4 t (idle4 t h4) (noFlush4 t h4)]
  iintro ⟨⟨%st, %hInv, ⟨S0, S1, S2, S3, S4, S5⟩, Hg⟩, Ho, ⟨%e0, H0⟩, ⟨%e1, H1⟩, ⟨%e2, H2⟩, ⟨%e3, H3⟩, ⟨%d4, H4⟩⟩
  iapply ((kernelRun_E c (grid0.coords t) _ _ _ _ _ _ _ _ _ _ _ _ _ _ _ _ _ _ _ _ _ _ h1 h2 h3 h4 (iblk m c 0 t) (iblk m c 1 t) (iblk m c 2 t) (iblk m c 3 t) st.kc st.vc st.qb st.mm st.ll st.acc).2.2.2.2.2.2.2 ((datsT m Inv outB 0 c).before 4 t d4) Set.univ _)
  isplitl [H0]; · iexact H0
  isplitl [H1]; · iexact H1
  isplitl [H2]; · iexact H2
  isplitl [H3]; · iexact H3
  isplitl [H4]; · iexact H4
  isplitl [S0]; · iexact S0
  isplitl [S1]; · iexact S1
  isplitl [S2]; · iexact S2
  isplitl [S3]; · iexact S3
  isplitl [S4]; · iexact S4
  isplitl [S5]; · iexact S5
  iintro ⟨H0, H1, H2, H3, H4, S0, S1, S2, S3, S4, S5⟩
  isplitl [S0 S1 S2 S3 S4 S5 Hg]
  · iexists (stepAt m c t st)
    isplitr
    · ipureintro; exact hP.step c t st hInv
    isplitl [S0 S1 S2 S3 S4 S5]
    · rw [stepAt_E m c t st h1 h2 h3 h4]
      isplitl [S0]
      · unfold owns; iexists _; isplitr; swap
        · iexact S0
        · ipureintro; rfl
      isplitl [S1]
      · unfold owns; iexists _; isplitr; swap
        · iexact S1
        · ipureintro; rfl
      isplitl [S2]
      · unfold owns; iexists _; isplitr; swap
        · iexact S2
        · ipureintro; rfl
      isplitl [S3]
      · unfold owns; iexists _; isplitr; swap
        · iexact S3
        · ipureintro; rfl
      isplitl [S4]
      · unfold owns; iexists _; isplitr; swap
        · iexact S4
        · ipureintro; rfl
      unfold owns; iexists _; isplitr; swap
      · iexact S5
      · ipureintro; rfl
    · iexact Hg
  isplitl [Ho]; · iexact Ho
  isplitl [H0]; · iexact H0
  isplitl [H1]; · iexact H1
  isplitl [H2]; · iexact H2
  isplitl [H3]; · iexact H3
  iexists d4
  unfold owns; iexists _; isplitr; swap
  · iexact H4
  · ipureintro; exact (hs4 t).read_unread _

end Cert.KernelIdeal.Attn

end
-- ==== Proof.KI.TrackF.lean ====
/- The attention kernel's body obligation at the points of one of its eight cases, the scratch state tracked. -/
import proofs.«166778_j29291676958807_2_alg».proof.Proof.KI.TrackDefs

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
variable (Inv : Dev nD → ℕ → St F → Prop) (outB : Dev nD → Fin cfg0.N → Vec F S1x512x256 .f32)

set_option maxHeartbeats 8000000 in
/-- The body at a point of case F: the case's run takes the state the invariant holds to the next one, which the invariant then holds; the output block is handed back untouched. -/
theorem sound_F (hP : Pure m Inv outB) (c : Dev nD) (t : Fin cfg0.N) (h1 : ¬k0_cond1 (grid0.coords t) = 1#1) (h2 : ¬k0_cond2 (grid0.coords t) = 1#1) (h3 : ¬k0_cond3 (grid0.coords t) = 1#1) (h4 : ¬k0_cond4 (grid0.coords t) = 1#1) :
    bodyPreT m Inv outB c t ⊢ wp frame (wpE (defs₀ (F := F)) Variants.none c none) Set.univ (bodyAt0 t) (fun _ => bodyPostT m Inv outB c t) := by
  unfold bodyPreT bodyPostT bodyAt0
  simp only [beforeT_0, beforeT_1, beforeT_2, beforeT_3]
  rw [show (datsT m Inv outB 0 c).owesAt () t.succ = (datsT m Inv outB 0 c).owesAt () t.castSucc from rfl]
  rw [show (datsT m Inv outB 0 c).Φ t.succ = PhiT Inv c (t.val + 1) from rfl, PhiT_castSucc]
  unfold PhiT
  rw [show (datsT m Inv outB 0 c).leavesExact 0 t = owns (c : Thread nD τ) (ms0 t) fullShare ((datsT m Inv outB 0 c).after 0 t) from by
    unfold Dat.leavesExact; rw [live0 t], afterT_0]
  rw [show (datsT m Inv outB 0 c).leavesExact 1 t = owns (c : Thread nD τ) (ms1 t) fullShare ((datsT m Inv outB 0 c).after 1 t) from by
    unfold Dat.leavesExact; rw [live1 t], afterT_1]
  rw [show (datsT m Inv outB 0 c).leavesExact 2 t = owns (c : Thread nD τ) (ms2 t) fullShare ((datsT m Inv outB 0 c).after 2 t) from by
    unfold Dat.leavesExact; rw [live2 t], afterT_2]
  rw [show (datsT m Inv outB 0 c).leavesExact 3 t = owns (c : Thread nD τ) (ms3 t) fullShare ((datsT m Inv outB 0 c).after 3 t) from by
    unfold Dat.leavesExact; rw [live3 t], afterT_3]
  rw [Dat.leavesExact_idle (datsT m Inv outB 0 c) 4 t (idle4 t h4) (noFlush4 t h4)]
  iintro ⟨⟨%st, %hInv, ⟨S0, S1, S2, S3, S4, S5⟩, Hg⟩, Ho, ⟨%e0, H0⟩, ⟨%e1, H1⟩, ⟨%e2, H2⟩, ⟨%e3, H3⟩, ⟨%d4, H4⟩⟩
  iapply ((kernelRun_F c (grid0.coords t) _ _ _ _ _ _ _ _ _ _ _ _ _ _ _ _ _ _ _ _ _ _ h1 h2 h3 h4 (iblk m c 0 t) (iblk m c 1 t) (iblk m c 2 t) (iblk m c 3 t) st.kc st.vc st.qb st.mm st.ll st.acc).2.2.2.2.2.2.2 ((datsT m Inv outB 0 c).before 4 t d4) Set.univ _)
  isplitl [H0]; · iexact H0
  isplitl [H1]; · iexact H1
  isplitl [H2]; · iexact H2
  isplitl [H3]; · iexact H3
  isplitl [H4]; · iexact H4
  isplitl [S0]; · iexact S0
  isplitl [S1]; · iexact S1
  isplitl [S2]; · iexact S2
  isplitl [S3]; · iexact S3
  isplitl [S4]; · iexact S4
  isplitl [S5]; · iexact S5
  iintro ⟨H0, H1, H2, H3, H4, S0, S1, S2, S3, S4, S5⟩
  isplitl [S0 S1 S2 S3 S4 S5 Hg]
  · iexists (stepAt m c t st)
    isplitr
    · ipureintro; exact hP.step c t st hInv
    isplitl [S0 S1 S2 S3 S4 S5]
    · rw [stepAt_F m c t st h1 h2 h3 h4]
      isplitl [S0]
      · unfold owns; iexists _; isplitr; swap
        · iexact S0
        · ipureintro; rfl
      isplitl [S1]
      · unfold owns; iexists _; isplitr; swap
        · iexact S1
        · ipureintro; rfl
      isplitl [S2]
      · unfold owns; iexists _; isplitr; swap
        · iexact S2
        · ipureintro; rfl
      isplitl [S3]
      · unfold owns; iexists _; isplitr; swap
        · iexact S3
        · ipureintro; rfl
      isplitl [S4]
      · unfold owns; iexists _; isplitr; swap
        · iexact S4
        · ipureintro; rfl
      unfold owns; iexists _; isplitr; swap
      · iexact S5
      · ipureintro; rfl
    · iexact Hg
  isplitl [Ho]; · iexact Ho
  isplitl [H0]; · iexact H0
  isplitl [H1]; · iexact H1
  isplitl [H2]; · iexact H2
  isplitl [H3]; · iexact H3
  iexists d4
  unfold owns; iexists _; isplitr; swap
  · iexact H4
  · ipureintro; exact (hs4 t).read_unread _

end Cert.KernelIdeal.Attn

end
-- ==== Proof.KI.TrackG.lean ====
/- The attention kernel's body obligation at the points of one of its eight cases, the scratch state tracked. -/
import proofs.«166778_j29291676958807_2_alg».proof.Proof.KI.TrackDefs

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
variable (Inv : Dev nD → ℕ → St F → Prop) (outB : Dev nD → Fin cfg0.N → Vec F S1x512x256 .f32)

set_option maxHeartbeats 8000000 in
/-- The body at a point of case G: the case's run takes the state the invariant holds to the next one, which the invariant then holds; the output block is left at the claimed contents. -/
theorem sound_G (hP : Pure m Inv outB) (c : Dev nD) (t : Fin cfg0.N) (h1 : ¬k0_cond1 (grid0.coords t) = 1#1) (h2 : ¬k0_cond2 (grid0.coords t) = 1#1) (h3 : k0_cond3 (grid0.coords t) = 1#1) (h4 : k0_cond4 (grid0.coords t) = 1#1) :
    bodyPreT m Inv outB c t ⊢ wp frame (wpE (defs₀ (F := F)) Variants.none c none) Set.univ (bodyAt0 t) (fun _ => bodyPostT m Inv outB c t) := by
  unfold bodyPreT bodyPostT bodyAt0
  simp only [beforeT_0, beforeT_1, beforeT_2, beforeT_3]
  rw [show (datsT m Inv outB 0 c).owesAt () t.succ = (datsT m Inv outB 0 c).owesAt () t.castSucc from rfl]
  rw [show (datsT m Inv outB 0 c).Φ t.succ = PhiT Inv c (t.val + 1) from rfl, PhiT_castSucc]
  unfold PhiT
  rw [show (datsT m Inv outB 0 c).leavesExact 0 t = owns (c : Thread nD τ) (ms0 t) fullShare ((datsT m Inv outB 0 c).after 0 t) from by
    unfold Dat.leavesExact; rw [live0 t], afterT_0]
  rw [show (datsT m Inv outB 0 c).leavesExact 1 t = owns (c : Thread nD τ) (ms1 t) fullShare ((datsT m Inv outB 0 c).after 1 t) from by
    unfold Dat.leavesExact; rw [live1 t], afterT_1]
  rw [show (datsT m Inv outB 0 c).leavesExact 2 t = owns (c : Thread nD τ) (ms2 t) fullShare ((datsT m Inv outB 0 c).after 2 t) from by
    unfold Dat.leavesExact; rw [live2 t], afterT_2]
  rw [show (datsT m Inv outB 0 c).leavesExact 3 t = owns (c : Thread nD τ) (ms3 t) fullShare ((datsT m Inv outB 0 c).after 3 t) from by
    unfold Dat.leavesExact; rw [live3 t], afterT_3]
  rw [show (datsT m Inv outB 0 c).leavesExact 4 t = owns (c : Thread nD τ) (ms4 t) fullShare ((datsT m Inv outB 0 c).after 4 t) from by
    unfold Dat.leavesExact; rw [live4 t h4], afterT_4]
  iintro ⟨⟨%st, %hInv, ⟨S0, S1, S2, S3, S4, S5⟩, Hg⟩, Ho, ⟨%e0, H0⟩, ⟨%e1, H1⟩, ⟨%e2, H2⟩, ⟨%e3, H3⟩, ⟨%d4, H4⟩⟩
  iapply ((kernelRun_G c (grid0.coords t) _ _ _ _ _ _ _ _ _ _ _ _ _ _ _ _ _ _ _ _ _ _ h1 h2 h3 h4 (iblk m c 0 t) (iblk m c 1 t) (iblk m c 2 t) (iblk m c 3 t) st.kc st.vc st.qb st.mm st.ll st.acc).2.2.2.2.2.2.2 ((datsT m Inv outB 0 c).before 4 t d4) Set.univ _)
  isplitl [H0]; · iexact H0
  isplitl [H1]; · iexact H1
  isplitl [H2]; · iexact H2
  isplitl [H3]; · iexact H3
  isplitl [H4]; · iexact H4
  isplitl [S0]; · iexact S0
  isplitl [S1]; · iexact S1
  isplitl [S2]; · iexact S2
  isplitl [S3]; · iexact S3
  isplitl [S4]; · iexact S4
  isplitl [S5]; · iexact S5
  iintro ⟨H0, H1, H2, H3, H4, S0, S1, S2, S3, S4, S5⟩
  isplitl [S0 S1 S2 S3 S4 S5 Hg]
  · iexists (stepAt m c t st)
    isplitr
    · ipureintro; exact hP.step c t st hInv
    isplitl [S0 S1 S2 S3 S4 S5]
    · rw [stepAt_G m c t st h1 h2 h3 h4]
      isplitl [S0]
      · unfold owns; iexists _; isplitr; swap
        · iexact S0
        · ipureintro; rfl
      isplitl [S1]
      · unfold owns; iexists _; isplitr; swap
        · iexact S1
        · ipureintro; rfl
      isplitl [S2]
      · unfold owns; iexists _; isplitr; swap
        · iexact S2
        · ipureintro; rfl
      isplitl [S3]
      · unfold owns; iexists _; isplitr; swap
        · iexact S3
        · ipureintro; rfl
      isplitl [S4]
      · unfold owns; iexists _; isplitr; swap
        · iexact S4
        · ipureintro; rfl
      unfold owns; iexists _; isplitr; swap
      · iexact S5
      · ipureintro; rfl
    · iexact Hg
  isplitl [Ho]; · iexact Ho
  isplitl [H0]; · iexact H0
  isplitl [H1]; · iexact H1
  isplitl [H2]; · iexact H2
  isplitl [H3]; · iexact H3
  unfold owns; iexists _; isplitr; swap
  · iexact H4
  · ipureintro; exact (outAt_G m c t st ((datsT m Inv outB 0 c).before 4 t d4) h1 h2 h3 h4).symm.trans (hP.out c t st _ h4 hInv)

end Cert.KernelIdeal.Attn

end
-- ==== Proof.KI.TrackH.lean ====
/- The attention kernel's body obligation at the points of one of its eight cases, the scratch state tracked. -/
import proofs.«166778_j29291676958807_2_alg».proof.Proof.KI.TrackDefs

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
variable (Inv : Dev nD → ℕ → St F → Prop) (outB : Dev nD → Fin cfg0.N → Vec F S1x512x256 .f32)

set_option maxHeartbeats 8000000 in
/-- The body at a point of case H: the case's run takes the state the invariant holds to the next one, which the invariant then holds; the output block is left at the claimed contents. -/
theorem sound_H (hP : Pure m Inv outB) (c : Dev nD) (t : Fin cfg0.N) (h1 : ¬k0_cond1 (grid0.coords t) = 1#1) (h2 : ¬k0_cond2 (grid0.coords t) = 1#1) (h3 : ¬k0_cond3 (grid0.coords t) = 1#1) (h4 : k0_cond4 (grid0.coords t) = 1#1) :
    bodyPreT m Inv outB c t ⊢ wp frame (wpE (defs₀ (F := F)) Variants.none c none) Set.univ (bodyAt0 t) (fun _ => bodyPostT m Inv outB c t) := by
  unfold bodyPreT bodyPostT bodyAt0
  simp only [beforeT_0, beforeT_1, beforeT_2, beforeT_3]
  rw [show (datsT m Inv outB 0 c).owesAt () t.succ = (datsT m Inv outB 0 c).owesAt () t.castSucc from rfl]
  rw [show (datsT m Inv outB 0 c).Φ t.succ = PhiT Inv c (t.val + 1) from rfl, PhiT_castSucc]
  unfold PhiT
  rw [show (datsT m Inv outB 0 c).leavesExact 0 t = owns (c : Thread nD τ) (ms0 t) fullShare ((datsT m Inv outB 0 c).after 0 t) from by
    unfold Dat.leavesExact; rw [live0 t], afterT_0]
  rw [show (datsT m Inv outB 0 c).leavesExact 1 t = owns (c : Thread nD τ) (ms1 t) fullShare ((datsT m Inv outB 0 c).after 1 t) from by
    unfold Dat.leavesExact; rw [live1 t], afterT_1]
  rw [show (datsT m Inv outB 0 c).leavesExact 2 t = owns (c : Thread nD τ) (ms2 t) fullShare ((datsT m Inv outB 0 c).after 2 t) from by
    unfold Dat.leavesExact; rw [live2 t], afterT_2]
  rw [show (datsT m Inv outB 0 c).leavesExact 3 t = owns (c : Thread nD τ) (ms3 t) fullShare ((datsT m Inv outB 0 c).after 3 t) from by
    unfold Dat.leavesExact; rw [live3 t], afterT_3]
  rw [show (datsT m Inv outB 0 c).leavesExact 4 t = owns (c : Thread nD τ) (ms4 t) fullShare ((datsT m Inv outB 0 c).after 4 t) from by
    unfold Dat.leavesExact; rw [live4 t h4], afterT_4]
  iintro ⟨⟨%st, %hInv, ⟨S0, S1, S2, S3, S4, S5⟩, Hg⟩, Ho, ⟨%e0, H0⟩, ⟨%e1, H1⟩, ⟨%e2, H2⟩, ⟨%e3, H3⟩, ⟨%d4, H4⟩⟩
  iapply ((kernelRun_H c (grid0.coords t) _ _ _ _ _ _ _ _ _ _ _ _ _ _ _ _ _ _ _ _ _ _ h1 h2 h3 h4 (iblk m c 0 t) (iblk m c 1 t) (iblk m c 2 t) (iblk m c 3 t) st.kc st.vc st.qb st.mm st.ll st.acc).2.2.2.2.2.2.2 ((datsT m Inv outB 0 c).before 4 t d4) Set.univ _)
  isplitl [H0]; · iexact H0
  isplitl [H1]; · iexact H1
  isplitl [H2]; · iexact H2
  isplitl [H3]; · iexact H3
  isplitl [H4]; · iexact H4
  isplitl [S0]; · iexact S0
  isplitl [S1]; · iexact S1
  isplitl [S2]; · iexact S2
  isplitl [S3]; · iexact S3
  isplitl [S4]; · iexact S4
  isplitl [S5]; · iexact S5
  iintro ⟨H0, H1, H2, H3, H4, S0, S1, S2, S3, S4, S5⟩
  isplitl [S0 S1 S2 S3 S4 S5 Hg]
  · iexists (stepAt m c t st)
    isplitr
    · ipureintro; exact hP.step c t st hInv
    isplitl [S0 S1 S2 S3 S4 S5]
    · rw [stepAt_H m c t st h1 h2 h3 h4]
      isplitl [S0]
      · unfold owns; iexists _; isplitr; swap
        · iexact S0
        · ipureintro; rfl
      isplitl [S1]
      · unfold owns; iexists _; isplitr; swap
        · iexact S1
        · ipureintro; rfl
      isplitl [S2]
      · unfold owns; iexists _; isplitr; swap
        · iexact S2
        · ipureintro; rfl
      isplitl [S3]
      · unfold owns; iexists _; isplitr; swap
        · iexact S3
        · ipureintro; rfl
      isplitl [S4]
      · unfold owns; iexists _; isplitr; swap
        · iexact S4
        · ipureintro; rfl
      unfold owns; iexists _; isplitr; swap
      · iexact S5
      · ipureintro; rfl
    · iexact Hg
  isplitl [Ho]; · iexact Ho
  isplitl [H0]; · iexact H0
  isplitl [H1]; · iexact H1
  isplitl [H2]; · iexact H2
  isplitl [H3]; · iexact H3
  unfold owns; iexists _; isplitr; swap
  · iexact H4
  · ipureintro; exact (outAt_H m c t st ((datsT m Inv outB 0 c).before 4 t d4) h1 h2 h3 h4).symm.trans (hP.out c t st _ h4 hInv)

end Cert.KernelIdeal.Attn

end
-- ==== Proof.KI.TrackMain.lean ====
/- The attention kernel's run with the scratch state tracked from point to point: what one point does to the K/V caches, the query tile and the three running quantities of the online softmax, as the case's stores written over the previous contents; the invariant carries a state satisfying a pure predicate, and the value proof is then three pure facts about states. -/
import proofs.«166778_j29291676958807_2_alg».proof.Proof.KI.TrackA
import proofs.«166778_j29291676958807_2_alg».proof.Proof.KI.TrackB
import proofs.«166778_j29291676958807_2_alg».proof.Proof.KI.TrackC
import proofs.«166778_j29291676958807_2_alg».proof.Proof.KI.TrackD
import proofs.«166778_j29291676958807_2_alg».proof.Proof.KI.TrackE
import proofs.«166778_j29291676958807_2_alg».proof.Proof.KI.TrackF
import proofs.«166778_j29291676958807_2_alg».proof.Proof.KI.TrackG
import proofs.«166778_j29291676958807_2_alg».proof.Proof.KI.TrackH

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
variable (Inv : Dev nD → ℕ → St F → Prop) (outB : Dev nD → Fin cfg0.N → Vec F S1x512x256 .f32)

/-- The body at any point: the four conditions say which of the eight cases the point is in (the other eight combinations meet no point). -/
theorem sound_bodyT (hP : Pure m Inv outB) (c : Dev nD) (t : Fin cfg0.N) :
    bodyPreT m Inv outB c t ⊢ wp frame (wpE (defs₀ (F := F)) Variants.none c none) Set.univ (bodyAt0 t) (fun _ => bodyPostT m Inv outB c t) := by
  by_cases h1 : k0_cond1 (grid0.coords t) = 1#1
  · by_cases h2 : k0_cond2 (grid0.coords t) = 1#1
    · by_cases h3 : k0_cond3 (grid0.coords t) = 1#1
      · by_cases h4 : k0_cond4 (grid0.coords t) = 1#1
        · exfalso; exact absurd h4 (c2_not_c4 t h2)
        · exact sound_A m Inv outB hP c t h1 h2 h3 h4
      · by_cases h4 : k0_cond4 (grid0.coords t) = 1#1
        · exfalso; exact absurd (c2_c3 t h2) h3
        · exfalso; exact absurd (c2_c3 t h2) h3
    · by_cases h3 : k0_cond3 (grid0.coords t) = 1#1
      · by_cases h4 : k0_cond4 (grid0.coords t) = 1#1
        · exfalso; exact absurd (c1_c3_c2 t h1 h3) h2
        · exfalso; exact absurd (c1_c3_c2 t h1 h3) h2
      · by_cases h4 : k0_cond4 (grid0.coords t) = 1#1
        · exact sound_C m Inv outB hP c t h1 h2 h3 h4
        · exact sound_B m Inv outB hP c t h1 h2 h3 h4
  · by_cases h2 : k0_cond2 (grid0.coords t) = 1#1
    · by_cases h3 : k0_cond3 (grid0.coords t) = 1#1
      · by_cases h4 : k0_cond4 (grid0.coords t) = 1#1
        · exfalso; exact absurd h4 (c2_not_c4 t h2)
        · exact sound_D m Inv outB hP c t h1 h2 h3 h4
      · by_cases h4 : k0_cond4 (grid0.coords t) = 1#1
        · exfalso; exact absurd (c2_c3 t h2) h3
        · exfalso; exact absurd (c2_c3 t h2) h3
    · by_cases h3 : k0_cond3 (grid0.coords t) = 1#1
      · by_cases h4 : k0_cond4 (grid0.coords t) = 1#1
        · exact sound_G m Inv outB hP c t h1 h2 h3 h4
        · exact sound_E m Inv outB hP c t h1 h2 h3 h4
      · by_cases h4 : k0_cond4 (grid0.coords t) = 1#1
        · exact sound_H m Inv outB hP c t h1 h2 h3 h4
        · exact sound_F m Inv outB hP c t h1 h2 h3 h4

theorem body_obligationT (hP : Pure m Inv outB) (c : Dev nD) : BodyObligation (datsT (F := F) m Inv outB 0 c) (defs₀ (F := F)) Variants.none () Set.univ := fun t => by
  rw [bigSep_W0, bigSep_W0]
  exact sound_bodyT m Inv outB hP c t

/-- What the launch hands the region is the invariant before the first point, at whatever the scratch holds. -/
theorem hinT (hP : Pure m Inv outB) (c : Dev nD) : Pipeline.ΦA spec0 c ⊢ (datsT m Inv outB 0 c).Φ 0 := by
  rw [show (datsT m Inv outB 0 c).Φ 0 = PhiT Inv c 0 from rfl, PhiA_eq]
  unfold PhiT
  iintro ⟨⟨⟨%d0, S0⟩, ⟨%d1, S1⟩, ⟨%d2, S2⟩, ⟨%d3, S3⟩, ⟨%d4, S4⟩, ⟨%d5, S5⟩⟩, Hg⟩
  iexists (⟨d0, d1, d2, d3, d4, d5⟩ : St F)
  isplitr
  · ipureintro; exact hP.inv0 c _
  isplitl [S0 S1 S2 S3 S4 S5]
  · isplitl [S0]; · iexact S0
    isplitl [S1]; · iexact S1
    isplitl [S2]; · iexact S2
    isplitl [S3]; · iexact S3
    isplitl [S4]; · iexact S4
    iexact S5
  · iexact Hg

/-- After the last point the invariant gives the launch's back: the scratch state forgotten. -/
theorem houtT (c : Dev nD) : (datsT m Inv outB 0 c).Φ (Fin.last cfg0.N) ⊢ Pipeline.ΦA spec0 c := by
  rw [show (datsT m Inv outB 0 c).Φ (Fin.last cfg0.N) = PhiT Inv c (Fin.last cfg0.N).val from rfl, PhiA_eq]
  unfold PhiT
  iintro ⟨%st, -, ⟨S0, S1, S2, S3, S4, S5⟩, Hg⟩
  isplitl [S0 S1 S2 S3 S4 S5]
  · isplitl [S0]; · iexists _; iexact S0
    isplitl [S1]; · iexists _; iexact S1
    isplitl [S2]; · iexists _; iexact S2
    isplitl [S3]; · iexists _; iexact S3
    isplitl [S4]; · iexists _; iexact S4
    iexists _; iexact S5
  · iexact Hg

set_option backward.isDefEq.respectTransparency.types false in
/-- Every weakly fair execution of @main terminates; every array of the pipeline ends at what the proof data computes: the inputs at
    their launch contents, the result overwritten block by block by what the last key tile's points stored. -/
theorem run_mainT (hP : Pure m Inv outB) : θ_run defs (onTc (τ := τ) (main (F := F))) (s₀ m ρ) (Pipeline.FramePost cfgs (datsT m Inv outB) 0 (V m)) :=
  Pipeline.θ_run_frame_track cfgs (datsT m Inv outB) (0 : Fin 1) launch0 defs₀ Variants.none m ρ main
    (hbody := fun c => (body_obligationT m Inv outB hP c).loose) (hshare := fun c => (datsT m Inv outB 0 c).share_full fun _ => rfl)
    (howed := fun _ _ => rfl) (V := V m) (hmain := hmain m Variants.none) (hA := A_eqT m Inv outB) (hin := hinT m Inv outB hP) (hout := houtT m Inv outB)

end Cert.KernelIdeal.Attn

end
-- ==== Proof.KI.Final.lean ====
/- From the tracked run to the result array: each write-back writes one [512, 256] block (batch, query tile) of the claimed result, these blocks tile the [8, 2048, 256] array, so it ends at the claimed contents. -/
import proofs.«166778_j29291676958807_2_alg».proof.Proof.KI.TrackMain
import Idealize.ShloMosaic.Lib.Pipeline.Value

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
variable (Inv : Dev nD → ℕ → St F → Prop)
-- the claimed contents of the result array, per core
variable (Gb : (c : Dev nD) → Buf (Elt F) ((c.tc : Thread nD τ).loc main_v0))

/-- Block (batch, query tile) of the claimed result: what the point of that tile's last key tile stores. -/
def outBG (c : Dev nD) (t : Fin cfg0.N) : Vec F S1x512x256 .f32 := ((cfg0.win 4).blk t).view.read (Elt F) (Gb c)

/-- The output window's block index at a point: the point's batch and query tile. -/
theorem index4 : ∀ t : Fin cfg0.N, win0_4.index t 0 = t.val / 16 ∧ win0_4.index t 1 = t.val / 4 % 4 ∧ win0_4.index t 2 = 0 :=
  (by decide +kernel : ∀ t : Fin grid0.N, win0_4.index t 0 = t.val / 16 ∧ win0_4.index t 1 = t.val / 4 % 4 ∧ win0_4.index t 2 = 0)

/-- The block of the claimed result written back at point `t`, at an index: batch `t / 16`, row `512 * (t / 4 % 4) + r`. -/
theorem outBG_apply (c : Dev nD) (t : Fin cfg0.N) (x : S1x512x256.Idx) (k : S8x2048x256.Idx)
    (hk0 : (k 0).val = t.val / 16) (hk1 : (k 1).val = 512 * (t.val / 4 % 4) + (x 1).val) (hk2 : (k 2).val = (x 2).val) :
    outBG Gb c t x = (Gb c : S8x2048x256.Idx → Elt F .f32) k := by
  obtain ⟨e0, e1, e2⟩ := index4 t
  have hx0 : (x 0).val < 1 := (x 0).isLt
  unfold outBG
  rw [View.read_apply]
  refine congrArg (Gb c) ?_
  funext a
  apply Fin.ext
  match a with
  | ⟨0, _⟩ => show win0_4.index t 0 * 1 + 1 * (x 0).val = (k 0).val; rw [e0, hk0]; omega
  | ⟨1, _⟩ => show win0_4.index t 1 * 512 + 1 * (x 1).val = (k 1).val; rw [e1, hk1]; omega
  | ⟨2, _⟩ => show win0_4.index t 2 * 256 + 1 * (x 2).val = (k 2).val; rw [e2, hk2]; omega

/-- Every write-back writes its block of the claimed result. -/
theorem flushed_eq (c : Dev nD) (t : Fin cfg0.N) (hf : (cfg0.win 4).flush t = true) :
    (datsT m Inv (outBG Gb) 0 c).flushed 4 t = ((cfg0.win 4).blk t).view.read (Elt F) (Gb c) := by
  show (cfg0.win 4).cut (grid0.coords t) ((datsT m Inv (outBG Gb) 0 c).after 4 t) = _
  rw [afterT_4]
  rfl

/-- The blocks written back tile the result array: row `r` of batch `b` lies in the block of query tile `r / 512`, written back at that
    tile's last key tile. -/
theorem cover4 (c : Dev nD) (i : ((cfg0.win 4).arr.view.loc (c.tc : Thread nD τ)).2.ty.Idx) :
    ∃ t : Fin cfg0.N, (cfg0.win 4).flush t = true ∧ i ∈ ((cfg0.win 4).blk t).view.set := by
  have h0 : (i 0 : Nat) < 8 := (i 0).isLt
  have h1 : (i 1 : Nat) < 2048 := (i 1).isLt
  have h2 : (i 2 : Nat) < 256 := (i 2).isLt
  have hN : cfg0.N = 128 := N_0
  have hlt : 16 * (i 0 : Nat) + 4 * ((i 1 : Nat) / 512) + 3 < cfg0.N := by omega
  obtain ⟨T, hT⟩ : ∃ T : Fin cfg0.N, T.val = 16 * (i 0 : Nat) + 4 * ((i 1 : Nat) / 512) + 3 := ⟨⟨_, hlt⟩, rfl⟩
  refine ⟨T, (flush0_4 T).mpr (by omega), ?_⟩
  show i ∈ ((View.whole main_v0).slice (win0_4.rect T)).set
  rw [View.set_slice_whole, Rect.mem_set_unit]
  obtain ⟨e0, e1, e2⟩ := index4 T
  intro a
  match a with
  | ⟨0, _⟩ =>
    show win0_4.index T 0 * win0_4.size 0 ≤ (i 0 : Nat) ∧ (i 0 : Nat) < win0_4.index T 0 * win0_4.size 0 + win0_4.xsize (grid0.coords T) 0
    rw [e0, show win0_4.size 0 = 1 from rfl, show win0_4.xsize (grid0.coords T) 0 = 1 from rfl]
    omega
  | ⟨1, _⟩ =>
    show win0_4.index T 1 * win0_4.size 1 ≤ (i 1 : Nat) ∧ (i 1 : Nat) < win0_4.index T 1 * win0_4.size 1 + win0_4.xsize (grid0.coords T) 1
    rw [e1, show win0_4.size 1 = 512 from rfl, show win0_4.xsize (grid0.coords T) 1 = 512 from rfl]
    omega
  | ⟨2, _⟩ =>
    show win0_4.index T 2 * win0_4.size 2 ≤ (i 2 : Nat) ∧ (i 2 : Nat) < win0_4.index T 2 * win0_4.size 2 + win0_4.xsize (grid0.coords T) 2
    rw [e2, show win0_4.size 2 = 256 from rfl, show win0_4.xsize (grid0.coords T) 2 = 256 from rfl]
    omega

/-- So the result array ends at the claimed contents. -/
theorem final4 (c : Dev nD) : (datsT m Inv (outBG Gb) 0 c).arrAt 4 cfg0.N = Gb c :=
  (datsT m Inv (outBG Gb) 0 c).arrAt_eq_of_cover 4 (Gb c) (flushed_eq m Inv Gb c) (cover4 c)

/-- The run, read: the result array at the claimed contents, the four argument arrays unchanged. -/
theorem runG (hP : Pure m Inv (outBG Gb)) : θ_run defs (onTc (τ := τ) (main (F := F))) ⟨m, fun _ => 0, ρ⟩ (fun r => ∀ c : Dev nD,
      r.2.mem ((c.tc : Thread nD τ).loc main_v0) = Gb c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).1 4).trans (final4 m Inv Gb c),
     ((h c).1 0).trans (((datsT m Inv (outBG Gb) 0 c).arrAt_in 0 rfl _).trans ((A_eqT m Inv (outBG Gb) c 0).trans (V_main_arg0 m c))),
     ((h c).1 1).trans (((datsT m Inv (outBG Gb) 0 c).arrAt_in 1 rfl _).trans ((A_eqT m Inv (outBG Gb) c 1).trans (V_main_arg1 m c))),
     ((h c).1 2).trans (((datsT m Inv (outBG Gb) 0 c).arrAt_in 2 rfl _).trans ((A_eqT m Inv (outBG Gb) c 2).trans (V_main_arg2 m c))),
     ((h c).1 3).trans (((datsT m Inv (outBG Gb) 0 c).arrAt_in 3 rfl _).trans ((A_eqT m Inv (outBG Gb) c 3).trans (V_main_arg3 m c)))⟩)
    (run_mainT m ρ Inv (outBG Gb) hP)

end Cert.KernelIdeal.Attn

end
-- ==== Proof.KI.StepSpec.lean ====
/- One grid point of the attention kernel as a function on the scratch state, written out over the kernel's payload terms. -/
import proofs.«166778_j29291676958807_2_alg».proof.Proof.KI.TrackDefs
import Idealize.ShloMosaic.Lib.Pipeline.FrameBody

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## One point's effect on the scratch state, written out

The next state as the kernel's own payloads (the skeleton's pure terms) applied to what the body loads: a row tile of the batch's
slab of `x`, the weight blocks, and tiles of the previous state. A store of a row tile into a cache is kept as that store written over
the previous contents; a whole-buffer store leaves its payload. -/

variable (i : grid0.Coords) (x0 : Vec F S1x2048x1024 .f32) (x1 x2 x3 : Vec F S1024x256 .f32)

/-- The key tile's rows of the slab (loaded when the query tile is the first). -/
def xK (h1 : k0_cond1 i = 1#1) : Vec F S1x512x1024 .f32 := View.ld x0 (Rect.unit (s := S1x2048x1024) (k0_off1 i) S1x512x1024.size (k0_off1_inb i h1))
/-- The query tile's rows of the slab (loaded at the first key tile). -/
def xQ (h2 : k0_cond2 i = 1#1) : Vec F S1x512x1024 .f32 := View.ld x0 (Rect.unit (s := S1x2048x1024) (k0_off3 i) S1x512x1024.size (k0_off3_inb i h2))

/-- A cache with the key tile's rows overwritten by `w`. -/
def putTile (h1 : k0_cond1 i = 1#1) (kc : Vec F S2048x256 .bf16) (w : Vec F S512x256 .bf16) : Vec F S2048x256 .bf16 :=
  sc0.view.read (Elt F) (sc0.view.writes (Elt F) ((Memref.isWhole_whole _).unread kc)
    [(⟨Rect.unit (s := S2048x256) (k0_off2 i) S512x256.size (k0_off2_inb i h1), w⟩ : View.Piece (Elt F) S2048x256 .bf16)])
/-- The key tile's rows of a cache. -/
def getTile (h3 : k0_cond3 i = 1#1) (kc : Vec F S2048x256 .bf16) : Vec F S512x256 .bf16 :=
  View.ld kc (Rect.unit (s := S2048x256) (k0_off4 i) S512x256.size (k0_off4_inb i h3))

/-- The K cache after the point. -/
def kcNext (st : St F) : Vec F S2048x256 .bf16 :=
  if h1 : k0_cond1 i = 1#1 then putTile i h1 st.kc (k0_pay2 x2 (xK i x0 h1)) else st.kc
/-- The V cache after the point. -/
def vcNext (st : St F) : Vec F S2048x256 .bf16 :=
  if h1 : k0_cond1 i = 1#1 then putTile i h1 st.vc (k0_pay3 x3 (xK i x0 h1)) else st.vc
/-- The scaled query tile after the point. -/
def qbNext (st : St F) : Vec F S512x256 .bf16 :=
  if h2 : k0_cond2 i = 1#1 then k0_pay4 x1 (xQ i x0 h2) else st.qb
/-- The running maximum, denominator and numerator the update starts from: reset at the first key tile. -/
def m0 (st : St F) : Vec F S512x1 .f32 := if k0_cond2 i = 1#1 then k0_pay5 (F := F) else st.mm
def l0 (st : St F) : Vec F S512x1 .f32 := if k0_cond2 i = 1#1 then k0_pay6 (F := F) else st.ll
def a0 (st : St F) : Vec F S512x256 .f32 := if k0_cond2 i = 1#1 then k0_pay7 (F := F) else st.acc

/-- The running maximum after the point: updated with the key tile's masked scores when the tile is not in the future. -/
def mmNext (st : St F) : Vec F S512x1 .f32 :=
  if h3 : k0_cond3 i = 1#1 then
    k0_pay9 (k0_pay12 (BitVec.ofNat 32 (i 1).val) (BitVec.ofNat 32 (i 2).val) (qbNext i x0 x1 st) (getTile i h3 (kcNext i x0 x2 st)) (m0 i st))
  else m0 i st
/-- The running denominator after the point. -/
def llNext (st : St F) : Vec F S512x1 .f32 :=
  if h3 : k0_cond3 i = 1#1 then
    k0_pay15 (BitVec.ofNat 32 (i 1).val) (BitVec.ofNat 32 (i 2).val) (qbNext i x0 x1 st) (getTile i h3 (kcNext i x0 x2 st)) (m0 i st) (l0 i st)
  else l0 i st
/-- The running numerator after the point. -/
def accNext (st : St F) : Vec F S512x256 .f32 :=
  if h3 : k0_cond3 i = 1#1 then
    k0_pay8 (k0_pay16 (BitVec.ofNat 32 (i 1).val) (BitVec.ofNat 32 (i 2).val) (qbNext i x0 x1 st) (getTile i h3 (kcNext i x0 x2 st)) (m0 i st) (a0 i st))
      (k0_pay17 (BitVec.ofNat 32 (i 1).val) (BitVec.ofNat 32 (i 2).val) (qbNext i x0 x1 st) (getTile i h3 (kcNext i x0 x2 st)) (getTile i h3 (vcNext i x0 x3 st)) (m0 i st))
  else a0 i st

/-- The scratch state after the point. -/
def stepSpec (st : St F) : St F where
  kc := kcNext i x0 x2 st
  vc := vcNext i x0 x3 st
  qb := qbNext i x0 x1 st
  mm := mmNext i x0 x1 x2 st
  ll := llNext i x0 x1 x2 st
  acc := accNext i x0 x1 x2 x3 st

/-- The block a last key tile's point stores: the running numerator over the running denominator, row by row. -/
def outSpec (st : St F) : Vec F S1x512x256 .f32 := k0_pay10 (accNext i x0 x1 x2 x3 st) (llNext i x0 x1 x2 st)

end Cert.KernelIdeal.Attn

end
-- ==== Proof.KI.ReadTools.lean ====
/-
  What the readings of the eight control cases share. A point's stores into a whole buffer read back as the last
  whole-buffer payload, or as the previous contents with the key tile overwritten, or as the previous contents when
  nothing was stored; a load during the point reads the buffer's previous contents or the payload just stored; and
  the step's terms under each branch condition taken or not taken.
-/
import proofs.«166778_j29291676958807_2_alg».proof.Proof.KI.StepSpec
import Idealize.ShloMosaic.Lib.Pipeline.Value

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ)

/-! ## Zero offsets -/

theorem hz2 : (![0, 0] : Fin 2 → Nat) = fun _ => 0 := funext fun a => by fin_cases a <;> rfl
theorem hz3 : (![0, 0, 0] : Fin 3 → Nat) = fun _ => 0 := funext fun a => by fin_cases a <;> rfl

/-! ## Reading a whole buffer back after a point's stores, and a load during the point -/

section Buffers
variable {S : Shape} {e : EltTy} (M : Memref sig .tc .vmem S e) (hM : M.IsWhole)

/-- Nothing stored: the buffer reads as it did. -/
theorem read_writes_nil (x : Vec F S e) : M.view.read (Elt F) (M.view.writes (Elt F) (hM.unread x) []) = x := by
  rw [View.writes_nil, hM.read_unread]

/-- The last store went through the whole buffer: the buffer reads as that store's payload. -/
theorem read_writes_whole_cons (f : M.view.ty.Contents (Elt F)) {off : Fin S.rank → Nat} (h : off = fun _ => 0)
    (inb : ∀ a, off a + S.size a ≤ S.size a) (w : S.Idx → Elt F e) (L : List (View.Piece (Elt F) S e)) :
    M.view.read (Elt F) (M.view.writes (Elt F) f ((⟨Rect.unit off S.size inb, w⟩ : View.Piece (Elt F) S e) :: L)) = w := by
  rw [View.read_writes_eq_canon _ _ _ (fun y => ⟨_, List.mem_cons_self, View.mem_set_unit_zero h inb y⟩),
    View.canon_cons_unit_zero h]

/-- A load of a buffer the point has not stored into yet reads the rectangle of its contents. -/
theorem readAt_unread (x : Vec F S e) (r : Rect S) :
    View.readAt (Elt F) M.view r.toLoadRect (hM.unread x) = View.ld x r := by
  rw [View.readAt_eq_ld, hM.read_unread]

/-- A load through the whole buffer of a buffer not stored into yet reads its contents. -/
theorem readAt_unread_whole (x : Vec F S e) {off : Fin S.rank → Nat} (h : off = fun _ => 0)
    (inb : ∀ a, off a + S.size a ≤ S.size a) :
    View.readAt (Elt F) M.view (Rect.unit off S.size inb).toLoadRect (hM.unread x) = x := by
  rw [readAt_unread, View.ld_unit_zero h]

/-- What a list of stores leaves of a whole buffer, read back, depends on the buffer only through its previous contents:
    under a piece, the piece; elsewhere, what was there. -/
theorem read_writes_unread_indep (M' : Memref sig .tc .vmem S e) (hM' : M'.IsWhole) (x : Vec F S e)
    (L : List (View.Piece (Elt F) S e)) :
    M.view.read (Elt F) (M.view.writes (Elt F) (hM.unread x) L)
      = M'.view.read (Elt F) (M'.view.writes (Elt F) (hM'.unread x) L) := by
  funext y
  by_cases h : ∃ p ∈ L, y ∈ p.1.set
  · exact View.read_writes_apply_eq _ _ _ _ y L h
  · rw [View.read_writes_apply_of_forall_not_mem _ _ y L (fun p hp hy => h ⟨p, hp, hy⟩),
      View.read_writes_apply_of_forall_not_mem _ _ y L (fun p hp hy => h ⟨p, hp, hy⟩), hM.read_unread, hM'.read_unread]

end Buffers

/-! ## The key tile of a cache -/

section Tile
variable (i : grid0.Coords)

/-- A cache with the key tile stored, read back through any whole buffer, is `putTile`. -/
theorem read_writes_tile (M : Memref sig .tc .vmem S2048x256 .bf16) (hM : M.IsWhole) (h1 : k0_cond1 i = 1#1)
    (kc : Vec F S2048x256 .bf16) (w : Vec F S512x256 .bf16) :
    M.view.read (Elt F) (M.view.writes (Elt F) (hM.unread kc)
      [(⟨Rect.unit (s := S2048x256) (k0_off2 i) S512x256.size (k0_off2_inb i h1), w⟩ : View.Piece (Elt F) S2048x256 .bf16)])
      = putTile i h1 kc w :=
  read_writes_unread_indep M hM sc0 (Memref.isWhole_whole _) kc _

/-- A load of the key tile right after that tile was stored reads what was stored: the two rectangles are the same rows. -/
theorem readCov_tile (M : Memref sig .tc .vmem S2048x256 .bf16) (h1 : k0_cond1 i = 1#1) (h3 : k0_cond3 i = 1#1)
    (w : Vec F S512x256 .bf16) :
    M.view.readCov [(⟨Rect.unit (s := S2048x256) (k0_off2 i) S512x256.size (k0_off2_inb i h1), w⟩ : View.Piece (Elt F) S2048x256 .bf16)]
      (Rect.unit (s := S2048x256) (k0_off4 i) S512x256.size (k0_off4_inb i h3)).toLoadRect = w :=
  View.readCov_cons_toLoadRect M.view (Rect.unit (s := S2048x256) (k0_off2 i) S512x256.size (k0_off2_inb i h1)) w []

/-- The key tile of a cache into which that tile was just stored is what was stored. -/
theorem getTile_putTile (h1 : k0_cond1 i = 1#1) (h3 : k0_cond3 i = 1#1) (kc : Vec F S2048x256 .bf16)
    (w : Vec F S512x256 .bf16) : getTile i h3 (putTile i h1 kc w) = w := by
  funext j
  exact View.read_writes_cons_emb sc0.view _ (Rect.unit (s := S2048x256) (k0_off2 i) S512x256.size (k0_off2_inb i h1)) w [] j

end Tile

/-! ## The step's terms under each condition -/

section Spec
variable (i : grid0.Coords) (x0 : Vec F S1x2048x1024 .f32) (x1 x2 x3 : Vec F S1024x256 .f32) (st : St F)

theorem kcNext_pos (h1 : k0_cond1 i = 1#1) : kcNext i x0 x2 st = putTile i h1 st.kc (k0_pay2 x2 (xK i x0 h1)) := by
  unfold kcNext; rw [dif_pos h1]
theorem kcNext_neg (h1 : ¬k0_cond1 i = 1#1) : kcNext i x0 x2 st = st.kc := by
  unfold kcNext; rw [dif_neg h1]
theorem vcNext_pos (h1 : k0_cond1 i = 1#1) : vcNext i x0 x3 st = putTile i h1 st.vc (k0_pay3 x3 (xK i x0 h1)) := by
  unfold vcNext; rw [dif_pos h1]
theorem vcNext_neg (h1 : ¬k0_cond1 i = 1#1) : vcNext i x0 x3 st = st.vc := by
  unfold vcNext; rw [dif_neg h1]
theorem qbNext_pos (h2 : k0_cond2 i = 1#1) : qbNext i x0 x1 st = k0_pay4 x1 (xQ i x0 h2) := by
  unfold qbNext; rw [dif_pos h2]
theorem qbNext_neg (h2 : ¬k0_cond2 i = 1#1) : qbNext i x0 x1 st = st.qb := by
  unfold qbNext; rw [dif_neg h2]
theorem m0_pos (h2 : k0_cond2 i = 1#1) : m0 i st = k0_pay5 (F := F) := by unfold m0; rw [if_pos h2]
theorem m0_neg (h2 : ¬k0_cond2 i = 1#1) : m0 i st = st.mm := by unfold m0; rw [if_neg h2]
theorem l0_pos (h2 : k0_cond2 i = 1#1) : l0 i st = k0_pay6 (F := F) := by unfold l0; rw [if_pos h2]
theorem l0_neg (h2 : ¬k0_cond2 i = 1#1) : l0 i st = st.ll := by unfold l0; rw [if_neg h2]
theorem a0_pos (h2 : k0_cond2 i = 1#1) : a0 i st = k0_pay7 (F := F) := by unfold a0; rw [if_pos h2]
theorem a0_neg (h2 : ¬k0_cond2 i = 1#1) : a0 i st = st.acc := by unfold a0; rw [if_neg h2]
theorem mmNext_pos (h3 : k0_cond3 i = 1#1) : mmNext i x0 x1 x2 st
    = k0_pay9 (k0_pay12 (BitVec.ofNat 32 (i 1).val) (BitVec.ofNat 32 (i 2).val) (qbNext i x0 x1 st)
        (getTile i h3 (kcNext i x0 x2 st)) (m0 i st)) := by
  unfold mmNext; rw [dif_pos h3]
theorem mmNext_neg (h3 : ¬k0_cond3 i = 1#1) : mmNext i x0 x1 x2 st = m0 i st := by
  unfold mmNext; rw [dif_neg h3]
theorem llNext_pos (h3 : k0_cond3 i = 1#1) : llNext i x0 x1 x2 st
    = k0_pay15 (BitVec.ofNat 32 (i 1).val) (BitVec.ofNat 32 (i 2).val) (qbNext i x0 x1 st)
        (getTile i h3 (kcNext i x0 x2 st)) (m0 i st) (l0 i st) := by
  unfold llNext; rw [dif_pos h3]
theorem llNext_neg (h3 : ¬k0_cond3 i = 1#1) : llNext i x0 x1 x2 st = l0 i st := by
  unfold llNext; rw [dif_neg h3]
theorem accNext_pos (h3 : k0_cond3 i = 1#1) : accNext i x0 x1 x2 x3 st
    = k0_pay8 (k0_pay16 (BitVec.ofNat 32 (i 1).val) (BitVec.ofNat 32 (i 2).val) (qbNext i x0 x1 st)
          (getTile i h3 (kcNext i x0 x2 st)) (m0 i st) (a0 i st))
        (k0_pay17 (BitVec.ofNat 32 (i 1).val) (BitVec.ofNat 32 (i 2).val) (qbNext i x0 x1 st)
          (getTile i h3 (kcNext i x0 x2 st)) (getTile i h3 (vcNext i x0 x3 st)) (m0 i st)) := by
  unfold accNext; rw [dif_pos h3]
theorem accNext_neg (h3 : ¬k0_cond3 i = 1#1) : accNext i x0 x1 x2 x3 st = a0 i st := by
  unfold accNext; rw [dif_neg h3]

end Spec

end Cert.KernelIdeal.Attn

end
-- ==== Proof.KI.ReadA.lean ====
/-
  The case of the first query tile at the first key tile: the point stores the key tile's keys and values into the two
  caches, projects the query tile's rows to the scaled queries, resets the running maximum, denominator and numerator,
  and takes the first step of the running softmax over the keys and values it has just stored.
-/
import proofs.«166778_j29291676958807_2_alg».proof.Proof.KI.ReadTools

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ)

section
variable (c : Dev nD) (i : grid0.Coords)
  (arg3 : Memref sig .tc .vmem S1x2048x1024 .f32) (harg3 : arg3.IsWhole)
  (arg4 : Memref sig .tc .vmem S1024x256 .f32) (harg4 : arg4.IsWhole)
  (arg5 : Memref sig .tc .vmem S1024x256 .f32) (harg5 : arg5.IsWhole)
  (arg6 : Memref sig .tc .vmem S1024x256 .f32) (harg6 : arg6.IsWhole)
  (arg7 : Memref sig .tc .vmem S1x512x256 .f32) (harg7 : arg7.IsWhole)
  (arg8 : Memref sig .tc .vmem S2048x256 .bf16) (harg8 : arg8.IsWhole)
  (arg9 : Memref sig .tc .vmem S2048x256 .bf16) (harg9 : arg9.IsWhole)
  (arg10 : Memref sig .tc .vmem S512x256 .bf16) (harg10 : arg10.IsWhole)
  (arg11 : Memref sig .tc .vmem S512x1 .f32) (harg11 : arg11.IsWhole)
  (arg12 : Memref sig .tc .vmem S512x1 .f32) (harg12 : arg12.IsWhole)
  (arg13 : Memref sig .tc .vmem S512x256 .f32) (harg13 : arg13.IsWhole)
  (x0 : Vec F S1x2048x1024 .f32) (x1 x2 x3 : Vec F S1024x256 .f32) (st : St F)
variable (hc1 : k0_cond1 i = 1#1) (hc2 : k0_cond2 i = 1#1) (hc3 : k0_cond3 i = 1#1) (hc4 : ¬k0_cond4 i = 1#1)

/-- The K cache after a point of this case. -/
theorem A_kc :
    arg8.view.read (Elt F) (arg8.view.writes (Elt F) (harg8.unread st.kc) (kernelRun_A c i arg3 harg3 arg4 harg4 arg5 harg5 arg6 harg6 arg7 harg7 arg8 harg8 arg9 harg9 arg10 harg10 arg11 harg11 arg12 harg12 arg13 harg13 hc1 hc2 hc3 hc4 x0 x1 x2 x3 st.kc st.vc st.qb st.mm st.ll st.acc).2.1)
      = kcNext i x0 x2 st := by
  unfold kernelRun_A
  dsimp only
  try sl_unfold_run_names
  rw [kcNext_pos i x0 x2 st hc1, readAt_unread_whole arg5 harg5 x2 hz2, readAt_unread arg3 harg3 x0]
  exact read_writes_tile i arg8 harg8 hc1 st.kc _

/-- The V cache after a point of this case. -/
theorem A_vc :
    arg9.view.read (Elt F) (arg9.view.writes (Elt F) (harg9.unread st.vc) (kernelRun_A c i arg3 harg3 arg4 harg4 arg5 harg5 arg6 harg6 arg7 harg7 arg8 harg8 arg9 harg9 arg10 harg10 arg11 harg11 arg12 harg12 arg13 harg13 hc1 hc2 hc3 hc4 x0 x1 x2 x3 st.kc st.vc st.qb st.mm st.ll st.acc).2.2.1)
      = vcNext i x0 x3 st := by
  unfold kernelRun_A
  dsimp only
  try sl_unfold_run_names
  rw [vcNext_pos i x0 x3 st hc1, readAt_unread_whole arg6 harg6 x3 hz2, readAt_unread arg3 harg3 x0]
  exact read_writes_tile i arg9 harg9 hc1 st.vc _

/-- The scaled query tile after a point of this case. -/
theorem A_qb :
    arg10.view.read (Elt F) (arg10.view.writes (Elt F) (harg10.unread st.qb) (kernelRun_A c i arg3 harg3 arg4 harg4 arg5 harg5 arg6 harg6 arg7 harg7 arg8 harg8 arg9 harg9 arg10 harg10 arg11 harg11 arg12 harg12 arg13 harg13 hc1 hc2 hc3 hc4 x0 x1 x2 x3 st.kc st.vc st.qb st.mm st.ll st.acc).2.2.2.1)
      = qbNext i x0 x1 st := by
  unfold kernelRun_A
  dsimp only
  try sl_unfold_run_names
  rw [qbNext_pos i x0 x1 st hc2, readAt_unread_whole arg4 harg4 x1 hz2, readAt_unread arg3 harg3 x0]
  exact read_writes_whole_cons arg10 _ hz2 _ _ _

/-- The running maximum after a point of this case. -/
theorem A_mm :
    arg11.view.read (Elt F) (arg11.view.writes (Elt F) (harg11.unread st.mm) (kernelRun_A c i arg3 harg3 arg4 harg4 arg5 harg5 arg6 harg6 arg7 harg7 arg8 harg8 arg9 harg9 arg10 harg10 arg11 harg11 arg12 harg12 arg13 harg13 hc1 hc2 hc3 hc4 x0 x1 x2 x3 st.kc st.vc st.qb st.mm st.ll st.acc).2.2.2.2.1)
      = mmNext i x0 x1 x2 st := by
  unfold kernelRun_A
  dsimp only
  try sl_unfold_run_names
  rw [mmNext_pos i x0 x1 x2 st hc3, qbNext_pos i x0 x1 st hc2, kcNext_pos i x0 x2 st hc1, m0_pos i st hc2,
    getTile_putTile i hc1 hc3, readCov_tile i arg8 hc1 hc3,
    View.readCov_cons_toLoadRect, View.readCov_cons_toLoadRect,
    readAt_unread_whole arg4 harg4 x1 hz2, readAt_unread_whole arg5 harg5 x2 hz2,
    readAt_unread arg3 harg3 x0, readAt_unread arg3 harg3 x0]
  exact read_writes_whole_cons arg11 _ hz2 _ _ _

/-- The running denominator after a point of this case. -/
theorem A_ll :
    arg12.view.read (Elt F) (arg12.view.writes (Elt F) (harg12.unread st.ll) (kernelRun_A c i arg3 harg3 arg4 harg4 arg5 harg5 arg6 harg6 arg7 harg7 arg8 harg8 arg9 harg9 arg10 harg10 arg11 harg11 arg12 harg12 arg13 harg13 hc1 hc2 hc3 hc4 x0 x1 x2 x3 st.kc st.vc st.qb st.mm st.ll st.acc).2.2.2.2.2.1)
      = llNext i x0 x1 x2 st := by
  unfold kernelRun_A
  dsimp only
  try sl_unfold_run_names
  rw [llNext_pos i x0 x1 x2 st hc3, qbNext_pos i x0 x1 st hc2, kcNext_pos i x0 x2 st hc1, m0_pos i st hc2, l0_pos i st hc2,
    getTile_putTile i hc1 hc3, readCov_tile i arg8 hc1 hc3,
    View.readCov_cons_toLoadRect, View.readCov_cons_toLoadRect, View.readCov_cons_toLoadRect,
    readAt_unread_whole arg4 harg4 x1 hz2, readAt_unread_whole arg5 harg5 x2 hz2,
    readAt_unread arg3 harg3 x0, readAt_unread arg3 harg3 x0]
  exact read_writes_whole_cons arg12 _ hz2 _ _ _

/-- The running numerator after a point of this case. -/
theorem A_acc :
    arg13.view.read (Elt F) (arg13.view.writes (Elt F) (harg13.unread st.acc) (kernelRun_A c i arg3 harg3 arg4 harg4 arg5 harg5 arg6 harg6 arg7 harg7 arg8 harg8 arg9 harg9 arg10 harg10 arg11 harg11 arg12 harg12 arg13 harg13 hc1 hc2 hc3 hc4 x0 x1 x2 x3 st.kc st.vc st.qb st.mm st.ll st.acc).2.2.2.2.2.2.1)
      = accNext i x0 x1 x2 x3 st := by
  unfold kernelRun_A
  dsimp only
  try sl_unfold_run_names
  rw [accNext_pos i x0 x1 x2 x3 st hc3, qbNext_pos i x0 x1 st hc2, kcNext_pos i x0 x2 st hc1, vcNext_pos i x0 x3 st hc1,
    m0_pos i st hc2, a0_pos i st hc2,
    getTile_putTile i hc1 hc3, getTile_putTile i hc1 hc3, readCov_tile i arg8 hc1 hc3, readCov_tile i arg9 hc1 hc3,
    View.readCov_cons_toLoadRect, View.readCov_cons_toLoadRect, View.readCov_cons_toLoadRect,
    readAt_unread_whole arg4 harg4 x1 hz2, readAt_unread_whole arg5 harg5 x2 hz2, readAt_unread_whole arg6 harg6 x3 hz2,
    readAt_unread arg3 harg3 x0, readAt_unread arg3 harg3 x0]
  exact read_writes_whole_cons arg13 _ hz2 _ _ _

end

/-- A point of this case takes the scratch state to the written-out step of it. -/
theorem next_A_eq (c : Dev nD) (t : Fin cfg0.N) (h1 : k0_cond1 (grid0.coords t) = 1#1) (h2 : k0_cond2 (grid0.coords t) = 1#1) (h3 : k0_cond3 (grid0.coords t) = 1#1) (h4 : ¬k0_cond4 (grid0.coords t) = 1#1) (st : St F) :
    next_A m c t h1 h2 h3 h4 st
      = stepSpec (grid0.coords t) (iblk m c 0 t) (iblk m c 1 t) (iblk m c 2 t) (iblk m c 3 t) st := by
  unfold next_A stepSpec
  rw [St.mk.injEq]
  exact ⟨A_kc (F := F) c (grid0.coords t) (ms0 t) (hs0 t) (ms1 t) (hs1 t) (ms2 t) (hs2 t) (ms3 t) (hs3 t) (ms4 t) (hs4 t) sc0 (Memref.isWhole_whole _) sc1 (Memref.isWhole_whole _) sc2 (Memref.isWhole_whole _) sc3 (Memref.isWhole_whole _) sc4 (Memref.isWhole_whole _) sc5 (Memref.isWhole_whole _) (iblk m c 0 t) (iblk m c 1 t) (iblk m c 2 t) (iblk m c 3 t) st h1 h2 h3 h4,
    A_vc (F := F) c (grid0.coords t) (ms0 t) (hs0 t) (ms1 t) (hs1 t) (ms2 t) (hs2 t) (ms3 t) (hs3 t) (ms4 t) (hs4 t) sc0 (Memref.isWhole_whole _) sc1 (Memref.isWhole_whole _) sc2 (Memref.isWhole_whole _) sc3 (Memref.isWhole_whole _) sc4 (Memref.isWhole_whole _) sc5 (Memref.isWhole_whole _) (iblk m c 0 t) (iblk m c 1 t) (iblk m c 2 t) (iblk m c 3 t) st h1 h2 h3 h4,
    A_qb (F := F) c (grid0.coords t) (ms0 t) (hs0 t) (ms1 t) (hs1 t) (ms2 t) (hs2 t) (ms3 t) (hs3 t) (ms4 t) (hs4 t) sc0 (Memref.isWhole_whole _) sc1 (Memref.isWhole_whole _) sc2 (Memref.isWhole_whole _) sc3 (Memref.isWhole_whole _) sc4 (Memref.isWhole_whole _) sc5 (Memref.isWhole_whole _) (iblk m c 0 t) (iblk m c 1 t) (iblk m c 2 t) (iblk m c 3 t) st h1 h2 h3 h4,
    A_mm (F := F) c (grid0.coords t) (ms0 t) (hs0 t) (ms1 t) (hs1 t) (ms2 t) (hs2 t) (ms3 t) (hs3 t) (ms4 t) (hs4 t) sc0 (Memref.isWhole_whole _) sc1 (Memref.isWhole_whole _) sc2 (Memref.isWhole_whole _) sc3 (Memref.isWhole_whole _) sc4 (Memref.isWhole_whole _) sc5 (Memref.isWhole_whole _) (iblk m c 0 t) (iblk m c 1 t) (iblk m c 2 t) (iblk m c 3 t) st h1 h2 h3 h4,
    A_ll (F := F) c (grid0.coords t) (ms0 t) (hs0 t) (ms1 t) (hs1 t) (ms2 t) (hs2 t) (ms3 t) (hs3 t) (ms4 t) (hs4 t) sc0 (Memref.isWhole_whole _) sc1 (Memref.isWhole_whole _) sc2 (Memref.isWhole_whole _) sc3 (Memref.isWhole_whole _) sc4 (Memref.isWhole_whole _) sc5 (Memref.isWhole_whole _) (iblk m c 0 t) (iblk m c 1 t) (iblk m c 2 t) (iblk m c 3 t) st h1 h2 h3 h4,
    A_acc (F := F) c (grid0.coords t) (ms0 t) (hs0 t) (ms1 t) (hs1 t) (ms2 t) (hs2 t) (ms3 t) (hs3 t) (ms4 t) (hs4 t) sc0 (Memref.isWhole_whole _) sc1 (Memref.isWhole_whole _) sc2 (Memref.isWhole_whole _) sc3 (Memref.isWhole_whole _) sc4 (Memref.isWhole_whole _) sc5 (Memref.isWhole_whole _) (iblk m c 0 t) (iblk m c 1 t) (iblk m c 2 t) (iblk m c 3 t) st h1 h2 h3 h4⟩

end Cert.KernelIdeal.Attn

end
-- ==== Proof.KI.ReadB.lean ====
/-
  The case where only the first branch is taken: the query tile is the first, so the point projects the key tile's rows
  to keys and values and stores them into the two caches; the key tile is in the future, so nothing else changes.
-/
import proofs.«166778_j29291676958807_2_alg».proof.Proof.KI.ReadTools

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ)

section
variable (c : Dev nD) (i : grid0.Coords)
  (arg3 : Memref sig .tc .vmem S1x2048x1024 .f32) (harg3 : arg3.IsWhole)
  (arg4 : Memref sig .tc .vmem S1024x256 .f32) (harg4 : arg4.IsWhole)
  (arg5 : Memref sig .tc .vmem S1024x256 .f32) (harg5 : arg5.IsWhole)
  (arg6 : Memref sig .tc .vmem S1024x256 .f32) (harg6 : arg6.IsWhole)
  (arg7 : Memref sig .tc .vmem S1x512x256 .f32) (harg7 : arg7.IsWhole)
  (arg8 : Memref sig .tc .vmem S2048x256 .bf16) (harg8 : arg8.IsWhole)
  (arg9 : Memref sig .tc .vmem S2048x256 .bf16) (harg9 : arg9.IsWhole)
  (arg10 : Memref sig .tc .vmem S512x256 .bf16) (harg10 : arg10.IsWhole)
  (arg11 : Memref sig .tc .vmem S512x1 .f32) (harg11 : arg11.IsWhole)
  (arg12 : Memref sig .tc .vmem S512x1 .f32) (harg12 : arg12.IsWhole)
  (arg13 : Memref sig .tc .vmem S512x256 .f32) (harg13 : arg13.IsWhole)
  (x0 : Vec F S1x2048x1024 .f32) (x1 x2 x3 : Vec F S1024x256 .f32) (st : St F)
variable (hc1 : k0_cond1 i = 1#1) (hc2 : ¬k0_cond2 i = 1#1) (hc3 : ¬k0_cond3 i = 1#1) (hc4 : ¬k0_cond4 i = 1#1)

/-- The K cache after a point of this case. -/
theorem B_kc :
    arg8.view.read (Elt F) (arg8.view.writes (Elt F) (harg8.unread st.kc) (kernelRun_B c i arg3 harg3 arg4 harg4 arg5 harg5 arg6 harg6 arg7 harg7 arg8 harg8 arg9 harg9 arg10 harg10 arg11 harg11 arg12 harg12 arg13 harg13 hc1 hc2 hc3 hc4 x0 x1 x2 x3 st.kc st.vc st.qb st.mm st.ll st.acc).2.1)
      = kcNext i x0 x2 st := by
  unfold kernelRun_B
  dsimp only
  try sl_unfold_run_names
  rw [kcNext_pos i x0 x2 st hc1, readAt_unread_whole arg5 harg5 x2 hz2, readAt_unread arg3 harg3 x0]
  exact read_writes_tile i arg8 harg8 hc1 st.kc _

/-- The V cache after a point of this case. -/
theorem B_vc :
    arg9.view.read (Elt F) (arg9.view.writes (Elt F) (harg9.unread st.vc) (kernelRun_B c i arg3 harg3 arg4 harg4 arg5 harg5 arg6 harg6 arg7 harg7 arg8 harg8 arg9 harg9 arg10 harg10 arg11 harg11 arg12 harg12 arg13 harg13 hc1 hc2 hc3 hc4 x0 x1 x2 x3 st.kc st.vc st.qb st.mm st.ll st.acc).2.2.1)
      = vcNext i x0 x3 st := by
  unfold kernelRun_B
  dsimp only
  try sl_unfold_run_names
  rw [vcNext_pos i x0 x3 st hc1, readAt_unread_whole arg6 harg6 x3 hz2, readAt_unread arg3 harg3 x0]
  exact read_writes_tile i arg9 harg9 hc1 st.vc _

/-- The scaled query tile after a point of this case. -/
theorem B_qb :
    arg10.view.read (Elt F) (arg10.view.writes (Elt F) (harg10.unread st.qb) (kernelRun_B c i arg3 harg3 arg4 harg4 arg5 harg5 arg6 harg6 arg7 harg7 arg8 harg8 arg9 harg9 arg10 harg10 arg11 harg11 arg12 harg12 arg13 harg13 hc1 hc2 hc3 hc4 x0 x1 x2 x3 st.kc st.vc st.qb st.mm st.ll st.acc).2.2.2.1)
      = qbNext i x0 x1 st := by
  unfold kernelRun_B
  dsimp only
  rw [qbNext_neg i x0 x1 st hc2]
  exact read_writes_nil arg10 harg10 st.qb

/-- The running maximum after a point of this case. -/
theorem B_mm :
    arg11.view.read (Elt F) (arg11.view.writes (Elt F) (harg11.unread st.mm) (kernelRun_B c i arg3 harg3 arg4 harg4 arg5 harg5 arg6 harg6 arg7 harg7 arg8 harg8 arg9 harg9 arg10 harg10 arg11 harg11 arg12 harg12 arg13 harg13 hc1 hc2 hc3 hc4 x0 x1 x2 x3 st.kc st.vc st.qb st.mm st.ll st.acc).2.2.2.2.1)
      = mmNext i x0 x1 x2 st := by
  unfold kernelRun_B
  dsimp only
  rw [mmNext_neg i x0 x1 x2 st hc3, m0_neg i st hc2]
  exact read_writes_nil arg11 harg11 st.mm

/-- The running denominator after a point of this case. -/
theorem B_ll :
    arg12.view.read (Elt F) (arg12.view.writes (Elt F) (harg12.unread st.ll) (kernelRun_B c i arg3 harg3 arg4 harg4 arg5 harg5 arg6 harg6 arg7 harg7 arg8 harg8 arg9 harg9 arg10 harg10 arg11 harg11 arg12 harg12 arg13 harg13 hc1 hc2 hc3 hc4 x0 x1 x2 x3 st.kc st.vc st.qb st.mm st.ll st.acc).2.2.2.2.2.1)
      = llNext i x0 x1 x2 st := by
  unfold kernelRun_B
  dsimp only
  rw [llNext_neg i x0 x1 x2 st hc3, l0_neg i st hc2]
  exact read_writes_nil arg12 harg12 st.ll

/-- The running numerator after a point of this case. -/
theorem B_acc :
    arg13.view.read (Elt F) (arg13.view.writes (Elt F) (harg13.unread st.acc) (kernelRun_B c i arg3 harg3 arg4 harg4 arg5 harg5 arg6 harg6 arg7 harg7 arg8 harg8 arg9 harg9 arg10 harg10 arg11 harg11 arg12 harg12 arg13 harg13 hc1 hc2 hc3 hc4 x0 x1 x2 x3 st.kc st.vc st.qb st.mm st.ll st.acc).2.2.2.2.2.2.1)
      = accNext i x0 x1 x2 x3 st := by
  unfold kernelRun_B
  dsimp only
  rw [accNext_neg i x0 x1 x2 x3 st hc3, a0_neg i st hc2]
  exact read_writes_nil arg13 harg13 st.acc

end

/-- A point of this case takes the scratch state to the written-out step of it. -/
theorem next_B_eq (c : Dev nD) (t : Fin cfg0.N) (h1 : k0_cond1 (grid0.coords t) = 1#1) (h2 : ¬k0_cond2 (grid0.coords t) = 1#1) (h3 : ¬k0_cond3 (grid0.coords t) = 1#1) (h4 : ¬k0_cond4 (grid0.coords t) = 1#1) (st : St F) :
    next_B m c t h1 h2 h3 h4 st
      = stepSpec (grid0.coords t) (iblk m c 0 t) (iblk m c 1 t) (iblk m c 2 t) (iblk m c 3 t) st := by
  unfold next_B stepSpec
  rw [St.mk.injEq]
  exact ⟨B_kc (F := F) c (grid0.coords t) (ms0 t) (hs0 t) (ms1 t) (hs1 t) (ms2 t) (hs2 t) (ms3 t) (hs3 t) (ms4 t) (hs4 t) sc0 (Memref.isWhole_whole _) sc1 (Memref.isWhole_whole _) sc2 (Memref.isWhole_whole _) sc3 (Memref.isWhole_whole _) sc4 (Memref.isWhole_whole _) sc5 (Memref.isWhole_whole _) (iblk m c 0 t) (iblk m c 1 t) (iblk m c 2 t) (iblk m c 3 t) st h1 h2 h3 h4,
    B_vc (F := F) c (grid0.coords t) (ms0 t) (hs0 t) (ms1 t) (hs1 t) (ms2 t) (hs2 t) (ms3 t) (hs3 t) (ms4 t) (hs4 t) sc0 (Memref.isWhole_whole _) sc1 (Memref.isWhole_whole _) sc2 (Memref.isWhole_whole _) sc3 (Memref.isWhole_whole _) sc4 (Memref.isWhole_whole _) sc5 (Memref.isWhole_whole _) (iblk m c 0 t) (iblk m c 1 t) (iblk m c 2 t) (iblk m c 3 t) st h1 h2 h3 h4,
    B_qb (F := F) c (grid0.coords t) (ms0 t) (hs0 t) (ms1 t) (hs1 t) (ms2 t) (hs2 t) (ms3 t) (hs3 t) (ms4 t) (hs4 t) sc0 (Memref.isWhole_whole _) sc1 (Memref.isWhole_whole _) sc2 (Memref.isWhole_whole _) sc3 (Memref.isWhole_whole _) sc4 (Memref.isWhole_whole _) sc5 (Memref.isWhole_whole _) (iblk m c 0 t) (iblk m c 1 t) (iblk m c 2 t) (iblk m c 3 t) st h1 h2 h3 h4,
    B_mm (F := F) c (grid0.coords t) (ms0 t) (hs0 t) (ms1 t) (hs1 t) (ms2 t) (hs2 t) (ms3 t) (hs3 t) (ms4 t) (hs4 t) sc0 (Memref.isWhole_whole _) sc1 (Memref.isWhole_whole _) sc2 (Memref.isWhole_whole _) sc3 (Memref.isWhole_whole _) sc4 (Memref.isWhole_whole _) sc5 (Memref.isWhole_whole _) (iblk m c 0 t) (iblk m c 1 t) (iblk m c 2 t) (iblk m c 3 t) st h1 h2 h3 h4,
    B_ll (F := F) c (grid0.coords t) (ms0 t) (hs0 t) (ms1 t) (hs1 t) (ms2 t) (hs2 t) (ms3 t) (hs3 t) (ms4 t) (hs4 t) sc0 (Memref.isWhole_whole _) sc1 (Memref.isWhole_whole _) sc2 (Memref.isWhole_whole _) sc3 (Memref.isWhole_whole _) sc4 (Memref.isWhole_whole _) sc5 (Memref.isWhole_whole _) (iblk m c 0 t) (iblk m c 1 t) (iblk m c 2 t) (iblk m c 3 t) st h1 h2 h3 h4,
    B_acc (F := F) c (grid0.coords t) (ms0 t) (hs0 t) (ms1 t) (hs1 t) (ms2 t) (hs2 t) (ms3 t) (hs3 t) (ms4 t) (hs4 t) sc0 (Memref.isWhole_whole _) sc1 (Memref.isWhole_whole _) sc2 (Memref.isWhole_whole _) sc3 (Memref.isWhole_whole _) sc4 (Memref.isWhole_whole _) sc5 (Memref.isWhole_whole _) (iblk m c 0 t) (iblk m c 1 t) (iblk m c 2 t) (iblk m c 3 t) st h1 h2 h3 h4⟩

end Cert.KernelIdeal.Attn

end
-- ==== Proof.KI.ReadC.lean ====
/-
  The case of the first query tile at the last key tile: the point stores the key tile's keys and values into the two
  caches and, the tile being in the future, only divides the running numerator by the running denominator into the
  output block.
-/
import proofs.«166778_j29291676958807_2_alg».proof.Proof.KI.ReadTools

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ)

section
variable (c : Dev nD) (i : grid0.Coords)
  (arg3 : Memref sig .tc .vmem S1x2048x1024 .f32) (harg3 : arg3.IsWhole)
  (arg4 : Memref sig .tc .vmem S1024x256 .f32) (harg4 : arg4.IsWhole)
  (arg5 : Memref sig .tc .vmem S1024x256 .f32) (harg5 : arg5.IsWhole)
  (arg6 : Memref sig .tc .vmem S1024x256 .f32) (harg6 : arg6.IsWhole)
  (arg7 : Memref sig .tc .vmem S1x512x256 .f32) (harg7 : arg7.IsWhole)
  (arg8 : Memref sig .tc .vmem S2048x256 .bf16) (harg8 : arg8.IsWhole)
  (arg9 : Memref sig .tc .vmem S2048x256 .bf16) (harg9 : arg9.IsWhole)
  (arg10 : Memref sig .tc .vmem S512x256 .bf16) (harg10 : arg10.IsWhole)
  (arg11 : Memref sig .tc .vmem S512x1 .f32) (harg11 : arg11.IsWhole)
  (arg12 : Memref sig .tc .vmem S512x1 .f32) (harg12 : arg12.IsWhole)
  (arg13 : Memref sig .tc .vmem S512x256 .f32) (harg13 : arg13.IsWhole)
  (x0 : Vec F S1x2048x1024 .f32) (x1 x2 x3 : Vec F S1024x256 .f32) (st : St F)
variable (hc1 : k0_cond1 i = 1#1) (hc2 : ¬k0_cond2 i = 1#1) (hc3 : ¬k0_cond3 i = 1#1) (hc4 : k0_cond4 i = 1#1)

/-- The K cache after a point of this case. -/
theorem C_kc :
    arg8.view.read (Elt F) (arg8.view.writes (Elt F) (harg8.unread st.kc) (kernelRun_C c i arg3 harg3 arg4 harg4 arg5 harg5 arg6 harg6 arg7 harg7 arg8 harg8 arg9 harg9 arg10 harg10 arg11 harg11 arg12 harg12 arg13 harg13 hc1 hc2 hc3 hc4 x0 x1 x2 x3 st.kc st.vc st.qb st.mm st.ll st.acc).2.1)
      = kcNext i x0 x2 st := by
  unfold kernelRun_C
  dsimp only
  try sl_unfold_run_names
  rw [kcNext_pos i x0 x2 st hc1, readAt_unread_whole arg5 harg5 x2 hz2, readAt_unread arg3 harg3 x0]
  exact read_writes_tile i arg8 harg8 hc1 st.kc _

/-- The V cache after a point of this case. -/
theorem C_vc :
    arg9.view.read (Elt F) (arg9.view.writes (Elt F) (harg9.unread st.vc) (kernelRun_C c i arg3 harg3 arg4 harg4 arg5 harg5 arg6 harg6 arg7 harg7 arg8 harg8 arg9 harg9 arg10 harg10 arg11 harg11 arg12 harg12 arg13 harg13 hc1 hc2 hc3 hc4 x0 x1 x2 x3 st.kc st.vc st.qb st.mm st.ll st.acc).2.2.1)
      = vcNext i x0 x3 st := by
  unfold kernelRun_C
  dsimp only
  try sl_unfold_run_names
  rw [vcNext_pos i x0 x3 st hc1, readAt_unread_whole arg6 harg6 x3 hz2, readAt_unread arg3 harg3 x0]
  exact read_writes_tile i arg9 harg9 hc1 st.vc _

/-- The scaled query tile after a point of this case. -/
theorem C_qb :
    arg10.view.read (Elt F) (arg10.view.writes (Elt F) (harg10.unread st.qb) (kernelRun_C c i arg3 harg3 arg4 harg4 arg5 harg5 arg6 harg6 arg7 harg7 arg8 harg8 arg9 harg9 arg10 harg10 arg11 harg11 arg12 harg12 arg13 harg13 hc1 hc2 hc3 hc4 x0 x1 x2 x3 st.kc st.vc st.qb st.mm st.ll st.acc).2.2.2.1)
      = qbNext i x0 x1 st := by
  unfold kernelRun_C
  dsimp only
  rw [qbNext_neg i x0 x1 st hc2]
  exact read_writes_nil arg10 harg10 st.qb

/-- The running maximum after a point of this case. -/
theorem C_mm :
    arg11.view.read (Elt F) (arg11.view.writes (Elt F) (harg11.unread st.mm) (kernelRun_C c i arg3 harg3 arg4 harg4 arg5 harg5 arg6 harg6 arg7 harg7 arg8 harg8 arg9 harg9 arg10 harg10 arg11 harg11 arg12 harg12 arg13 harg13 hc1 hc2 hc3 hc4 x0 x1 x2 x3 st.kc st.vc st.qb st.mm st.ll st.acc).2.2.2.2.1)
      = mmNext i x0 x1 x2 st := by
  unfold kernelRun_C
  dsimp only
  rw [mmNext_neg i x0 x1 x2 st hc3, m0_neg i st hc2]
  exact read_writes_nil arg11 harg11 st.mm

/-- The running denominator after a point of this case. -/
theorem C_ll :
    arg12.view.read (Elt F) (arg12.view.writes (Elt F) (harg12.unread st.ll) (kernelRun_C c i arg3 harg3 arg4 harg4 arg5 harg5 arg6 harg6 arg7 harg7 arg8 harg8 arg9 harg9 arg10 harg10 arg11 harg11 arg12 harg12 arg13 harg13 hc1 hc2 hc3 hc4 x0 x1 x2 x3 st.kc st.vc st.qb st.mm st.ll st.acc).2.2.2.2.2.1)
      = llNext i x0 x1 x2 st := by
  unfold kernelRun_C
  dsimp only
  rw [llNext_neg i x0 x1 x2 st hc3, l0_neg i st hc2]
  exact read_writes_nil arg12 harg12 st.ll

/-- The running numerator after a point of this case. -/
theorem C_acc :
    arg13.view.read (Elt F) (arg13.view.writes (Elt F) (harg13.unread st.acc) (kernelRun_C c i arg3 harg3 arg4 harg4 arg5 harg5 arg6 harg6 arg7 harg7 arg8 harg8 arg9 harg9 arg10 harg10 arg11 harg11 arg12 harg12 arg13 harg13 hc1 hc2 hc3 hc4 x0 x1 x2 x3 st.kc st.vc st.qb st.mm st.ll st.acc).2.2.2.2.2.2.1)
      = accNext i x0 x1 x2 x3 st := by
  unfold kernelRun_C
  dsimp only
  rw [accNext_neg i x0 x1 x2 x3 st hc3, a0_neg i st hc2]
  exact read_writes_nil arg13 harg13 st.acc

/-- The output block after a point of this case. -/
theorem C_out (e4 : Vec F S1x512x256 .f32) :
    arg7.view.read (Elt F) (arg7.view.writes (Elt F) (harg7.unread e4) (kernelRun_C c i arg3 harg3 arg4 harg4 arg5 harg5 arg6 harg6 arg7 harg7 arg8 harg8 arg9 harg9 arg10 harg10 arg11 harg11 arg12 harg12 arg13 harg13 hc1 hc2 hc3 hc4 x0 x1 x2 x3 st.kc st.vc st.qb st.mm st.ll st.acc).1)
      = outSpec i x0 x1 x2 x3 st := by
  unfold kernelRun_C
  dsimp only
  try sl_unfold_run_names
  rw [readAt_unread_whole arg13 harg13 st.acc hz2, readAt_unread_whole arg12 harg12 st.ll hz2]
  refine (read_writes_whole_cons arg7 _ hz3 _ _ _).trans ?_
  unfold outSpec
  rw [accNext_neg i x0 x1 x2 x3 st hc3, a0_neg i st hc2, llNext_neg i x0 x1 x2 st hc3, l0_neg i st hc2]

end

/-- A point of this case takes the scratch state to the written-out step of it. -/
theorem next_C_eq (c : Dev nD) (t : Fin cfg0.N) (h1 : k0_cond1 (grid0.coords t) = 1#1) (h2 : ¬k0_cond2 (grid0.coords t) = 1#1) (h3 : ¬k0_cond3 (grid0.coords t) = 1#1) (h4 : k0_cond4 (grid0.coords t) = 1#1) (st : St F) :
    next_C m c t h1 h2 h3 h4 st
      = stepSpec (grid0.coords t) (iblk m c 0 t) (iblk m c 1 t) (iblk m c 2 t) (iblk m c 3 t) st := by
  unfold next_C stepSpec
  rw [St.mk.injEq]
  exact ⟨C_kc (F := F) c (grid0.coords t) (ms0 t) (hs0 t) (ms1 t) (hs1 t) (ms2 t) (hs2 t) (ms3 t) (hs3 t) (ms4 t) (hs4 t) sc0 (Memref.isWhole_whole _) sc1 (Memref.isWhole_whole _) sc2 (Memref.isWhole_whole _) sc3 (Memref.isWhole_whole _) sc4 (Memref.isWhole_whole _) sc5 (Memref.isWhole_whole _) (iblk m c 0 t) (iblk m c 1 t) (iblk m c 2 t) (iblk m c 3 t) st h1 h2 h3 h4,
    C_vc (F := F) c (grid0.coords t) (ms0 t) (hs0 t) (ms1 t) (hs1 t) (ms2 t) (hs2 t) (ms3 t) (hs3 t) (ms4 t) (hs4 t) sc0 (Memref.isWhole_whole _) sc1 (Memref.isWhole_whole _) sc2 (Memref.isWhole_whole _) sc3 (Memref.isWhole_whole _) sc4 (Memref.isWhole_whole _) sc5 (Memref.isWhole_whole _) (iblk m c 0 t) (iblk m c 1 t) (iblk m c 2 t) (iblk m c 3 t) st h1 h2 h3 h4,
    C_qb (F := F) c (grid0.coords t) (ms0 t) (hs0 t) (ms1 t) (hs1 t) (ms2 t) (hs2 t) (ms3 t) (hs3 t) (ms4 t) (hs4 t) sc0 (Memref.isWhole_whole _) sc1 (Memref.isWhole_whole _) sc2 (Memref.isWhole_whole _) sc3 (Memref.isWhole_whole _) sc4 (Memref.isWhole_whole _) sc5 (Memref.isWhole_whole _) (iblk m c 0 t) (iblk m c 1 t) (iblk m c 2 t) (iblk m c 3 t) st h1 h2 h3 h4,
    C_mm (F := F) c (grid0.coords t) (ms0 t) (hs0 t) (ms1 t) (hs1 t) (ms2 t) (hs2 t) (ms3 t) (hs3 t) (ms4 t) (hs4 t) sc0 (Memref.isWhole_whole _) sc1 (Memref.isWhole_whole _) sc2 (Memref.isWhole_whole _) sc3 (Memref.isWhole_whole _) sc4 (Memref.isWhole_whole _) sc5 (Memref.isWhole_whole _) (iblk m c 0 t) (iblk m c 1 t) (iblk m c 2 t) (iblk m c 3 t) st h1 h2 h3 h4,
    C_ll (F := F) c (grid0.coords t) (ms0 t) (hs0 t) (ms1 t) (hs1 t) (ms2 t) (hs2 t) (ms3 t) (hs3 t) (ms4 t) (hs4 t) sc0 (Memref.isWhole_whole _) sc1 (Memref.isWhole_whole _) sc2 (Memref.isWhole_whole _) sc3 (Memref.isWhole_whole _) sc4 (Memref.isWhole_whole _) sc5 (Memref.isWhole_whole _) (iblk m c 0 t) (iblk m c 1 t) (iblk m c 2 t) (iblk m c 3 t) st h1 h2 h3 h4,
    C_acc (F := F) c (grid0.coords t) (ms0 t) (hs0 t) (ms1 t) (hs1 t) (ms2 t) (hs2 t) (ms3 t) (hs3 t) (ms4 t) (hs4 t) sc0 (Memref.isWhole_whole _) sc1 (Memref.isWhole_whole _) sc2 (Memref.isWhole_whole _) sc3 (Memref.isWhole_whole _) sc4 (Memref.isWhole_whole _) sc5 (Memref.isWhole_whole _) (iblk m c 0 t) (iblk m c 1 t) (iblk m c 2 t) (iblk m c 3 t) st h1 h2 h3 h4⟩

/-- A point of this case leaves in the output block the written-out quotient. -/
theorem out_C_eq (c : Dev nD) (t : Fin cfg0.N) (h1 : k0_cond1 (grid0.coords t) = 1#1) (h2 : ¬k0_cond2 (grid0.coords t) = 1#1) (h3 : ¬k0_cond3 (grid0.coords t) = 1#1) (h4 : k0_cond4 (grid0.coords t) = 1#1) (st : St F) (e4 : Vec F S1x512x256 .f32) :
    out_C m c t h1 h2 h3 h4 st e4
      = outSpec (grid0.coords t) (iblk m c 0 t) (iblk m c 1 t) (iblk m c 2 t) (iblk m c 3 t) st := by
  unfold out_C
  exact C_out (F := F) c (grid0.coords t) (ms0 t) (hs0 t) (ms1 t) (hs1 t) (ms2 t) (hs2 t) (ms3 t) (hs3 t) (ms4 t) (hs4 t) sc0 (Memref.isWhole_whole _) sc1 (Memref.isWhole_whole _) sc2 (Memref.isWhole_whole _) sc3 (Memref.isWhole_whole _) sc4 (Memref.isWhole_whole _) sc5 (Memref.isWhole_whole _) (iblk m c 0 t) (iblk m c 1 t) (iblk m c 2 t) (iblk m c 3 t) st h1 h2 h3 h4 e4

end Cert.KernelIdeal.Attn

end
-- ==== Proof.KI.ReadD.lean ====
/-
  The case of a later query tile at the first key tile: the point projects the query tile's rows to the scaled queries,
  resets the running maximum, denominator and numerator, and takes the first step of the running softmax over the key
  tile's keys and values read from the caches, which it leaves as they were.
-/
import proofs.«166778_j29291676958807_2_alg».proof.Proof.KI.ReadTools

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ)

section
variable (c : Dev nD) (i : grid0.Coords)
  (arg3 : Memref sig .tc .vmem S1x2048x1024 .f32) (harg3 : arg3.IsWhole)
  (arg4 : Memref sig .tc .vmem S1024x256 .f32) (harg4 : arg4.IsWhole)
  (arg5 : Memref sig .tc .vmem S1024x256 .f32) (harg5 : arg5.IsWhole)
  (arg6 : Memref sig .tc .vmem S1024x256 .f32) (harg6 : arg6.IsWhole)
  (arg7 : Memref sig .tc .vmem S1x512x256 .f32) (harg7 : arg7.IsWhole)
  (arg8 : Memref sig .tc .vmem S2048x256 .bf16) (harg8 : arg8.IsWhole)
  (arg9 : Memref sig .tc .vmem S2048x256 .bf16) (harg9 : arg9.IsWhole)
  (arg10 : Memref sig .tc .vmem S512x256 .bf16) (harg10 : arg10.IsWhole)
  (arg11 : Memref sig .tc .vmem S512x1 .f32) (harg11 : arg11.IsWhole)
  (arg12 : Memref sig .tc .vmem S512x1 .f32) (harg12 : arg12.IsWhole)
  (arg13 : Memref sig .tc .vmem S512x256 .f32) (harg13 : arg13.IsWhole)
  (x0 : Vec F S1x2048x1024 .f32) (x1 x2 x3 : Vec F S1024x256 .f32) (st : St F)
variable (hc1 : ¬k0_cond1 i = 1#1) (hc2 : k0_cond2 i = 1#1) (hc3 : k0_cond3 i = 1#1) (hc4 : ¬k0_cond4 i = 1#1)

/-- The K cache after a point of this case. -/
theorem D_kc :
    arg8.view.read (Elt F) (arg8.view.writes (Elt F) (harg8.unread st.kc) (kernelRun_D c i arg3 harg3 arg4 harg4 arg5 harg5 arg6 harg6 arg7 harg7 arg8 harg8 arg9 harg9 arg10 harg10 arg11 harg11 arg12 harg12 arg13 harg13 hc1 hc2 hc3 hc4 x0 x1 x2 x3 st.kc st.vc st.qb st.mm st.ll st.acc).2.1)
      = kcNext i x0 x2 st := by
  unfold kernelRun_D
  dsimp only
  rw [kcNext_neg i x0 x2 st hc1]
  exact read_writes_nil arg8 harg8 st.kc

/-- The V cache after a point of this case. -/
theorem D_vc :
    arg9.view.read (Elt F) (arg9.view.writes (Elt F) (harg9.unread st.vc) (kernelRun_D c i arg3 harg3 arg4 harg4 arg5 harg5 arg6 harg6 arg7 harg7 arg8 harg8 arg9 harg9 arg10 harg10 arg11 harg11 arg12 harg12 arg13 harg13 hc1 hc2 hc3 hc4 x0 x1 x2 x3 st.kc st.vc st.qb st.mm st.ll st.acc).2.2.1)
      = vcNext i x0 x3 st := by
  unfold kernelRun_D
  dsimp only
  rw [vcNext_neg i x0 x3 st hc1]
  exact read_writes_nil arg9 harg9 st.vc

/-- The scaled query tile after a point of this case. -/
theorem D_qb :
    arg10.view.read (Elt F) (arg10.view.writes (Elt F) (harg10.unread st.qb) (kernelRun_D c i arg3 harg3 arg4 harg4 arg5 harg5 arg6 harg6 arg7 harg7 arg8 harg8 arg9 harg9 arg10 harg10 arg11 harg11 arg12 harg12 arg13 harg13 hc1 hc2 hc3 hc4 x0 x1 x2 x3 st.kc st.vc st.qb st.mm st.ll st.acc).2.2.2.1)
      = qbNext i x0 x1 st := by
  unfold kernelRun_D
  dsimp only
  try sl_unfold_run_names
  rw [qbNext_pos i x0 x1 st hc2, readAt_unread_whole arg4 harg4 x1 hz2, readAt_unread arg3 harg3 x0]
  exact read_writes_whole_cons arg10 _ hz2 _ _ _

/-- The running maximum after a point of this case. -/
theorem D_mm :
    arg11.view.read (Elt F) (arg11.view.writes (Elt F) (harg11.unread st.mm) (kernelRun_D c i arg3 harg3 arg4 harg4 arg5 harg5 arg6 harg6 arg7 harg7 arg8 harg8 arg9 harg9 arg10 harg10 arg11 harg11 arg12 harg12 arg13 harg13 hc1 hc2 hc3 hc4 x0 x1 x2 x3 st.kc st.vc st.qb st.mm st.ll st.acc).2.2.2.2.1)
      = mmNext i x0 x1 x2 st := by
  unfold kernelRun_D
  dsimp only
  try sl_unfold_run_names
  rw [mmNext_pos i x0 x1 x2 st hc3, qbNext_pos i x0 x1 st hc2, kcNext_neg i x0 x2 st hc1, m0_pos i st hc2,
    View.readCov_cons_toLoadRect, View.readCov_cons_toLoadRect,
    readAt_unread_whole arg4 harg4 x1 hz2, readAt_unread arg3 harg3 x0, readAt_unread arg8 harg8 st.kc]
  exact read_writes_whole_cons arg11 _ hz2 _ _ _

/-- The running denominator after a point of this case. -/
theorem D_ll :
    arg12.view.read (Elt F) (arg12.view.writes (Elt F) (harg12.unread st.ll) (kernelRun_D c i arg3 harg3 arg4 harg4 arg5 harg5 arg6 harg6 arg7 harg7 arg8 harg8 arg9 harg9 arg10 harg10 arg11 harg11 arg12 harg12 arg13 harg13 hc1 hc2 hc3 hc4 x0 x1 x2 x3 st.kc st.vc st.qb st.mm st.ll st.acc).2.2.2.2.2.1)
      = llNext i x0 x1 x2 st := by
  unfold kernelRun_D
  dsimp only
  try sl_unfold_run_names
  rw [llNext_pos i x0 x1 x2 st hc3, qbNext_pos i x0 x1 st hc2, kcNext_neg i x0 x2 st hc1, m0_pos i st hc2, l0_pos i st hc2,
    View.readCov_cons_toLoadRect, View.readCov_cons_toLoadRect, View.readCov_cons_toLoadRect,
    readAt_unread_whole arg4 harg4 x1 hz2, readAt_unread arg3 harg3 x0, readAt_unread arg8 harg8 st.kc]
  exact read_writes_whole_cons arg12 _ hz2 _ _ _

/-- The running numerator after a point of this case. -/
theorem D_acc :
    arg13.view.read (Elt F) (arg13.view.writes (Elt F) (harg13.unread st.acc) (kernelRun_D c i arg3 harg3 arg4 harg4 arg5 harg5 arg6 harg6 arg7 harg7 arg8 harg8 arg9 harg9 arg10 harg10 arg11 harg11 arg12 harg12 arg13 harg13 hc1 hc2 hc3 hc4 x0 x1 x2 x3 st.kc st.vc st.qb st.mm st.ll st.acc).2.2.2.2.2.2.1)
      = accNext i x0 x1 x2 x3 st := by
  unfold kernelRun_D
  dsimp only
  try sl_unfold_run_names
  rw [accNext_pos i x0 x1 x2 x3 st hc3, qbNext_pos i x0 x1 st hc2, kcNext_neg i x0 x2 st hc1, vcNext_neg i x0 x3 st hc1,
    m0_pos i st hc2, a0_pos i st hc2,
    View.readCov_cons_toLoadRect, View.readCov_cons_toLoadRect, View.readCov_cons_toLoadRect,
    readAt_unread_whole arg4 harg4 x1 hz2, readAt_unread arg3 harg3 x0, readAt_unread arg8 harg8 st.kc,
    readAt_unread arg9 harg9 st.vc]
  exact read_writes_whole_cons arg13 _ hz2 _ _ _

end

/-- A point of this case takes the scratch state to the written-out step of it. -/
theorem next_D_eq (c : Dev nD) (t : Fin cfg0.N) (h1 : ¬k0_cond1 (grid0.coords t) = 1#1) (h2 : k0_cond2 (grid0.coords t) = 1#1) (h3 : k0_cond3 (grid0.coords t) = 1#1) (h4 : ¬k0_cond4 (grid0.coords t) = 1#1) (st : St F) :
    next_D m c t h1 h2 h3 h4 st
      = stepSpec (grid0.coords t) (iblk m c 0 t) (iblk m c 1 t) (iblk m c 2 t) (iblk m c 3 t) st := by
  unfold next_D stepSpec
  rw [St.mk.injEq]
  exact ⟨D_kc (F := F) c (grid0.coords t) (ms0 t) (hs0 t) (ms1 t) (hs1 t) (ms2 t) (hs2 t) (ms3 t) (hs3 t) (ms4 t) (hs4 t) sc0 (Memref.isWhole_whole _) sc1 (Memref.isWhole_whole _) sc2 (Memref.isWhole_whole _) sc3 (Memref.isWhole_whole _) sc4 (Memref.isWhole_whole _) sc5 (Memref.isWhole_whole _) (iblk m c 0 t) (iblk m c 1 t) (iblk m c 2 t) (iblk m c 3 t) st h1 h2 h3 h4,
    D_vc (F := F) c (grid0.coords t) (ms0 t) (hs0 t) (ms1 t) (hs1 t) (ms2 t) (hs2 t) (ms3 t) (hs3 t) (ms4 t) (hs4 t) sc0 (Memref.isWhole_whole _) sc1 (Memref.isWhole_whole _) sc2 (Memref.isWhole_whole _) sc3 (Memref.isWhole_whole _) sc4 (Memref.isWhole_whole _) sc5 (Memref.isWhole_whole _) (iblk m c 0 t) (iblk m c 1 t) (iblk m c 2 t) (iblk m c 3 t) st h1 h2 h3 h4,
    D_qb (F := F) c (grid0.coords t) (ms0 t) (hs0 t) (ms1 t) (hs1 t) (ms2 t) (hs2 t) (ms3 t) (hs3 t) (ms4 t) (hs4 t) sc0 (Memref.isWhole_whole _) sc1 (Memref.isWhole_whole _) sc2 (Memref.isWhole_whole _) sc3 (Memref.isWhole_whole _) sc4 (Memref.isWhole_whole _) sc5 (Memref.isWhole_whole _) (iblk m c 0 t) (iblk m c 1 t) (iblk m c 2 t) (iblk m c 3 t) st h1 h2 h3 h4,
    D_mm (F := F) c (grid0.coords t) (ms0 t) (hs0 t) (ms1 t) (hs1 t) (ms2 t) (hs2 t) (ms3 t) (hs3 t) (ms4 t) (hs4 t) sc0 (Memref.isWhole_whole _) sc1 (Memref.isWhole_whole _) sc2 (Memref.isWhole_whole _) sc3 (Memref.isWhole_whole _) sc4 (Memref.isWhole_whole _) sc5 (Memref.isWhole_whole _) (iblk m c 0 t) (iblk m c 1 t) (iblk m c 2 t) (iblk m c 3 t) st h1 h2 h3 h4,
    D_ll (F := F) c (grid0.coords t) (ms0 t) (hs0 t) (ms1 t) (hs1 t) (ms2 t) (hs2 t) (ms3 t) (hs3 t) (ms4 t) (hs4 t) sc0 (Memref.isWhole_whole _) sc1 (Memref.isWhole_whole _) sc2 (Memref.isWhole_whole _) sc3 (Memref.isWhole_whole _) sc4 (Memref.isWhole_whole _) sc5 (Memref.isWhole_whole _) (iblk m c 0 t) (iblk m c 1 t) (iblk m c 2 t) (iblk m c 3 t) st h1 h2 h3 h4,
    D_acc (F := F) c (grid0.coords t) (ms0 t) (hs0 t) (ms1 t) (hs1 t) (ms2 t) (hs2 t) (ms3 t) (hs3 t) (ms4 t) (hs4 t) sc0 (Memref.isWhole_whole _) sc1 (Memref.isWhole_whole _) sc2 (Memref.isWhole_whole _) sc3 (Memref.isWhole_whole _) sc4 (Memref.isWhole_whole _) sc5 (Memref.isWhole_whole _) (iblk m c 0 t) (iblk m c 1 t) (iblk m c 2 t) (iblk m c 3 t) st h1 h2 h3 h4⟩

end Cert.KernelIdeal.Attn

end
-- ==== Proof.KI.ReadE.lean ====
/-
  The case where only the third branch is taken: a later query tile at a key tile that is neither the first nor the
  last and not in the future. The caches and the query tile are as before; the running maximum, denominator and
  numerator take one step of the running softmax over the key tile's keys and values read from the caches.
-/
import proofs.«166778_j29291676958807_2_alg».proof.Proof.KI.ReadTools

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ)

section
variable (c : Dev nD) (i : grid0.Coords)
  (arg3 : Memref sig .tc .vmem S1x2048x1024 .f32) (harg3 : arg3.IsWhole)
  (arg4 : Memref sig .tc .vmem S1024x256 .f32) (harg4 : arg4.IsWhole)
  (arg5 : Memref sig .tc .vmem S1024x256 .f32) (harg5 : arg5.IsWhole)
  (arg6 : Memref sig .tc .vmem S1024x256 .f32) (harg6 : arg6.IsWhole)
  (arg7 : Memref sig .tc .vmem S1x512x256 .f32) (harg7 : arg7.IsWhole)
  (arg8 : Memref sig .tc .vmem S2048x256 .bf16) (harg8 : arg8.IsWhole)
  (arg9 : Memref sig .tc .vmem S2048x256 .bf16) (harg9 : arg9.IsWhole)
  (arg10 : Memref sig .tc .vmem S512x256 .bf16) (harg10 : arg10.IsWhole)
  (arg11 : Memref sig .tc .vmem S512x1 .f32) (harg11 : arg11.IsWhole)
  (arg12 : Memref sig .tc .vmem S512x1 .f32) (harg12 : arg12.IsWhole)
  (arg13 : Memref sig .tc .vmem S512x256 .f32) (harg13 : arg13.IsWhole)
  (x0 : Vec F S1x2048x1024 .f32) (x1 x2 x3 : Vec F S1024x256 .f32) (st : St F)
variable (hc1 : ¬k0_cond1 i = 1#1) (hc2 : ¬k0_cond2 i = 1#1) (hc3 : k0_cond3 i = 1#1) (hc4 : ¬k0_cond4 i = 1#1)

/-- The K cache after a point of this case. -/
theorem E_kc :
    arg8.view.read (Elt F) (arg8.view.writes (Elt F) (harg8.unread st.kc) (kernelRun_E c i arg3 harg3 arg4 harg4 arg5 harg5 arg6 harg6 arg7 harg7 arg8 harg8 arg9 harg9 arg10 harg10 arg11 harg11 arg12 harg12 arg13 harg13 hc1 hc2 hc3 hc4 x0 x1 x2 x3 st.kc st.vc st.qb st.mm st.ll st.acc).2.1)
      = kcNext i x0 x2 st := by
  unfold kernelRun_E
  dsimp only
  rw [kcNext_neg i x0 x2 st hc1]
  exact read_writes_nil arg8 harg8 st.kc

/-- The V cache after a point of this case. -/
theorem E_vc :
    arg9.view.read (Elt F) (arg9.view.writes (Elt F) (harg9.unread st.vc) (kernelRun_E c i arg3 harg3 arg4 harg4 arg5 harg5 arg6 harg6 arg7 harg7 arg8 harg8 arg9 harg9 arg10 harg10 arg11 harg11 arg12 harg12 arg13 harg13 hc1 hc2 hc3 hc4 x0 x1 x2 x3 st.kc st.vc st.qb st.mm st.ll st.acc).2.2.1)
      = vcNext i x0 x3 st := by
  unfold kernelRun_E
  dsimp only
  rw [vcNext_neg i x0 x3 st hc1]
  exact read_writes_nil arg9 harg9 st.vc

/-- The scaled query tile after a point of this case. -/
theorem E_qb :
    arg10.view.read (Elt F) (arg10.view.writes (Elt F) (harg10.unread st.qb) (kernelRun_E c i arg3 harg3 arg4 harg4 arg5 harg5 arg6 harg6 arg7 harg7 arg8 harg8 arg9 harg9 arg10 harg10 arg11 harg11 arg12 harg12 arg13 harg13 hc1 hc2 hc3 hc4 x0 x1 x2 x3 st.kc st.vc st.qb st.mm st.ll st.acc).2.2.2.1)
      = qbNext i x0 x1 st := by
  unfold kernelRun_E
  dsimp only
  rw [qbNext_neg i x0 x1 st hc2]
  exact read_writes_nil arg10 harg10 st.qb

/-- The running maximum after a point of this case. -/
theorem E_mm :
    arg11.view.read (Elt F) (arg11.view.writes (Elt F) (harg11.unread st.mm) (kernelRun_E c i arg3 harg3 arg4 harg4 arg5 harg5 arg6 harg6 arg7 harg7 arg8 harg8 arg9 harg9 arg10 harg10 arg11 harg11 arg12 harg12 arg13 harg13 hc1 hc2 hc3 hc4 x0 x1 x2 x3 st.kc st.vc st.qb st.mm st.ll st.acc).2.2.2.2.1)
      = mmNext i x0 x1 x2 st := by
  unfold kernelRun_E
  dsimp only
  try sl_unfold_run_names
  rw [mmNext_pos i x0 x1 x2 st hc3, qbNext_neg i x0 x1 st hc2, kcNext_neg i x0 x2 st hc1, m0_neg i st hc2,
    readAt_unread_whole arg10 harg10 st.qb hz2, readAt_unread arg8 harg8 st.kc, readAt_unread_whole arg11 harg11 st.mm hz2]
  exact read_writes_whole_cons arg11 _ hz2 _ _ _

/-- The running denominator after a point of this case. -/
theorem E_ll :
    arg12.view.read (Elt F) (arg12.view.writes (Elt F) (harg12.unread st.ll) (kernelRun_E c i arg3 harg3 arg4 harg4 arg5 harg5 arg6 harg6 arg7 harg7 arg8 harg8 arg9 harg9 arg10 harg10 arg11 harg11 arg12 harg12 arg13 harg13 hc1 hc2 hc3 hc4 x0 x1 x2 x3 st.kc st.vc st.qb st.mm st.ll st.acc).2.2.2.2.2.1)
      = llNext i x0 x1 x2 st := by
  unfold kernelRun_E
  dsimp only
  try sl_unfold_run_names
  rw [llNext_pos i x0 x1 x2 st hc3, qbNext_neg i x0 x1 st hc2, kcNext_neg i x0 x2 st hc1, m0_neg i st hc2, l0_neg i st hc2,
    readAt_unread_whole arg10 harg10 st.qb hz2, readAt_unread arg8 harg8 st.kc, readAt_unread_whole arg11 harg11 st.mm hz2,
    readAt_unread_whole arg12 harg12 st.ll hz2]
  exact read_writes_whole_cons arg12 _ hz2 _ _ _

/-- The running numerator after a point of this case. -/
theorem E_acc :
    arg13.view.read (Elt F) (arg13.view.writes (Elt F) (harg13.unread st.acc) (kernelRun_E c i arg3 harg3 arg4 harg4 arg5 harg5 arg6 harg6 arg7 harg7 arg8 harg8 arg9 harg9 arg10 harg10 arg11 harg11 arg12 harg12 arg13 harg13 hc1 hc2 hc3 hc4 x0 x1 x2 x3 st.kc st.vc st.qb st.mm st.ll st.acc).2.2.2.2.2.2.1)
      = accNext i x0 x1 x2 x3 st := by
  unfold kernelRun_E
  dsimp only
  try sl_unfold_run_names
  rw [accNext_pos i x0 x1 x2 x3 st hc3, qbNext_neg i x0 x1 st hc2, kcNext_neg i x0 x2 st hc1, vcNext_neg i x0 x3 st hc1,
    m0_neg i st hc2, a0_neg i st hc2,
    readAt_unread_whole arg10 harg10 st.qb hz2, readAt_unread arg8 harg8 st.kc, readAt_unread arg9 harg9 st.vc,
    readAt_unread_whole arg11 harg11 st.mm hz2, readAt_unread_whole arg13 harg13 st.acc hz2]
  exact read_writes_whole_cons arg13 _ hz2 _ _ _

end

/-- A point of this case takes the scratch state to the written-out step of it. -/
theorem next_E_eq (c : Dev nD) (t : Fin cfg0.N) (h1 : ¬k0_cond1 (grid0.coords t) = 1#1) (h2 : ¬k0_cond2 (grid0.coords t) = 1#1) (h3 : k0_cond3 (grid0.coords t) = 1#1) (h4 : ¬k0_cond4 (grid0.coords t) = 1#1) (st : St F) :
    next_E m c t h1 h2 h3 h4 st
      = stepSpec (grid0.coords t) (iblk m c 0 t) (iblk m c 1 t) (iblk m c 2 t) (iblk m c 3 t) st := by
  unfold next_E stepSpec
  rw [St.mk.injEq]
  exact ⟨E_kc (F := F) c (grid0.coords t) (ms0 t) (hs0 t) (ms1 t) (hs1 t) (ms2 t) (hs2 t) (ms3 t) (hs3 t) (ms4 t) (hs4 t) sc0 (Memref.isWhole_whole _) sc1 (Memref.isWhole_whole _) sc2 (Memref.isWhole_whole _) sc3 (Memref.isWhole_whole _) sc4 (Memref.isWhole_whole _) sc5 (Memref.isWhole_whole _) (iblk m c 0 t) (iblk m c 1 t) (iblk m c 2 t) (iblk m c 3 t) st h1 h2 h3 h4,
    E_vc (F := F) c (grid0.coords t) (ms0 t) (hs0 t) (ms1 t) (hs1 t) (ms2 t) (hs2 t) (ms3 t) (hs3 t) (ms4 t) (hs4 t) sc0 (Memref.isWhole_whole _) sc1 (Memref.isWhole_whole _) sc2 (Memref.isWhole_whole _) sc3 (Memref.isWhole_whole _) sc4 (Memref.isWhole_whole _) sc5 (Memref.isWhole_whole _) (iblk m c 0 t) (iblk m c 1 t) (iblk m c 2 t) (iblk m c 3 t) st h1 h2 h3 h4,
    E_qb (F := F) c (grid0.coords t) (ms0 t) (hs0 t) (ms1 t) (hs1 t) (ms2 t) (hs2 t) (ms3 t) (hs3 t) (ms4 t) (hs4 t) sc0 (Memref.isWhole_whole _) sc1 (Memref.isWhole_whole _) sc2 (Memref.isWhole_whole _) sc3 (Memref.isWhole_whole _) sc4 (Memref.isWhole_whole _) sc5 (Memref.isWhole_whole _) (iblk m c 0 t) (iblk m c 1 t) (iblk m c 2 t) (iblk m c 3 t) st h1 h2 h3 h4,
    E_mm (F := F) c (grid0.coords t) (ms0 t) (hs0 t) (ms1 t) (hs1 t) (ms2 t) (hs2 t) (ms3 t) (hs3 t) (ms4 t) (hs4 t) sc0 (Memref.isWhole_whole _) sc1 (Memref.isWhole_whole _) sc2 (Memref.isWhole_whole _) sc3 (Memref.isWhole_whole _) sc4 (Memref.isWhole_whole _) sc5 (Memref.isWhole_whole _) (iblk m c 0 t) (iblk m c 1 t) (iblk m c 2 t) (iblk m c 3 t) st h1 h2 h3 h4,
    E_ll (F := F) c (grid0.coords t) (ms0 t) (hs0 t) (ms1 t) (hs1 t) (ms2 t) (hs2 t) (ms3 t) (hs3 t) (ms4 t) (hs4 t) sc0 (Memref.isWhole_whole _) sc1 (Memref.isWhole_whole _) sc2 (Memref.isWhole_whole _) sc3 (Memref.isWhole_whole _) sc4 (Memref.isWhole_whole _) sc5 (Memref.isWhole_whole _) (iblk m c 0 t) (iblk m c 1 t) (iblk m c 2 t) (iblk m c 3 t) st h1 h2 h3 h4,
    E_acc (F := F) c (grid0.coords t) (ms0 t) (hs0 t) (ms1 t) (hs1 t) (ms2 t) (hs2 t) (ms3 t) (hs3 t) (ms4 t) (hs4 t) sc0 (Memref.isWhole_whole _) sc1 (Memref.isWhole_whole _) sc2 (Memref.isWhole_whole _) sc3 (Memref.isWhole_whole _) sc4 (Memref.isWhole_whole _) sc5 (Memref.isWhole_whole _) (iblk m c 0 t) (iblk m c 1 t) (iblk m c 2 t) (iblk m c 3 t) st h1 h2 h3 h4⟩

end Cert.KernelIdeal.Attn

end
-- ==== Proof.KI.ReadF.lean ====
/-
  The case where none of the four branches is taken: the key tile is in the query tile's future and is neither the
  first nor the last, and the query tile is not the first. Nothing is stored; every scratch buffer reads as before.
-/
import proofs.«166778_j29291676958807_2_alg».proof.Proof.KI.ReadTools

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ)

section
variable (c : Dev nD) (i : grid0.Coords)
  (arg3 : Memref sig .tc .vmem S1x2048x1024 .f32) (harg3 : arg3.IsWhole)
  (arg4 : Memref sig .tc .vmem S1024x256 .f32) (harg4 : arg4.IsWhole)
  (arg5 : Memref sig .tc .vmem S1024x256 .f32) (harg5 : arg5.IsWhole)
  (arg6 : Memref sig .tc .vmem S1024x256 .f32) (harg6 : arg6.IsWhole)
  (arg7 : Memref sig .tc .vmem S1x512x256 .f32) (harg7 : arg7.IsWhole)
  (arg8 : Memref sig .tc .vmem S2048x256 .bf16) (harg8 : arg8.IsWhole)
  (arg9 : Memref sig .tc .vmem S2048x256 .bf16) (harg9 : arg9.IsWhole)
  (arg10 : Memref sig .tc .vmem S512x256 .bf16) (harg10 : arg10.IsWhole)
  (arg11 : Memref sig .tc .vmem S512x1 .f32) (harg11 : arg11.IsWhole)
  (arg12 : Memref sig .tc .vmem S512x1 .f32) (harg12 : arg12.IsWhole)
  (arg13 : Memref sig .tc .vmem S512x256 .f32) (harg13 : arg13.IsWhole)
  (x0 : Vec F S1x2048x1024 .f32) (x1 x2 x3 : Vec F S1024x256 .f32) (st : St F)
variable (hc1 : ¬k0_cond1 i = 1#1) (hc2 : ¬k0_cond2 i = 1#1) (hc3 : ¬k0_cond3 i = 1#1) (hc4 : ¬k0_cond4 i = 1#1)

/-- The K cache after a point of this case. -/
theorem F_kc :
    arg8.view.read (Elt F) (arg8.view.writes (Elt F) (harg8.unread st.kc) (kernelRun_F c i arg3 harg3 arg4 harg4 arg5 harg5 arg6 harg6 arg7 harg7 arg8 harg8 arg9 harg9 arg10 harg10 arg11 harg11 arg12 harg12 arg13 harg13 hc1 hc2 hc3 hc4 x0 x1 x2 x3 st.kc st.vc st.qb st.mm st.ll st.acc).2.1)
      = kcNext i x0 x2 st := by
  unfold kernelRun_F
  dsimp only
  rw [kcNext_neg i x0 x2 st hc1]
  exact read_writes_nil arg8 harg8 st.kc

/-- The V cache after a point of this case. -/
theorem F_vc :
    arg9.view.read (Elt F) (arg9.view.writes (Elt F) (harg9.unread st.vc) (kernelRun_F c i arg3 harg3 arg4 harg4 arg5 harg5 arg6 harg6 arg7 harg7 arg8 harg8 arg9 harg9 arg10 harg10 arg11 harg11 arg12 harg12 arg13 harg13 hc1 hc2 hc3 hc4 x0 x1 x2 x3 st.kc st.vc st.qb st.mm st.ll st.acc).2.2.1)
      = vcNext i x0 x3 st := by
  unfold kernelRun_F
  dsimp only
  rw [vcNext_neg i x0 x3 st hc1]
  exact read_writes_nil arg9 harg9 st.vc

/-- The scaled query tile after a point of this case. -/
theorem F_qb :
    arg10.view.read (Elt F) (arg10.view.writes (Elt F) (harg10.unread st.qb) (kernelRun_F c i arg3 harg3 arg4 harg4 arg5 harg5 arg6 harg6 arg7 harg7 arg8 harg8 arg9 harg9 arg10 harg10 arg11 harg11 arg12 harg12 arg13 harg13 hc1 hc2 hc3 hc4 x0 x1 x2 x3 st.kc st.vc st.qb st.mm st.ll st.acc).2.2.2.1)
      = qbNext i x0 x1 st := by
  unfold kernelRun_F
  dsimp only
  rw [qbNext_neg i x0 x1 st hc2]
  exact read_writes_nil arg10 harg10 st.qb

/-- The running maximum after a point of this case. -/
theorem F_mm :
    arg11.view.read (Elt F) (arg11.view.writes (Elt F) (harg11.unread st.mm) (kernelRun_F c i arg3 harg3 arg4 harg4 arg5 harg5 arg6 harg6 arg7 harg7 arg8 harg8 arg9 harg9 arg10 harg10 arg11 harg11 arg12 harg12 arg13 harg13 hc1 hc2 hc3 hc4 x0 x1 x2 x3 st.kc st.vc st.qb st.mm st.ll st.acc).2.2.2.2.1)
      = mmNext i x0 x1 x2 st := by
  unfold kernelRun_F
  dsimp only
  rw [mmNext_neg i x0 x1 x2 st hc3, m0_neg i st hc2]
  exact read_writes_nil arg11 harg11 st.mm

/-- The running denominator after a point of this case. -/
theorem F_ll :
    arg12.view.read (Elt F) (arg12.view.writes (Elt F) (harg12.unread st.ll) (kernelRun_F c i arg3 harg3 arg4 harg4 arg5 harg5 arg6 harg6 arg7 harg7 arg8 harg8 arg9 harg9 arg10 harg10 arg11 harg11 arg12 harg12 arg13 harg13 hc1 hc2 hc3 hc4 x0 x1 x2 x3 st.kc st.vc st.qb st.mm st.ll st.acc).2.2.2.2.2.1)
      = llNext i x0 x1 x2 st := by
  unfold kernelRun_F
  dsimp only
  rw [llNext_neg i x0 x1 x2 st hc3, l0_neg i st hc2]
  exact read_writes_nil arg12 harg12 st.ll

/-- The running numerator after a point of this case. -/
theorem F_acc :
    arg13.view.read (Elt F) (arg13.view.writes (Elt F) (harg13.unread st.acc) (kernelRun_F c i arg3 harg3 arg4 harg4 arg5 harg5 arg6 harg6 arg7 harg7 arg8 harg8 arg9 harg9 arg10 harg10 arg11 harg11 arg12 harg12 arg13 harg13 hc1 hc2 hc3 hc4 x0 x1 x2 x3 st.kc st.vc st.qb st.mm st.ll st.acc).2.2.2.2.2.2.1)
      = accNext i x0 x1 x2 x3 st := by
  unfold kernelRun_F
  dsimp only
  rw [accNext_neg i x0 x1 x2 x3 st hc3, a0_neg i st hc2]
  exact read_writes_nil arg13 harg13 st.acc

end

/-- A point of this case takes the scratch state to the written-out step of it. -/
theorem next_F_eq (c : Dev nD) (t : Fin cfg0.N) (h1 : ¬k0_cond1 (grid0.coords t) = 1#1) (h2 : ¬k0_cond2 (grid0.coords t) = 1#1) (h3 : ¬k0_cond3 (grid0.coords t) = 1#1) (h4 : ¬k0_cond4 (grid0.coords t) = 1#1) (st : St F) :
    next_F m c t h1 h2 h3 h4 st
      = stepSpec (grid0.coords t) (iblk m c 0 t) (iblk m c 1 t) (iblk m c 2 t) (iblk m c 3 t) st := by
  unfold next_F stepSpec
  rw [St.mk.injEq]
  exact ⟨F_kc (F := F) c (grid0.coords t) (ms0 t) (hs0 t) (ms1 t) (hs1 t) (ms2 t) (hs2 t) (ms3 t) (hs3 t) (ms4 t) (hs4 t) sc0 (Memref.isWhole_whole _) sc1 (Memref.isWhole_whole _) sc2 (Memref.isWhole_whole _) sc3 (Memref.isWhole_whole _) sc4 (Memref.isWhole_whole _) sc5 (Memref.isWhole_whole _) (iblk m c 0 t) (iblk m c 1 t) (iblk m c 2 t) (iblk m c 3 t) st h1 h2 h3 h4,
    F_vc (F := F) c (grid0.coords t) (ms0 t) (hs0 t) (ms1 t) (hs1 t) (ms2 t) (hs2 t) (ms3 t) (hs3 t) (ms4 t) (hs4 t) sc0 (Memref.isWhole_whole _) sc1 (Memref.isWhole_whole _) sc2 (Memref.isWhole_whole _) sc3 (Memref.isWhole_whole _) sc4 (Memref.isWhole_whole _) sc5 (Memref.isWhole_whole _) (iblk m c 0 t) (iblk m c 1 t) (iblk m c 2 t) (iblk m c 3 t) st h1 h2 h3 h4,
    F_qb (F := F) c (grid0.coords t) (ms0 t) (hs0 t) (ms1 t) (hs1 t) (ms2 t) (hs2 t) (ms3 t) (hs3 t) (ms4 t) (hs4 t) sc0 (Memref.isWhole_whole _) sc1 (Memref.isWhole_whole _) sc2 (Memref.isWhole_whole _) sc3 (Memref.isWhole_whole _) sc4 (Memref.isWhole_whole _) sc5 (Memref.isWhole_whole _) (iblk m c 0 t) (iblk m c 1 t) (iblk m c 2 t) (iblk m c 3 t) st h1 h2 h3 h4,
    F_mm (F := F) c (grid0.coords t) (ms0 t) (hs0 t) (ms1 t) (hs1 t) (ms2 t) (hs2 t) (ms3 t) (hs3 t) (ms4 t) (hs4 t) sc0 (Memref.isWhole_whole _) sc1 (Memref.isWhole_whole _) sc2 (Memref.isWhole_whole _) sc3 (Memref.isWhole_whole _) sc4 (Memref.isWhole_whole _) sc5 (Memref.isWhole_whole _) (iblk m c 0 t) (iblk m c 1 t) (iblk m c 2 t) (iblk m c 3 t) st h1 h2 h3 h4,
    F_ll (F := F) c (grid0.coords t) (ms0 t) (hs0 t) (ms1 t) (hs1 t) (ms2 t) (hs2 t) (ms3 t) (hs3 t) (ms4 t) (hs4 t) sc0 (Memref.isWhole_whole _) sc1 (Memref.isWhole_whole _) sc2 (Memref.isWhole_whole _) sc3 (Memref.isWhole_whole _) sc4 (Memref.isWhole_whole _) sc5 (Memref.isWhole_whole _) (iblk m c 0 t) (iblk m c 1 t) (iblk m c 2 t) (iblk m c 3 t) st h1 h2 h3 h4,
    F_acc (F := F) c (grid0.coords t) (ms0 t) (hs0 t) (ms1 t) (hs1 t) (ms2 t) (hs2 t) (ms3 t) (hs3 t) (ms4 t) (hs4 t) sc0 (Memref.isWhole_whole _) sc1 (Memref.isWhole_whole _) sc2 (Memref.isWhole_whole _) sc3 (Memref.isWhole_whole _) sc4 (Memref.isWhole_whole _) sc5 (Memref.isWhole_whole _) (iblk m c 0 t) (iblk m c 1 t) (iblk m c 2 t) (iblk m c 3 t) st h1 h2 h3 h4⟩

end Cert.KernelIdeal.Attn

end
-- ==== Proof.KI.ReadG.lean ====
/-
  The case of a later query tile at the last key tile, not in the future (so the last query tile): the point takes one
  step of the running softmax over the key tile's keys and values read from the caches, and divides the new numerator
  by the new denominator into the output block.
-/
import proofs.«166778_j29291676958807_2_alg».proof.Proof.KI.ReadTools

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ)

section
variable (c : Dev nD) (i : grid0.Coords)
  (arg3 : Memref sig .tc .vmem S1x2048x1024 .f32) (harg3 : arg3.IsWhole)
  (arg4 : Memref sig .tc .vmem S1024x256 .f32) (harg4 : arg4.IsWhole)
  (arg5 : Memref sig .tc .vmem S1024x256 .f32) (harg5 : arg5.IsWhole)
  (arg6 : Memref sig .tc .vmem S1024x256 .f32) (harg6 : arg6.IsWhole)
  (arg7 : Memref sig .tc .vmem S1x512x256 .f32) (harg7 : arg7.IsWhole)
  (arg8 : Memref sig .tc .vmem S2048x256 .bf16) (harg8 : arg8.IsWhole)
  (arg9 : Memref sig .tc .vmem S2048x256 .bf16) (harg9 : arg9.IsWhole)
  (arg10 : Memref sig .tc .vmem S512x256 .bf16) (harg10 : arg10.IsWhole)
  (arg11 : Memref sig .tc .vmem S512x1 .f32) (harg11 : arg11.IsWhole)
  (arg12 : Memref sig .tc .vmem S512x1 .f32) (harg12 : arg12.IsWhole)
  (arg13 : Memref sig .tc .vmem S512x256 .f32) (harg13 : arg13.IsWhole)
  (x0 : Vec F S1x2048x1024 .f32) (x1 x2 x3 : Vec F S1024x256 .f32) (st : St F)
variable (hc1 : ¬k0_cond1 i = 1#1) (hc2 : ¬k0_cond2 i = 1#1) (hc3 : k0_cond3 i = 1#1) (hc4 : k0_cond4 i = 1#1)

/-- The K cache after a point of this case. -/
theorem G_kc :
    arg8.view.read (Elt F) (arg8.view.writes (Elt F) (harg8.unread st.kc) (kernelRun_G c i arg3 harg3 arg4 harg4 arg5 harg5 arg6 harg6 arg7 harg7 arg8 harg8 arg9 harg9 arg10 harg10 arg11 harg11 arg12 harg12 arg13 harg13 hc1 hc2 hc3 hc4 x0 x1 x2 x3 st.kc st.vc st.qb st.mm st.ll st.acc).2.1)
      = kcNext i x0 x2 st := by
  unfold kernelRun_G
  dsimp only
  rw [kcNext_neg i x0 x2 st hc1]
  exact read_writes_nil arg8 harg8 st.kc

/-- The V cache after a point of this case. -/
theorem G_vc :
    arg9.view.read (Elt F) (arg9.view.writes (Elt F) (harg9.unread st.vc) (kernelRun_G c i arg3 harg3 arg4 harg4 arg5 harg5 arg6 harg6 arg7 harg7 arg8 harg8 arg9 harg9 arg10 harg10 arg11 harg11 arg12 harg12 arg13 harg13 hc1 hc2 hc3 hc4 x0 x1 x2 x3 st.kc st.vc st.qb st.mm st.ll st.acc).2.2.1)
      = vcNext i x0 x3 st := by
  unfold kernelRun_G
  dsimp only
  rw [vcNext_neg i x0 x3 st hc1]
  exact read_writes_nil arg9 harg9 st.vc

/-- The scaled query tile after a point of this case. -/
theorem G_qb :
    arg10.view.read (Elt F) (arg10.view.writes (Elt F) (harg10.unread st.qb) (kernelRun_G c i arg3 harg3 arg4 harg4 arg5 harg5 arg6 harg6 arg7 harg7 arg8 harg8 arg9 harg9 arg10 harg10 arg11 harg11 arg12 harg12 arg13 harg13 hc1 hc2 hc3 hc4 x0 x1 x2 x3 st.kc st.vc st.qb st.mm st.ll st.acc).2.2.2.1)
      = qbNext i x0 x1 st := by
  unfold kernelRun_G
  dsimp only
  rw [qbNext_neg i x0 x1 st hc2]
  exact read_writes_nil arg10 harg10 st.qb

/-- The running maximum after a point of this case. -/
theorem G_mm :
    arg11.view.read (Elt F) (arg11.view.writes (Elt F) (harg11.unread st.mm) (kernelRun_G c i arg3 harg3 arg4 harg4 arg5 harg5 arg6 harg6 arg7 harg7 arg8 harg8 arg9 harg9 arg10 harg10 arg11 harg11 arg12 harg12 arg13 harg13 hc1 hc2 hc3 hc4 x0 x1 x2 x3 st.kc st.vc st.qb st.mm st.ll st.acc).2.2.2.2.1)
      = mmNext i x0 x1 x2 st := by
  unfold kernelRun_G
  dsimp only
  try sl_unfold_run_names
  rw [mmNext_pos i x0 x1 x2 st hc3, qbNext_neg i x0 x1 st hc2, kcNext_neg i x0 x2 st hc1, m0_neg i st hc2,
    readAt_unread_whole arg10 harg10 st.qb hz2, readAt_unread arg8 harg8 st.kc, readAt_unread_whole arg11 harg11 st.mm hz2]
  exact read_writes_whole_cons arg11 _ hz2 _ _ _

/-- The running denominator after a point of this case. -/
theorem G_ll :
    arg12.view.read (Elt F) (arg12.view.writes (Elt F) (harg12.unread st.ll) (kernelRun_G c i arg3 harg3 arg4 harg4 arg5 harg5 arg6 harg6 arg7 harg7 arg8 harg8 arg9 harg9 arg10 harg10 arg11 harg11 arg12 harg12 arg13 harg13 hc1 hc2 hc3 hc4 x0 x1 x2 x3 st.kc st.vc st.qb st.mm st.ll st.acc).2.2.2.2.2.1)
      = llNext i x0 x1 x2 st := by
  unfold kernelRun_G
  dsimp only
  try sl_unfold_run_names
  rw [llNext_pos i x0 x1 x2 st hc3, qbNext_neg i x0 x1 st hc2, kcNext_neg i x0 x2 st hc1, m0_neg i st hc2, l0_neg i st hc2,
    readAt_unread_whole arg10 harg10 st.qb hz2, readAt_unread arg8 harg8 st.kc, readAt_unread_whole arg11 harg11 st.mm hz2,
    readAt_unread_whole arg12 harg12 st.ll hz2]
  exact read_writes_whole_cons arg12 _ hz2 _ _ _

/-- The running numerator after a point of this case. -/
theorem G_acc :
    arg13.view.read (Elt F) (arg13.view.writes (Elt F) (harg13.unread st.acc) (kernelRun_G c i arg3 harg3 arg4 harg4 arg5 harg5 arg6 harg6 arg7 harg7 arg8 harg8 arg9 harg9 arg10 harg10 arg11 harg11 arg12 harg12 arg13 harg13 hc1 hc2 hc3 hc4 x0 x1 x2 x3 st.kc st.vc st.qb st.mm st.ll st.acc).2.2.2.2.2.2.1)
      = accNext i x0 x1 x2 x3 st := by
  unfold kernelRun_G
  dsimp only
  try sl_unfold_run_names
  rw [accNext_pos i x0 x1 x2 x3 st hc3, qbNext_neg i x0 x1 st hc2, kcNext_neg i x0 x2 st hc1, vcNext_neg i x0 x3 st hc1,
    m0_neg i st hc2, a0_neg i st hc2,
    readAt_unread_whole arg10 harg10 st.qb hz2, readAt_unread arg8 harg8 st.kc, readAt_unread arg9 harg9 st.vc,
    readAt_unread_whole arg11 harg11 st.mm hz2, readAt_unread_whole arg13 harg13 st.acc hz2]
  exact read_writes_whole_cons arg13 _ hz2 _ _ _

/-- The output block after a point of this case. -/
theorem G_out (e4 : Vec F S1x512x256 .f32) :
    arg7.view.read (Elt F) (arg7.view.writes (Elt F) (harg7.unread e4) (kernelRun_G c i arg3 harg3 arg4 harg4 arg5 harg5 arg6 harg6 arg7 harg7 arg8 harg8 arg9 harg9 arg10 harg10 arg11 harg11 arg12 harg12 arg13 harg13 hc1 hc2 hc3 hc4 x0 x1 x2 x3 st.kc st.vc st.qb st.mm st.ll st.acc).1)
      = outSpec i x0 x1 x2 x3 st := by
  unfold kernelRun_G
  dsimp only
  try sl_unfold_run_names
  unfold outSpec
  rw [View.readCov_cons_toLoadRect, View.readCov_cons_toLoadRect,
    accNext_pos i x0 x1 x2 x3 st hc3, llNext_pos i x0 x1 x2 st hc3, qbNext_neg i x0 x1 st hc2, kcNext_neg i x0 x2 st hc1,
    vcNext_neg i x0 x3 st hc1, m0_neg i st hc2, l0_neg i st hc2, a0_neg i st hc2,
    readAt_unread_whole arg10 harg10 st.qb hz2, readAt_unread arg8 harg8 st.kc, readAt_unread arg9 harg9 st.vc,
    readAt_unread_whole arg11 harg11 st.mm hz2, readAt_unread_whole arg12 harg12 st.ll hz2,
    readAt_unread_whole arg13 harg13 st.acc hz2]
  exact read_writes_whole_cons arg7 _ hz3 _ _ _

end

/-- A point of this case takes the scratch state to the written-out step of it. -/
theorem next_G_eq (c : Dev nD) (t : Fin cfg0.N) (h1 : ¬k0_cond1 (grid0.coords t) = 1#1) (h2 : ¬k0_cond2 (grid0.coords t) = 1#1) (h3 : k0_cond3 (grid0.coords t) = 1#1) (h4 : k0_cond4 (grid0.coords t) = 1#1) (st : St F) :
    next_G m c t h1 h2 h3 h4 st
      = stepSpec (grid0.coords t) (iblk m c 0 t) (iblk m c 1 t) (iblk m c 2 t) (iblk m c 3 t) st := by
  unfold next_G stepSpec
  rw [St.mk.injEq]
  exact ⟨G_kc (F := F) c (grid0.coords t) (ms0 t) (hs0 t) (ms1 t) (hs1 t) (ms2 t) (hs2 t) (ms3 t) (hs3 t) (ms4 t) (hs4 t) sc0 (Memref.isWhole_whole _) sc1 (Memref.isWhole_whole _) sc2 (Memref.isWhole_whole _) sc3 (Memref.isWhole_whole _) sc4 (Memref.isWhole_whole _) sc5 (Memref.isWhole_whole _) (iblk m c 0 t) (iblk m c 1 t) (iblk m c 2 t) (iblk m c 3 t) st h1 h2 h3 h4,
    G_vc (F := F) c (grid0.coords t) (ms0 t) (hs0 t) (ms1 t) (hs1 t) (ms2 t) (hs2 t) (ms3 t) (hs3 t) (ms4 t) (hs4 t) sc0 (Memref.isWhole_whole _) sc1 (Memref.isWhole_whole _) sc2 (Memref.isWhole_whole _) sc3 (Memref.isWhole_whole _) sc4 (Memref.isWhole_whole _) sc5 (Memref.isWhole_whole _) (iblk m c 0 t) (iblk m c 1 t) (iblk m c 2 t) (iblk m c 3 t) st h1 h2 h3 h4,
    G_qb (F := F) c (grid0.coords t) (ms0 t) (hs0 t) (ms1 t) (hs1 t) (ms2 t) (hs2 t) (ms3 t) (hs3 t) (ms4 t) (hs4 t) sc0 (Memref.isWhole_whole _) sc1 (Memref.isWhole_whole _) sc2 (Memref.isWhole_whole _) sc3 (Memref.isWhole_whole _) sc4 (Memref.isWhole_whole _) sc5 (Memref.isWhole_whole _) (iblk m c 0 t) (iblk m c 1 t) (iblk m c 2 t) (iblk m c 3 t) st h1 h2 h3 h4,
    G_mm (F := F) c (grid0.coords t) (ms0 t) (hs0 t) (ms1 t) (hs1 t) (ms2 t) (hs2 t) (ms3 t) (hs3 t) (ms4 t) (hs4 t) sc0 (Memref.isWhole_whole _) sc1 (Memref.isWhole_whole _) sc2 (Memref.isWhole_whole _) sc3 (Memref.isWhole_whole _) sc4 (Memref.isWhole_whole _) sc5 (Memref.isWhole_whole _) (iblk m c 0 t) (iblk m c 1 t) (iblk m c 2 t) (iblk m c 3 t) st h1 h2 h3 h4,
    G_ll (F := F) c (grid0.coords t) (ms0 t) (hs0 t) (ms1 t) (hs1 t) (ms2 t) (hs2 t) (ms3 t) (hs3 t) (ms4 t) (hs4 t) sc0 (Memref.isWhole_whole _) sc1 (Memref.isWhole_whole _) sc2 (Memref.isWhole_whole _) sc3 (Memref.isWhole_whole _) sc4 (Memref.isWhole_whole _) sc5 (Memref.isWhole_whole _) (iblk m c 0 t) (iblk m c 1 t) (iblk m c 2 t) (iblk m c 3 t) st h1 h2 h3 h4,
    G_acc (F := F) c (grid0.coords t) (ms0 t) (hs0 t) (ms1 t) (hs1 t) (ms2 t) (hs2 t) (ms3 t) (hs3 t) (ms4 t) (hs4 t) sc0 (Memref.isWhole_whole _) sc1 (Memref.isWhole_whole _) sc2 (Memref.isWhole_whole _) sc3 (Memref.isWhole_whole _) sc4 (Memref.isWhole_whole _) sc5 (Memref.isWhole_whole _) (iblk m c 0 t) (iblk m c 1 t) (iblk m c 2 t) (iblk m c 3 t) st h1 h2 h3 h4⟩

/-- A point of this case leaves in the output block the written-out quotient. -/
theorem out_G_eq (c : Dev nD) (t : Fin cfg0.N) (h1 : ¬k0_cond1 (grid0.coords t) = 1#1) (h2 : ¬k0_cond2 (grid0.coords t) = 1#1) (h3 : k0_cond3 (grid0.coords t) = 1#1) (h4 : k0_cond4 (grid0.coords t) = 1#1) (st : St F) (e4 : Vec F S1x512x256 .f32) :
    out_G m c t h1 h2 h3 h4 st e4
      = outSpec (grid0.coords t) (iblk m c 0 t) (iblk m c 1 t) (iblk m c 2 t) (iblk m c 3 t) st := by
  unfold out_G
  exact G_out (F := F) c (grid0.coords t) (ms0 t) (hs0 t) (ms1 t) (hs1 t) (ms2 t) (hs2 t) (ms3 t) (hs3 t) (ms4 t) (hs4 t) sc0 (Memref.isWhole_whole _) sc1 (Memref.isWhole_whole _) sc2 (Memref.isWhole_whole _) sc3 (Memref.isWhole_whole _) sc4 (Memref.isWhole_whole _) sc5 (Memref.isWhole_whole _) (iblk m c 0 t) (iblk m c 1 t) (iblk m c 2 t) (iblk m c 3 t) st h1 h2 h3 h4 e4

end Cert.KernelIdeal.Attn

end
-- ==== Proof.KI.ReadH.lean ====
/-
  The case where only the last branch is taken: the key tile is the last and in the query tile's future, so the point
  only divides the running numerator by the running denominator into the output block.
-/
import proofs.«166778_j29291676958807_2_alg».proof.Proof.KI.ReadTools

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ)

section
variable (c : Dev nD) (i : grid0.Coords)
  (arg3 : Memref sig .tc .vmem S1x2048x1024 .f32) (harg3 : arg3.IsWhole)
  (arg4 : Memref sig .tc .vmem S1024x256 .f32) (harg4 : arg4.IsWhole)
  (arg5 : Memref sig .tc .vmem S1024x256 .f32) (harg5 : arg5.IsWhole)
  (arg6 : Memref sig .tc .vmem S1024x256 .f32) (harg6 : arg6.IsWhole)
  (arg7 : Memref sig .tc .vmem S1x512x256 .f32) (harg7 : arg7.IsWhole)
  (arg8 : Memref sig .tc .vmem S2048x256 .bf16) (harg8 : arg8.IsWhole)
  (arg9 : Memref sig .tc .vmem S2048x256 .bf16) (harg9 : arg9.IsWhole)
  (arg10 : Memref sig .tc .vmem S512x256 .bf16) (harg10 : arg10.IsWhole)
  (arg11 : Memref sig .tc .vmem S512x1 .f32) (harg11 : arg11.IsWhole)
  (arg12 : Memref sig .tc .vmem S512x1 .f32) (harg12 : arg12.IsWhole)
  (arg13 : Memref sig .tc .vmem S512x256 .f32) (harg13 : arg13.IsWhole)
  (x0 : Vec F S1x2048x1024 .f32) (x1 x2 x3 : Vec F S1024x256 .f32) (st : St F)
variable (hc1 : ¬k0_cond1 i = 1#1) (hc2 : ¬k0_cond2 i = 1#1) (hc3 : ¬k0_cond3 i = 1#1) (hc4 : k0_cond4 i = 1#1)

/-- The K cache after a point of this case. -/
theorem H_kc :
    arg8.view.read (Elt F) (arg8.view.writes (Elt F) (harg8.unread st.kc) (kernelRun_H c i arg3 harg3 arg4 harg4 arg5 harg5 arg6 harg6 arg7 harg7 arg8 harg8 arg9 harg9 arg10 harg10 arg11 harg11 arg12 harg12 arg13 harg13 hc1 hc2 hc3 hc4 x0 x1 x2 x3 st.kc st.vc st.qb st.mm st.ll st.acc).2.1)
      = kcNext i x0 x2 st := by
  unfold kernelRun_H
  dsimp only
  rw [kcNext_neg i x0 x2 st hc1]
  exact read_writes_nil arg8 harg8 st.kc

/-- The V cache after a point of this case. -/
theorem H_vc :
    arg9.view.read (Elt F) (arg9.view.writes (Elt F) (harg9.unread st.vc) (kernelRun_H c i arg3 harg3 arg4 harg4 arg5 harg5 arg6 harg6 arg7 harg7 arg8 harg8 arg9 harg9 arg10 harg10 arg11 harg11 arg12 harg12 arg13 harg13 hc1 hc2 hc3 hc4 x0 x1 x2 x3 st.kc st.vc st.qb st.mm st.ll st.acc).2.2.1)
      = vcNext i x0 x3 st := by
  unfold kernelRun_H
  dsimp only
  rw [vcNext_neg i x0 x3 st hc1]
  exact read_writes_nil arg9 harg9 st.vc

/-- The scaled query tile after a point of this case. -/
theorem H_qb :
    arg10.view.read (Elt F) (arg10.view.writes (Elt F) (harg10.unread st.qb) (kernelRun_H c i arg3 harg3 arg4 harg4 arg5 harg5 arg6 harg6 arg7 harg7 arg8 harg8 arg9 harg9 arg10 harg10 arg11 harg11 arg12 harg12 arg13 harg13 hc1 hc2 hc3 hc4 x0 x1 x2 x3 st.kc st.vc st.qb st.mm st.ll st.acc).2.2.2.1)
      = qbNext i x0 x1 st := by
  unfold kernelRun_H
  dsimp only
  rw [qbNext_neg i x0 x1 st hc2]
  exact read_writes_nil arg10 harg10 st.qb

/-- The running maximum after a point of this case. -/
theorem H_mm :
    arg11.view.read (Elt F) (arg11.view.writes (Elt F) (harg11.unread st.mm) (kernelRun_H c i arg3 harg3 arg4 harg4 arg5 harg5 arg6 harg6 arg7 harg7 arg8 harg8 arg9 harg9 arg10 harg10 arg11 harg11 arg12 harg12 arg13 harg13 hc1 hc2 hc3 hc4 x0 x1 x2 x3 st.kc st.vc st.qb st.mm st.ll st.acc).2.2.2.2.1)
      = mmNext i x0 x1 x2 st := by
  unfold kernelRun_H
  dsimp only
  rw [mmNext_neg i x0 x1 x2 st hc3, m0_neg i st hc2]
  exact read_writes_nil arg11 harg11 st.mm

/-- The running denominator after a point of this case. -/
theorem H_ll :
    arg12.view.read (Elt F) (arg12.view.writes (Elt F) (harg12.unread st.ll) (kernelRun_H c i arg3 harg3 arg4 harg4 arg5 harg5 arg6 harg6 arg7 harg7 arg8 harg8 arg9 harg9 arg10 harg10 arg11 harg11 arg12 harg12 arg13 harg13 hc1 hc2 hc3 hc4 x0 x1 x2 x3 st.kc st.vc st.qb st.mm st.ll st.acc).2.2.2.2.2.1)
      = llNext i x0 x1 x2 st := by
  unfold kernelRun_H
  dsimp only
  rw [llNext_neg i x0 x1 x2 st hc3, l0_neg i st hc2]
  exact read_writes_nil arg12 harg12 st.ll

/-- The running numerator after a point of this case. -/
theorem H_acc :
    arg13.view.read (Elt F) (arg13.view.writes (Elt F) (harg13.unread st.acc) (kernelRun_H c i arg3 harg3 arg4 harg4 arg5 harg5 arg6 harg6 arg7 harg7 arg8 harg8 arg9 harg9 arg10 harg10 arg11 harg11 arg12 harg12 arg13 harg13 hc1 hc2 hc3 hc4 x0 x1 x2 x3 st.kc st.vc st.qb st.mm st.ll st.acc).2.2.2.2.2.2.1)
      = accNext i x0 x1 x2 x3 st := by
  unfold kernelRun_H
  dsimp only
  rw [accNext_neg i x0 x1 x2 x3 st hc3, a0_neg i st hc2]
  exact read_writes_nil arg13 harg13 st.acc

/-- The output block after a point of this case. -/
theorem H_out (e4 : Vec F S1x512x256 .f32) :
    arg7.view.read (Elt F) (arg7.view.writes (Elt F) (harg7.unread e4) (kernelRun_H c i arg3 harg3 arg4 harg4 arg5 harg5 arg6 harg6 arg7 harg7 arg8 harg8 arg9 harg9 arg10 harg10 arg11 harg11 arg12 harg12 arg13 harg13 hc1 hc2 hc3 hc4 x0 x1 x2 x3 st.kc st.vc st.qb st.mm st.ll st.acc).1)
      = outSpec i x0 x1 x2 x3 st := by
  unfold kernelRun_H
  dsimp only
  try sl_unfold_run_names
  rw [readAt_unread_whole arg13 harg13 st.acc hz2, readAt_unread_whole arg12 harg12 st.ll hz2]
  refine (read_writes_whole_cons arg7 _ hz3 _ _ _).trans ?_
  unfold outSpec
  rw [accNext_neg i x0 x1 x2 x3 st hc3, a0_neg i st hc2, llNext_neg i x0 x1 x2 st hc3, l0_neg i st hc2]

end

/-- A point of this case takes the scratch state to the written-out step of it. -/
theorem next_H_eq (c : Dev nD) (t : Fin cfg0.N) (h1 : ¬k0_cond1 (grid0.coords t) = 1#1) (h2 : ¬k0_cond2 (grid0.coords t) = 1#1) (h3 : ¬k0_cond3 (grid0.coords t) = 1#1) (h4 : k0_cond4 (grid0.coords t) = 1#1) (st : St F) :
    next_H m c t h1 h2 h3 h4 st
      = stepSpec (grid0.coords t) (iblk m c 0 t) (iblk m c 1 t) (iblk m c 2 t) (iblk m c 3 t) st := by
  unfold next_H stepSpec
  rw [St.mk.injEq]
  exact ⟨H_kc (F := F) c (grid0.coords t) (ms0 t) (hs0 t) (ms1 t) (hs1 t) (ms2 t) (hs2 t) (ms3 t) (hs3 t) (ms4 t) (hs4 t) sc0 (Memref.isWhole_whole _) sc1 (Memref.isWhole_whole _) sc2 (Memref.isWhole_whole _) sc3 (Memref.isWhole_whole _) sc4 (Memref.isWhole_whole _) sc5 (Memref.isWhole_whole _) (iblk m c 0 t) (iblk m c 1 t) (iblk m c 2 t) (iblk m c 3 t) st h1 h2 h3 h4,
    H_vc (F := F) c (grid0.coords t) (ms0 t) (hs0 t) (ms1 t) (hs1 t) (ms2 t) (hs2 t) (ms3 t) (hs3 t) (ms4 t) (hs4 t) sc0 (Memref.isWhole_whole _) sc1 (Memref.isWhole_whole _) sc2 (Memref.isWhole_whole _) sc3 (Memref.isWhole_whole _) sc4 (Memref.isWhole_whole _) sc5 (Memref.isWhole_whole _) (iblk m c 0 t) (iblk m c 1 t) (iblk m c 2 t) (iblk m c 3 t) st h1 h2 h3 h4,
    H_qb (F := F) c (grid0.coords t) (ms0 t) (hs0 t) (ms1 t) (hs1 t) (ms2 t) (hs2 t) (ms3 t) (hs3 t) (ms4 t) (hs4 t) sc0 (Memref.isWhole_whole _) sc1 (Memref.isWhole_whole _) sc2 (Memref.isWhole_whole _) sc3 (Memref.isWhole_whole _) sc4 (Memref.isWhole_whole _) sc5 (Memref.isWhole_whole _) (iblk m c 0 t) (iblk m c 1 t) (iblk m c 2 t) (iblk m c 3 t) st h1 h2 h3 h4,
    H_mm (F := F) c (grid0.coords t) (ms0 t) (hs0 t) (ms1 t) (hs1 t) (ms2 t) (hs2 t) (ms3 t) (hs3 t) (ms4 t) (hs4 t) sc0 (Memref.isWhole_whole _) sc1 (Memref.isWhole_whole _) sc2 (Memref.isWhole_whole _) sc3 (Memref.isWhole_whole _) sc4 (Memref.isWhole_whole _) sc5 (Memref.isWhole_whole _) (iblk m c 0 t) (iblk m c 1 t) (iblk m c 2 t) (iblk m c 3 t) st h1 h2 h3 h4,
    H_ll (F := F) c (grid0.coords t) (ms0 t) (hs0 t) (ms1 t) (hs1 t) (ms2 t) (hs2 t) (ms3 t) (hs3 t) (ms4 t) (hs4 t) sc0 (Memref.isWhole_whole _) sc1 (Memref.isWhole_whole _) sc2 (Memref.isWhole_whole _) sc3 (Memref.isWhole_whole _) sc4 (Memref.isWhole_whole _) sc5 (Memref.isWhole_whole _) (iblk m c 0 t) (iblk m c 1 t) (iblk m c 2 t) (iblk m c 3 t) st h1 h2 h3 h4,
    H_acc (F := F) c (grid0.coords t) (ms0 t) (hs0 t) (ms1 t) (hs1 t) (ms2 t) (hs2 t) (ms3 t) (hs3 t) (ms4 t) (hs4 t) sc0 (Memref.isWhole_whole _) sc1 (Memref.isWhole_whole _) sc2 (Memref.isWhole_whole _) sc3 (Memref.isWhole_whole _) sc4 (Memref.isWhole_whole _) sc5 (Memref.isWhole_whole _) (iblk m c 0 t) (iblk m c 1 t) (iblk m c 2 t) (iblk m c 3 t) st h1 h2 h3 h4⟩

/-- A point of this case leaves in the output block the written-out quotient. -/
theorem out_H_eq (c : Dev nD) (t : Fin cfg0.N) (h1 : ¬k0_cond1 (grid0.coords t) = 1#1) (h2 : ¬k0_cond2 (grid0.coords t) = 1#1) (h3 : ¬k0_cond3 (grid0.coords t) = 1#1) (h4 : k0_cond4 (grid0.coords t) = 1#1) (st : St F) (e4 : Vec F S1x512x256 .f32) :
    out_H m c t h1 h2 h3 h4 st e4
      = outSpec (grid0.coords t) (iblk m c 0 t) (iblk m c 1 t) (iblk m c 2 t) (iblk m c 3 t) st := by
  unfold out_H
  exact H_out (F := F) c (grid0.coords t) (ms0 t) (hs0 t) (ms1 t) (hs1 t) (ms2 t) (hs2 t) (ms3 t) (hs3 t) (ms4 t) (hs4 t) sc0 (Memref.isWhole_whole _) sc1 (Memref.isWhole_whole _) sc2 (Memref.isWhole_whole _) sc3 (Memref.isWhole_whole _) sc4 (Memref.isWhole_whole _) sc5 (Memref.isWhole_whole _) (iblk m c 0 t) (iblk m c 1 t) (iblk m c 2 t) (iblk m c 3 t) st h1 h2 h3 h4 e4

end Cert.KernelIdeal.Attn

end
-- ==== Proof.KI.Glue.lean ====
/- The eight cases' runs, read, are one function of the point: the written-out step. -/
import proofs.«166778_j29291676958807_2_alg».proof.Proof.KI.ReadA
import proofs.«166778_j29291676958807_2_alg».proof.Proof.KI.ReadB
import proofs.«166778_j29291676958807_2_alg».proof.Proof.KI.ReadC
import proofs.«166778_j29291676958807_2_alg».proof.Proof.KI.ReadD
import proofs.«166778_j29291676958807_2_alg».proof.Proof.KI.ReadE
import proofs.«166778_j29291676958807_2_alg».proof.Proof.KI.ReadF
import proofs.«166778_j29291676958807_2_alg».proof.Proof.KI.ReadG
import proofs.«166778_j29291676958807_2_alg».proof.Proof.KI.ReadH

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ)

/-- One point's effect on the scratch state is the written-out step, at every point: the eight cases' runs read. -/
theorem stepAt_eq (c : Dev nD) (t : Fin cfg0.N) (st : St F) :
    stepAt m c t st = stepSpec (grid0.coords t) (iblk m c 0 t) (iblk m c 1 t) (iblk m c 2 t) (iblk m c 3 t) st := by
  by_cases h1 : k0_cond1 (grid0.coords t) = 1#1
  · by_cases h2 : k0_cond2 (grid0.coords t) = 1#1
    · by_cases h3 : k0_cond3 (grid0.coords t) = 1#1
      · by_cases h4 : k0_cond4 (grid0.coords t) = 1#1
        · exfalso; exact absurd h4 (c2_not_c4 t h2)
        · rw [stepAt_A m c t st h1 h2 h3 h4]; exact next_A_eq m c t h1 h2 h3 h4 st
      · by_cases h4 : k0_cond4 (grid0.coords t) = 1#1
        · exfalso; exact absurd (c2_c3 t h2) h3
        · exfalso; exact absurd (c2_c3 t h2) h3
    · by_cases h3 : k0_cond3 (grid0.coords t) = 1#1
      · by_cases h4 : k0_cond4 (grid0.coords t) = 1#1
        · exfalso; exact absurd (c1_c3_c2 t h1 h3) h2
        · exfalso; exact absurd (c1_c3_c2 t h1 h3) h2
      · by_cases h4 : k0_cond4 (grid0.coords t) = 1#1
        · rw [stepAt_C m c t st h1 h2 h3 h4]; exact next_C_eq m c t h1 h2 h3 h4 st
        · rw [stepAt_B m c t st h1 h2 h3 h4]; exact next_B_eq m c t h1 h2 h3 h4 st
  · by_cases h2 : k0_cond2 (grid0.coords t) = 1#1
    · by_cases h3 : k0_cond3 (grid0.coords t) = 1#1
      · by_cases h4 : k0_cond4 (grid0.coords t) = 1#1
        · exfalso; exact absurd h4 (c2_not_c4 t h2)
        · rw [stepAt_D m c t st h1 h2 h3 h4]; exact next_D_eq m c t h1 h2 h3 h4 st
      · by_cases h4 : k0_cond4 (grid0.coords t) = 1#1
        · exfalso; exact absurd (c2_c3 t h2) h3
        · exfalso; exact absurd (c2_c3 t h2) h3
    · by_cases h3 : k0_cond3 (grid0.coords t) = 1#1
      · by_cases h4 : k0_cond4 (grid0.coords t) = 1#1
        · rw [stepAt_G m c t st h1 h2 h3 h4]; exact next_G_eq m c t h1 h2 h3 h4 st
        · rw [stepAt_E m c t st h1 h2 h3 h4]; exact next_E_eq m c t h1 h2 h3 h4 st
      · by_cases h4 : k0_cond4 (grid0.coords t) = 1#1
        · rw [stepAt_H m c t st h1 h2 h3 h4]; exact next_H_eq m c t h1 h2 h3 h4 st
        · rw [stepAt_F m c t st h1 h2 h3 h4]; exact next_F_eq m c t h1 h2 h3 h4 st

/-- At a last key tile the stored block is the written-out quotient. -/
theorem outAt_eq (c : Dev nD) (t : Fin cfg0.N) (st : St F) (e4 : Vec F S1x512x256 .f32) (hc4 : k0_cond4 (grid0.coords t) = 1#1) :
    outAt m c t st e4 = outSpec (grid0.coords t) (iblk m c 0 t) (iblk m c 1 t) (iblk m c 2 t) (iblk m c 3 t) st := by
  by_cases h1 : k0_cond1 (grid0.coords t) = 1#1
  · by_cases h2 : k0_cond2 (grid0.coords t) = 1#1
    · by_cases h3 : k0_cond3 (grid0.coords t) = 1#1
      · by_cases h4 : k0_cond4 (grid0.coords t) = 1#1
        · exfalso; exact absurd h4 (c2_not_c4 t h2)
        · exact absurd hc4 h4
      · by_cases h4 : k0_cond4 (grid0.coords t) = 1#1
        · exfalso; exact absurd (c2_c3 t h2) h3
        · exact absurd hc4 h4
    · by_cases h3 : k0_cond3 (grid0.coords t) = 1#1
      · by_cases h4 : k0_cond4 (grid0.coords t) = 1#1
        · exfalso; exact absurd (c1_c3_c2 t h1 h3) h2
        · exact absurd hc4 h4
      · by_cases h4 : k0_cond4 (grid0.coords t) = 1#1
        · rw [outAt_C m c t st e4 h1 h2 h3 h4]; exact out_C_eq m c t h1 h2 h3 h4 st e4
        · exact absurd hc4 h4
  · by_cases h2 : k0_cond2 (grid0.coords t) = 1#1
    · by_cases h3 : k0_cond3 (grid0.coords t) = 1#1
      · by_cases h4 : k0_cond4 (grid0.coords t) = 1#1
        · exfalso; exact absurd h4 (c2_not_c4 t h2)
        · exact absurd hc4 h4
      · by_cases h4 : k0_cond4 (grid0.coords t) = 1#1
        · exfalso; exact absurd (c2_c3 t h2) h3
        · exact absurd hc4 h4
    · by_cases h3 : k0_cond3 (grid0.coords t) = 1#1
      · by_cases h4 : k0_cond4 (grid0.coords t) = 1#1
        · rw [outAt_G m c t st e4 h1 h2 h3 h4]; exact out_G_eq m c t h1 h2 h3 h4 st e4
        · exact absurd hc4 h4
      · by_cases h4 : k0_cond4 (grid0.coords t) = 1#1
        · rw [outAt_H m c t st e4 h1 h2 h3 h4]; exact out_H_eq m c t h1 h2 h3 h4 st e4
        · exact absurd hc4 h4

end Cert.KernelIdeal.Attn

end
-- ==== Proof.KI.InvGrid.lean ====
/- The grid of the attention kernel, point by point: point number t is batch t / 16, query tile t / 4 mod 4, key tile t mod 4; the four branch conditions and the four tile offsets as functions of these three numbers. -/
import proofs.«166778_j29291676958807_2_alg».proof.Proof.KI.Common

set_option maxRecDepth 16384

noncomputable section

open scoped BigOperators

namespace Cert.KernelIdeal.Attn

open Cert.KernelIdeal Cert.KernelIdeal.Gen
open Idealize.ShloMosaic

/-- There are 128 grid points. -/
theorem N_128 : cfg0.N = 128 := N_0

/-- The batch of point t. -/
theorem coords0 : ∀ t : Fin cfg0.N, ((grid0.coords t) 0).val = t.val / 16 :=
  (by decide +kernel : ∀ t : Fin grid0.N, ((grid0.coords t) 0).val = t.val / 16)
/-- The query tile of point t. -/
theorem coords1 : ∀ t : Fin cfg0.N, ((grid0.coords t) 1).val = t.val / 4 % 4 :=
  (by decide +kernel : ∀ t : Fin grid0.N, ((grid0.coords t) 1).val = t.val / 4 % 4)
/-- The key tile of point t. -/
theorem coords2 : ∀ t : Fin cfg0.N, ((grid0.coords t) 2).val = t.val % 4 :=
  (by decide +kernel : ∀ t : Fin grid0.N, ((grid0.coords t) 2).val = t.val % 4)

/-- The first condition: the query tile is the first. -/
theorem c1_iff : ∀ t : Fin cfg0.N, k0_cond1 (grid0.coords t) = 1#1 ↔ t.val / 4 % 4 = 0 :=
  (by decide +kernel : ∀ t : Fin grid0.N, k0_cond1 (grid0.coords t) = 1#1 ↔ t.val / 4 % 4 = 0)
/-- The second condition: the key tile is the first. -/
theorem c2_iff : ∀ t : Fin cfg0.N, k0_cond2 (grid0.coords t) = 1#1 ↔ t.val % 4 = 0 :=
  (by decide +kernel : ∀ t : Fin grid0.N, k0_cond2 (grid0.coords t) = 1#1 ↔ t.val % 4 = 0)
/-- The third condition: the key tile is not after the query tile. -/
theorem c3_iff : ∀ t : Fin cfg0.N, k0_cond3 (grid0.coords t) = 1#1 ↔ t.val % 4 ≤ t.val / 4 % 4 :=
  (by decide +kernel : ∀ t : Fin grid0.N, k0_cond3 (grid0.coords t) = 1#1 ↔ t.val % 4 ≤ t.val / 4 % 4)

/-- The key tile's rows of the batch's slab start at row 512 · (key tile). -/
theorem off1_eq : ∀ t : Fin cfg0.N, k0_off1 (grid0.coords t) = ![0, 512 * (t.val % 4), 0] :=
  (by decide +kernel : ∀ t : Fin grid0.N, k0_off1 (grid0.coords t) = ![0, 512 * (t.val % 4), 0])
/-- The key tile's rows of a cache, as stored, start at row 512 · (key tile). -/
theorem off2_eq : ∀ t : Fin cfg0.N, k0_off2 (grid0.coords t) = ![512 * (t.val % 4), 0] :=
  (by decide +kernel : ∀ t : Fin grid0.N, k0_off2 (grid0.coords t) = ![512 * (t.val % 4), 0])
/-- The query tile's rows of the batch's slab start at row 512 · (query tile). -/
theorem off3_eq : ∀ t : Fin cfg0.N, k0_off3 (grid0.coords t) = ![0, 512 * (t.val / 4 % 4), 0] :=
  (by decide +kernel : ∀ t : Fin grid0.N, k0_off3 (grid0.coords t) = ![0, 512 * (t.val / 4 % 4), 0])
/-- The key tile's rows of a cache, as loaded, start at row 512 · (key tile). -/
theorem off4_eq : ∀ t : Fin cfg0.N, k0_off4 (grid0.coords t) = ![512 * (t.val % 4), 0] :=
  (by decide +kernel : ∀ t : Fin grid0.N, k0_off4 (grid0.coords t) = ![512 * (t.val % 4), 0])

end Cert.KernelIdeal.Attn

end
-- ==== Proof.Spec.lean ====
/-
  The mathematics of one head of causal self-attention, index by index, over the extended reals.

  Arguments: an activation array x of shape [8, 2048, 1024] (batch, position, channel) and three weight
  matrices of shape [1024, 256] (channel, head coordinate). The result has shape [8, 2048, 256].

    proj x w b t d   = ∑ c, x[b, t, c] · w[c, d]                      (the three linear projections)
    score b q k      = (∑ d, Q[b, q, d] · K[b, k, d]) · (1/32)   if k ≤ q,   −∞ otherwise   (the causal mask)
    rowMax b q       = max(−∞, max over k of score b q k)             (the softmax's shift)
    expo b q k       = exp (score b q k − rowMax b q)
    denom b q        = 0 + ∑ k, expo b q k
    G[b, q, d]       = ∑ k, (expo b q k / denom b q) · V[b, k, d]

  The three float literals are kept as the 32-bit words the programs print: 0x3D000000 is 1/32 (the scale,
  1024 ^ (−1/2)), 0xFF800000 is −∞ (the masked score and the maximum's starting value) and 0x00000000 is 0 (the
  sum's starting value). The same word on both sides of an equation is never evaluated; `negInf_eq_bot` and
  `zero_eq_zero` say what the last two are.
-/
import Idealize.ShloMosaic.PureOps.Ideal
import Idealize.ShloMosaic.PureOps.Ideal.Laws
import Idealize.ShloMosaic.Lib.ValueIdx

noncomputable section

open scoped BigOperators

namespace Cert.Attn

open Idealize.ShloMosaic Idealize.ShloMosaic.ValueIdx

/-- The activations' shape: batch 8, 2048 positions, 1024 channels. -/
abbrev SX : Shape := ⟨3, ![8, 2048, 1024]⟩
/-- A weight matrix's shape: 1024 channels by 256 head coordinates. -/
abbrev SW : Shape := ⟨2, ![1024, 256]⟩
/-- The result's shape: batch 8, 2048 positions, 256 head coordinates. -/
abbrev SO : Shape := ⟨3, ![8, 2048, 256]⟩

/-- The score scale 1/32 = 1024 ^ (−1/2), as the f32 word the programs print. -/
abbrev scale : EReal := Ideal.ofBits .f32 0x3D000000#32
/-- −∞ as the f32 word the programs print: a masked score, and the value the row maximum starts from. -/
abbrev negInf : EReal := Ideal.ofBits .f32 0xFF800000#32
/-- 0 as the f32 word the programs print: the value the row sum starts from. -/
abbrev zero : EReal := Ideal.ofBits .f32 0x00000000#32

/-- The word 0xFF800000 denotes −∞, the least extended real. -/
theorem negInf_eq_bot : negInf = ⊥ := by simp [Ideal.ofBits, Ideal.ieee]
/-- The word 0x00000000 denotes 0. -/
theorem zero_eq_zero : zero = 0 := Ideal.ofBits_zero_f32

/-- A linear projection: position `t` of batch `b`, contracted over the 1024 channels against column `d` of `w`. -/
def proj (x : SX.Idx → EReal) (w : SW.Idx → EReal) (b : Fin 8) (t : Fin 2048) (d : Fin 256) : EReal :=
  ∑ c : Fin 1024, x (ix3 b t c) * w (ix2 c d)

/-- The masked, scaled score of query position `q` against key position `k`: the inner product of the two
    projections over the 256 head coordinates times 1/32 where the key is not after the query, −∞ elsewhere. -/
def score (x : SX.Idx → EReal) (wq wk : SW.Idx → EReal) (b : Fin 8) (q k : Fin 2048) : EReal :=
  if k.val ≤ q.val then (∑ d : Fin 256, proj x wq b q d * proj x wk b k d) * scale else negInf

/-- The softmax's shift: the maximum of a row of scores, taken from −∞, and once more against −∞. -/
def rowMax (x : SX.Idx → EReal) (wq wk : SW.Idx → EReal) (b : Fin 8) (q : Fin 2048) : EReal :=
  max negInf ((Finset.univ : Finset (Fin 2048)).fold max negInf (fun k => score x wq wk b q k))

/-- The shifted exponential of a score. -/
def expo (x : SX.Idx → EReal) (wq wk : SW.Idx → EReal) (b : Fin 8) (q k : Fin 2048) : EReal :=
  Ideal.exp (score x wq wk b q k - rowMax x wq wk b q)

/-- The softmax's denominator: the sum of a row's shifted exponentials, taken from 0. -/
def denom (x : SX.Idx → EReal) (wq wk : SW.Idx → EReal) (b : Fin 8) (q : Fin 2048) : EReal :=
  zero + ∑ k : Fin 2048, expo x wq wk b q k

/-- Causal self-attention, one head: at batch `b`, query position `q` and head coordinate `d`, the softmax weights
    of row `q` against the value projection's column `d`. -/
def G (x : SX.Idx → EReal) (wq wk wv : SW.Idx → EReal) (i : SO.Idx) : EReal :=
  ∑ k : Fin 2048, Ideal.div (expo x wq wk (i 0) (i 1) k) (denom x wq wk (i 0) (i 1)) * proj x wv (i 0) k (i 2)

/-- `G` at an index given by its three coordinates. -/
theorem G_ix3 (x : SX.Idx → EReal) (wq wk wv : SW.Idx → EReal) (b : Fin 8) (q : Fin 2048) (d : Fin 256) :
    G x wq wk wv (ix3 b q d) = ∑ k : Fin 2048, Ideal.div (expo x wq wk b q k) (denom x wq wk b q) * proj x wv b k d := rfl

end Cert.Attn

end
-- ==== Proof.LibOnlineSoftmax.lean ====
import Idealize.ShloMosaic.PureOps.Ideal

/-!
# Softmax-weighted averaging: the running (tile-by-tile) form equals the whole-row form

A row of scores is cut into `T` tiles of `W` columns. The whole-row form takes the maximum `M` of
the row, the weights `e = exp (S - M)`, their sum `L`, and returns `∑ (e / L) * V`. The running form
visits the tiles `0, 1, …, J` keeping a running maximum `m`, a running denominator `l` and a running
numerator `a`; at each tile the old `l` and `a` are rescaled by `exp (m - m')` to the new maximum
`m'` before the tile's weights `exp (S - m')` are added; it returns `a / l`.

All values are extended reals; a masked score is `⊥`, whose weight is `exp ⊥ = 0`. The proof
carries the invariant "after tile `n` the maximum is a real `μ`, and `l`, `a` are the REAL sums of
`exp (S - μ)` and `exp (S - μ) * V` over the entries seen"; the step is the real identity
`exp (μ - μ') * exp (x - μ) = exp (x - μ')`. The two maxima agree because they have the same upper
bounds, and the division distributes over the sum because the denominator is a positive real.

Main statements: `onlineOut_eq_refOut` (general), `onlineOut_tiles_eq_refOut` (the running form
reads the same arrays), `onlineOut_eq_refOut_of_mask` (scores given by a mask and real scores).
-/

open scoped BigOperators
open Idealize.ShloMosaic

namespace OnlineSoftmax

noncomputable section

/-- One step of the running (tile-by-tile) form on the tile with scores `s` and values `v`,
    from the state `(m, l, a)` = (running maximum, running denominator, running numerator). -/
def step {W : ℕ} (s v : Fin W → EReal) (st : EReal × EReal × EReal) : EReal × EReal × EReal :=
  (max st.1 ((Finset.univ : Finset (Fin W)).fold max ⊥ s),
   Ideal.exp (st.1 - max st.1 ((Finset.univ : Finset (Fin W)).fold max ⊥ s)) * st.2.1
     + ∑ c : Fin W, Ideal.exp (s c - max st.1 ((Finset.univ : Finset (Fin W)).fold max ⊥ s)),
   Ideal.exp (st.1 - max st.1 ((Finset.univ : Finset (Fin W)).fold max ⊥ s)) * st.2.2
     + ∑ c : Fin W, Ideal.exp (s c - max st.1 ((Finset.univ : Finset (Fin W)).fold max ⊥ s)) * v c)

/-- The state after the first `n` tiles, from `(⊥, 0, 0)`. -/
def run {W : ℕ} (s v : ℕ → Fin W → EReal) : ℕ → EReal × EReal × EReal
  | 0 => (⊥, 0, 0)
  | n + 1 => step (s n) (v n) (run s v n)

/-- The weight `exp (x - μ)` of a score `x` against a real maximum `μ`, as a real number
    (`0` for the masked score `⊥`). -/
def wt (x : EReal) (μ : ℝ) : ℝ := (Ideal.exp (x - (μ : EReal))).toReal

/-- Against a real maximum, the exponential of a score that is not `⊤` is the real weight. -/
theorem exp_sub_coe {x : EReal} (hx : x ≠ ⊤) (μ : ℝ) :
    Ideal.exp (x - (μ : EReal)) = ((wt x μ : ℝ) : EReal) := by
  induction x using EReal.rec with
  | bot => simp [wt]
  | coe r => simp [wt, ← EReal.coe_sub]
  | top => exact absurd rfl hx

/-- Changing the maximum from `μ` to `μ'` rescales a weight by `exp (μ - μ')`. -/
theorem wt_shift {x : EReal} (hx : x ≠ ⊤) (μ μ' : ℝ) :
    Real.exp (μ - μ') * wt x μ = wt x μ' := by
  induction x using EReal.rec with
  | bot => simp [wt]
  | coe r =>
    simp only [wt, ← EReal.coe_sub, Ideal.exp_coe, EReal.toReal_coe]
    rw [← Real.exp_add]; congr 1; ring
  | top => exact absurd rfl hx

/-- A weight is nonnegative. -/
theorem wt_nonneg (x : EReal) (μ : ℝ) : 0 ≤ wt x μ := by
  induction x using EReal.rec with
  | bot => simp [wt]
  | coe r => simp only [wt, ← EReal.coe_sub, Ideal.exp_coe, EReal.toReal_coe]; exact (Real.exp_pos _).le
  | top => simp [wt]

/-- The weight of a real score is positive. -/
theorem wt_pos {x : EReal} (hb : x ≠ ⊥) (ht : x ≠ ⊤) (μ : ℝ) : 0 < wt x μ := by
  induction x using EReal.rec with
  | bot => exact absurd rfl hb
  | coe r => simp only [wt, ← EReal.coe_sub, Ideal.exp_coe, EReal.toReal_coe]; exact Real.exp_pos _
  | top => exact absurd rfl ht

/-- The coercion `ℝ → EReal` commutes with a finite sum. -/
theorem coe_sum {ι : Type*} (t : Finset ι) (f : ι → ℝ) :
    ∑ i ∈ t, ((f i : ℝ) : EReal) = ((∑ i ∈ t, f i : ℝ) : EReal) := by
  classical
  induction t using Finset.induction_on with
  | empty => simp
  | insert i t hi ih => rw [Finset.sum_insert hi, Finset.sum_insert hi, ih, EReal.coe_add]

/-- A row maximum of scores none of which is `⊤` is not `⊤`. -/
theorem fold_ne_top {W : ℕ} {s : Fin W → EReal} (hs : ∀ c, s c ≠ ⊤) :
    (Finset.univ : Finset (Fin W)).fold max ⊥ s ≠ ⊤ := by
  rw [← lt_top_iff_ne_top, Finset.fold_max_lt]
  exact ⟨bot_lt_top, fun c _ => lt_top_iff_ne_top.2 (hs c)⟩

/-- A row maximum with one score that is not `⊥` is not `⊥`. -/
theorem fold_ne_bot {W : ℕ} {s : Fin W → EReal} {c₀ : Fin W} (h : s c₀ ≠ ⊥) :
    (Finset.univ : Finset (Fin W)).fold max ⊥ s ≠ ⊥ := by
  rw [← bot_lt_iff_ne_bot, Finset.lt_fold_max]
  exact Or.inr ⟨c₀, Finset.mem_univ _, bot_lt_iff_ne_bot.2 h⟩

/-- One step on real data: if the new maximum is the real `μ'`, the rescaling factor is the
    real `αr`, and the old denominator and numerator are the reals `Lr`, `Ar`, then the new
    denominator and numerator are the reals `αr * Lr + ∑ wt` and `αr * Ar + ∑ wt * v`. -/
theorem step_coe {W : ℕ} (s v : Fin W → EReal) (hs : ∀ c, s c ≠ ⊤)
    (hv : ∀ c, v c = (((v c).toReal : ℝ) : EReal)) (m : EReal) (Lr Ar αr μ' : ℝ)
    (hm : max m ((Finset.univ : Finset (Fin W)).fold max ⊥ s) = (μ' : EReal))
    (hα : Ideal.exp (m - (μ' : EReal)) = (αr : EReal)) :
    step s v (m, (Lr : EReal), (Ar : EReal)) =
      ((μ' : EReal), ((αr * Lr + ∑ c, wt (s c) μ' : ℝ) : EReal),
        ((αr * Ar + ∑ c, wt (s c) μ' * (v c).toReal : ℝ) : EReal)) := by
  have h1 : ∀ c, Ideal.exp (s c - (μ' : EReal)) = ((wt (s c) μ' : ℝ) : EReal) :=
    fun c => exp_sub_coe (hs c) μ'
  have h2 : ∀ c, Ideal.exp (s c - (μ' : EReal)) * v c
      = ((wt (s c) μ' * (v c).toReal : ℝ) : EReal) := fun c => by
    rw [h1, EReal.coe_mul, ← hv c]
  simp only [step, hm, hα]
  rw [Finset.sum_congr rfl (fun c _ => h2 c), Finset.sum_congr rfl (fun c _ => h1 c),
    coe_sum, coe_sum, ← EReal.coe_mul, ← EReal.coe_mul, ← EReal.coe_add, ← EReal.coe_add]

/-- The invariant of the running form: after the tiles `0 … n` (`n ≤ J`) the running maximum is a
    real `μ`, and the running denominator and numerator are the real sums of `exp (s - μ)` and
    of `exp (s - μ) * v` over the entries seen. -/
theorem run_inv {W : ℕ} (s v : ℕ → Fin W → EReal) (J : ℕ)
    (hs : ∀ j ≤ J, ∀ c, s j c ≠ ⊤) (h0 : ∃ c₀, s 0 c₀ ≠ ⊥)
    (hv : ∀ j ≤ J, ∀ c, v j c = (((v j c).toReal : ℝ) : EReal)) :
    ∀ n, n ≤ J → ∃ μ : ℝ, run s v (n + 1) =
      ((μ : EReal), ((∑ j ∈ Finset.range (n + 1), ∑ c, wt (s j c) μ : ℝ) : EReal),
        ((∑ j ∈ Finset.range (n + 1), ∑ c, wt (s j c) μ * (v j c).toReal : ℝ) : EReal)) := by
  intro n
  induction n with
  | zero =>
    intro _
    obtain ⟨c₀, hc₀⟩ := h0
    have hs0 := hs 0 (Nat.zero_le _)
    have hne_top := fold_ne_top hs0
    have hne_bot := fold_ne_bot hc₀
    refine ⟨((Finset.univ : Finset (Fin W)).fold max ⊥ (s 0)).toReal, ?_⟩
    have hm : max ⊥ ((Finset.univ : Finset (Fin W)).fold max ⊥ (s 0))
        = ((((Finset.univ : Finset (Fin W)).fold max ⊥ (s 0)).toReal : ℝ) : EReal) := by
      rw [max_eq_right bot_le, EReal.coe_toReal hne_top hne_bot]
    have hα : Ideal.exp (⊥ - ((((Finset.univ : Finset (Fin W)).fold max ⊥ (s 0)).toReal : ℝ) : EReal))
        = ((0 : ℝ) : EReal) := by
      rw [EReal.bot_sub, Ideal.exp_bot, EReal.coe_zero]
    have := step_coe (s 0) (v 0) hs0 (hv 0 (Nat.zero_le _)) ⊥ 0 0 0 _ hm hα
    show step (s 0) (v 0) (⊥, 0, 0) = _
    rw [show ((⊥, 0, 0) : EReal × EReal × EReal) = (⊥, ((0 : ℝ) : EReal), ((0 : ℝ) : EReal)) from rfl,
      this]
    simp
  | succ n ih =>
    intro hn
    obtain ⟨μ, hμ⟩ := ih (Nat.le_of_succ_le hn)
    have hsn := hs (n + 1) hn
    have hne_top : max (μ : EReal) ((Finset.univ : Finset (Fin W)).fold max ⊥ (s (n + 1))) ≠ ⊤ := by
      rw [← lt_top_iff_ne_top, max_lt_iff]
      exact ⟨EReal.coe_lt_top μ, lt_top_iff_ne_top.2 (fold_ne_top hsn)⟩
    have hne_bot : max (μ : EReal) ((Finset.univ : Finset (Fin W)).fold max ⊥ (s (n + 1))) ≠ ⊥ := by
      rw [← bot_lt_iff_ne_bot, lt_max_iff]
      exact Or.inl (EReal.bot_lt_coe μ)
    obtain ⟨μ', hm⟩ : ∃ μ' : ℝ,
        max (μ : EReal) ((Finset.univ : Finset (Fin W)).fold max ⊥ (s (n + 1))) = (μ' : EReal) :=
      ⟨_, (EReal.coe_toReal hne_top hne_bot).symm⟩
    have hα : Ideal.exp ((μ : EReal) - (μ' : EReal)) = ((Real.exp (μ - μ') : ℝ) : EReal) := by
      rw [← EReal.coe_sub, Ideal.exp_coe]
    refine ⟨μ', ?_⟩
    have key : ∀ j ∈ Finset.range (n + 1), ∀ c, Real.exp (μ - μ') * wt (s j c) μ = wt (s j c) μ' :=
      fun j hj c => wt_shift (hs j (by have := Finset.mem_range.1 hj; omega) c) μ μ'
    have e1 : Real.exp (μ - μ') * ∑ j ∈ Finset.range (n + 1), ∑ c, wt (s j c) μ
        = ∑ j ∈ Finset.range (n + 1), ∑ c, wt (s j c) μ' := by
      rw [Finset.mul_sum]
      refine Finset.sum_congr rfl fun j hj => ?_
      rw [Finset.mul_sum]
      exact Finset.sum_congr rfl fun c _ => key j hj c
    have e2 : Real.exp (μ - μ') * ∑ j ∈ Finset.range (n + 1), ∑ c, wt (s j c) μ * (v j c).toReal
        = ∑ j ∈ Finset.range (n + 1), ∑ c, wt (s j c) μ' * (v j c).toReal := by
      rw [Finset.mul_sum]
      refine Finset.sum_congr rfl fun j hj => ?_
      rw [Finset.mul_sum]
      exact Finset.sum_congr rfl fun c _ => by rw [← mul_assoc, key j hj c]
    have r1 := Finset.sum_range_succ (fun j => ∑ c, wt (s j c) μ') (n + 1)
    have r2 := Finset.sum_range_succ (fun j => ∑ c, wt (s j c) μ' * (v j c).toReal) (n + 1)
    show step (s (n + 1)) (v (n + 1)) (run s v (n + 1)) = _
    rw [hμ, step_coe _ _ hsn (hv _ hn) _ _ _ _ _ hm hα, e1, e2, r1, r2]

/-- The running maximum after `n` tiles is the least upper bound of the entries seen. -/
theorem run_max_le {W : ℕ} (s v : ℕ → Fin W → EReal) (n : ℕ) (x : EReal) :
    (run s v n).1 ≤ x ↔ ∀ j < n, ∀ c, s j c ≤ x := by
  induction n with
  | zero => simp [run]
  | succ n ih =>
    show max (run s v n).1 ((Finset.univ : Finset (Fin W)).fold max ⊥ (s n)) ≤ x ↔ _
    rw [max_le_iff, ih, Finset.fold_max_le]
    constructor
    · rintro ⟨h1, _, h2⟩ j hj c
      rcases Nat.lt_succ_iff_lt_or_eq.1 hj with h | rfl
      · exact h1 j h c
      · exact h2 c (Finset.mem_univ _)
    · intro h
      exact ⟨fun j hj c => h j (Nat.lt_succ_of_lt hj) c, bot_le,
        fun c _ => h n (Nat.lt_succ_self n) c⟩

/-- The whole-row maximum: the maximum over the tiles `j` of the tile maxima (each a fold of `max`
    from `⊥` over the columns `c` of tile `j`), joined with the reduction's initial value `⊥`. -/
def refMax {T W : ℕ} (S : Fin T → Fin W → EReal) : EReal :=
  max ⊥ ((Finset.univ : Finset (Fin T)).fold max ⊥
    fun j => (Finset.univ : Finset (Fin W)).fold max ⊥ (S j))

/-- The whole-row denominator `0 + ∑ j, ∑ c, exp (S j c - M)`. -/
def refDen {T W : ℕ} (S : Fin T → Fin W → EReal) : EReal :=
  0 + ∑ j : Fin T, ∑ c : Fin W, Ideal.exp (S j c - refMax S)

/-- The whole-row softmax-weighted average `0 + ∑ j, ∑ c, (exp (S j c - M) / L) * V j c`. -/
def refOut {T W : ℕ} (S V : Fin T → Fin W → EReal) : EReal :=
  0 + ∑ j : Fin T, ∑ c : Fin W, Ideal.div (Ideal.exp (S j c - refMax S)) (refDen S) * V j c

/-- The output of the running form after `n` tiles: numerator over denominator. -/
def onlineOut {W : ℕ} (s v : ℕ → Fin W → EReal) (n : ℕ) : EReal :=
  Ideal.div (run s v n).2.2 (run s v n).2.1

/-- The whole-row maximum is the least upper bound of all entries. -/
theorem refMax_le {T W : ℕ} (S : Fin T → Fin W → EReal) (x : EReal) :
    refMax S ≤ x ↔ ∀ j c, S j c ≤ x := by
  unfold refMax
  rw [max_le_iff, Finset.fold_max_le]
  constructor
  · rintro ⟨_, _, h⟩ j c
    exact ((Finset.fold_max_le x).1 (h j (Finset.mem_univ _))).2 c (Finset.mem_univ _)
  · intro h
    exact ⟨bot_le, bot_le, fun j _ => (Finset.fold_max_le x).2 ⟨bot_le, fun c _ => h j c⟩⟩

/-- A sum over all `T` tiles whose terms vanish beyond tile `J` is the sum over the tiles `0 … J`. -/
theorem sum_fin_eq_sum_range {T J : ℕ} (hJ : J < T) (f : Fin T → ℝ) (g : ℕ → ℝ)
    (hfg : ∀ j : Fin T, (j : ℕ) ≤ J → f j = g j) (hf0 : ∀ j : Fin T, J < (j : ℕ) → f j = 0) :
    ∑ j : Fin T, f j = ∑ j ∈ Finset.range (J + 1), g j := by
  have h1 : ∀ j : Fin T, f j = if (j : ℕ) ≤ J then g j else 0 := fun j => by
    by_cases h : (j : ℕ) ≤ J
    · rw [if_pos h]; exact hfg j h
    · rw [if_neg h]; exact hf0 j (Nat.lt_of_not_le h)
  rw [Finset.sum_congr rfl (fun j _ => h1 j),
    Fin.sum_univ_eq_sum_range (fun n => if n ≤ J then g n else 0) T,
    ← Finset.sum_subset (Finset.range_mono (Nat.succ_le_of_lt hJ))
      (fun n _ hn => if_neg (fun h => hn (Finset.mem_range.2 (Nat.lt_succ_of_le h))))]
  exact Finset.sum_congr rfl fun n hn => if_pos (Nat.lt_succ_iff.1 (Finset.mem_range.1 hn))

/-- **The running form equals the whole-row form.** `S`, `V` are the scores and values of all `T`
    tiles (what the whole-row form reads); `s`, `v` are the tiles as the running form reads them,
    equal to `S`, `V` on the processed tiles `0 … J`. The processed scores are never `⊤`, one score of
    tile `0` is not `⊥`, the processed values are real, and the scores of the skipped tiles `j > J` are
    `⊥`. Then numerator over denominator after the tiles `0 … J` is the softmax-weighted average over
    the whole row. -/
theorem onlineOut_eq_refOut {T W : ℕ} (J : ℕ) (hJ : J < T)
    (S V : Fin T → Fin W → EReal) (s v : ℕ → Fin W → EReal)
    (hsS : ∀ j : Fin T, (j : ℕ) ≤ J → ∀ c, S j c = s j c)
    (hvV : ∀ j : Fin T, (j : ℕ) ≤ J → ∀ c, V j c = v j c)
    (hfut : ∀ j : Fin T, J < (j : ℕ) → ∀ c, S j c = ⊥)
    (hs : ∀ j ≤ J, ∀ c, s j c ≠ ⊤)
    (h0 : ∃ c₀, s 0 c₀ ≠ ⊥)
    (hv : ∀ j ≤ J, ∀ c, ∃ r : ℝ, v j c = (r : EReal)) :
    onlineOut s v (J + 1) = refOut S V := by
  have hv' : ∀ j ≤ J, ∀ c, v j c = (((v j c).toReal : ℝ) : EReal) := fun j hj c => by
    obtain ⟨r, hr⟩ := hv j hj c
    rw [hr, EReal.toReal_coe]
  obtain ⟨μ, hμ⟩ := run_inv s v J hs h0 hv' J le_rfl
  -- every score of the whole row is below `⊤`
  have hS : ∀ j c, S j c ≠ ⊤ := fun j c => by
    by_cases h : (j : ℕ) ≤ J
    · rw [hsS j h c]; exact hs j h c
    · rw [hfut j (Nat.lt_of_not_le h) c]; exact bot_ne_top
  -- the whole-row maximum is the running maximum
  have hM : refMax S = (μ : EReal) := by
    have hm : (run s v (J + 1)).1 = (μ : EReal) := by rw [hμ]
    rw [← hm]
    refine eq_of_forall_ge_iff fun x => ?_
    rw [refMax_le, run_max_le]
    constructor
    · intro h j hj c
      have hjT : j < T := lt_of_lt_of_le hj (Nat.succ_le_of_lt hJ)
      have := h ⟨j, hjT⟩ c
      rwa [hsS ⟨j, hjT⟩ (Nat.lt_succ_iff.1 hj) c] at this
    · intro h j c
      by_cases hj : (j : ℕ) ≤ J
      · rw [hsS j hj c]; exact h j (Nat.lt_succ_of_le hj) c
      · rw [hfut j (Nat.lt_of_not_le hj) c]; exact bot_le
  -- the real denominator is positive
  have hLpos : 0 < ∑ j ∈ Finset.range (J + 1), ∑ c, wt (s j c) μ := by
    obtain ⟨c₀, hc₀⟩ := h0
    refine Finset.sum_pos' (fun j _ => Finset.sum_nonneg fun c _ => wt_nonneg _ _)
      ⟨0, Finset.mem_range.2 (Nat.succ_pos J), ?_⟩
    exact Finset.sum_pos' (fun c _ => wt_nonneg _ _)
      ⟨c₀, Finset.mem_univ _, wt_pos hc₀ (hs 0 (Nat.zero_le _) c₀) μ⟩
  have hLne : (∑ j ∈ Finset.range (J + 1), ∑ c, wt (s j c) μ) ≠ 0 := ne_of_gt hLpos
  -- the whole-row denominator is the running denominator
  have hL : refDen S = ((∑ j ∈ Finset.range (J + 1), ∑ c, wt (s j c) μ : ℝ) : EReal) := by
    unfold refDen
    rw [hM, zero_add,
      Finset.sum_congr rfl (fun j _ => Finset.sum_congr rfl (fun c _ => exp_sub_coe (hS j c) μ)),
      Finset.sum_congr rfl (fun j _ => coe_sum Finset.univ (fun c => wt (S j c) μ)), coe_sum]
    congr 1
    refine sum_fin_eq_sum_range hJ _ (fun j => ∑ c, wt (s j c) μ) (fun j hj => ?_) (fun j hj => ?_)
    · exact Finset.sum_congr rfl fun c _ => by rw [hsS j hj c]
    · exact Finset.sum_eq_zero fun c _ => by rw [hfut j hj c]; simp [wt]
  -- each term of the whole-row numerator is a real number
  have hterm : ∀ (j : Fin T) (c : Fin W),
      Ideal.div (Ideal.exp (S j c - refMax S)) (refDen S) * V j c
        = ((wt (S j c) μ * (1 / ∑ j ∈ Finset.range (J + 1), ∑ c, wt (s j c) μ)
            * (V j c).toReal : ℝ) : EReal) := fun j c => by
    rw [hM, hL, Ideal.div_coe hLne, exp_sub_coe (hS j c) μ, ← EReal.coe_mul]
    by_cases hj : (j : ℕ) ≤ J
    · rw [hvV j hj c, hv' j hj c, EReal.toReal_coe, ← EReal.coe_mul]
    · have h0' : wt (S j c) μ = 0 := by rw [hfut j (Nat.lt_of_not_le hj) c]; simp [wt]
      rw [h0', zero_mul, zero_mul, EReal.coe_zero, zero_mul]
  unfold refOut onlineOut
  rw [hμ, Ideal.div_coe hLne, ← EReal.coe_mul, zero_add,
    Finset.sum_congr rfl (fun j _ => Finset.sum_congr rfl (fun c _ => hterm j c)),
    Finset.sum_congr rfl (fun j _ => coe_sum Finset.univ _), coe_sum]
  congr 1
  rw [sum_fin_eq_sum_range hJ _
    (fun j => ∑ c, wt (s j c) μ * (1 / ∑ j ∈ Finset.range (J + 1), ∑ c, wt (s j c) μ)
      * (v j c).toReal) (fun j hj => ?_) (fun j hj => ?_), Finset.sum_mul]
  · refine Finset.sum_congr rfl fun j _ => ?_
    rw [Finset.sum_mul]
    exact Finset.sum_congr rfl fun c _ => by ring
  · exact Finset.sum_congr rfl fun c _ => by rw [hsS j hj c, hvV j hj c]
  · exact Finset.sum_eq_zero fun c _ => by rw [hfut j hj c]; simp [wt]

/-- Unfolding: no tile processed. -/
theorem run_zero {W : ℕ} (s v : ℕ → Fin W → EReal) : run s v 0 = (⊥, 0, 0) := rfl

/-- Unfolding: one more tile processed. -/
theorem run_succ {W : ℕ} (s v : ℕ → Fin W → EReal) (n : ℕ) :
    run s v (n + 1) = step (s n) (v n) (run s v n) := rfl

/-- Unfolding by component: the running maximum after one more tile. -/
theorem run_succ_max {W : ℕ} (s v : ℕ → Fin W → EReal) (n : ℕ) :
    (run s v (n + 1)).1 = max (run s v n).1 ((Finset.univ : Finset (Fin W)).fold max ⊥ (s n)) := rfl

/-- Unfolding by component: the running denominator after one more tile, the old one rescaled to the
    new maximum plus the tile's weights. -/
theorem run_succ_den {W : ℕ} (s v : ℕ → Fin W → EReal) (n : ℕ) :
    (run s v (n + 1)).2.1
      = Ideal.exp ((run s v n).1
            - max (run s v n).1 ((Finset.univ : Finset (Fin W)).fold max ⊥ (s n))) * (run s v n).2.1
        + ∑ c : Fin W, Ideal.exp (s n c
            - max (run s v n).1 ((Finset.univ : Finset (Fin W)).fold max ⊥ (s n))) := rfl

/-- Unfolding by component: the running numerator after one more tile, the old one rescaled to the
    new maximum plus the tile's weighted values. -/
theorem run_succ_num {W : ℕ} (s v : ℕ → Fin W → EReal) (n : ℕ) :
    (run s v (n + 1)).2.2
      = Ideal.exp ((run s v n).1
            - max (run s v n).1 ((Finset.univ : Finset (Fin W)).fold max ⊥ (s n))) * (run s v n).2.2
        + ∑ c : Fin W, Ideal.exp (s n c
            - max (run s v n).1 ((Finset.univ : Finset (Fin W)).fold max ⊥ (s n))) * v n c := rfl

/-- The running denominator after one more tile, written with the new running maximum. -/
theorem run_succ_den' {W : ℕ} (s v : ℕ → Fin W → EReal) (n : ℕ) :
    (run s v (n + 1)).2.1
      = Ideal.exp ((run s v n).1 - (run s v (n + 1)).1) * (run s v n).2.1
        + ∑ c : Fin W, Ideal.exp (s n c - (run s v (n + 1)).1) := rfl

/-- The running numerator after one more tile, written with the new running maximum. -/
theorem run_succ_num' {W : ℕ} (s v : ℕ → Fin W → EReal) (n : ℕ) :
    (run s v (n + 1)).2.2
      = Ideal.exp ((run s v n).1 - (run s v (n + 1)).1) * (run s v n).2.2
        + ∑ c : Fin W, Ideal.exp (s n c - (run s v (n + 1)).1) * v n c := rfl

/-- The components of the state before any tile. -/
theorem run_zero_max {W : ℕ} (s v : ℕ → Fin W → EReal) : (run s v 0).1 = ⊥ := rfl
/-- The running denominator before any tile. -/
theorem run_zero_den {W : ℕ} (s v : ℕ → Fin W → EReal) : (run s v 0).2.1 = 0 := rfl
/-- The running numerator before any tile. -/
theorem run_zero_num {W : ℕ} (s v : ℕ → Fin W → EReal) : (run s v 0).2.2 = 0 := rfl

/-- The whole-row denominator without the reduction's initial `0`. -/
theorem refDen_eq {T W : ℕ} (S : Fin T → Fin W → EReal) :
    refDen S = ∑ j : Fin T, ∑ c : Fin W, Ideal.exp (S j c - refMax S) := by
  unfold refDen; rw [zero_add]

/-- The whole-row average without the zero accumulator. -/
theorem refOut_eq {T W : ℕ} (S V : Fin T → Fin W → EReal) :
    refOut S V
      = ∑ j : Fin T, ∑ c : Fin W, Ideal.div (Ideal.exp (S j c - refMax S)) (refDen S) * V j c := by
  unfold refOut; rw [zero_add]

/-- Two maxima (folds of `max` from `⊥`) over finite index types with the same upper bounds are
    equal: this re-indexes a row maximum (tile by tile, over pairs, over a flat index). -/
theorem fold_max_eq_of_forall_le {ι κ : Type*} [Fintype ι] [Fintype κ]
    (f : ι → EReal) (g : κ → EReal) (h : ∀ x, (∀ i, f i ≤ x) ↔ ∀ k, g k ≤ x) :
    (Finset.univ : Finset ι).fold max ⊥ f = (Finset.univ : Finset κ).fold max ⊥ g := by
  refine eq_of_forall_ge_iff fun x => ?_
  rw [Finset.fold_max_le, Finset.fold_max_le]
  constructor
  · rintro ⟨_, h1⟩
    exact ⟨bot_le, fun k _ => (h x).1 (fun i => h1 i (Finset.mem_univ _)) k⟩
  · rintro ⟨_, h1⟩
    exact ⟨bot_le, fun i _ => (h x).2 (fun k => h1 k (Finset.mem_univ _)) i⟩

/-- The whole-row maximum as ONE fold over the pairs (tile, column). -/
theorem refMax_eq_fold_prod {T W : ℕ} (S : Fin T → Fin W → EReal) :
    refMax S = max ⊥ ((Finset.univ : Finset (Fin T × Fin W)).fold max ⊥ fun p => S p.1 p.2) := by
  refine eq_of_forall_ge_iff fun x => ?_
  rw [refMax_le, max_le_iff, Finset.fold_max_le]
  constructor
  · intro h
    exact ⟨bot_le, bot_le, fun p _ => h p.1 p.2⟩
  · rintro ⟨_, _, h⟩ j c
    exact h (j, c) (Finset.mem_univ _)

/-- The tiles of `S` read by tile number: tile `n` for `n < T`, the constant `⊥` beyond. -/
def tiles {T W : ℕ} (S : Fin T → Fin W → EReal) (n : ℕ) : Fin W → EReal :=
  if h : n < T then S ⟨n, h⟩ else fun _ => ⊥

/-- Reading tile number `j < T` gives tile `j`. -/
theorem tiles_coe {T W : ℕ} (S : Fin T → Fin W → EReal) (j : Fin T) : tiles S (j : ℕ) = S j := by
  unfold tiles; rw [dif_pos j.2]

/-- The running form equals the whole-row form, with the running form reading the same `S`, `V`
    tile by tile (`tiles`). -/
theorem onlineOut_tiles_eq_refOut {T W : ℕ} (J : ℕ) (hJ : J < T)
    (S V : Fin T → Fin W → EReal)
    (hS : ∀ j : Fin T, (j : ℕ) ≤ J → ∀ c, S j c ≠ ⊤)
    (h0 : ∃ c₀, S ⟨0, Nat.lt_of_le_of_lt (Nat.zero_le J) hJ⟩ c₀ ≠ ⊥)
    (hV : ∀ j : Fin T, (j : ℕ) ≤ J → ∀ c, ∃ r : ℝ, V j c = (r : EReal))
    (hfut : ∀ j : Fin T, J < (j : ℕ) → ∀ c, S j c = ⊥) :
    onlineOut (tiles S) (tiles V) (J + 1) = refOut S V := by
  refine onlineOut_eq_refOut J hJ S V (tiles S) (tiles V)
    (fun j _ c => by rw [tiles_coe]) (fun j _ c => by rw [tiles_coe]) hfut ?_ ?_ ?_
  · intro j hj c
    have hjT : j < T := lt_of_le_of_lt hj hJ
    have := hS ⟨j, hjT⟩ hj c
    rwa [← tiles_coe S ⟨j, hjT⟩] at this
  · obtain ⟨c₀, hc₀⟩ := h0
    exact ⟨c₀, by rwa [← tiles_coe S ⟨0, _⟩] at hc₀⟩
  · intro j hj c
    have hjT : j < T := lt_of_le_of_lt hj hJ
    have := hV ⟨j, hjT⟩ hj c
    rwa [← tiles_coe V ⟨j, hjT⟩] at this

/-- The running form equals the whole-row form for MASKED scores: on the processed tiles a score is
    the real `σ j c` where `mask j c` holds and `⊥` elsewhere, the first tile has an unmasked column,
    and the values are the reals `ν j c`. -/
theorem onlineOut_eq_refOut_of_mask {T W : ℕ} (J : ℕ) (hJ : J < T)
    (S V : Fin T → Fin W → EReal) (s v : ℕ → Fin W → EReal)
    (mask : ℕ → Fin W → Prop) [∀ j c, Decidable (mask j c)] (σ ν : ℕ → Fin W → ℝ)
    (hsS : ∀ j : Fin T, (j : ℕ) ≤ J → ∀ c, S j c = s j c)
    (hvV : ∀ j : Fin T, (j : ℕ) ≤ J → ∀ c, V j c = v j c)
    (hfut : ∀ j : Fin T, J < (j : ℕ) → ∀ c, S j c = ⊥)
    (hs : ∀ j ≤ J, ∀ c, s j c = if mask j c then ((σ j c : ℝ) : EReal) else ⊥)
    (h0 : ∃ c₀, mask 0 c₀)
    (hv : ∀ j ≤ J, ∀ c, v j c = ((ν j c : ℝ) : EReal)) :
    onlineOut s v (J + 1) = refOut S V := by
  refine onlineOut_eq_refOut J hJ S V s v hsS hvV hfut ?_ ?_ (fun j hj c => ⟨ν j c, hv j hj c⟩)
  · intro j hj c
    rw [hs j hj c]
    split
    · exact EReal.coe_ne_top _
    · exact bot_ne_top
  · obtain ⟨c₀, hc₀⟩ := h0
    refine ⟨c₀, ?_⟩
    rw [hs 0 (Nat.zero_le _) c₀, if_pos hc₀]
    exact EReal.coe_ne_bot _

end

end OnlineSoftmax
-- ==== Proof.SpecOnline.lean ====
/-
  The bridge from the index-by-index attention (`G`) to the running, tile-by-tile form of the softmax-weighted
  average. A query position is `row qi r = 512 * qi + r`; the 2048 key positions are cut into 4 tiles of 512,
  `row j c = 512 * j + c`. The scale 1/32 is folded into the query row (`qs`), so a tile's score is the plain inner
  product of the scaled query row with a key row where the key is not after the query, and −∞ elsewhere (`sK`);
  the tile's values are the value projection's column `d` (`vK`). With finite arguments, `G` at
  `(b, row qi r, d)` is numerator over denominator of the running form after the tiles `0 … qi`.
-/
import proofs.«166778_j29291676958807_2_alg».proof.Proof.Spec
import proofs.«166778_j29291676958807_2_alg».proof.Proof.LibOnlineSoftmax

noncomputable section

open scoped BigOperators

namespace Cert.Attn

open Idealize.ShloMosaic Idealize.ShloMosaic.ValueIdx OnlineSoftmax

/-- Position `512 * j + c`: column `c` of tile `j`, a row of 2048 positions being 4 tiles of 512 columns. -/
def row (j : Fin 4) (c : Fin 512) : Fin 2048 := ⟨512 * j.val + c.val, by omega⟩

/-- The number of position `row j c`. -/
theorem row_val (j : Fin 4) (c : Fin 512) : (row j c).val = 512 * j.val + c.val := rfl

/-- The 2048 positions are the pairs (tile, column). -/
def rowEquiv : Fin 4 × Fin 512 ≃ Fin 2048 where
  toFun p := row p.1 p.2
  invFun k := (⟨k.val / 512, by omega⟩, ⟨k.val % 512, by omega⟩)
  left_inv p := by
    rcases p with ⟨j, c⟩
    refine Prod.ext (Fin.ext ?_) (Fin.ext ?_)
    · show (512 * j.val + c.val) / 512 = j.val
      omega
    · show (512 * j.val + c.val) % 512 = c.val
      omega
  right_inv k := by
    refine Fin.ext ?_
    show 512 * (k.val / 512) + k.val % 512 = k.val
    omega

/-- A sum over the 2048 positions, tile by tile. -/
theorem sum_row (f : Fin 2048 → EReal) :
    ∑ k : Fin 2048, f k = ∑ j : Fin 4, ∑ c : Fin 512, f (row j c) := by
  rw [← Equiv.sum_comp rowEquiv f, Fintype.sum_prod_type]
  rfl

/-- A maximum over the 2048 positions (from −∞, and once more against −∞), tile by tile. -/
theorem fold_row (f : Fin 2048 → EReal) :
    max ⊥ ((Finset.univ : Finset (Fin 2048)).fold max ⊥ f) = refMax (fun j c => f (row j c)) := by
  refine eq_of_forall_ge_iff fun y => ?_
  rw [refMax_le, max_le_iff, Finset.fold_max_le]
  constructor
  · rintro ⟨_, _, h⟩ j c
    exact h _ (Finset.mem_univ _)
  · intro h
    refine ⟨bot_le, bot_le, fun k _ => ?_⟩
    have := h (rowEquiv.symm k).1 (rowEquiv.symm k).2
    rwa [show row (rowEquiv.symm k).1 (rowEquiv.symm k).2 = k from rowEquiv.apply_symm_apply k] at this

/-- The word 0x3D000000 denotes the real 1/32. -/
theorem scale_eq : scale = ((1 / 32 : ℝ) : EReal) := by
  simp [Ideal.ofBits, Ideal.ieee, -EReal.coe_mul]; norm_num

/-- The scale is a real number. -/
theorem scale_real : ∃ a : ℝ, scale = (a : EReal) := ⟨_, scale_eq⟩

/-- A projection of finite arrays is a real number: a finite sum of products of reals. -/
theorem proj_real {x : SX.Idx → EReal} {w : SW.Idx → EReal}
    (hx : ∀ i, ∃ a : ℝ, x i = (a : EReal)) (hw : ∀ i, ∃ a : ℝ, w i = (a : EReal))
    (b : Fin 8) (t : Fin 2048) (d : Fin 256) : ∃ a : ℝ, proj x w b t d = (a : EReal) := by
  choose xr hxr using hx
  choose wr hwr using hw
  refine ⟨∑ c : Fin 1024, xr (ix3 b t c) * wr (ix2 c d), ?_⟩
  unfold proj
  rw [← coe_sum]
  exact Finset.sum_congr rfl fun c _ => by rw [hxr, hwr, EReal.coe_mul]

/-- The scaled query row: the query projection at position `row qi r` times 1/32. -/
def qs (x : SX.Idx → EReal) (wq : SW.Idx → EReal) (b : Fin 8) (qi : Fin 4) (r : Fin 512)
    (d' : Fin 256) : EReal :=
  proj x wq b (row qi r) d' * scale

/-- The scores of tile number `j` against the query position `row qi r`: the inner product of the scaled query
    row with key row `512 * j + c` where that key is not after the query, −∞ elsewhere (and −∞ beyond the 4 tiles). -/
def sK (x : SX.Idx → EReal) (wq wk : SW.Idx → EReal) (b : Fin 8) (qi : Fin 4) (r : Fin 512)
    (j : ℕ) (c : Fin 512) : EReal :=
  if h : j < 4 then
    (if 512 * j + c.val ≤ 512 * qi.val + r.val then
      ∑ d' : Fin 256, qs x wq b qi r d' * proj x wk b (row ⟨j, h⟩ c) d'
    else ⊥)
  else ⊥

/-- The values of tile number `j`: column `d` of the value projection at the key rows `512 * j + c` (`0` beyond the
    4 tiles). -/
def vK (x : SX.Idx → EReal) (wv : SW.Idx → EReal) (b : Fin 8) (d : Fin 256)
    (j : ℕ) (c : Fin 512) : EReal :=
  if h : j < 4 then proj x wv b (row ⟨j, h⟩ c) d else 0

/-- The scores of one of the 4 tiles, in plain form. -/
theorem sK_of_lt (x : SX.Idx → EReal) (wq wk : SW.Idx → EReal) (b : Fin 8) (qi : Fin 4) (r : Fin 512)
    {j : ℕ} (h : j < 4) (c : Fin 512) :
    sK x wq wk b qi r j c
      = if 512 * j + c.val ≤ 512 * qi.val + r.val then
          ∑ d' : Fin 256, qs x wq b qi r d' * proj x wk b (row ⟨j, h⟩ c) d'
        else ⊥ := dif_pos h

/-- The values of one of the 4 tiles, in plain form. -/
theorem vK_of_lt (x : SX.Idx → EReal) (wv : SW.Idx → EReal) (b : Fin 8) (d : Fin 256)
    {j : ℕ} (h : j < 4) (c : Fin 512) :
    vK x wv b d j c = proj x wv b (row ⟨j, h⟩ c) d := dif_pos h

/-- The scaled query row of finite arrays is real. -/
theorem qs_real {x : SX.Idx → EReal} {wq : SW.Idx → EReal}
    (hx : ∀ i, ∃ a : ℝ, x i = (a : EReal)) (hwq : ∀ i, ∃ a : ℝ, wq i = (a : EReal))
    (b : Fin 8) (qi : Fin 4) (r : Fin 512) (d' : Fin 256) :
    ∃ a : ℝ, qs x wq b qi r d' = (a : EReal) := by
  obtain ⟨p, hp⟩ := proj_real hx hwq b (row qi r) d'
  obtain ⟨a, ha⟩ := scale_real
  exact ⟨p * a, by unfold qs; rw [hp, ha, EReal.coe_mul]⟩

/-- An unmasked score of finite arrays is real: the inner product of two real rows. -/
theorem inner_real {x : SX.Idx → EReal} {wq wk : SW.Idx → EReal}
    (hx : ∀ i, ∃ a : ℝ, x i = (a : EReal)) (hwq : ∀ i, ∃ a : ℝ, wq i = (a : EReal))
    (hwk : ∀ i, ∃ a : ℝ, wk i = (a : EReal)) (b : Fin 8) (qi : Fin 4) (r : Fin 512) (k : Fin 2048) :
    ∃ a : ℝ, ∑ d' : Fin 256, qs x wq b qi r d' * proj x wk b k d' = (a : EReal) := by
  choose qr hqr using fun d' => qs_real hx hwq b qi r d'
  choose kr hkr using fun d' => proj_real hx hwk b k d'
  refine ⟨∑ d' : Fin 256, qr d' * kr d', ?_⟩
  rw [← coe_sum]
  exact Finset.sum_congr rfl fun d' _ => by rw [hqr, hkr, EReal.coe_mul]

/-- A score of the running form is never +∞ (finite arguments): it is a real or −∞. -/
theorem sK_ne_top {x : SX.Idx → EReal} {wq wk : SW.Idx → EReal}
    (hx : ∀ i, ∃ a : ℝ, x i = (a : EReal)) (hwq : ∀ i, ∃ a : ℝ, wq i = (a : EReal))
    (hwk : ∀ i, ∃ a : ℝ, wk i = (a : EReal)) (b : Fin 8) (qi : Fin 4) (r : Fin 512)
    (j : ℕ) (c : Fin 512) : sK x wq wk b qi r j c ≠ ⊤ := by
  unfold sK
  split
  · split
    · obtain ⟨a, ha⟩ := inner_real hx hwq hwk b qi r (row ⟨j, ‹j < 4›⟩ c)
      rw [ha]; exact EReal.coe_ne_top _
    · exact bot_ne_top
  · exact bot_ne_top

/-- The values of the running form are real (finite arguments) on the 4 tiles. -/
theorem vK_real {x : SX.Idx → EReal} {wv : SW.Idx → EReal}
    (hx : ∀ i, ∃ a : ℝ, x i = (a : EReal)) (hwv : ∀ i, ∃ a : ℝ, wv i = (a : EReal))
    (b : Fin 8) (d : Fin 256) {j : ℕ} (h : j < 4) (c : Fin 512) :
    ∃ a : ℝ, vK x wv b d j c = (a : EReal) := by
  rw [vK_of_lt x wv b d h c]
  exact proj_real hx hwv b _ d

/-- The masked, scaled score of the index-by-index form is the running form's score: scaling the inner product is
    scaling the query row. -/
theorem score_eq_sK {x : SX.Idx → EReal} {wq wk : SW.Idx → EReal}
    (hx : ∀ i, ∃ a : ℝ, x i = (a : EReal)) (hwq : ∀ i, ∃ a : ℝ, wq i = (a : EReal))
    (hwk : ∀ i, ∃ a : ℝ, wk i = (a : EReal)) (b : Fin 8) (qi : Fin 4) (r : Fin 512)
    (j : Fin 4) (c : Fin 512) :
    score x wq wk b (row qi r) (row j c) = sK x wq wk b qi r j.val c := by
  rw [sK_of_lt x wq wk b qi r j.2 c]
  unfold score
  rw [negInf_eq_bot]
  show (if 512 * j.val + c.val ≤ 512 * qi.val + r.val then _ else ⊥) = _
  by_cases hm : 512 * j.val + c.val ≤ 512 * qi.val + r.val
  · rw [if_pos hm, if_pos hm]
    choose pq hpq using fun d' => proj_real hx hwq b (row qi r) d'
    choose pk hpk using fun d' => proj_real hx hwk b (row j c) d'
    obtain ⟨a, ha⟩ := scale_real
    unfold qs
    rw [ha]
    have e1 : ∀ d' : Fin 256, proj x wq b (row qi r) d' * proj x wk b (row j c) d'
        = ((pq d' * pk d' : ℝ) : EReal) := fun d' => by rw [hpq, hpk, EReal.coe_mul]
    have e2 : ∀ d' : Fin 256, proj x wq b (row qi r) d' * (a : EReal) * proj x wk b (row ⟨j.val, j.2⟩ c) d'
        = ((pq d' * a * pk d' : ℝ) : EReal) := fun d' => by
      rw [show (⟨j.val, j.2⟩ : Fin 4) = j from rfl, hpq, hpk, EReal.coe_mul, EReal.coe_mul]
    rw [Finset.sum_congr rfl (fun d' _ => e1 d'), Finset.sum_congr rfl (fun d' _ => e2 d'),
      coe_sum, coe_sum, ← EReal.coe_mul]
    congr 1
    rw [Finset.sum_mul]
    exact Finset.sum_congr rfl fun d' _ => by ring
  · rw [if_neg hm, if_neg hm]

/-- **The index-by-index attention is the running form.** For finite arguments, `G` at batch `b`, query position
    `row qi r = 512 * qi + r` and head coordinate `d` is numerator over denominator of the running form over the
    key tiles `0 … qi`, with the scaled-query scores `sK` and the values `vK`: the later tiles are wholly masked,
    and column `0` of tile `0` never is. -/
theorem G_eq_onlineOut {x : SX.Idx → EReal} {wq wk wv : SW.Idx → EReal}
    (hx : ∀ i, ∃ a : ℝ, x i = (a : EReal)) (hwq : ∀ i, ∃ a : ℝ, wq i = (a : EReal))
    (hwk : ∀ i, ∃ a : ℝ, wk i = (a : EReal)) (hwv : ∀ i, ∃ a : ℝ, wv i = (a : EReal))
    (b : Fin 8) (qi : Fin 4) (r : Fin 512) (d : Fin 256) :
    G x wq wk wv (ix3 b (row qi r) d)
      = onlineOut (sK x wq wk b qi r) (vK x wv b d) (qi.val + 1) := by
  -- the whole row of scores and values, tile by tile
  have hM : rowMax x wq wk b (row qi r)
      = refMax (fun j c => score x wq wk b (row qi r) (row j c)) := by
    unfold rowMax
    rw [negInf_eq_bot]
    exact fold_row _
  have hD : denom x wq wk b (row qi r)
      = refDen (fun j c => score x wq wk b (row qi r) (row j c)) := by
    unfold denom
    rw [zero_eq_zero, sum_row]
    unfold expo
    rw [hM]
    rfl
  have hG : G x wq wk wv (ix3 b (row qi r) d)
      = refOut (fun j c => score x wq wk b (row qi r) (row j c))
          (fun j c => proj x wv b (row j c) d) := by
    rw [refOut_eq, G_ix3, sum_row]
    unfold expo
    rw [hD, hM]
  rw [hG]
  refine (onlineOut_eq_refOut qi.val qi.2 _ _ (sK x wq wk b qi r) (vK x wv b d)
    (fun j _ c => score_eq_sK hx hwq hwk b qi r j c)
    (fun j _ c => (vK_of_lt x wv b d j.2 c).symm)
    (fun j hj c => ?_) (fun j _ c => sK_ne_top hx hwq hwk b qi r j c) ⟨⟨0, by omega⟩, ?_⟩
    (fun j hj c => vK_real hx hwv b d (lt_of_le_of_lt hj qi.2) c)).symm
  · -- a tile after the query's tile is wholly masked
    unfold score
    have hr := r.isLt
    have hc := c.isLt
    rw [if_neg (by show ¬ (512 * j.val + c.val ≤ 512 * qi.val + r.val); omega), negInf_eq_bot]
  · -- column 0 of tile 0 is never masked
    rw [sK_of_lt x wq wk b qi r (by omega : 0 < 4) ⟨0, by omega⟩,
      if_pos (by show 512 * 0 + 0 ≤ 512 * qi.val + r.val; omega)]
    obtain ⟨a, ha⟩ := inner_real hx hwq hwk b qi r (row ⟨0, by omega⟩ ⟨0, by omega⟩)
    rw [ha]
    exact EReal.coe_ne_bot _

end Cert.Attn

end
-- ==== Proof.KI.InvDefs.lean ====
/- The invariant of the attention kernel's scratch state over the grid, and how the kernel's tile loads and its one tile store read at an index. Before point n (batch b = n / 16, query tile qi = n / 4 mod 4, key tile ki = n mod 4): the key tiles already stored hold the batch's key and value projections; from the second key tile on, the query tile holds the scaled query projection and the three running quantities are the running softmax over the key tiles already folded in. -/
import proofs.«166778_j29291676958807_2_alg».proof.Proof.KI.StepSpec
import proofs.«166778_j29291676958807_2_alg».proof.Proof.KI.InvGrid
import proofs.«166778_j29291676958807_2_alg».proof.Proof.SpecOnline
import Idealize.ShloMosaic.Lib.WritesUnit
import Idealize.ShloMosaic.Lib.ValueIdx

set_option maxRecDepth 16384

noncomputable section

open scoped BigOperators

namespace Cert.KernelIdeal.Attn

open Cert.KernelIdeal Cert.KernelIdeal.Gen
open Idealize.ShloMosaic Idealize.ShloMosaic.ValueIdx
open Cert.Attn (row proj qs sK vK)

/-! ## The invariant -/

/-- The invariant with the batch `b`, the query tile `qi` and the number `ki` of key tiles already visited spelled out:
    (1) every key tile `j` stored so far — all four once `qi > 0`, the first `ki` while `qi = 0` — holds the key and the value
    projections of its 512 rows; (2) once a key tile has been visited the query tile holds the scaled query projection;
    (3) and the running maximum, denominator and numerator are the running softmax over the first `min ki (qi + 1)` key tiles. -/
def InvAt (x : Cert.Attn.SX.Idx → EReal) (wq wk wv : Cert.Attn.SW.Idx → EReal) (b : Fin 8) (qi : Fin 4) (ki : ℕ)
    (st : St Ideal) : Prop :=
  (∀ j : Fin 4, (0 < qi.val ∨ j.val < ki) → ∀ (r : Fin 512) (d : Fin 256),
      st.kc (ix2 (row j r) d) = proj x wk b (row j r) d ∧ st.vc (ix2 (row j r) d) = proj x wv b (row j r) d)
  ∧ (0 < ki → ∀ (r : Fin 512) (d : Fin 256), st.qb (ix2 r d) = qs x wq b qi r d)
  ∧ (0 < ki → ∀ (r : Fin 512) (d : Fin 256),
      st.mm (ix2 r (0 : Fin 1))
          = (OnlineSoftmax.run (sK x wq wk b qi r) (vK x wv b d) (min ki (qi.val + 1))).1
      ∧ st.ll (ix2 r (0 : Fin 1))
          = (OnlineSoftmax.run (sK x wq wk b qi r) (vK x wv b d) (min ki (qi.val + 1))).2.1
      ∧ st.acc (ix2 r d)
          = (OnlineSoftmax.run (sK x wq wk b qi r) (vK x wv b d) (min ki (qi.val + 1))).2.2)

/-- The invariant before point `n`: `InvAt` at batch `n / 16`, query tile `n / 4 mod 4` and key tile `n mod 4`; nothing is
    claimed past the last point. -/
def Inv (x : Cert.Attn.SX.Idx → EReal) (wq wk wv : Cert.Attn.SW.Idx → EReal) (n : ℕ) (st : St Ideal) : Prop :=
  if h : n < 128 then
    InvAt x wq wk wv ⟨n / 16, by omega⟩ ⟨n / 4 % 4, by omega⟩ (n % 4) st
  else True

/-- The invariant before a point of the grid, unfolded. -/
theorem inv_iff (x : Cert.Attn.SX.Idx → EReal) (wq wk wv : Cert.Attn.SW.Idx → EReal) (n : ℕ) (h : n < 128)
    (st : St Ideal) :
    Inv x wq wk wv n st ↔ InvAt x wq wk wv ⟨n / 16, by omega⟩ ⟨n / 4 % 4, by omega⟩ (n % 4) st := by
  unfold Inv; rw [dif_pos h]

/-! ## The tile loads and the tile store at an index -/

section Readings

variable (t : Fin cfg0.N) (qi ki : Fin 4) (hqi : qi.val = t.val / 4 % 4) (hki : ki.val = t.val % 4)
include hqi hki

/-- The key tile's rows of the slab: row `r` of the tile is row `512 · ki + r` of the slab. -/
theorem xK_apply (x0 : Vec Ideal S1x2048x1024 .f32) (h1 : k0_cond1 (grid0.coords t) = 1#1) (r : Fin 512)
    (c : Fin 1024) :
    xK (grid0.coords t) x0 h1 (ix3 (0 : Fin 1) r c) = x0 (ix3 (0 : Fin 1) (row ki r) c) := by
  unfold xK
  show x0 ((Rect.unit (s := S1x2048x1024) (k0_off1 (grid0.coords t)) S1x512x1024.size _).idx (ix3 (0 : Fin 1) r c)) = _
  refine congrArg x0 (funext fun a => Fin.ext ?_)
  match a with
  | ⟨0, _⟩ =>
    show k0_off1 (grid0.coords t) 0 + 1 * 0 = 0
    rw [off1_eq t]; rfl
  | ⟨1, _⟩ =>
    show k0_off1 (grid0.coords t) 1 + 1 * r.val = 512 * ki.val + r.val
    rw [off1_eq t, hki]
    show 512 * (t.val % 4) + 1 * r.val = _
    omega
  | ⟨2, _⟩ =>
    show k0_off1 (grid0.coords t) 2 + 1 * c.val = c.val
    rw [off1_eq t]
    show 0 + 1 * c.val = c.val
    omega

/-- The query tile's rows of the slab: row `r` of the tile is row `512 · qi + r` of the slab. -/
theorem xQ_apply (x0 : Vec Ideal S1x2048x1024 .f32) (h2 : k0_cond2 (grid0.coords t) = 1#1) (r : Fin 512)
    (c : Fin 1024) :
    xQ (grid0.coords t) x0 h2 (ix3 (0 : Fin 1) r c) = x0 (ix3 (0 : Fin 1) (row qi r) c) := by
  unfold xQ
  show x0 ((Rect.unit (s := S1x2048x1024) (k0_off3 (grid0.coords t)) S1x512x1024.size _).idx (ix3 (0 : Fin 1) r c)) = _
  refine congrArg x0 (funext fun a => Fin.ext ?_)
  match a with
  | ⟨0, _⟩ =>
    show k0_off3 (grid0.coords t) 0 + 1 * 0 = 0
    rw [off3_eq t]; rfl
  | ⟨1, _⟩ =>
    show k0_off3 (grid0.coords t) 1 + 1 * r.val = 512 * qi.val + r.val
    rw [off3_eq t, hqi]
    show 512 * (t.val / 4 % 4) + 1 * r.val = _
    omega
  | ⟨2, _⟩ =>
    show k0_off3 (grid0.coords t) 2 + 1 * c.val = c.val
    rw [off3_eq t]
    show 0 + 1 * c.val = c.val
    omega

/-- The key tile's rows of a cache: row `c` of the tile is row `512 · ki + c` of the cache. -/
theorem getTile_apply (h3 : k0_cond3 (grid0.coords t) = 1#1) (kc : Vec Ideal S2048x256 .bf16) (c : Fin 512)
    (d : Fin 256) :
    getTile (grid0.coords t) h3 kc (ix2 c d) = kc (ix2 (row ki c) d) := by
  unfold getTile
  show kc ((Rect.unit (s := S2048x256) (k0_off4 (grid0.coords t)) S512x256.size _).idx (ix2 c d)) = _
  refine congrArg kc (funext fun a => Fin.ext ?_)
  match a with
  | ⟨0, _⟩ =>
    show k0_off4 (grid0.coords t) 0 + 1 * c.val = 512 * ki.val + c.val
    rw [off4_eq t, hki]
    show 512 * (t.val % 4) + 1 * c.val = _
    omega
  | ⟨1, _⟩ =>
    show k0_off4 (grid0.coords t) 1 + 1 * d.val = d.val
    rw [off4_eq t]
    show 0 + 1 * d.val = d.val
    omega

/-- A cache with the key tile's rows overwritten, read in that tile: the stored tile. -/
theorem putTile_apply_self (h1 : k0_cond1 (grid0.coords t) = 1#1) (kc : Vec Ideal S2048x256 .bf16)
    (w : Vec Ideal S512x256 .bf16) (r : Fin 512) (d : Fin 256) :
    putTile (grid0.coords t) h1 kc w (ix2 (row ki r) d) = w (ix2 r d) := by
  unfold putTile
  refine View.read_writes_cons_rows_of_mem (o := 512 * ki.val) sc0.view _ _ w [] (ix2 (row ki r) d) (ix2 r d) ?_ rfl rfl
  rw [off2_eq t, hki]

/-- A cache with the key tile's rows overwritten, read in another tile: the previous contents. -/
theorem putTile_apply_other (h1 : k0_cond1 (grid0.coords t) = 1#1) (kc : Vec Ideal S2048x256 .bf16)
    (w : Vec Ideal S512x256 .bf16) (j : Fin 4) (hj : j ≠ ki) (r : Fin 512) (d : Fin 256) :
    putTile (grid0.coords t) h1 kc w (ix2 (row j r) d) = kc (ix2 (row j r) d) := by
  unfold putTile
  have hjk : j.val ≠ ki.val := fun h => hj (Fin.ext h)
  have hr := r.isLt
  refine (View.read_writes_cons_rows_of_not_mem (off := k0_off2 (grid0.coords t)) (size := S512x256.size)
    (o := 512 * ki.val) (W := 512) sc0.view _ (k0_off2_inb (grid0.coords t) h1) w [] (ix2 (row j r) d)
    (by rw [off2_eq t, hki]) rfl
    (by show 512 * j.val + r.val < 512 * ki.val ∨ 512 * ki.val + 512 ≤ 512 * j.val + r.val; omega)).trans ?_
  rw [View.writes_nil, Memref.IsWhole.read_unread]

end Readings

end Cert.KernelIdeal.Attn

end
-- ==== Proof.KI.PayLayout.lean ====
/-
  Small facts about the kernel's layout operations and contractions read at an index, at the ideal values:
  the three plain matrix products into a zero accumulator as sums over the contracted axis, a column vector's
  casts and broadcasts, a row reduction of a square tile as a sum or a fold of `max` over the row, and the named
  constant that masks a score.
-/
import proofs.«166778_j29291676958807_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.PayValue

open Cert.KernelIdeal Cert.KernelIdeal.Gen Idealize.ShloMosaic Idealize.ShloMosaic.ValueIdx

/-! ## The three matrix products -/

/-- A [512, 1024] by [1024, 256] product into the zero accumulator, at (r, d): the sum over the 1024 channels. -/
theorem mm_proj_apply {φ₁ φ₂ : FTy} (l : FVec Ideal S512x1024 φ₁) (w : FVec Ideal S1024x256 φ₂) (r : Fin 512) (d : Fin 256) :
    matmul dot_S512x1024_S1024x256_S512x256_1_0_0_1_n_n none l w (constant S512x256 .f32 0x00000000#32) (ix2 r d)
      = ∑ c : Fin 1024, l (ix2 r c) * w (ix2 c d) := by
  refine (Ideal.matmul_constant_zero_apply dot_S512x1024_S1024x256_S512x256_1_0_0_1_n_n none l w (ix2 r d)).trans ?_
  rw [← Equiv.sum_comp (contrEquiv1 dot_S512x1024_S1024x256_S512x256_1_0_0_1_n_n 1024 rfl rfl).symm]
  refine Finset.sum_congr rfl fun c _ => ?_
  have hc := contrEquiv1_symm_val dot_S512x1024_S1024x256_S512x256_1_0_0_1_n_n 1024 rfl rfl c
  have el : dot_S512x1024_S1024x256_S512x256_1_0_0_1_n_n.lhsIdx (ix2 r d)
      ((contrEquiv1 dot_S512x1024_S1024x256_S512x256_1_0_0_1_n_n 1024 rfl rfl).symm c) = ix2 r c :=
    funext fun a => Fin.ext (by
      match a with
      | ⟨0, _⟩ => rfl
      | ⟨1, _⟩ => exact (dot_S512x1024_S1024x256_S512x256_1_0_0_1_n_n.lhsIdx_val_of_single rfl _ _).trans hc)
  have er : dot_S512x1024_S1024x256_S512x256_1_0_0_1_n_n.rhsIdx (ix2 r d)
      ((contrEquiv1 dot_S512x1024_S1024x256_S512x256_1_0_0_1_n_n 1024 rfl rfl).symm c) = ix2 c d :=
    funext fun a => Fin.ext (by
      match a with
      | ⟨0, _⟩ => exact (dot_S512x1024_S1024x256_S512x256_1_0_0_1_n_n.rhsIdx_val_of_single rfl _ _).trans hc
      | ⟨1, _⟩ => rfl)
  rw [el, er]

/-- A [512, 256] by [256, 512] product into the zero accumulator, at (r, c): the sum over the 256 head coordinates. -/
theorem mm_score_apply {φ₁ φ₂ : FTy} (l : FVec Ideal S512x256 φ₁) (w : FVec Ideal S256x512 φ₂) (r c : Fin 512) :
    matmul dot_S512x256_S256x512_S512x512_1_0_0_1_n_n none l w (constant S512x512 .f32 0x00000000#32) (ix2 r c)
      = ∑ d : Fin 256, l (ix2 r d) * w (ix2 d c) := by
  refine (Ideal.matmul_constant_zero_apply dot_S512x256_S256x512_S512x512_1_0_0_1_n_n none l w (ix2 r c)).trans ?_
  rw [← Equiv.sum_comp (contrEquiv1 dot_S512x256_S256x512_S512x512_1_0_0_1_n_n 256 rfl rfl).symm]
  refine Finset.sum_congr rfl fun d _ => ?_
  have hd := contrEquiv1_symm_val dot_S512x256_S256x512_S512x512_1_0_0_1_n_n 256 rfl rfl d
  have el : dot_S512x256_S256x512_S512x512_1_0_0_1_n_n.lhsIdx (ix2 r c)
      ((contrEquiv1 dot_S512x256_S256x512_S512x512_1_0_0_1_n_n 256 rfl rfl).symm d) = ix2 r d :=
    funext fun a => Fin.ext (by
      match a with
      | ⟨0, _⟩ => rfl
      | ⟨1, _⟩ => exact (dot_S512x256_S256x512_S512x512_1_0_0_1_n_n.lhsIdx_val_of_single rfl _ _).trans hd)
  have er : dot_S512x256_S256x512_S512x512_1_0_0_1_n_n.rhsIdx (ix2 r c)
      ((contrEquiv1 dot_S512x256_S256x512_S512x512_1_0_0_1_n_n 256 rfl rfl).symm d) = ix2 d c :=
    funext fun a => Fin.ext (by
      match a with
      | ⟨0, _⟩ => exact (dot_S512x256_S256x512_S512x512_1_0_0_1_n_n.rhsIdx_val_of_single rfl _ _).trans hd
      | ⟨1, _⟩ => rfl)
  rw [el, er]

/-- A [512, 512] by [512, 256] product into the zero accumulator, at (r, d): the sum over the 512 key positions. -/
theorem mm_value_apply {φ₁ φ₂ : FTy} (l : FVec Ideal S512x512 φ₁) (w : FVec Ideal S512x256 φ₂) (r : Fin 512) (d : Fin 256) :
    matmul dot_S512x512_S512x256_S512x256_1_0_0_1_n_n none l w (constant S512x256 .f32 0x00000000#32) (ix2 r d)
      = ∑ c : Fin 512, l (ix2 r c) * w (ix2 c d) := by
  refine (Ideal.matmul_constant_zero_apply dot_S512x512_S512x256_S512x256_1_0_0_1_n_n none l w (ix2 r d)).trans ?_
  rw [← Equiv.sum_comp (contrEquiv1 dot_S512x512_S512x256_S512x256_1_0_0_1_n_n 512 rfl rfl).symm]
  refine Finset.sum_congr rfl fun c _ => ?_
  have hc := contrEquiv1_symm_val dot_S512x512_S512x256_S512x256_1_0_0_1_n_n 512 rfl rfl c
  have el : dot_S512x512_S512x256_S512x256_1_0_0_1_n_n.lhsIdx (ix2 r d)
      ((contrEquiv1 dot_S512x512_S512x256_S512x256_1_0_0_1_n_n 512 rfl rfl).symm c) = ix2 r c :=
    funext fun a => Fin.ext (by
      match a with
      | ⟨0, _⟩ => rfl
      | ⟨1, _⟩ => exact (dot_S512x512_S512x256_S512x256_1_0_0_1_n_n.lhsIdx_val_of_single rfl _ _).trans hc)
  have er : dot_S512x512_S512x256_S512x256_1_0_0_1_n_n.rhsIdx (ix2 r d)
      ((contrEquiv1 dot_S512x512_S512x256_S512x256_1_0_0_1_n_n 512 rfl rfl).symm c) = ix2 c d :=
    funext fun a => Fin.ext (by
      match a with
      | ⟨0, _⟩ => exact (dot_S512x512_S512x256_S512x256_1_0_0_1_n_n.rhsIdx_val_of_single rfl _ _).trans hc
      | ⟨1, _⟩ => rfl)
  rw [el, er]

/-! ## A column vector's casts and broadcasts -/

section Column
variable {α : Type}

/-- A vector of 512 entries viewed as a [512, 1] column reads entry r at (r, 0). -/
theorem shapeCast_col_apply (x : S512.Idx → α) (h : S512.ShapeCasts S512x1) (r : Fin 512) (u : Fin 1) :
    shapeCast S512x1 x h (ix2 r u) = x (ix1 r) :=
  shapeCast_apply x h _ _ (by
    have hu : u.val = 0 := by omega
    rw [Shape.rowMajor_val_one, Shape.rowMajor_val_two]
    show r.val = r.val * 1 + u.val
    omega)

/-- A [512, 1] column broadcast along 512 columns reads row r's entry at every (r, c). -/
theorem broadcastTo_col512_apply (x : S512x1.Idx → α) (h : S512x1.Broadcasts S512x512) (r c : Fin 512) :
    broadcastTo S512x512 x h (ix2 r c) = x (ix2 r (0 : Fin 1)) :=
  broadcastTo_apply x h _ _ fun a => by
    match a with
    | ⟨0, _⟩ => rfl
    | ⟨1, _⟩ => rfl

/-- A [512, 1] column broadcast along 256 columns reads row r's entry at every (r, d). -/
theorem broadcastTo_col256_apply (x : S512x1.Idx → α) (h : S512x1.Broadcasts S512x256) (r : Fin 512) (d : Fin 256) :
    broadcastTo S512x256 x h (ix2 r d) = x (ix2 r (0 : Fin 1)) :=
  broadcastTo_apply x h _ _ fun a => by
    match a with
    | ⟨0, _⟩ => rfl
    | ⟨1, _⟩ => rfl

end Column

/-! ## A row reduction of a [512, 512] tile -/

/-- Inserting the column c into the row index r on the reduced axis gives (r, c). -/
theorem lift_row (h : S512x512.Reduces [1] S512) (r c : Fin 512) : h.lift (ix1 r) c = ix2 r c :=
  funext fun a => Fin.ext (by match a with | ⟨0, _⟩ => rfl | ⟨1, _⟩ => rfl)

/-- The sum-reduction over the columns, at row r, is the sum of the row. -/
theorem rowSum_ix1 (src : FVec Ideal S512x512 .f32) (acc : BitVec (FTy.bits .f32)) (h : S512x512.Reduces [1] S512)
    (hφ : FKind.Formats .f32) (hacc : acc = FKind.add.neutral .f32 hφ) (r : Fin 512) :
    multiReduction .add [1] S512 src acc h hφ hacc (ix1 r) = ∑ c : Fin 512, src (ix2 r c) := by
  refine (Ideal.multiReduction_add_single src acc h hφ hacc (ix1 r)).trans ?_
  exact Finset.sum_congr rfl fun c _ => congrArg src (lift_row h r c)

/-- The maximum-reduction over the columns, at row r, is the fold of `max` over the row from the accumulator's value. -/
theorem rowMax_ix1 (src : FVec Ideal S512x512 .f32) (acc : BitVec (FTy.bits .f32)) (h : S512x512.Reduces [1] S512)
    (hφ : FKind.Formats .f32) (hacc : acc = FKind.maximumf.neutral .f32 hφ) (r : Fin 512) :
    multiReduction .maximumf [1] S512 src acc h hφ hacc (ix1 r)
      = (Finset.univ : Finset (Fin 512)).fold max (Ideal.ofBits .f32 acc) (fun c => src (ix2 r c)) := by
  refine (Ideal.multiReduction_maximumf_single src acc h hφ hacc (ix1 r)).trans ?_
  have hf : (src ∘ h.lift (ix1 r)) = fun c : Fin 512 => src (ix2 r c) :=
    funext fun c => congrArg src (lift_row h r c)
  rw [hf]
  rfl

/-! ## The masking constant -/

/-- The constant that replaces a masked score is named: at the ideal values it is −∞, the least extended real. -/
theorem negBig_eq_bot : Named.named (F := Ideal) κ "neg_big" (φ := .f32) 0xFF333332#32 = ⊥ :=
  IdealRules.named_const.ideal_named_scalar _ _ _ _ rfl

end Cert.KernelIdeal.PayValue

end
-- ==== Proof.KI.PayProj.lean ====
/-
  The kernel's payloads that do not depend on the key tile, read at an index at the ideal values: the key, value and
  scaled query projections of an activation tile, the three initial values of the running statistics, the
  accumulator's update, the carried maximum, and the final normalisation.
-/
import proofs.«166778_j29291676958807_2_alg».proof.Proof.KI.PayLayout
import proofs.«166778_j29291676958807_2_alg».proof.Proof.Spec

noncomputable section

open scoped BigOperators

namespace Cert.KernelIdeal.PayValue

open Cert.KernelIdeal Cert.KernelIdeal.Gen Idealize.ShloMosaic Idealize.ShloMosaic.ValueIdx

/-! ## The projections of an activation tile -/

/-- The activation tile viewed as a [512, 1024] matrix reads (0, r, c) at (r, c). -/
theorem pay1_ix2 (xt : Vec Ideal S1x512x1024 .f32) (r : Fin 512) (c : Fin 1024) :
    k0_pay1 (F := Ideal) xt (ix2 r c) = xt (ix3 (0 : Fin 1) r c) := by
  unfold k0_pay1
  exact shapeCast_1ab_ab_apply xt _ r c

/-- A key tile: row r of the activation tile against column d of the weights, summed over the channels. -/
theorem pay2_ix2 (x2 : Vec Ideal S1024x256 .f32) (xt : Vec Ideal S1x512x1024 .f32) (r : Fin 512) (d : Fin 256) :
    k0_pay2 (F := Ideal) x2 xt (ix2 r d) = ∑ c : Fin 1024, xt (ix3 (0 : Fin 1) r c) * x2 (ix2 c d) := by
  unfold k0_pay2
  rw [shapeCast_self]
  refine (truncf_apply (ψ := .bf16) _ bitsLt_bf16_f32 _).trans ?_
  refine (mm_proj_apply _ _ r d).trans ?_
  exact Finset.sum_congr rfl fun c _ => congrArg₂ (· * ·) (pay1_ix2 xt r c) (truncf_apply (ψ := .bf16) _ bitsLt_bf16_f32 _)

/-- A value tile: the same projection against the value weights. -/
theorem pay3_ix2 (x4 : Vec Ideal S1024x256 .f32) (xt : Vec Ideal S1x512x1024 .f32) (r : Fin 512) (d : Fin 256) :
    k0_pay3 (F := Ideal) x4 xt (ix2 r d) = ∑ c : Fin 1024, xt (ix3 (0 : Fin 1) r c) * x4 (ix2 c d) := by
  unfold k0_pay3
  rw [shapeCast_self]
  refine (truncf_apply (ψ := .bf16) _ bitsLt_bf16_f32 _).trans ?_
  refine (mm_proj_apply _ _ r d).trans ?_
  exact Finset.sum_congr rfl fun c _ => congrArg₂ (· * ·) (pay1_ix2 xt r c) (truncf_apply (ψ := .bf16) _ bitsLt_bf16_f32 _)

/-- The scaled query tile: the projection against the query weights, times 1/32. -/
theorem pay4_ix2 (x0 : Vec Ideal S1024x256 .f32) (xt : Vec Ideal S1x512x1024 .f32) (r : Fin 512) (d : Fin 256) :
    k0_pay4 (F := Ideal) x0 xt (ix2 r d)
      = (∑ c : Fin 1024, xt (ix3 (0 : Fin 1) r c) * x0 (ix2 c d)) * Cert.Attn.scale := by
  unfold k0_pay4
  rw [shapeCast_self]
  refine (truncf_apply (ψ := .bf16) _ bitsLt_bf16_f32 _).trans ?_
  refine (mulf_apply _ _ _).trans ?_
  refine congrArg₂ (· * ·) ?_ rfl
  refine (mm_proj_apply _ _ r d).trans ?_
  exact Finset.sum_congr rfl fun c _ =>
    congrArg₂ (· * ·) ((truncf_apply (ψ := .bf16) _ bitsLt_bf16_f32 _).trans (shapeCast_1ab_ab_apply xt _ r c))
      (truncf_apply (ψ := .bf16) _ bitsLt_bf16_f32 _)

/-! ## The initial values of the running statistics -/

/-- The running maximum starts at −∞. -/
theorem pay5_ix2 (r : Fin 512) : k0_pay5 (F := Ideal) (ix2 r (0 : Fin 1)) = Cert.Attn.negInf := by
  unfold k0_pay5
  rw [shapeCast_self]
  rfl

/-- The running denominator starts at 0. -/
theorem pay6_ix2 (r : Fin 512) : k0_pay6 (F := Ideal) (ix2 r (0 : Fin 1)) = Cert.Attn.zero := by
  unfold k0_pay6
  rw [shapeCast_self]
  rfl

/-- The accumulator starts at 0. -/
theorem pay7_ix2 (r : Fin 512) (d : Fin 256) : k0_pay7 (F := Ideal) (ix2 r d) = Cert.Attn.zero := by
  unfold k0_pay7
  rw [shapeCast_self]
  rfl

/-! ## The accumulator's update, the carried maximum, the final normalisation -/

/-- The stored accumulator is the sum of its two parts. -/
theorem pay8_ix2 (a b : FVec Ideal S512x256 .f32) (r : Fin 512) (d : Fin 256) :
    k0_pay8 (F := Ideal) a b (ix2 r d) = a (ix2 r d) + b (ix2 r d) := by
  unfold k0_pay8
  rw [shapeCast_self]
  rfl

/-- The stored maximum is the new maximum. -/
theorem pay9_ix2 (m' : FVec Ideal S512x1 .f32) (r : Fin 512) :
    k0_pay9 (F := Ideal) m' (ix2 r (0 : Fin 1)) = m' (ix2 r (0 : Fin 1)) := by
  unfold k0_pay9
  rw [shapeCast_self]

/-- The result tile: the accumulator divided by the row's denominator. -/
theorem pay10_ix3 (acc : Vec Ideal S512x256 .f32) (l : Vec Ideal S512x1 .f32) (r : Fin 512) (d : Fin 256) :
    k0_pay10 (F := Ideal) acc l (ix3 (0 : Fin 1) r d) = Ideal.div (acc (ix2 r d)) (l (ix2 r (0 : Fin 1))) := by
  unfold k0_pay10
  refine (shapeCast_ab_1ab_apply _ _ (0 : Fin 1) r d).trans ?_
  refine (divf_apply _ _ _).trans ?_
  exact congrArg (Ideal.div (acc (ix2 r d))) (broadcastTo_col256_apply l _ r d)

end Cert.KernelIdeal.PayValue

end
-- ==== Proof.KI.PayScore.lean ====
/-
  The kernel's masked score tile read at an index at the ideal values: the product of a scaled query tile and the
  transpose of a key tile, kept where the key's position in the sequence is not after the query's.
-/
import proofs.«166778_j29291676958807_2_alg».proof.Proof.KI.PayLayout
import Idealize.ShloMosaic.Lib.WordArith
import Idealize.ShloMosaic.Lib.Affine

noncomputable section

open scoped BigOperators

namespace Cert.KernelIdeal.PayValue

open Cert.KernelIdeal Cert.KernelIdeal.Gen Idealize.ShloMosaic Idealize.ShloMosaic.ValueIdx

/-! ## The causal mask of a tile -/

/-- Row r of query tile qi against column c of key tile ki: the two global positions, 512 · tile + offset, are below
    2048, so their 32-bit words compare signed as the numbers do. -/
theorem mask_word (qi ki : Fin 4) (r c : Fin 512) :
    IntOp.cmpi .sge
        (IntOp.addi (Scalar.muli (BitVec.ofNat 32 qi.val) 512#32) (BitVec.ofNat 32 r.val))
        (IntOp.addi (Scalar.muli (BitVec.ofNat 32 ki.val) 512#32) (BitVec.ofNat 32 c.val))
      = if 512 * ki.val + c.val ≤ 512 * qi.val + r.val then 1#1 else 0#1 := by
  have e : ∀ (t : Fin 4) (x : Fin 512),
      IntOp.addi (Scalar.muli (BitVec.ofNat 32 t.val) 512#32) (BitVec.ofNat 32 x.val)
        = BitVec.ofNat 32 (512 * t.val + x.val) := fun t x => by
    show BitVec.ofNat 32 t.val * BitVec.ofNat 32 512 + BitVec.ofNat 32 x.val = _
    rw [BitVec.ofNat_mul_ofNat, BitVec.ofNat_add_ofNat, Nat.mul_comm]
  rw [e, e]
  have hq : (BitVec.ofNat 32 (512 * qi.val + r.val)).toInt = ((512 * qi.val + r.val : Nat) : Int) :=
    WordArith.toInt_ofNat_small _ (by have := qi.isLt; have := r.isLt; omega)
  have hk : (BitVec.ofNat 32 (512 * ki.val + c.val)).toInt = ((512 * ki.val + c.val : Nat) : Int) :=
    WordArith.toInt_ofNat_small _ (by have := ki.isLt; have := c.isLt; omega)
  by_cases h : 512 * ki.val + c.val ≤ 512 * qi.val + r.val
  · rw [if_pos h]
    exact IntOp.cmpi_sge.mpr (by rw [hq, hk]; exact_mod_cast h)
  · rw [if_neg h]
    exact eq_zero_of_ne_one fun e1 => h (by have := IntOp.cmpi_sge.mp e1; rw [hq, hk] at this; exact_mod_cast this)

/-! ## The masked score tile -/

/-- The score tile at (r, c): the inner product of query row r and key row c over the head coordinates where the key's
    global position is not after the query's, −∞ elsewhere. -/
theorem pay11_ix2 (qi ki : Fin 4) (q k : Vec Ideal S512x256 .bf16) (r c : Fin 512) :
    k0_pay11 (F := Ideal) (BitVec.ofNat 32 qi.val) (BitVec.ofNat 32 ki.val) q k (ix2 r c)
      = if 512 * ki.val + c.val ≤ 512 * qi.val + r.val then ∑ d : Fin 256, q (ix2 r d) * k (ix2 c d) else ⊥ := by
  unfold k0_pay11
  show Scalar.select
      (IntOp.cmpi .sge
        (IntOp.addi (Scalar.muli (BitVec.ofNat 32 qi.val) 512#32) (iota .tc S512x512 32 [0] iota_S512x512_d0_w32 (ix2 r c)))
        (IntOp.addi (Scalar.muli (BitVec.ofNat 32 ki.val) 512#32) (iota .tc S512x512 32 [1] iota_S512x512_d1_w32 (ix2 r c))))
      (matmul dot_S512x256_S256x512_S512x512_1_0_0_1_n_n none q
        (transpose S256x512 [1, 0] k transposes_S512x256_p1_0_S256x512) (constant S512x512 .f32 0x00000000#32) (ix2 r c))
      (Named.named (F := Ideal) κ "neg_big" (φ := .f32) 0xFF333332#32) = _
  have hm : IntOp.cmpi .sge
      (IntOp.addi (Scalar.muli (BitVec.ofNat 32 qi.val) 512#32) (iota .tc S512x512 32 [0] iota_S512x512_d0_w32 (ix2 r c)))
      (IntOp.addi (Scalar.muli (BitVec.ofNat 32 ki.val) 512#32) (iota .tc S512x512 32 [1] iota_S512x512_d1_w32 (ix2 r c)))
      = if 512 * ki.val + c.val ≤ 512 * qi.val + r.val then 1#1 else 0#1 := by
    rw [iota_single_apply, iota_single_apply]
    exact mask_word qi ki r c
  rw [hm, mm_score_apply, negBig_eq_bot]
  by_cases h : 512 * ki.val + c.val ≤ 512 * qi.val + r.val
  · rw [if_pos h, if_pos h, select_one]
    exact Finset.sum_congr rfl fun d _ => congrArg (q (ix2 r d) * ·) (transpose_ix2_apply k _ d c)
  · rw [if_neg h, if_neg h, select_zero]

end Cert.KernelIdeal.PayValue

end
-- ==== Proof.KI.PayUpdate.lean ====
/-
  The kernel's payloads of one step of the running softmax over a key tile, read at an index at the ideal values:
  the new row maximum, the rescaling factor, the shifted exponentials, the new denominator, the rescaled accumulator
  and the step's contribution to it. Each is stated over the earlier ones by name.
-/
import proofs.«166778_j29291676958807_2_alg».proof.Proof.KI.PayLayout
import proofs.«166778_j29291676958807_2_alg».proof.Proof.Spec

noncomputable section

open scoped BigOperators

namespace Cert.KernelIdeal.PayValue

open Cert.KernelIdeal Cert.KernelIdeal.Gen Idealize.ShloMosaic Idealize.ShloMosaic.ValueIdx

/-! ## One step of the running softmax over a key tile

`a1 a2` are the query and key tile numbers as 32-bit words, `q k v` the scaled query tile and the key and value tiles,
`m l acc` the running maximum, denominator and accumulator before the step. -/

/-- The new maximum of row r: the old one against the maximum of the row's masked scores, taken from −∞. -/
theorem pay12_ix2 (a1 a2 : BitVec 32) (q k : Vec Ideal S512x256 .bf16) (m : Vec Ideal S512x1 .f32) (r : Fin 512) :
    k0_pay12 (F := Ideal) a1 a2 q k m (ix2 r (0 : Fin 1))
      = max (m (ix2 r (0 : Fin 1)))
          ((Finset.univ : Finset (Fin 512)).fold max Cert.Attn.negInf
            (fun c => k0_pay11 (F := Ideal) a1 a2 q k (ix2 r c))) := by
  unfold k0_pay12
  refine (maximumf_apply _ _ _).trans ?_
  refine congrArg (max (m (ix2 r (0 : Fin 1)))) ?_
  refine (shapeCast_col_apply _ _ r 0).trans ?_
  exact rowMax_ix1 _ _ _ _ _ r

/-- The factor that rescales row r's old statistics: the exponential of the old maximum less the new one. -/
theorem pay13_ix2 (a1 a2 : BitVec 32) (q k : Vec Ideal S512x256 .bf16) (m : Vec Ideal S512x1 .f32) (r : Fin 512) :
    k0_pay13 (F := Ideal) a1 a2 q k m (ix2 r (0 : Fin 1))
      = Ideal.exp (m (ix2 r (0 : Fin 1)) - k0_pay12 (F := Ideal) a1 a2 q k m (ix2 r (0 : Fin 1))) := by
  unfold k0_pay13
  rfl

/-- The shifted exponential of the score at (r, c). -/
theorem pay14_ix2 (a1 a2 : BitVec 32) (q k : Vec Ideal S512x256 .bf16) (m : Vec Ideal S512x1 .f32) (r c : Fin 512) :
    k0_pay14 (F := Ideal) a1 a2 q k m (ix2 r c)
      = Ideal.exp (k0_pay11 (F := Ideal) a1 a2 q k (ix2 r c) - k0_pay12 (F := Ideal) a1 a2 q k m (ix2 r (0 : Fin 1))) := by
  unfold k0_pay14
  show Ideal.exp (k0_pay11 (F := Ideal) a1 a2 q k (ix2 r c)
    - broadcastTo S512x512 (k0_pay12 (F := Ideal) a1 a2 q k m) broadcasts_S512x1_S512x512 (ix2 r c)) = _
  rw [broadcastTo_col512_apply]

/-- The new denominator of row r: the old one rescaled, plus the row's shifted exponentials. -/
theorem pay15_ix2 (a1 a2 : BitVec 32) (q k : Vec Ideal S512x256 .bf16) (m l : Vec Ideal S512x1 .f32) (r : Fin 512) :
    k0_pay15 (F := Ideal) a1 a2 q k m l (ix2 r (0 : Fin 1))
      = k0_pay13 (F := Ideal) a1 a2 q k m (ix2 r (0 : Fin 1)) * l (ix2 r (0 : Fin 1))
        + ∑ c : Fin 512, k0_pay14 (F := Ideal) a1 a2 q k m (ix2 r c) := by
  unfold k0_pay15
  rw [shapeCast_self]
  refine (addf_apply _ _ _).trans ?_
  refine congrArg₂ (· + ·) (mulf_apply _ _ _) ?_
  refine (shapeCast_col_apply _ _ r 0).trans ?_
  exact rowSum_ix1 _ _ _ _ _ r

/-- The old accumulator rescaled. -/
theorem pay16_ix2 (a1 a2 : BitVec 32) (q k : Vec Ideal S512x256 .bf16) (m : Vec Ideal S512x1 .f32)
    (acc : Vec Ideal S512x256 .f32) (r : Fin 512) (d : Fin 256) :
    k0_pay16 (F := Ideal) a1 a2 q k m acc (ix2 r d)
      = k0_pay13 (F := Ideal) a1 a2 q k m (ix2 r (0 : Fin 1)) * acc (ix2 r d) := by
  unfold k0_pay16
  refine (mulf_apply _ _ _).trans ?_
  exact congrArg (· * acc (ix2 r d)) (broadcastTo_col256_apply _ _ r d)

/-- The step's contribution to the accumulator: the shifted exponentials of row r against column d of the value tile. -/
theorem pay17_ix2 (a1 a2 : BitVec 32) (q k v : Vec Ideal S512x256 .bf16) (m : Vec Ideal S512x1 .f32)
    (r : Fin 512) (d : Fin 256) :
    k0_pay17 (F := Ideal) a1 a2 q k v m (ix2 r d)
      = ∑ c : Fin 512, k0_pay14 (F := Ideal) a1 a2 q k m (ix2 r c) * v (ix2 c d) := by
  unfold k0_pay17
  refine (mm_value_apply (φ₁ := .bf16) (φ₂ := .bf16) _ _ r d).trans ?_
  exact Finset.sum_congr rfl fun c _ =>
    congrArg (· * v (ix2 c d)) (truncf_apply (ψ := .bf16) _ bitsLt_bf16_f32 _)

end Cert.KernelIdeal.PayValue

end
-- ==== Proof.KI.Pay.lean ====
/-
  The kernel's payloads read at an index, at the ideal values: the three parts gathered under one name.
-/
import proofs.«166778_j29291676958807_2_alg».proof.Proof.KI.PayProj
import proofs.«166778_j29291676958807_2_alg».proof.Proof.KI.PayScore
import proofs.«166778_j29291676958807_2_alg».proof.Proof.KI.PayUpdate
-- ==== Proof.KI.InvCache.lean ====
/- What one grid point leaves in the two caches and in the query tile, read at an index, under the invariant: the key tile stored at a first query tile is the batch's key (value) projection of its rows, every other tile keeps what it held, and the query tile stored at a first key tile is the scaled query projection. -/
import proofs.«166778_j29291676958807_2_alg».proof.Proof.KI.InvDefs
import proofs.«166778_j29291676958807_2_alg».proof.Proof.KI.Pay

set_option maxRecDepth 16384

noncomputable section

open scoped BigOperators

namespace Cert.KernelIdeal.Attn

open Cert.KernelIdeal Cert.KernelIdeal.Gen
open Idealize.ShloMosaic Idealize.ShloMosaic.ValueIdx
open Cert.Attn (row proj qs sK vK)
open Cert.KernelIdeal.PayValue

section Point

variable {x : Cert.Attn.SX.Idx → EReal} {wq wk wv : Cert.Attn.SW.Idx → EReal}
variable (t : Fin cfg0.N) (b : Fin 8) (qi ki : Fin 4)
  (hqi : qi.val = t.val / 4 % 4) (hki : ki.val = t.val % 4)
  (x0 : Vec Ideal S1x2048x1024 .f32)
  (hx0 : ∀ (r : Fin 2048) (c : Fin 1024), x0 (ix3 (0 : Fin 1) r c) = x (ix3 b r c))
  (st : St Ideal) (hinv : InvAt x wq wk wv b qi ki.val st)
include hqi hki hx0 hinv

/-- After the point, every key tile stored so far — this point's included — holds the key projection of its rows. -/
theorem kcNext_apply (j : Fin 4) (hj : 0 < qi.val ∨ j.val < ki.val + 1) (r : Fin 512) (d : Fin 256) :
    kcNext (grid0.coords t) x0 wk st (ix2 (row j r) d) = proj x wk b (row j r) d := by
  unfold kcNext
  by_cases h1 : k0_cond1 (grid0.coords t) = 1#1
  · rw [dif_pos h1]
    have hq0 : qi.val = 0 := by rw [hqi]; exact (c1_iff t).1 h1
    by_cases hjk : j = ki
    · subst hjk
      rw [putTile_apply_self t qi j hqi hki h1, pay2_ix2]
      unfold Cert.Attn.proj
      refine Finset.sum_congr rfl fun c _ => ?_
      rw [xK_apply t qi j hqi hki, hx0]
    · rw [putTile_apply_other t qi ki hqi hki h1 _ _ j hjk]
      have hne : j.val ≠ ki.val := fun h => hjk (Fin.ext h)
      exact (hinv.1 j (Or.inr (by omega)) r d).1
  · rw [dif_neg h1]
    have hq : 0 < qi.val := by rw [hqi]; exact Nat.pos_of_ne_zero fun h => h1 ((c1_iff t).2 h)
    exact (hinv.1 j (Or.inl hq) r d).1

/-- After the point, every key tile stored so far — this point's included — holds the value projection of its rows. -/
theorem vcNext_apply (j : Fin 4) (hj : 0 < qi.val ∨ j.val < ki.val + 1) (r : Fin 512) (d : Fin 256) :
    vcNext (grid0.coords t) x0 wv st (ix2 (row j r) d) = proj x wv b (row j r) d := by
  unfold vcNext
  by_cases h1 : k0_cond1 (grid0.coords t) = 1#1
  · rw [dif_pos h1]
    have hq0 : qi.val = 0 := by rw [hqi]; exact (c1_iff t).1 h1
    by_cases hjk : j = ki
    · subst hjk
      rw [putTile_apply_self t qi j hqi hki h1, pay3_ix2]
      unfold Cert.Attn.proj
      refine Finset.sum_congr rfl fun c _ => ?_
      rw [xK_apply t qi j hqi hki, hx0]
    · rw [putTile_apply_other t qi ki hqi hki h1 _ _ j hjk]
      have hne : j.val ≠ ki.val := fun h => hjk (Fin.ext h)
      exact (hinv.1 j (Or.inr (by omega)) r d).2
  · rw [dif_neg h1]
    have hq : 0 < qi.val := by rw [hqi]; exact Nat.pos_of_ne_zero fun h => h1 ((c1_iff t).2 h)
    exact (hinv.1 j (Or.inl hq) r d).2

/-- After the point the query tile holds the scaled query projection. -/
theorem qbNext_apply (r : Fin 512) (d : Fin 256) :
    qbNext (grid0.coords t) x0 wq st (ix2 r d) = qs x wq b qi r d := by
  unfold qbNext
  by_cases h2 : k0_cond2 (grid0.coords t) = 1#1
  · rw [dif_pos h2, pay4_ix2]
    unfold Cert.Attn.qs Cert.Attn.proj
    refine congrArg (· * Cert.Attn.scale) (Finset.sum_congr rfl fun c _ => ?_)
    rw [xQ_apply t qi ki hqi hki, hx0]
  · rw [dif_neg h2]
    have hk : 0 < ki.val := by rw [hki]; exact Nat.pos_of_ne_zero fun h => h2 ((c2_iff t).2 h)
    exact hinv.2.1 hk r d

end Point

end Cert.KernelIdeal.Attn

end
-- ==== Proof.KI.InvUpdate.lean ====
/- What one grid point leaves in the three running quantities, read at an index, under the invariant: the values the update starts from are the running softmax over the key tiles already folded in (reset at a first key tile), and where the key tile is not after the query tile the update is one more step of the running softmax with that tile's masked scores and values. -/
import proofs.«166778_j29291676958807_2_alg».proof.Proof.KI.InvCache

set_option maxRecDepth 16384

noncomputable section

open scoped BigOperators

namespace Cert.KernelIdeal.Attn

open Cert.KernelIdeal Cert.KernelIdeal.Gen
open Idealize.ShloMosaic Idealize.ShloMosaic.ValueIdx
open Cert.Attn (row proj qs sK vK)
open Cert.KernelIdeal.PayValue OnlineSoftmax

section Point

variable {x : Cert.Attn.SX.Idx → EReal} {wq wk wv : Cert.Attn.SW.Idx → EReal}
variable (t : Fin cfg0.N) (b : Fin 8) (qi ki : Fin 4)
  (hqi : qi.val = t.val / 4 % 4) (hki : ki.val = t.val % 4)
  (x0 : Vec Ideal S1x2048x1024 .f32)
  (hx0 : ∀ (r : Fin 2048) (c : Fin 1024), x0 (ix3 (0 : Fin 1) r c) = x (ix3 b r c))
  (st : St Ideal) (hinv : InvAt x wq wk wv b qi ki.val st)
include hqi hki hx0 hinv

/-- The values the update starts from: the running softmax over the key tiles already folded in. -/
theorem start_apply (r : Fin 512) (d : Fin 256) :
    m0 (grid0.coords t) st (ix2 r (0 : Fin 1))
        = (run (sK x wq wk b qi r) (vK x wv b d) (min ki.val (qi.val + 1))).1
    ∧ l0 (grid0.coords t) st (ix2 r (0 : Fin 1))
        = (run (sK x wq wk b qi r) (vK x wv b d) (min ki.val (qi.val + 1))).2.1
    ∧ a0 (grid0.coords t) st (ix2 r d)
        = (run (sK x wq wk b qi r) (vK x wv b d) (min ki.val (qi.val + 1))).2.2 := by
  unfold m0 l0 a0
  by_cases h2 : k0_cond2 (grid0.coords t) = 1#1
  · have hk0 : ki.val = 0 := by rw [hki]; exact (c2_iff t).1 h2
    rw [if_pos h2, if_pos h2, if_pos h2, hk0, Nat.zero_min, pay5_ix2, pay6_ix2, pay7_ix2,
      Cert.Attn.negInf_eq_bot, Cert.Attn.zero_eq_zero]
    exact ⟨rfl, rfl, rfl⟩
  · rw [if_neg h2, if_neg h2, if_neg h2]
    have hk : 0 < ki.val := by rw [hki]; exact Nat.pos_of_ne_zero fun h => h2 ((c2_iff t).2 h)
    exact hinv.2.2 hk r d

/-- The score tile of the point: the running form's scores of key tile `ki`. -/
theorem score_apply (h3 : k0_cond3 (grid0.coords t) = 1#1) (r c : Fin 512) :
    k0_pay11 (F := Ideal) (BitVec.ofNat 32 ((grid0.coords t) 1).val) (BitVec.ofNat 32 ((grid0.coords t) 2).val)
        (qbNext (grid0.coords t) x0 wq st) (getTile (grid0.coords t) h3 (kcNext (grid0.coords t) x0 wk st)) (ix2 r c)
      = sK x wq wk b qi r ki.val c := by
  rw [coords1 t, coords2 t, ← hqi, ← hki, pay11_ix2 qi ki, Cert.Attn.sK_of_lt x wq wk b qi r ki.2 c]
  refine if_congr Iff.rfl (Finset.sum_congr rfl fun d' _ => ?_) rfl
  rw [qbNext_apply t b qi ki hqi hki x0 hx0 st hinv, getTile_apply t qi ki hqi hki,
    kcNext_apply t b qi ki hqi hki x0 hx0 st hinv ki (Or.inr (Nat.lt_succ_self _))]

/-- After the point the three running quantities are the running softmax over the key tiles folded in so far, this
    point's included where it is not after the query tile. -/
theorem next_apply (r : Fin 512) (d : Fin 256) :
    mmNext (grid0.coords t) x0 wq wk st (ix2 r (0 : Fin 1))
        = (run (sK x wq wk b qi r) (vK x wv b d) (min (ki.val + 1) (qi.val + 1))).1
    ∧ llNext (grid0.coords t) x0 wq wk st (ix2 r (0 : Fin 1))
        = (run (sK x wq wk b qi r) (vK x wv b d) (min (ki.val + 1) (qi.val + 1))).2.1
    ∧ accNext (grid0.coords t) x0 wq wk wv st (ix2 r d)
        = (run (sK x wq wk b qi r) (vK x wv b d) (min (ki.val + 1) (qi.val + 1))).2.2 := by
  obtain ⟨hm, hl, ha⟩ := start_apply t b qi ki hqi hki x0 hx0 st hinv r d
  by_cases h3 : k0_cond3 (grid0.coords t) = 1#1
  · have hle : ki.val ≤ qi.val := by rw [hki, hqi]; exact (c3_iff t).1 h3
    have hJ : min ki.val (qi.val + 1) = ki.val := by omega
    have hJ' : min (ki.val + 1) (qi.val + 1) = ki.val + 1 := by omega
    rw [hJ] at hm hl ha
    rw [hJ']
    have hsc := score_apply t b qi ki hqi hki x0 hx0 st hinv h3 r
    -- the new maximum
    have hmax : k0_pay12 (F := Ideal) (BitVec.ofNat 32 ((grid0.coords t) 1).val)
          (BitVec.ofNat 32 ((grid0.coords t) 2).val) (qbNext (grid0.coords t) x0 wq st)
          (getTile (grid0.coords t) h3 (kcNext (grid0.coords t) x0 wk st)) (m0 (grid0.coords t) st)
          (ix2 r (0 : Fin 1))
        = (run (sK x wq wk b qi r) (vK x wv b d) (ki.val + 1)).1 := by
      rw [pay12_ix2, hm, Cert.Attn.negInf_eq_bot, run_succ_max]
      exact congrArg (max _) (congrArg (fun f => (Finset.univ : Finset (Fin 512)).fold max ⊥ f) (funext hsc))
    -- the values of the key tile
    have hval : ∀ c : Fin 512,
        getTile (grid0.coords t) h3 (vcNext (grid0.coords t) x0 wv st) (ix2 c d) = vK x wv b d ki.val c := fun c => by
      rw [getTile_apply t qi ki hqi hki,
        vcNext_apply t b qi ki hqi hki x0 hx0 st hinv ki (Or.inr (Nat.lt_succ_self _)),
        Cert.Attn.vK_of_lt x wv b d ki.2 c]
    refine ⟨?_, ?_, ?_⟩
    · unfold mmNext
      rw [dif_pos h3, pay9_ix2]
      exact hmax
    · unfold llNext
      rw [dif_pos h3, pay15_ix2, pay13_ix2, hmax, hm, hl,
        Finset.sum_congr rfl (fun c _ => (pay14_ix2 _ _ _ _ _ r c).trans (by rw [hmax, hsc c]))]
      exact (run_succ_den' _ _ ki.val).symm
    · unfold accNext
      rw [dif_pos h3, pay8_ix2, pay16_ix2, pay17_ix2, pay13_ix2, hmax, hm, ha,
        Finset.sum_congr rfl (fun c _ => congrArg₂ (· * ·)
          ((pay14_ix2 _ _ _ _ _ r c).trans (by rw [hmax, hsc c])) (hval c))]
      exact (run_succ_num' _ _ ki.val).symm
  · have hlt : qi.val < ki.val := by
      rw [hki, hqi]; exact Nat.lt_of_not_le fun h => h3 ((c3_iff t).2 h)
    have hJ : min (ki.val + 1) (qi.val + 1) = min ki.val (qi.val + 1) := by omega
    rw [hJ]
    refine ⟨?_, ?_, ?_⟩
    · unfold mmNext; rw [dif_neg h3]; exact hm
    · unfold llNext; rw [dif_neg h3]; exact hl
    · unfold accNext; rw [dif_neg h3]; exact ha

end Point

end Cert.KernelIdeal.Attn

end
-- ==== Proof.KI.InvStep.lean ====
/- The invariant of the scratch state holds before the first grid point, is preserved by every grid point, and at a last key tile gives the stored block: the attention of the query tile's rows. -/
import proofs.«166778_j29291676958807_2_alg».proof.Proof.KI.InvUpdate

set_option maxRecDepth 16384

noncomputable section

open scoped BigOperators

namespace Cert.KernelIdeal.Attn

open Cert.KernelIdeal Cert.KernelIdeal.Gen
open Idealize.ShloMosaic Idealize.ShloMosaic.ValueIdx
open Cert.Attn (row proj qs sK vK)
open Cert.KernelIdeal.PayValue OnlineSoftmax

section Pure

variable {x : Cert.Attn.SX.Idx → EReal} {wq wk wv : Cert.Attn.SW.Idx → EReal}

/-- The invariant depends on the batch, the query tile and the key tile count through their numbers only. -/
theorem invAt_of_eq {b b' : Fin 8} {qi qi' : Fin 4} {ki ki' : ℕ} {st : St Ideal} (hb : b'.val = b.val)
    (hq : qi'.val = qi.val) (hk : ki' = ki) (h : InvAt x wq wk wv b qi ki st) : InvAt x wq wk wv b' qi' ki' st := by
  obtain rfl : b' = b := Fin.ext hb
  obtain rfl : qi' = qi := Fin.ext hq
  subst hk
  exact h

/-- At the first query tile before the first key tile nothing is claimed. -/
theorem invAt_zero (b : Fin 8) (qi : Fin 4) (hq : qi.val = 0) (st : St Ideal) : InvAt x wq wk wv b qi 0 st :=
  ⟨fun j hj => by rcases hj with h | h <;> omega, fun h => absurd h (Nat.lt_irrefl 0),
    fun h => absurd h (Nat.lt_irrefl 0)⟩

/-- After the last key tile of a query tile the caches are complete, which is all the next query tile's first point
    asks. -/
theorem invAt_wrap (b : Fin 8) (qi qi' : Fin 4) (hq : qi'.val = qi.val + 1) (st : St Ideal)
    (h : InvAt x wq wk wv b qi 4 st) : InvAt x wq wk wv b qi' 0 st :=
  ⟨fun j _ => h.1 j (Or.inr j.isLt), fun h0 => absurd h0 (Nat.lt_irrefl 0), fun h0 => absurd h0 (Nat.lt_irrefl 0)⟩

/-- One grid point within its query tile: the invariant with one more key tile visited. -/
theorem invAt_next (t : Fin cfg0.N) (b : Fin 8) (qi ki : Fin 4) (hqi : qi.val = t.val / 4 % 4)
    (hki : ki.val = t.val % 4) (x0 : Vec Ideal S1x2048x1024 .f32)
    (hx0 : ∀ (r : Fin 2048) (c : Fin 1024), x0 (ix3 (0 : Fin 1) r c) = x (ix3 b r c))
    (st : St Ideal) (hinv : InvAt x wq wk wv b qi ki.val st) :
    InvAt x wq wk wv b qi (ki.val + 1) (stepSpec (grid0.coords t) x0 wq wk wv st) :=
  ⟨fun j hj r d => ⟨kcNext_apply t b qi ki hqi hki x0 hx0 st hinv j hj r d,
      vcNext_apply t b qi ki hqi hki x0 hx0 st hinv j hj r d⟩,
    fun _ r d => qbNext_apply t b qi ki hqi hki x0 hx0 st hinv r d,
    fun _ r d => next_apply t b qi ki hqi hki x0 hx0 st hinv r d⟩

/-- **Before the first point** the invariant holds of any state. -/
theorem inv_zero (x : Cert.Attn.SX.Idx → EReal) (wq wk wv : Cert.Attn.SW.Idx → EReal) (st : St Ideal) :
    Inv x wq wk wv 0 st := by
  rw [inv_iff x wq wk wv 0 (by omega)]
  exact invAt_zero _ _ rfl st

/-- **One point preserves the invariant**: `x0` is the slab of the point's batch `b`. -/
theorem inv_step (t : Fin cfg0.N) (b : Fin 8) (hb : b.val = t.val / 16) (x0 : Vec Ideal S1x2048x1024 .f32)
    (hx0 : ∀ (r : Fin 2048) (c : Fin 1024), x0 (ix3 (0 : Fin 1) r c) = x (ix3 b r c))
    (st : St Ideal) (h : Inv x wq wk wv t.val st) :
    Inv x wq wk wv (t.val + 1) (stepSpec (grid0.coords t) x0 wq wk wv st) := by
  have ht : t.val < 128 := lt_of_lt_of_eq t.isLt N_128
  rw [inv_iff x wq wk wv t.val ht] at h
  have hinv : InvAt x wq wk wv b (⟨t.val / 4 % 4, by omega⟩ : Fin 4) (⟨t.val % 4, by omega⟩ : Fin 4).val st :=
    invAt_of_eq hb rfl rfl h
  have key := invAt_next t b ⟨t.val / 4 % 4, by omega⟩ ⟨t.val % 4, by omega⟩ rfl rfl x0 hx0 st hinv
  unfold Inv
  by_cases hn : t.val + 1 < 128
  · rw [dif_pos hn]
    by_cases hk3 : t.val % 4 = 3
    · by_cases hq3 : t.val / 4 % 4 = 3
      · -- the next point opens a new batch
        refine invAt_of_eq (b := ⟨(t.val + 1) / 16, by omega⟩) (qi := ⟨(t.val + 1) / 4 % 4, by omega⟩) (ki := 0)
          rfl rfl (by omega) ?_
        exact invAt_zero _ _ (by show (t.val + 1) / 4 % 4 = 0; omega) _
      · -- the next point opens the next query tile of the same batch
        refine invAt_of_eq (b := b) (qi := ⟨(t.val + 1) / 4 % 4, by omega⟩) (ki := 0)
          (by show (t.val + 1) / 16 = b.val; omega) rfl (by omega) ?_
        refine invAt_wrap b ⟨t.val / 4 % 4, by omega⟩ _ (by show (t.val + 1) / 4 % 4 = t.val / 4 % 4 + 1; omega) _ ?_
        exact invAt_of_eq rfl rfl (by show 4 = t.val % 4 + 1; omega) key
    · -- the next point is the next key tile of the same query tile
      exact invAt_of_eq (by show (t.val + 1) / 16 = b.val; omega) (by show (t.val + 1) / 4 % 4 = t.val / 4 % 4; omega)
        (by show (t.val + 1) % 4 = t.val % 4 + 1; omega) key
  · rw [dif_neg hn]; trivial

/-- **At a last key tile the stored block is the attention of the query tile's rows**: after the point's own update
    the running quantities are the running softmax over the key tiles `0 … qi`, and the block is numerator over
    denominator. -/
theorem inv_out (hx : ∀ i, ∃ a : ℝ, x i = (a : EReal)) (hwq : ∀ i, ∃ a : ℝ, wq i = (a : EReal))
    (hwk : ∀ i, ∃ a : ℝ, wk i = (a : EReal)) (hwv : ∀ i, ∃ a : ℝ, wv i = (a : EReal))
    (t : Fin cfg0.N) (h4 : t.val % 4 = 3) (b : Fin 8) (hb : b.val = t.val / 16) (qi : Fin 4)
    (hqi : qi.val = t.val / 4 % 4) (x0 : Vec Ideal S1x2048x1024 .f32)
    (hx0 : ∀ (r : Fin 2048) (c : Fin 1024), x0 (ix3 (0 : Fin 1) r c) = x (ix3 b r c))
    (st : St Ideal) (h : Inv x wq wk wv t.val st) (r : Fin 512) (d : Fin 256) :
    outSpec (grid0.coords t) x0 wq wk wv st (ix3 (0 : Fin 1) r d) = Cert.Attn.G x wq wk wv (ix3 b (row qi r) d) := by
  have ht : t.val < 128 := lt_of_lt_of_eq t.isLt N_128
  rw [inv_iff x wq wk wv t.val ht] at h
  have hinv : InvAt x wq wk wv b qi (⟨t.val % 4, by omega⟩ : Fin 4).val st := invAt_of_eq hb hqi rfl h
  obtain ⟨_, hl, ha⟩ := next_apply t b qi ⟨t.val % 4, by omega⟩ hqi rfl x0 hx0 st hinv r d
  have hJ : min ((⟨t.val % 4, by omega⟩ : Fin 4).val + 1) (qi.val + 1) = qi.val + 1 := by
    show min (t.val % 4 + 1) (qi.val + 1) = qi.val + 1
    have := qi.isLt
    omega
  rw [hJ] at hl ha
  unfold outSpec
  rw [pay10_ix3, hl, ha, Cert.Attn.G_eq_onlineOut hx hwq hwk hwv b qi r d]
  rfl

end Pure

end Cert.KernelIdeal.Attn

end
-- ==== Proof.KI.Blocks.lean ====
/- What the body is handed at a point: the batch's [2048, 1024] slab of x, and the three weight arrays whole. -/
import proofs.«166778_j29291676958807_2_alg».proof.Proof.KI.Common
import Idealize.ShloMosaic.Lib.Pipeline.Value

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ)

/-- The input windows' block indices at a point: the batch for `x`'s slab, block (0, 0) for the three weights. -/
theorem index0 : ∀ t : Fin cfg0.N, win0_0.index t 0 = t.val / 16 ∧ win0_0.index t 1 = 0 ∧ win0_0.index t 2 = 0 :=
  (by decide +kernel : ∀ t : Fin grid0.N, win0_0.index t 0 = t.val / 16 ∧ win0_0.index t 1 = 0 ∧ win0_0.index t 2 = 0)
theorem index1 : ∀ t : Fin cfg0.N, win0_1.index t 0 = 0 ∧ win0_1.index t 1 = 0 :=
  (by decide +kernel : ∀ t : Fin grid0.N, win0_1.index t 0 = 0 ∧ win0_1.index t 1 = 0)
theorem index2 : ∀ t : Fin cfg0.N, win0_2.index t 0 = 0 ∧ win0_2.index t 1 = 0 :=
  (by decide +kernel : ∀ t : Fin grid0.N, win0_2.index t 0 = 0 ∧ win0_2.index t 1 = 0)
theorem index3 : ∀ t : Fin cfg0.N, win0_3.index t 0 = 0 ∧ win0_3.index t 1 = 0 :=
  (by decide +kernel : ∀ t : Fin grid0.N, win0_3.index t 0 = 0 ∧ win0_3.index t 1 = 0)

/-- The slab the body is handed at point `t` is batch `t / 16` of `x`. -/
theorem iblk0_apply (c : Dev nD) (t : Fin cfg0.N) (x : S1x2048x1024.Idx) (k : S8x2048x1024.Idx)
    (hk0 : (k 0).val = t.val / 16) (hk1 : (k 1).val = (x 1).val) (hk2 : (k 2).val = (x 2).val) :
    (iblk m c 0 t : Vec F S1x2048x1024 .f32) x = (m ((c : Thread nD τ).loc main_arg0) : S8x2048x1024.Idx → Elt F .f32) k := by
  obtain ⟨e0, e1, e2⟩ := index0 t
  have hx0 : (x 0).val < 1 := (x 0).isLt
  unfold iblk
  rw [View.read_apply]
  show V m c main_arg0 _ = m (c.tc.loc main_arg0) _
  unfold V
  congr 1
  funext a
  apply Fin.ext
  match a with
  | ⟨0, _⟩ => show win0_0.index t 0 * 1 + 1 * (x 0).val = (k 0).val; rw [e0, hk0]; omega
  | ⟨1, _⟩ => show win0_0.index t 1 * 2048 + 1 * (x 1).val = (k 1).val; rw [e1, hk1]; omega
  | ⟨2, _⟩ => show win0_0.index t 2 * 1024 + 1 * (x 2).val = (k 2).val; rw [e2, hk2]; omega

/-- Each weight block is the whole weight array. -/
theorem iblk1_apply (c : Dev nD) (t : Fin cfg0.N) (x : S1024x256.Idx) :
    (iblk m c 1 t : Vec F S1024x256 .f32) x = (m ((c : Thread nD τ).loc main_arg1) : S1024x256.Idx → Elt F .f32) x := by
  obtain ⟨e0, e1⟩ := index1 t
  unfold iblk
  rw [View.read_apply]
  show V m c main_arg1 _ = m (c.tc.loc main_arg1) _
  unfold V
  congr 1
  funext a
  apply Fin.ext
  match a with
  | ⟨0, _⟩ => show win0_1.index t 0 * 1024 + 1 * (x 0).val = (x 0).val; rw [e0]; omega
  | ⟨1, _⟩ => show win0_1.index t 1 * 256 + 1 * (x 1).val = (x 1).val; rw [e1]; omega
theorem iblk2_apply (c : Dev nD) (t : Fin cfg0.N) (x : S1024x256.Idx) :
    (iblk m c 2 t : Vec F S1024x256 .f32) x = (m ((c : Thread nD τ).loc main_arg2) : S1024x256.Idx → Elt F .f32) x := by
  obtain ⟨e0, e1⟩ := index2 t
  unfold iblk
  rw [View.read_apply]
  show V m c main_arg2 _ = m (c.tc.loc main_arg2) _
  unfold V
  congr 1
  funext a
  apply Fin.ext
  match a with
  | ⟨0, _⟩ => show win0_2.index t 0 * 1024 + 1 * (x 0).val = (x 0).val; rw [e0]; omega
  | ⟨1, _⟩ => show win0_2.index t 1 * 256 + 1 * (x 1).val = (x 1).val; rw [e1]; omega
theorem iblk3_apply (c : Dev nD) (t : Fin cfg0.N) (x : S1024x256.Idx) :
    (iblk m c 3 t : Vec F S1024x256 .f32) x = (m ((c : Thread nD τ).loc main_arg3) : S1024x256.Idx → Elt F .f32) x := by
  obtain ⟨e0, e1⟩ := index3 t
  unfold iblk
  rw [View.read_apply]
  show V m c main_arg3 _ = m (c.tc.loc main_arg3) _
  unfold V
  congr 1
  funext a
  apply Fin.ext
  match a with
  | ⟨0, _⟩ => show win0_3.index t 0 * 1024 + 1 * (x 0).val = (x 0).val; rw [e0]; omega
  | ⟨1, _⟩ => show win0_3.index t 1 * 256 + 1 * (x 1).val = (x 1).val; rw [e1]; omega

end Cert.KernelIdeal.Attn

end
-- ==== Proof.Finite.lean ====
/-
  Finiteness out of the precondition. The precondition is the conjunction, over the four argument arrays, of
  "every entry's absolute value is below +∞" (a comparison at each entry, reduced by `and` over all axes). Over the
  extended reals `|x| = max x (-x)`, and `max x (-x) < ⊤` excludes both `x = ⊤` and `x = ⊥`: every entry is a real.
-/
import proofs.«166778_j29291676958807_2_alg».proof.Defs
import proofs.«166778_j29291676958807_2_alg».proof.Proof.Gen.Pre_finite_inputs
import Idealize.ShloMosaic.Lib.ReduceAll
import Idealize.ShloMosaic.Lib.ValueIdx
import Idealize.ShloMosaic.PureOps.Ideal

noncomputable section

namespace Cert.Attn

open Idealize.ShloMosaic Idealize.ShloMosaic.ValueIdx Cert.Pre_finite_inputs

/-- The scalar shape has one index. -/
instance subsingleton_scalar_idx : Subsingleton S_.Idx := ⟨fun a b => funext fun d => d.elim0⟩

/-- The word 0x7F800000 denotes +∞. -/
theorem posInf_eq_top : Ideal.ofBits .f32 0x7F800000#32 = ⊤ := by simp [Ideal.ofBits, Ideal.ieee]

/-- An extended real whose absolute value is below +∞ is a real number. -/
theorem real_of_abs_lt_top (x : EReal)
    (h : Ideal.cmp .olt (max x (-x)) (Ideal.ofBits .f32 0x7F800000#32) = 1#1) :
    ∃ a : ℝ, x = (a : EReal) := by
  rw [posInf_eq_top] at h
  unfold Ideal.cmp at h
  induction x using EReal.rec with
  | bot => simp at h
  | coe r => exact ⟨r, rfl⟩
  | top => simp at h

/-- The precondition `|x| < +∞` at every entry of the four arrays says every entry is a real number. -/
theorem finite_of_fn (x0 : (⟨S8x2048x1024, .f32⟩ : BufTy).Contents (Elt Ideal))
    (x1 x2 x3 : (⟨S1024x256, .f32⟩ : BufTy).Contents (Elt Ideal))
    (h : Cert.Pre_finite_inputs.fn (F := Ideal) x0 x1 x2 x3 = fun _ => 1#1) :
    (∀ i, ∃ a : ℝ, x0 i = (a : EReal)) ∧ (∀ i, ∃ a : ℝ, x1 i = (a : EReal))
      ∧ (∀ i, ∃ a : ℝ, x2 i = (a : EReal)) ∧ (∀ i, ∃ a : ℝ, x3 i = (a : EReal)) := by
  have h0 := congrFun h ValueIdx.ix0
  dsimp only [Cert.Pre_finite_inputs.fn, Cert.Pre_finite_inputs.fn_part1] at h0
  obtain ⟨h012, h3⟩ := IntOp.andi_eq_one.1 (show IntOp.andi _ _ = 1#1 from h0)
  obtain ⟨h01, h2⟩ := IntOp.andi_eq_one.1 (show IntOp.andi _ _ = 1#1 from h012)
  obtain ⟨h0a, h1⟩ := IntOp.andi_eq_one.1 (show IntOp.andi _ _ = 1#1 from h01)
  refine ⟨fun i => ?_, fun i => ?_, fun i => ?_, fun i => ?_⟩
  · exact real_of_abs_lt_top (x0 i) (Host.reduce_andi_all _ _ _ _ ix0 h0a i)
  · exact real_of_abs_lt_top (x1 i) (Host.reduce_andi_all _ _ _ _ ix0 h1 i)
  · exact real_of_abs_lt_top (x2 i) (Host.reduce_andi_all _ _ _ _ ix0 h2 i)
  · exact real_of_abs_lt_top (x3 i) (Host.reduce_andi_all _ _ _ _ ix0 h3 i)

end Cert.Attn

end
-- ==== Proof.KI.Value.lean ====
/- The idealized attention kernel's value: under finite arguments its result array ends at the attention function G of the arguments — the invariant of the scratch state over the grid, the runs read as the written-out step, the blocks the body is handed, and the blocks written back, put together. -/
import proofs.«166778_j29291676958807_2_alg».proof.Proof.KI.Final
import proofs.«166778_j29291676958807_2_alg».proof.Proof.KI.Glue
import proofs.«166778_j29291676958807_2_alg».proof.Proof.KI.InvStep
import proofs.«166778_j29291676958807_2_alg».proof.Proof.KI.Blocks
import proofs.«166778_j29291676958807_2_alg».proof.Proof.Finite

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Attn (row)
open Idealize.ShloMosaic.ValueIdx

variable (m : (ℓ : Loc nD τ sig) → Buf (Elt Ideal) ℓ) (ρ : Dev nD → PrngReg)

/-- The four argument arrays as launched, on core `c`. -/
abbrev xA (c : Dev nD) : S8x2048x1024.Idx → Elt Ideal .f32 := m ((c.tc : Thread nD τ).loc main_arg0)
abbrev wqA (c : Dev nD) : S1024x256.Idx → Elt Ideal .f32 := m ((c.tc : Thread nD τ).loc main_arg1)
abbrev wkA (c : Dev nD) : S1024x256.Idx → Elt Ideal .f32 := m ((c.tc : Thread nD τ).loc main_arg2)
abbrev wvA (c : Dev nD) : S1024x256.Idx → Elt Ideal .f32 := m ((c.tc : Thread nD τ).loc main_arg3)

/-- The claimed result: the attention function of the launch contents of the arguments. -/
def Garr (c : Dev nD) : Buf (Elt Ideal) ((c.tc : Thread nD τ).loc main_v0) :=
  Cert.Attn.G (xA m c) (wqA m c) (wkA m c) (wvA m c)

/-- The invariant of the scratch state before point `n`, at the launch contents of the arguments. -/
def InvI (c : Dev nD) (n : ℕ) (st : St Ideal) : Prop := Inv (xA m c) (wqA m c) (wkA m c) (wvA m c) n st

/-- The written-out step and quotient depend on the weight blocks only through their contents. -/
theorem stepSpec_congr (i : grid0.Coords) (x0 : Vec Ideal S1x2048x1024 .f32) (st : St Ideal) {x1 x1' x2 x2' x3 x3' : Vec Ideal S1024x256 .f32}
    (e1 : x1 = x1') (e2 : x2 = x2') (e3 : x3 = x3') : stepSpec i x0 x1 x2 x3 st = stepSpec i x0 x1' x2' x3' st := by
  subst e1; subst e2; subst e3; rfl
theorem outSpec_congr (i : grid0.Coords) (x0 : Vec Ideal S1x2048x1024 .f32) (st : St Ideal) {x1 x1' x2 x2' x3 x3' : Vec Ideal S1024x256 .f32}
    (e1 : x1 = x1') (e2 : x2 = x2') (e3 : x3 = x3') : outSpec i x0 x1 x2 x3 st = outSpec i x0 x1' x2' x3' st := by
  subst e1; subst e2; subst e3; rfl

/-- The slab handed to the body at point `t` is batch `t / 16` of `x`. -/
theorem slab (c : Dev nD) (t : Fin cfg0.N) (b : Fin 8) (hb : b.val = t.val / 16) (r : Fin 2048) (cc : Fin 1024) :
    (iblk m c 0 t : Vec Ideal S1x2048x1024 .f32) (ix3 (0 : Fin 1) r cc) = xA m c (ix3 b r cc) :=
  iblk0_apply m c t (ix3 (0 : Fin 1) r cc) (ix3 b r cc) hb rfl rfl

/-- The three pure facts of the value proof, from finite arguments. -/
theorem pureI (hfin : ∀ c : Dev nD, (∀ i, ∃ a : ℝ, xA m c i = (a : EReal)) ∧ (∀ i, ∃ a : ℝ, wqA m c i = (a : EReal))
      ∧ (∀ i, ∃ a : ℝ, wkA m c i = (a : EReal)) ∧ (∀ i, ∃ a : ℝ, wvA m c i = (a : EReal))) :
    Pure m (InvI m) (outBG (Garr m)) where
  inv0 := fun c st => inv_zero _ _ _ _ st
  step := fun c t st h => by
    have hN : cfg0.N = 128 := N_0
    rw [stepAt_eq m c t st, stepSpec_congr (grid0.coords t) (iblk m c 0 t) st (funext (iblk1_apply m c t)) (funext (iblk2_apply m c t)) (funext (iblk3_apply m c t))]
    exact inv_step t ⟨t.val / 16, by have := t.isLt; omega⟩ rfl (iblk m c 0 t) (slab m c t _ rfl) st h
  out := fun c t st e4 h4 h => by
    have hN : cfg0.N = 128 := N_0
    obtain ⟨hx, hwq, hwk, hwv⟩ := hfin c
    rw [outAt_eq m c t st e4 h4, outSpec_congr (grid0.coords t) (iblk m c 0 t) st (funext (iblk1_apply m c t)) (funext (iblk2_apply m c t)) (funext (iblk3_apply m c t))]
    funext j
    obtain ⟨u, r, d, rfl⟩ : ∃ (u : Fin 1) (r : Fin 512) (d : Fin 256), j = ix3 u r d := ⟨j 0, j 1, j 2, eq_ix3 j⟩
    obtain rfl : u = 0 := Subsingleton.elim _ _
    rw [inv_out hx hwq hwk hwv t ((c4_iff t).mp h4) ⟨t.val / 16, by have := t.isLt; omega⟩ rfl ⟨t.val / 4 % 4, by omega⟩ rfl
      (iblk m c 0 t) (slab m c t _ rfl) st h r d]
    exact (outBG_apply (Garr m) c t (ix3 (0 : Fin 1) r d) (ix3 ⟨t.val / 16, by have := t.isLt; omega⟩ (row ⟨t.val / 4 % 4, by omega⟩ r) d) rfl rfl rfl).symm

/-- Under the precondition (every argument entry finite) every weakly fair execution of the idealized kernel terminates with the result
    array at the attention function of the arguments, and the arguments unchanged. -/
theorem runValue (hpre : Cert.Pre_KernelIdeal m) : θ_run defs (onTc (τ := τ) (main (F := Ideal))) ⟨m, fun _ => 0, ρ⟩ (fun r => ∀ c : Dev nD,
      r.2.mem ((c.tc : Thread nD τ).loc main_v0) = Garr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  runG m ρ (InvI m) (Garr m) (pureI m (fun c => Cert.Attn.finite_of_fn _ _ _ _ (hpre c)))

end Cert.KernelIdeal.Attn

end
-- ==== Proof.RefSpec.lean ====
/-
  The reference program's result is the attention specification `Cert.Attn.G` of its four arguments.

  The program is read one operation at a time, each at an index given by its coordinates: the three projections
  and the score matrix as sums over the contracted axis, the lower-triangular mask as the condition "key position
  ≤ query position", the row maximum as a fold of `max` over the key axis, the exponentials, their row sums, the
  quotient, and the final contraction against the value projection.
-/
import proofs.«166778_j29291676958807_2_alg».proof.Proof.Spec
import proofs.«166778_j29291676958807_2_alg».proof.Proof.Gen.ReferenceIdeal.Read
import Idealize.ShloMosaic.Lib.WordArith

noncomputable section

open scoped BigOperators

namespace Cert.ReferenceIdeal.RefValue

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx Cert.Attn

/-- An activation array at the ideal values. -/
abbrev XArr : Type := (⟨S8x2048x1024, .f32⟩ : BufTy).Contents (Elt Ideal)
/-- A weight matrix at the ideal values. -/
abbrev WArr : Type := (⟨S1024x256, .f32⟩ : BufTy).Contents (Elt Ideal)

/-! ## The three projections -/

/-- The query projection at (b, t, d) is the sum over the channels. -/
theorem v0_ix3 (x0 : XArr) (x1 : WArr) (b : Fin 8) (t : Fin 2048) (d : Fin 256) :
    val_main_v0 (F := Ideal) x0 x1 (ix3 b t d) = proj x0 x1 b t d := by
  rw [val_main_v0_apply]
  refine Finset.sum_congr rfl fun c _ => ?_
  have el : lidx_main_v0 (ix3 b t d) c = ix3 b t c :=
    funext fun a => Fin.ext (by match a with | ⟨0, _⟩ => rfl | ⟨1, _⟩ => rfl | ⟨2, _⟩ => rfl)
  have er : ridx_main_v0 (ix3 b t d) c = ix2 c d :=
    funext fun a => Fin.ext (by match a with | ⟨0, _⟩ => rfl | ⟨1, _⟩ => rfl)
  rw [el, er]

/-- The key projection at (b, t, d) is the sum over the channels. -/
theorem v1_ix3 (x0 : XArr) (x2 : WArr) (b : Fin 8) (t : Fin 2048) (d : Fin 256) :
    val_main_v1 (F := Ideal) x0 x2 (ix3 b t d) = proj x0 x2 b t d := by
  rw [val_main_v1_apply]
  refine Finset.sum_congr rfl fun c _ => ?_
  have el : lidx_main_v1 (ix3 b t d) c = ix3 b t c :=
    funext fun a => Fin.ext (by match a with | ⟨0, _⟩ => rfl | ⟨1, _⟩ => rfl | ⟨2, _⟩ => rfl)
  have er : ridx_main_v1 (ix3 b t d) c = ix2 c d :=
    funext fun a => Fin.ext (by match a with | ⟨0, _⟩ => rfl | ⟨1, _⟩ => rfl)
  rw [el, er]

/-- The value projection at (b, t, d) is the sum over the channels. -/
theorem v2_ix3 (x0 : XArr) (x3 : WArr) (b : Fin 8) (t : Fin 2048) (d : Fin 256) :
    val_main_v2 (F := Ideal) x0 x3 (ix3 b t d) = proj x0 x3 b t d := by
  rw [val_main_v2_apply]
  refine Finset.sum_congr rfl fun c _ => ?_
  have el : lidx_main_v2 (ix3 b t d) c = ix3 b t c :=
    funext fun a => Fin.ext (by match a with | ⟨0, _⟩ => rfl | ⟨1, _⟩ => rfl | ⟨2, _⟩ => rfl)
  have er : ridx_main_v2 (ix3 b t d) c = ix2 c d :=
    funext fun a => Fin.ext (by match a with | ⟨0, _⟩ => rfl | ⟨1, _⟩ => rfl)
  rw [el, er]

/-! ## The scaled scores -/

/-- The score matrix at (b, q, k) is the inner product of the query row q and the key row k. -/
theorem v3_ix3 (x0 : XArr) (x1 x2 : WArr) (b : Fin 8) (q k : Fin 2048) :
    val_main_v3 (F := Ideal) x0 x1 x2 (ix3 b q k) = ∑ d : Fin 256, proj x0 x1 b q d * proj x0 x2 b k d := by
  rw [val_main_v3_apply]
  refine Finset.sum_congr rfl fun d _ => ?_
  have el : lidx_main_v3 (ix3 b q k) d = ix3 b q d :=
    funext fun a => Fin.ext (by match a with | ⟨0, _⟩ => rfl | ⟨1, _⟩ => rfl | ⟨2, _⟩ => rfl)
  have er : ridx_main_v3 (ix3 b q k) d = ix3 b k d :=
    funext fun a => Fin.ext (by match a with | ⟨0, _⟩ => rfl | ⟨1, _⟩ => rfl | ⟨2, _⟩ => rfl)
  rw [el, er, v0_ix3, v1_ix3]

/-- The scaled score at (b, q, k): the inner product times 1/32. -/
theorem v5_ix3 (x0 : XArr) (x1 x2 : WArr) (b : Fin 8) (q k : Fin 2048) :
    val_main_v5 (F := Ideal) x0 x1 x2 (ix3 b q k) = (∑ d : Fin 256, proj x0 x1 b q d * proj x0 x2 b k d) * scale := by
  rw [val_main_v5_apply, v3_ix3, val_main_v4_apply, val_main_cst_apply]
  rfl

/-! ## The causal mask -/

/-- The lower-triangular mask at (q, k) is set exactly when the key position is not after the query position:
    both positions are below 2048, so their 32-bit words compare signed as the numbers do. -/
theorem v7_ix2 (q k : Fin 2048) :
    val_main_v7 (F := Ideal) (ix2 q k) = if k.val ≤ q.val then 1#1 else 0#1 := by
  rw [val_main_v7_apply, val_main_call0_v4_apply, val_main_call0_v2_apply, val_main_call0_v0_apply,
    val_main_call0_v1_apply, val_main_call0_c_apply, val_main_call0_v3_apply, val_main_v6_apply, val_main_c_apply,
    val_main_call0_v5_apply, val_main_call0_c_0_apply]
  show Scalar.select (IntOp.cmpi .sge (IntOp.addi (BitVec.ofNat 32 q.val) 0#32) (BitVec.ofNat 32 k.val)) 1#1 0#1 = _
  have hq : (BitVec.ofNat 32 q.val).toInt = (q.val : Int) :=
    WordArith.toInt_ofNat_small _ (by have := q.isLt; omega)
  have hk : (BitVec.ofNat 32 k.val).toInt = (k.val : Int) :=
    WordArith.toInt_ofNat_small _ (by have := k.isLt; omega)
  have ha : IntOp.addi (BitVec.ofNat 32 q.val) 0#32 = BitVec.ofNat 32 q.val := BitVec.add_zero _
  rw [ha]
  by_cases h : k.val ≤ q.val
  · rw [if_pos h, IntOp.cmpi_sge.mpr (by rw [hq, hk]; exact_mod_cast h), select_one]
  · have hc : IntOp.cmpi .sge (BitVec.ofNat 32 q.val) (BitVec.ofNat 32 k.val) = 0#1 :=
      eq_zero_of_ne_one fun e => h (by have := IntOp.cmpi_sge.mp e; rw [hq, hk] at this; exact_mod_cast this)
    rw [if_neg h, hc, select_zero]

/-! ## The masked scores and their row maximum -/

/-- The masked score at (b, q, k). -/
theorem v8_ix3 (x0 : XArr) (x1 x2 : WArr) (b : Fin 8) (q k : Fin 2048) :
    val_main_v8 (F := Ideal) x0 x1 x2 (ix3 b q k) = score x0 x1 x2 b q k := by
  have ei : idx_main_call1_v1 (ix3 b q k) = ix2 q k :=
    funext fun a => Fin.ext (by match a with | ⟨0, _⟩ => rfl | ⟨1, _⟩ => rfl)
  rw [val_main_v8_apply, val_main_call1_v1_apply, ei, v7_ix2, v5_ix3, val_main_call1_v2_apply,
    val_main_call1_v0_apply, val_main_cst_0_apply]
  unfold score
  by_cases h : k.val ≤ q.val
  · rw [if_pos h, if_pos h, select_one]
  · rw [if_neg h, if_neg h, select_zero]; rfl

/-- The reduction over the key axis, in the form that names the inserted coordinate. -/
theorem hred : S8x2048x2048.Reduces [2] S8x2048 := by decide

/-- Inserting the key position k into (b, q) on the reduced axis gives (b, q, k). -/
theorem lift_ix (b : Fin 8) (q k : Fin 2048) : hred.lift (ix2 b q) k = ix3 b q k :=
  funext fun a => Fin.ext (by match a with | ⟨0, _⟩ => rfl | ⟨1, _⟩ => rfl | ⟨2, _⟩ => rfl)

/-- The maximum-reduction at (b, q): the fold of `max` from −∞ over the row's masked scores. -/
theorem v9_ix2 (x0 : XArr) (x1 x2 : WArr) (b : Fin 8) (q : Fin 2048) :
    val_main_v9 (F := Ideal) x0 x1 x2 (ix2 b q)
      = (Finset.univ : Finset (Fin 2048)).fold max negInf (fun k => score x0 x1 x2 b q k) := by
  have hy : ∀ k : Fin 2048, val_main_v8 (F := Ideal) x0 x1 x2 (ix3 b q k) = score x0 x1 x2 b q k :=
    v8_ix3 x0 x1 x2 b q
  unfold val_main_v9
  generalize val_main_v8 (F := Ideal) x0 x1 x2 = y at hy ⊢
  refine (Host.reduce_eq_fold_single (α := EReal) (s := S8x2048x2048) (t := S8x2048) (u := S_)
    (FloatOps.maximumf (F := Ideal) (φ := .f32)) y (val_main_cst_1 (F := Ideal))
    reducesTo_S8x2048x2048_S8x2048_d2 hred h_S_ (ix2 b q)).trans ?_
  have hf : (y ∘ hred.lift (ix2 b q)) = fun k : Fin 2048 => score x0 x1 x2 b q k :=
    funext fun k => (congrArg y (lift_ix b q k)).trans (hy k)
  rw [hf]
  rfl

/-- The softmax's shift at (b, q). -/
theorem v11_ix2 (x0 : XArr) (x1 x2 : WArr) (b : Fin 8) (q : Fin 2048) :
    val_main_v11 (F := Ideal) x0 x1 x2 (ix2 b q) = rowMax x0 x1 x2 b q := by
  rw [val_main_v11_apply, val_main_v10_apply, val_main_cst_2_apply, v9_ix2]
  rfl

/-- The shift broadcast along the key axis. -/
theorem v13_ix3 (x0 : XArr) (x1 x2 : WArr) (b : Fin 8) (q k : Fin 2048) :
    val_main_v13 (F := Ideal) x0 x1 x2 (ix3 b q k) = rowMax x0 x1 x2 b q := by
  have ei : idx_main_v12 (idx_main_v13 (ix3 b q k)) = ix2 b q :=
    funext fun a => Fin.ext (by match a with | ⟨0, _⟩ => rfl | ⟨1, _⟩ => rfl)
  rw [val_main_v13_apply, val_main_v12_apply, ei, v11_ix2]

/-! ## The exponentials, their row sums and the softmax weights -/

/-- The shifted exponential at (b, q, k). -/
theorem v15_ix3 (x0 : XArr) (x1 x2 : WArr) (b : Fin 8) (q k : Fin 2048) :
    val_main_v15 (F := Ideal) x0 x1 x2 (ix3 b q k) = expo x0 x1 x2 b q k := by
  rw [val_main_v15_apply, val_main_v14_apply, v8_ix3, v13_ix3]
  rfl

/-- The softmax's denominator at (b, q). -/
theorem v16_ix2 (x0 : XArr) (x1 x2 : WArr) (b : Fin 8) (q : Fin 2048) :
    val_main_v16 (F := Ideal) x0 x1 x2 (ix2 b q) = denom x0 x1 x2 b q := by
  rw [val_main_v16_apply, val_main_cst_3_apply]
  unfold denom
  refine congrArg (_ + ·) (Finset.sum_congr rfl fun k _ => ?_)
  have ei : idx_main_v16 (ix2 b q) k = ix3 b q k :=
    funext fun a => Fin.ext (by match a with | ⟨0, _⟩ => rfl | ⟨1, _⟩ => rfl | ⟨2, _⟩ => rfl)
  rw [ei, v15_ix3]

/-- The denominator broadcast along the key axis. -/
theorem v18_ix3 (x0 : XArr) (x1 x2 : WArr) (b : Fin 8) (q k : Fin 2048) :
    val_main_v18 (F := Ideal) x0 x1 x2 (ix3 b q k) = denom x0 x1 x2 b q := by
  have ei : idx_main_v17 (idx_main_v18 (ix3 b q k)) = ix2 b q :=
    funext fun a => Fin.ext (by match a with | ⟨0, _⟩ => rfl | ⟨1, _⟩ => rfl)
  rw [val_main_v18_apply, val_main_v17_apply, ei, v16_ix2]

/-- The softmax weight at (b, q, k). -/
theorem v19_ix3 (x0 : XArr) (x1 x2 : WArr) (b : Fin 8) (q k : Fin 2048) :
    val_main_v19 (F := Ideal) x0 x1 x2 (ix3 b q k) = Ideal.div (expo x0 x1 x2 b q k) (denom x0 x1 x2 b q) := by
  rw [val_main_v19_apply, v15_ix3, v18_ix3]
  rfl

/-! ## The result -/

/-- The reference program's result is the attention specification of its four arguments. -/
theorem result_eq (x0 : (⟨S8x2048x1024, .f32⟩ : BufTy).Contents (Elt Ideal))
    (x1 x2 x3 : (⟨S1024x256, .f32⟩ : BufTy).Contents (Elt Ideal)) :
    Cert.ReferenceIdeal.Read.val_main_v20 (F := Ideal) x0 x1 x2 x3 = Cert.Attn.G x0 x1 x2 x3 := by
  funext i
  obtain ⟨b, q, d, rfl⟩ : ∃ (b : Fin 8) (q : Fin 2048) (d : Fin 256), i = ix3 b q d := ⟨i 0, i 1, i 2, eq_ix3 i⟩
  rw [val_main_v20_apply, G_ix3]
  refine Finset.sum_congr rfl fun k _ => ?_
  have el : lidx_main_v20 (ix3 b q d) k = ix3 b q k :=
    funext fun a => Fin.ext (by match a with | ⟨0, _⟩ => rfl | ⟨1, _⟩ => rfl | ⟨2, _⟩ => rfl)
  have er : ridx_main_v20 (ix3 b q d) k = ix3 b k d :=
    funext fun a => Fin.ext (by match a with | ⟨0, _⟩ => rfl | ⟨1, _⟩ => rfl | ⟨2, _⟩ => rfl)
  rw [el, er, v19_ix3, v2_ix3]

end Cert.ReferenceIdeal.RefValue

end
-- ==== Proof.lean ====
/- The proof of `Cert.Claim`: causal self-attention computed tile by tile — per batch the K and V projections cached tile by tile
   during the first query tile's pass, per query tile the scaled Q projection, and over the key tiles not in the future a running row
   maximum, a running denominator and a running numerator (the online form of softmax), the quotient stored at the last key tile —
   against the reference's whole-row softmax of the masked scaled scores.
   At the ideal instance the two are one function of finite arguments: rescaling a partial sum by `exp (m_old - m_new)` turns
   `exp (s - m_old)` into `exp (s - m_new)`; the masked entries are `⊥` on both sides and contribute `exp ⊥ = 0`; the key tiles in a
   query tile's future are wholly masked, so skipping them changes neither sum; folding the scale `1/32` into the query tile commutes
   with the inner product on reals; and the quotient of the two running sums is the softmax-weighted sum of the value rows.
   The frames: each program runs every grid point's body in one of eight combinations of its four branches, the scratch buffers
   passing from point to point; the reference is host operations only. -/
import proofs.«166778_j29291676958807_2_alg».proof.Defs
import proofs.«166778_j29291676958807_2_alg».proof.Proof.Gen.Kernel
import proofs.«166778_j29291676958807_2_alg».proof.Proof.Gen.KernelIdeal
import proofs.«166778_j29291676958807_2_alg».proof.Proof.Gen.ReferenceIdeal
import proofs.«166778_j29291676958807_2_alg».proof.Proof.Gen.ReferenceIdeal.Run
import proofs.«166778_j29291676958807_2_alg».proof.Proof.Gen.ReferenceIdeal.Read
import proofs.«166778_j29291676958807_2_alg».proof.Proof.Gen.Pre_finite_inputs
import proofs.«166778_j29291676958807_2_alg».proof.Proof.K.Frame
import proofs.«166778_j29291676958807_2_alg».proof.Proof.KI.Value
import proofs.«166778_j29291676958807_2_alg».proof.Proof.RefSpec
import Idealize.ShloMosaic.Adequacy
import Idealize.ShloMosaic.Init

noncomputable section

namespace Cert.Proof

open Idealize.ShloMosaic Idealize.SL.Sem

/-- The word-level kernel runs, faults nowhere, and leaves its arguments unchanged. -/
theorem frame_p : Cert.frame_Kernel := fun m ρ _ => Cert.Kernel.Attn.frame (F := Bits) m ρ

/-- The idealized kernel's frame is its value run with the result dropped. -/
theorem frame_pi : Cert.frame_KernelIdeal := fun m ρ hpre =>
  (θ_run Cert.KernelIdeal.defs _ _).mono (fun _ h c => (h c).2) (Cert.KernelIdeal.Attn.runValue m ρ hpre)

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The one rewrite of the idealization: the mask fill, a finite stand-in in the printed kernel, is `⊥`. -/
theorem preserves : Cert.preserves_Kernel_KernelIdeal :=
  IdealRules.named_const.statement Cert.KernelIdeal.κ "neg_big" .f32 0xFF333332#32 ⊥ rfl

/-- At the ideal instance both programs end with the result array at the attention function `G` of the arguments: the kernel by
    its tracked run and the online-softmax identity, the reference by reading its operations one at a time. -/
theorem algebraic : Cert.algebraic_KernelIdeal_ReferenceIdeal := by
  intro m ρ m' ρ' hpre hagree
  refine ⟨fun c => Cert.KernelIdeal.Attn.Garr m c, Cert.KernelIdeal.Attn.runValue m ρ hpre, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v20_eq, Cert.ReferenceIdeal.RefValue.result_eq,
    (hagree c).1, (hagree c).2.1, (hagree c).2.2.1, (hagree c).2.2.2]
  rfl

theorem claim : Cert.Claim := ⟨Cert.Kernel.Gen.facts, Cert.KernelIdeal.Gen.facts, Cert.ReferenceIdeal.Gen.facts, Cert.Pre_finite_inputs.Gen.facts,
  frame_p, frame_pi, frame_ri, preserves, algebraic⟩

end Cert.Proof

end
